-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v9_1)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v7)) (v4 : (c : Dev Cert.KernelIdeal.nD) → Buf (Elt Ideal) ((c.tc : Thread Cert.KernelIdeal.nD Cert.KernelIdeal.τ).loc Cert.KernelIdeal.main_v8)) (v5 : (c : Dev Cert.KernelIdeal.nD) → Buf (Elt Ideal) ((c.tc : Thread Cert.KernelIdeal.nD Cert.KernelIdeal.τ).loc Cert.KernelIdeal.main_v9_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_1) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_v8) = v4 c
          ∧ r.2.mem ((c.tc : Thread Cert.KernelIdeal.nD Cert.KernelIdeal.τ).loc Cert.KernelIdeal.main_v9_0) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_v10) = v2 c
          ∧ r.2.mem ((c.tc : Thread Cert.ReferenceIdeal.nD Cert.ReferenceIdeal.τ).loc Cert.ReferenceIdeal.main_v16) = v3 c
          ∧ r.2.mem ((c.tc : Thread Cert.ReferenceIdeal.nD Cert.ReferenceIdeal.τ).loc Cert.ReferenceIdeal.main_v22) = v4 c
          ∧ r.2.mem ((c.tc : Thread Cert.ReferenceIdeal.nD Cert.ReferenceIdeal.τ).loc Cert.ReferenceIdeal.main_v28) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_arg11 : FVec F S40 .f32) (main_v48 : IVec S_ 1) (main_v49 : FVec F S64x40 .f32) (main_v50 : FVec F S64x40 .f32) : IVec S_ 1 :=
  let main_v51 : IVec S64x40 1 := cmpf .olt main_v49 main_v50
  let main_c_19 : IVec S_ 1 := constantI S_ 1 1#1
  let main_v52 : IVec S_ 1 := (fun x v => Host.reduce IntOp.andi x v reducesTo_S64x40_S_d0_1 h_S_) main_v51 main_c_19
  let main_v53 : IVec S_ 1 := andi main_v48 main_v52
  let main_v54 : FVec F S40 .f32 := Host.absf main_arg11
  let main_cst_20 : FVec F S_ .f32 := constant S_ .f32 0x7F800000#32
  let main_v55 : FVec F S40 .f32 := broadcastInDim S40 ![] bcast_S_S40 main_cst_20
  let main_v56 : IVec S40 1 := cmpf .olt main_v54 main_v55
  let main_c_21 : IVec S_ 1 := constantI S_ 1 1#1
  let main_v57 : IVec S_ 1 := (fun x v => Host.reduce IntOp.andi x v reducesTo_S40_S_d0 h_S_) main_v56 main_c_21
  let main_v58 : IVec S_ 1 := andi main_v53 main_v57
  main_v58

def fn_part2 {F : FTy → Type} [FloatOps F] (main_arg7 : FVec F S64 .f32) (main_arg8 : FVec F S64x64 .f32) (main_arg9 : FVec F S64 .f32) (main_arg10 : FVec F S64x40 .f32) (main_arg11 : FVec F S40 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x40 .f32 := Host.absf main_arg10
  let main_cst_18 : FVec F S_ .f32 := constant S_ .f32 0x7F800000#32
  let main_v50 : FVec F S64x40 .f32 := broadcastInDim S64x40 ![] bcast_S_S64x40 main_cst_18
  fn_part3 (F := F) main_arg11 main_v48 main_v49 main_v50

def fn_part1 {F : FTy → Type} [FloatOps F] (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x40 .f32) (main_arg11 : FVec F S40 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S10000x128 .f32) (main_arg1 : FVec F S10000x10000 .f32) (main_arg2 : FVec F S128x64 .f32) (main_arg3 : FVec F S64 .f32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x40 .f32) (main_arg11 : FVec F S40 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_v13 main_v16
-- ==== Kernel.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S1x64 : Shape := ⟨2, ![1, 64]⟩
abbrev S1x40 : Shape := ⟨2, ![1, 40]⟩
abbrev S10000x64 : Shape := ⟨2, ![10000, 64]⟩
abbrev S400x10000 : Shape := ⟨2, ![400, 10000]⟩
abbrev S400x64 : Shape := ⟨2, ![400, 64]⟩
abbrev S10000x40 : Shape := ⟨2, ![10000, 40]⟩
abbrev S400x40 : Shape := ⟨2, ![400, 40]⟩
abbrev S400 : Shape := ⟨1, ![400]⟩
abbrev S400x1 : Shape := ⟨2, ![400, 1]⟩

abbrev nBuf : Space → Nat
  | .hbm => 23
  | .vmem => 42
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x40, .f32⟩
  | .hbm, ⟨11, _⟩ => ⟨S40, .f32⟩
  | .hbm, ⟨12, _⟩ => ⟨S1x64, .f32⟩
  | .hbm, ⟨13, _⟩ => ⟨S1x64, .f32⟩
  | .hbm, ⟨14, _⟩ => ⟨S1x64, .f32⟩
  | .hbm, ⟨15, _⟩ => ⟨S1x64, .f32⟩
  | .hbm, ⟨16, _⟩ => ⟨S1x40, .f32⟩
  | .hbm, ⟨17, _⟩ => ⟨S10000x64, .f32⟩
  | .hbm, ⟨18, _⟩ => ⟨S10000x64, .f32⟩
  | .hbm, ⟨19, _⟩ => ⟨S10000x64, .f32⟩
  | .hbm, ⟨20, _⟩ => ⟨S10000x64, .f32⟩
  | .hbm, ⟨21, _⟩ => ⟨S10000x40, .f32⟩
  | .hbm, ⟨22, _⟩ => ⟨S10000x40, .f32⟩
  | .local _ .vmem, ⟨0, _⟩ => ⟨S10000x128, .f32⟩
  | .local _ .vmem, ⟨1, _⟩ => ⟨S128x64, .f32⟩
  | .local _ .vmem, ⟨2, _⟩ => ⟨S1x64, .f32⟩
  | .local _ .vmem, ⟨3, _⟩ => ⟨S400x10000, .f32⟩
  | .local _ .vmem, ⟨4, _⟩ => ⟨S400x10000, .f32⟩
  | .local _ .vmem, ⟨5, _⟩ => ⟨S400x64, .f32⟩
  | .local _ .vmem, ⟨6, _⟩ => ⟨S400x64, .f32⟩
  | .local _ .vmem, ⟨7, _⟩ => ⟨S10000x64, .f32⟩
  | .local _ .vmem, ⟨8, _⟩ => ⟨S10000x64, .f32⟩
  | .local _ .vmem, ⟨9, _⟩ => ⟨S64x64, .f32⟩
  | .local _ .vmem, ⟨10, _⟩ => ⟨S1x64, .f32⟩
  | .local _ .vmem, ⟨11, _⟩ => ⟨S400x10000, .f32⟩
  | .local _ .vmem, ⟨12, _⟩ => ⟨S400x10000, .f32⟩
  | .local _ .vmem, ⟨13, _⟩ => ⟨S400x64, .f32⟩
  | .local _ .vmem, ⟨14, _⟩ => ⟨S400x64, .f32⟩
  | .local _ .vmem, ⟨15, _⟩ => ⟨S10000x64, .f32⟩
  | .local _ .vmem, ⟨16, _⟩ => ⟨S10000x64, .f32⟩
  | .local _ .vmem, ⟨17, _⟩ => ⟨S64x64, .f32⟩
  | .local _ .vmem, ⟨18, _⟩ => ⟨S1x64, .f32⟩
  | .local _ .vmem, ⟨19, _⟩ => ⟨S400x10000, .f32⟩
  | .local _ .vmem, ⟨20, _⟩ => ⟨S400x10000, .f32⟩
  | .local _ .vmem, ⟨21, _⟩ => ⟨S400x64, .f32⟩
  | .local _ .vmem, ⟨22, _⟩ => ⟨S400x64, .f32⟩
  | .local _ .vmem, ⟨23, _⟩ => ⟨S10000x64, .f32⟩
  | .local _ .vmem, ⟨24, _⟩ => ⟨S10000x64, .f32⟩
  | .local _ .vmem, ⟨25, _⟩ => ⟨S64x64, .f32⟩
  | .local _ .vmem, ⟨26, _⟩ => ⟨S1x64, .f32⟩
  | .local _ .vmem, ⟨27, _⟩ => ⟨S400x10000, .f32⟩
  | .local _ .vmem, ⟨28, _⟩ => ⟨S400x10000, .f32⟩
  | .local _ .vmem, ⟨29, _⟩ => ⟨S400x64, .f32⟩
  | .local _ .vmem, ⟨30, _⟩ => ⟨S400x64, .f32⟩
  | .local _ .vmem, ⟨31, _⟩ => ⟨S10000x64, .f32⟩
  | .local _ .vmem, ⟨32, _⟩ => ⟨S10000x64, .f32⟩
  | .local _ .vmem, ⟨33, _⟩ => ⟨S64x40, .f32⟩
  | .local _ .vmem, ⟨34, _⟩ => ⟨S1x40, .f32⟩
  | .local _ .vmem, ⟨35, _⟩ => ⟨S400x10000, .f32⟩
  | .local _ .vmem, ⟨36, _⟩ => ⟨S400x10000, .f32⟩
  | .local _ .vmem, ⟨37, _⟩ => ⟨S400x40, .f32⟩
  | .local _ .vmem, ⟨38, _⟩ => ⟨S400x40, .f32⟩
  | .local _ .vmem, ⟨39, _⟩ => ⟨S400x40, .f32⟩
  | .local _ .vmem, ⟨40, _⟩ => ⟨S400x40, .f32⟩
  | .local _ .vmem, ⟨41, _⟩ => ⟨S10000x40, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9_0 : Ref sig .tc := ⟨.hbm, 21, rfl⟩
abbrev main_v9_1 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc2_stg4_0 : Ref sig .tc := ⟨.vmem, 21, rfl⟩
abbrev cc2_stg4_1 : Ref sig .tc := ⟨.vmem, 22, rfl⟩
abbrev cc2_scratch0 : Ref sig .tc := ⟨.vmem, 23, rfl⟩
abbrev cc3_stg0_0 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg3_1 : Ref sig .tc := ⟨.vmem, 28, rfl⟩
abbrev cc3_stg4_0 : Ref sig .tc := ⟨.vmem, 29, rfl⟩
abbrev cc3_stg4_1 : Ref sig .tc := ⟨.vmem, 30, rfl⟩
abbrev cc3_scratch0 : Ref sig .tc := ⟨.vmem, 31, rfl⟩
abbrev cc4_stg0_0 : Ref sig .tc := ⟨.vmem, 32, rfl⟩
abbrev cc4_stg1_0 : Ref sig .tc := ⟨.vmem, 33, rfl⟩
abbrev cc4_stg2_0 : Ref sig .tc := ⟨.vmem, 34, rfl⟩
abbrev cc4_stg3_0 : Ref sig .tc := ⟨.vmem, 35, rfl⟩
abbrev cc4_stg3_1 : Ref sig .tc := ⟨.vmem, 36, rfl⟩
abbrev cc4_stg4_0 : Ref sig .tc := ⟨.vmem, 37, rfl⟩
abbrev cc4_stg4_1 : Ref sig .tc := ⟨.vmem, 38, rfl⟩
abbrev cc4_stg5_0 : Ref sig .tc := ⟨.vmem, 39, rfl⟩
abbrev cc4_stg5_1 : Ref sig .tc := ⟨.vmem, 40, rfl⟩
abbrev cc4_scratch0 : Ref sig .tc := ⟨.vmem, 41, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc1_sem0_0 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc2_sem0_0 : DmaSem sig := 14
abbrev cc2_sem1_0 : DmaSem sig := 15
abbrev cc2_sem2_0 : DmaSem sig := 16
abbrev cc2_sem3_0 : DmaSem sig := 17
abbrev cc2_sem3_1 : DmaSem sig := 18
abbrev cc2_sem4_0 : DmaSem sig := 19
abbrev cc2_sem4_1 : DmaSem sig := 20
abbrev cc3_sem0_0 : DmaSem sig := 21
abbrev cc3_sem1_0 : DmaSem sig := 22
abbrev cc3_sem2_0 : DmaSem sig := 23
abbrev cc3_sem3_0 : DmaSem sig := 24
abbrev cc3_sem3_1 : DmaSem sig := 25
abbrev cc3_sem4_0 : DmaSem sig := 26
abbrev cc3_sem4_1 : DmaSem sig := 27
abbrev cc4_sem0_0 : DmaSem sig := 28
abbrev cc4_sem1_0 : DmaSem sig := 29
abbrev cc4_sem2_0 : DmaSem sig := 30
abbrev cc4_sem3_0 : DmaSem sig := 31
abbrev cc4_sem3_1 : DmaSem sig := 32
abbrev cc4_sem4_0 : DmaSem sig := 33
abbrev cc4_sem4_1 : DmaSem sig := 34
abbrev cc4_sem5_0 : DmaSem sig := 35
abbrev cc4_sem5_1 : DmaSem sig := 36

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S10000x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S400x10000 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S400x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S10000x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S400x10000 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S400x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S10000x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S400x10000 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S400x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 1 → Memref sig .tc .vmem S10000x64 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S64x40 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x40 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S400x10000 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S400x40 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S400x40 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  shapeCasts_S64_S1x64 : S64.ShapeCasts S1x64
  shapeCasts_S40_S1x40 : S40.ShapeCasts S1x40
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S400x10000_S400x10000_0_0 : ∀ a, (![0, 0] : Fin 2 → Nat) a + S400x10000.size a ≤ S400x10000.size a
  h_S400x10000 : 0 < S400x10000.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  inb_S400x64_S400x64_0_0 : ∀ a, (![0, 0] : Fin 2 → Nat) a + S400x64.size a ≤ S400x64.size a
  h_S400x64 : 0 < S400x64.numel
  inb_S64x64_S64x64_0_0 : ∀ a, (![0, 0] : Fin 2 → Nat) a + S64x64.size a ≤ S64x64.size a
  h_S64x64 : 0 < S64x64.numel
  inb_S64x40_S64x40_0_0 : ∀ a, (![0, 0] : Fin 2 → Nat) a + S64x40.size a ≤ S64x40.size a
  h_S64x40 : 0 < S64x40.numel
  inb_S10000x40_S10000x40_0_0 : ∀ a, (![0, 0] : Fin 2 → Nat) a + S10000x40.size a ≤ S10000x40.size a
  h_S10000x40 : 0 < S10000x40.numel
  shapeCasts_S10000x40_S10000x40 : S10000x40.ShapeCasts S10000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S400x40 : S1x40.Broadcasts S400x40
  inb_S400x40_S400x40_0_0 : ∀ a, (![0, 0] : Fin 2 → Nat) a + S400x40.size a ≤ S400x40.size a
  h_S400x40 : 0 < S400x40.numel
  reduces_S400x40_S400 : S400x40.Reduces [1] S400
  shapeCasts_S400_S400x1 : S400.ShapeCasts S400x1
  broadcasts_S400x1_S400x40 : S400x1.Broadcasts S400x40
  dot_S10000x128_S128x64_S10000x64_1_0_0_1_n_n_wf : DotDims.WF S10000x128 S128x64 S10000x64 [1] [0] [0] [1] [] []
  dot_S400x10000_S10000x64_S400x64_1_0_0_1_n_n_wf : DotDims.WF S400x10000 S10000x64 S400x64 [1] [0] [0] [1] [] []
  dot_S10000x64_S64x64_S10000x64_1_0_0_1_n_n_wf : DotDims.WF S10000x64 S64x64 S10000x64 [1] [0] [0] [1] [] []
  dot_S10000x64_S64x40_S10000x40_1_0_0_1_n_n_wf : DotDims.WF S10000x64 S64x40 S10000x40 [1] [0] [0] [1] [] []
  dot_S400x10000_S10000x40_S400x40_1_0_0_1_n_n_wf : DotDims.WF S400x10000 S10000x40 S400x40 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x10000.size a ≤ S10000x10000.size a
  hwx0_3 : ∀ i : grid0.Coords, EltTy.bits .f32 = 32 ∨ (Rect.block (s := S10000x10000) S400x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x64.size a ≤ S10000x64.size a
  hwx0_4 : ∀ i : grid0.Coords, EltTy.bits .f32 = 32 ∨ (Rect.block (s := S10000x64) S400x64.size (cc0_transform_4 i) (hinb0_4 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S10000x64.size a
  hwx1_0 : ∀ i : grid1.Coords, EltTy.bits .f32 = 32 ∨ (Rect.block (s := S10000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x10000.size a ≤ S10000x10000.size a
  hwx1_3 : ∀ i : grid1.Coords, EltTy.bits .f32 = 32 ∨ (Rect.block (s := S10000x10000) S400x10000.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x64.size a ≤ S10000x64.size a
  hwx1_4 : ∀ i : grid1.Coords, EltTy.bits .f32 = 32 ∨ (Rect.block (s := S10000x64) S400x64.size (cc1_transform_4 i) (hinb1_4 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S10000x64.size a
  hwx2_0 : ∀ i : grid2.Coords, EltTy.bits .f32 = 32 ∨ (Rect.block (s := S10000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x10000.size a ≤ S10000x10000.size a
  hwx2_3 : ∀ i : grid2.Coords, EltTy.bits .f32 = 32 ∨ (Rect.block (s := S10000x10000) S400x10000.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S400x64.size a ≤ S10000x64.size a
  hwx2_4 : ∀ i : grid2.Coords, EltTy.bits .f32 = 32 ∨ (Rect.block (s := S10000x64) S400x64.size (cc2_transform_4 i) (hinb2_4 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S10000x64.size a
  hwx3_0 : ∀ i : grid3.Coords, EltTy.bits .f32 = 32 ∨ (Rect.block (s := S10000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S400x10000.size a ≤ S10000x10000.size a
  hwx3_3 : ∀ i : grid3.Coords, EltTy.bits .f32 = 32 ∨ (Rect.block (s := S10000x10000) S400x10000.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S400x64.size a ≤ S10000x64.size a
  hwx3_4 : ∀ i : grid3.Coords, EltTy.bits .f32 = 32 ∨ (Rect.block (s := S10000x64) S400x64.size (cc3_transform_4 i) (hinb3_4 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S10000x64.size a
  hwx4_0 : ∀ i : grid4.Coords, EltTy.bits .f32 = 32 ∨ (Rect.block (s := S10000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x40.size a ≤ S64x40.size a
  hwx4_1 : ∀ i : grid4.Coords, EltTy.bits .f32 = 32 ∨ (Rect.block (s := S64x40) S64x40.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x40.size a ≤ S1x40.size a
  hwx4_2 : ∀ i : grid4.Coords, EltTy.bits .f32 = 32 ∨ (Rect.block (s := S1x40) S1x40.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S400x10000.size a ≤ S10000x10000.size a
  hwx4_3 : ∀ i : grid4.Coords, EltTy.bits .f32 = 32 ∨ (Rect.block (s := S10000x10000) S400x10000.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S400x40.size a ≤ S10000x40.size a
  hwx4_4 : ∀ i : grid4.Coords, EltTy.bits .f32 = 32 ∨ (Rect.block (s := S10000x40) S400x40.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S400x40.size a ≤ S10000x40.size a
  hwx4_5 : ∀ i : grid4.Coords, EltTy.bits .f32 = 32 ∨ (Rect.block (s := S10000x40) S400x40.size (cc4_transform_5 i) (hinb4_5 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x40_S10000x40_1_0_0_1_n_n : DotDims S10000x64 S64x40 S10000x40 where
  lhsContracting := [1]
  rhsContracting := [0]
  lhsNonContracting := [0]
  rhsNonContracting := [1]
  lhsBatch := []
  rhsBatch := []
  wf := dot_S10000x64_S64x40_S10000x40_1_0_0_1_n_n_wf
def dot_S400x10000_S10000x40_S400x40_1_0_0_1_n_n : DotDims S400x10000 S10000x40 S400x40 where
  lhsContracting := [1]
  rhsContracting := [0]
  lhsNonContracting := [0]
  rhsNonContracting := [1]
  lhsBatch := []
  rhsBatch := []
  wf := dot_S400x10000_S10000x40_S400x40_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S400x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S400x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v5) S10000x64.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S400x10000.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v6) S400x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v6) S10000x64.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg1) S400x10000.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v7) S400x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v7) S10000x64.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v3) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg1) S400x10000.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v8) S400x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v8) S10000x64.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S64x40.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v4) S1x40.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg1) S400x10000.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v9_0) S400x40.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v9_1) S400x40.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S10000x64 : Shape := ⟨2, ![10000, 64]⟩
abbrev S1x64 : Shape := ⟨2, ![1, 64]⟩
abbrev S_ : Shape := ⟨0, ![]⟩
abbrev S10000x40 : Shape := ⟨2, ![10000, 40]⟩
abbrev S1x40 : Shape := ⟨2, ![1, 40]⟩
abbrev S10000 : Shape := ⟨1, ![10000]⟩
abbrev S10000x1 : Shape := ⟨2, ![10000, 1]⟩

abbrev nBuf : Space → Nat
  | .hbm => 64
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x40, .f32⟩
  | .hbm, ⟨11, _⟩ => ⟨S40, .f32⟩
  | .hbm, ⟨12, _⟩ => ⟨S10000x64, .f32⟩
  | .hbm, ⟨13, _⟩ => ⟨S10000x64, .f32⟩
  | .hbm, ⟨14, _⟩ => ⟨S1x64, .f32⟩
  | .hbm, ⟨15, _⟩ => ⟨S10000x64, .f32⟩
  | .hbm, ⟨16, _⟩ => ⟨S10000x64, .f32⟩
  | .hbm, ⟨17, _⟩ => ⟨S_, .f32⟩
  | .hbm, ⟨18, _⟩ => ⟨S10000x64, .f32⟩
  | .hbm, ⟨19, _⟩ => ⟨S10000x64, .f32⟩
  | .hbm, ⟨20, _⟩ => ⟨S10000x64, .f32⟩
  | .hbm, ⟨21, _⟩ => ⟨S10000x64, .f32⟩
  | .hbm, ⟨22, _⟩ => ⟨S1x64, .f32⟩
  | .hbm, ⟨23, _⟩ => ⟨S10000x64, .f32⟩
  | .hbm, ⟨24, _⟩ => ⟨S10000x64, .f32⟩
  | .hbm, ⟨25, _⟩ => ⟨S_, .f32⟩
  | .hbm, ⟨26, _⟩ => ⟨S10000x64, .f32⟩
  | .hbm, ⟨27, _⟩ => ⟨S10000x64, .f32⟩
  | .hbm, ⟨28, _⟩ => ⟨S10000x64, .f32⟩
  | .hbm, ⟨29, _⟩ => ⟨S10000x64, .f32⟩
  | .hbm, ⟨30, _⟩ => ⟨S1x64, .f32⟩
  | .hbm, ⟨31, _⟩ => ⟨S10000x64, .f32⟩
  | .hbm, ⟨32, _⟩ => ⟨S10000x64, .f32⟩
  | .hbm, ⟨33, _⟩ => ⟨S_, .f32⟩
  | .hbm, ⟨34, _⟩ => ⟨S10000x64, .f32⟩
  | .hbm, ⟨35, _⟩ => ⟨S10000x64, .f32⟩
  | .hbm, ⟨36, _⟩ => ⟨S10000x64, .f32⟩
  | .hbm, ⟨37, _⟩ => ⟨S10000x64, .f32⟩
  | .hbm, ⟨38, _⟩ => ⟨S1x64, .f32⟩
  | .hbm, ⟨39, _⟩ => ⟨S10000x64, .f32⟩
  | .hbm, ⟨40, _⟩ => ⟨S10000x64, .f32⟩
  | .hbm, ⟨41, _⟩ => ⟨S_, .f32⟩
  | .hbm, ⟨42, _⟩ => ⟨S10000x64, .f32⟩
  | .hbm, ⟨43, _⟩ => ⟨S10000x64, .f32⟩
  | .hbm, ⟨44, _⟩ => ⟨S10000x40, .f32⟩
  | .hbm, ⟨45, _⟩ => ⟨S10000x40, .f32⟩
  | .hbm, ⟨46, _⟩ => ⟨S1x40, .f32⟩
  | .hbm, ⟨47, _⟩ => ⟨S10000x40, .f32⟩
  | .hbm, ⟨48, _⟩ => ⟨S10000x40, .f32⟩
  | .hbm, ⟨49, _⟩ => ⟨S_, .f32⟩
  | .hbm, ⟨50, _⟩ => ⟨S10000, .f32⟩
  | .hbm, ⟨51, _⟩ => ⟨S_, .f32⟩
  | .hbm, ⟨52, _⟩ => ⟨S10000, .f32⟩
  | .hbm, ⟨53, _⟩ => ⟨S10000, .f32⟩
  | .hbm, ⟨54, _⟩ => ⟨S10000x1, .f32⟩
  | .hbm, ⟨55, _⟩ => ⟨S10000x40, .f32⟩
  | .hbm, ⟨56, _⟩ => ⟨S10000x40, .f32⟩
  | .hbm, ⟨57, _⟩ => ⟨S10000x40, .f32⟩
  | .hbm, ⟨58, _⟩ => ⟨S_, .f32⟩
  | .hbm, ⟨59, _⟩ => ⟨S10000, .f32⟩
  | .hbm, ⟨60, _⟩ => ⟨S10000x1, .f32⟩
  | .hbm, ⟨61, _⟩ => ⟨S10000x1, .f32⟩
  | .hbm, ⟨62, _⟩ => ⟨S10000x40, .f32⟩
  | .hbm, ⟨63, _⟩ => ⟨S10000x40, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call0_cst : Ref sig .tc := ⟨.hbm, 17, rfl⟩
abbrev main_call0_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_call1_cst : Ref sig .tc := ⟨.hbm, 25, rfl⟩
abbrev main_call1_v0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_call2_cst : Ref sig .tc := ⟨.hbm, 33, rfl⟩
abbrev main_call2_v0 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_call3_cst : Ref sig .tc := ⟨.hbm, 41, rfl⟩
abbrev main_call3_v0 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_call4_cst : Ref sig .tc := ⟨.hbm, 49, rfl⟩
abbrev main_call4_v0 : Ref sig .tc := ⟨.hbm, 50, rfl⟩
abbrev main_call4_cst_0 : Ref sig .tc := ⟨.hbm, 51, rfl⟩
abbrev main_call4_v1 : Ref sig .tc := ⟨.hbm, 52, rfl⟩
abbrev main_call4_v2 : Ref sig .tc := ⟨.hbm, 53, rfl⟩
abbrev main_call4_v3 : Ref sig .tc := ⟨.hbm, 54, rfl⟩
abbrev main_call4_v4 : Ref sig .tc := ⟨.hbm, 55, rfl⟩
abbrev main_call4_v5 : Ref sig .tc := ⟨.hbm, 56, rfl⟩
abbrev main_call4_v6 : Ref sig .tc := ⟨.hbm, 57, rfl⟩
abbrev main_call4_cst_1 : Ref sig .tc := ⟨.hbm, 58, rfl⟩
abbrev main_call4_v7 : Ref sig .tc := ⟨.hbm, 59, rfl⟩
abbrev main_call4_v8 : Ref sig .tc := ⟨.hbm, 60, rfl⟩
abbrev main_call4_v9 : Ref sig .tc := ⟨.hbm, 61, rfl⟩
abbrev main_call4_v10 : Ref sig .tc := ⟨.hbm, 62, rfl⟩
abbrev main_v29 : Ref sig .tc := ⟨.hbm, 63, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  bcast_S40_S1x40_1 : S40.BroadcastsInDim S1x40 (![1] : Fin 1 → Fin S1x40.rank)
  bcast_S1x40_S10000x40_0_1 : S1x40.BroadcastsInDim S10000x40 (![0, 1] : Fin 2 → Fin S10000x40.rank)
  reducesTo_S10000x40_S10000_d1 : S10000x40.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x40_0_1 : S10000x1.BroadcastsInDim S10000x40 (![0, 1] : Fin 2 → Fin S10000x40.rank)
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x64_S10000x64_1_0_0_1_n_n_wf : DotDims.WF S10000x64 S64x64 S10000x64 [1] [0] [0] [1] [] []
  dot_S10000x64_S64x40_S10000x40_1_0_0_1_n_n_wf : DotDims.WF S10000x64 S64x40 S10000x40 [1] [0] [0] [1] [] []
  dot_S10000x10000_S10000x40_S10000x40_1_0_0_1_n_n_wf : DotDims.WF S10000x10000 S10000x40 S10000x40 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x40_S10000x40_1_0_0_1_n_n : DotDims S10000x64 S64x40 S10000x40 where
  lhsContracting := [1]
  rhsContracting := [0]
  lhsNonContracting := [0]
  rhsNonContracting := [1]
  lhsBatch := []
  rhsBatch := []
  wf := dot_S10000x64_S64x40_S10000x40_1_0_0_1_n_n_wf
def dot_S10000x10000_S10000x40_S10000x40_1_0_0_1_n_n : DotDims S10000x10000 S10000x40 S10000x40 where
  lhsContracting := [1]
  rhsContracting := [0]
  lhsNonContracting := [0]
  rhsNonContracting := [1]
  lhsBatch := []
  rhsBatch := []
  wf := dot_S10000x10000_S10000x40_S10000x40_1_0_0_1_n_n_wf

class Facts : Prop extends Facts₀ where

variable [Facts]
-- ==== Proof.KnRun0A.lean ====
import proofs.«133978_g44306882625591_cont_8to1_c_1075_2_alg».proof.Proof.Gen.Kernel.Launch
import proofs.«133978_g44306882625591_cont_8to1_c_1075_2_alg».proof.Proof.Gen.Kernel.Skeleton
import proofs.«133978_g44306882625591_cont_8to1_c_1075_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The body of pallas_call 0 run at the first grid point: the branch is taken, the support (the features, cut off at zero from the second layer on, times the weights) is stored whole into the carried scratch, and the output block is the adjacency block times that support plus the bias row. -/

/-- The body's branch condition from the grid coordinate: "is this the first grid point?", as the printed scalar chain. -/
abbrev cond0A (i : grid0.Coords) : Prop := (Scalar.cmpi .ne (Scalar.extui (Scalar.cmpi .eq (BitVec.ofNat 32 (i 0).val) 0#32)) 0#32) = 1#1

set_option maxHeartbeats 4000000 in
/-- The pieces the body's stores leave in the output block and in the scratch, with the proof that the body, run on whole
    buffers holding the four input blocks (the scratch and the output at anything), ends holding the inputs as they were,
    the scratch with its pieces written and the output with its pieces written. -/
noncomputable def kernelRun0_A (c : Dev nD) (i : grid0.Coords) (arg1 : Memref sig .tc .vmem S10000x128 .f32) (harg1 : arg1.IsWhole) (arg2 : Memref sig .tc .vmem S128x64 .f32) (harg2 : arg2.IsWhole) (arg3 : Memref sig .tc .vmem S1x64 .f32) (harg3 : arg3.IsWhole) (arg4 : Memref sig .tc .vmem S400x10000 .f32) (harg4 : arg4.IsWhole) (arg5 : Memref sig .tc .vmem S400x64 .f32) (harg5 : arg5.IsWhole) (arg6 : Memref sig .tc .vmem S10000x64 .f32) (harg6 : arg6.IsWhole) (hc : cond0A i)
    (x0 : Vec F S10000x128 .f32) (x1 : Vec F S128x64 .f32) (x2 : Vec F S1x64 .f32) (x3 : Vec F S400x10000 .f32) :
    Σ' (L0 : List (View.Piece (Elt F) S400x64 .f32)), { LS : List (View.Piece (Elt F) S10000x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L0) ∗ (∃ f, arg6.view.loc (c : Thread nD τ) ↦[arg6.view.set]{fullShare} arg6.view.writes (Elt F) f LS)) -∗ K ⟨⟩))
          ⊢ wp frame (wpE (defs₀ (F := F)) Variants.none c none) E (cc0__gc_kernel i arg1 harg1 arg2 harg2 arg3 harg3 arg4 harg4 arg5 harg5 arg6 harg6) K } := by
  refine ⟨?_, ?_, fun E K => ?run⟩
  case run =>
    simp only [cc0__gc_kernel_eq_skeleton]; unfold cc0__gc_kernel_skel
    unfold owns
    iintro ⟨⟨%f0, %hf0, H0⟩, ⟨%f1, %hf1, H1⟩, ⟨%f2, %hf2, H2⟩, ⟨%f3, %hf3, H3⟩, ⟨%d0, %g0, -, HO0⟩, ⟨%ds, %fs, -, HS⟩, Hk⟩
    obtain rfl := harg1.eq_unread hf0; obtain rfl := harg2.eq_unread hf1; obtain rfl := harg3.eq_unread hf2; obtain rfl := harg4.eq_unread hf3
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HO0]; · iexists _; iexact HO0
    iexists _; iexact HS

end Cert.Kernel.Hand

end
-- ==== Proof.KnRun0B.lean ====
import proofs.«133978_g44306882625591_cont_8to1_c_1075_2_alg».proof.Proof.Gen.Kernel.Launch
import proofs.«133978_g44306882625591_cont_8to1_c_1075_2_alg».proof.Proof.Gen.Kernel.Skeleton
import proofs.«133978_g44306882625591_cont_8to1_c_1075_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The body of pallas_call 0 run at a later grid point: the branch is not taken, the carried scratch is read as the point before left it and handed back untouched, and the output block is the adjacency block times it plus the bias row. -/

/-- The body's branch condition from the grid coordinate: "is this the first grid point?", as the printed scalar chain. -/
abbrev cond0B (i : grid0.Coords) : Prop := (Scalar.cmpi .ne (Scalar.extui (Scalar.cmpi .eq (BitVec.ofNat 32 (i 0).val) 0#32)) 0#32) = 1#1

set_option maxHeartbeats 4000000 in
/-- The pieces the body's stores leave in the output block, with the proof that the body, run on whole
    buffers holding the four input blocks, the scratch at the support `xs` (the output at anything), ends holding the inputs as they were,
    the scratch as it was and the output with its pieces written. -/
noncomputable def kernelRun0_B (c : Dev nD) (i : grid0.Coords) (arg1 : Memref sig .tc .vmem S10000x128 .f32) (harg1 : arg1.IsWhole) (arg2 : Memref sig .tc .vmem S128x64 .f32) (harg2 : arg2.IsWhole) (arg3 : Memref sig .tc .vmem S1x64 .f32) (harg3 : arg3.IsWhole) (arg4 : Memref sig .tc .vmem S400x10000 .f32) (harg4 : arg4.IsWhole) (arg5 : Memref sig .tc .vmem S400x64 .f32) (harg5 : arg5.IsWhole) (arg6 : Memref sig .tc .vmem S10000x64 .f32) (harg6 : arg6.IsWhole) (hc : ¬cond0B i)
    (x0 : Vec F S10000x128 .f32) (x1 : Vec F S128x64 .f32) (x2 : Vec F S1x64 .f32) (x3 : Vec F S400x10000 .f32) (xs : Vec F S10000x64 .f32) :
    { L0 : List (View.Piece (Elt F) S400x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L0) ∗ owns (c : Thread nD τ) arg6 fullShare xs) -∗ K ⟨⟩))
          ⊢ wp frame (wpE (defs₀ (F := F)) Variants.none c none) E (cc0__gc_kernel i arg1 harg1 arg2 harg2 arg3 harg3 arg4 harg4 arg5 harg5 arg6 harg6) K } := by
  refine ⟨?_, fun E K => ?run⟩
  case run =>
    simp only [cc0__gc_kernel_eq_skeleton]; unfold cc0__gc_kernel_skel
    unfold owns
    iintro ⟨⟨%f0, %hf0, H0⟩, ⟨%f1, %hf1, H1⟩, ⟨%f2, %hf2, H2⟩, ⟨%f3, %hf3, H3⟩, ⟨%d0, %g0, -, HO0⟩, ⟨%fs, %hfs, HS⟩, Hk⟩
    obtain rfl := harg1.eq_unread hf0; obtain rfl := harg2.eq_unread hf1; obtain rfl := harg3.eq_unread hf2; obtain rfl := harg4.eq_unread hf3; obtain rfl := harg6.eq_unread hfs
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HO0]; · iexists _; iexact HO0
    iexists _; isplitr; · ipureintro; exact harg6.read_unread _
    iexact HS

end Cert.Kernel.Hand

end
-- ==== Proof.KnRegion0.lean ====
import proofs.«133978_g44306882625591_cont_8to1_c_1075_2_alg».proof.Proof.KnRun0A
import proofs.«133978_g44306882625591_cont_8to1_c_1075_2_alg».proof.Proof.KnRun0B
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Pallas_call 0 as one region of the program, at any contents `V` of the device's buffers when the region is
    entered. Its grid has 25 points; the features, the weights and the bias row are one block each, fetched once;
    the adjacency matrix is read 400 rows at a time. At the first point the body stores the support (features times
    weights) whole into a scratch buffer that stays put for the rest of the grid; at every point the output block is
    the adjacency block times the support plus the bias row. -/

section Region
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The first grid point. -/
abbrev t0_0 : Fin cfg0.N := ⟨0, by decide⟩
/-- The branch is taken exactly at the first point. -/
theorem hcond0A : ∀ t : Fin cfg0.N, cond0A (grid0.coords t) ↔ t.val = 0 :=
  (by decide +kernel : ∀ t : Fin grid0.N, cond0A (grid0.coords t) ↔ t.val = 0)
theorem hcond0B : ∀ t : Fin cfg0.N, cond0B (grid0.coords t) ↔ t.val = 0 :=
  (by decide +kernel : ∀ t : Fin grid0.N, cond0B (grid0.coords t) ↔ t.val = 0)

/-- Each window's current buffer at a point, as the pipeline passes it to the body. -/
abbrev ms0_0 (t : Fin cfg0.N) : Memref sig .tc .vmem S10000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S400x10000 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S400x64 .f32 := win0_4.stage (cfg0.slots t 4)
abbrev hs0_4 (t : Fin cfg0.N) : (ms0_4 t).IsWhole := hstage0_4 ((cfg0.slots t 4).cast nbuf0_4)
/-- The scratch: a whole buffer of the kernel's own, passed beside the windows. -/
abbrev scM0 : Memref sig .tc .vmem S10000x64 .f32 := Memref.whole cc0_scratch0
abbrev VS0 : View sig .tc .vmem S10000x64 .f32 := (scM0).view
abbrev VO0_0 : View sig .tc .vmem S400x64 .f32 := (Memref.whole cc0_stg4_0 : Memref sig .tc .vmem S400x64 .f32).view

/-- The first point's run, on the point's buffers and input blocks. -/
def runA0 (c : Dev nD) := kernelRun0_A (F := F) c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) scM0 (Memref.isWhole_whole _) ((hcond0A t0_0).mpr rfl) (iblk0 V c 0 t0_0) (iblk0 V c 1 t0_0) (iblk0 V c 2 t0_0) (iblk0 V c 3 t0_0)

theorem scover0 (c : Dev nD) (y : S10000x64.Idx) : ∃ pc ∈ (runA0 V c).2.1, y ∈ pc.1.set :=
  View.cover_of_tiledL (runA0 V c).2.1 S10000x64.size (by unfold runA0; sl_kernel_rfl) y

/-- The support: what the first point leaves in the scratch (its pieces read back), there for every later point. -/
def sup0 (c : Dev nD) : Vec F S10000x64 .f32 := VS0.read (Elt F) (VS0.writes (Elt F) VS0.junk (runA0 V c).2.1)

/-- A later point's run, the scratch at the support. -/
def runB0 (c : Dev nD) (t : Fin cfg0.N) (hz : t.val ≠ 0) := kernelRun0_B (F := F) c (grid0.coords t) (ms0_0 t) (hs0_0 t) (ms0_1 t) (hs0_1 t) (ms0_2 t) (hs0_2 t) (ms0_3 t) (hs0_3 t) (ms0_4 t) (hs0_4 t) scM0 (Memref.isWhole_whole _) (fun h => hz ((hcond0B t).mp h)) (iblk0 V c 0 t) (iblk0 V c 1 t) (iblk0 V c 2 t) (iblk0 V c 3 t) (sup0 V c)

/-- Output 0's block after the body at point `t`: the pieces the point's case leaves, read back. -/
def out0_0 (c : Dev nD) (t : Fin cfg0.N) : Vec F S400x64 .f32 :=
  if hz : t.val = 0 then VO0_0.read (Elt F) (VO0_0.writes (Elt F) VO0_0.junk (runA0 V c).1)
  else VO0_0.read (Elt F) (VO0_0.writes (Elt F) VO0_0.junk (runB0 V c t hz).1)
theorem out0_0_first (c : Dev nD) : out0_0 V c t0_0 = VO0_0.read (Elt F) (VO0_0.writes (Elt F) VO0_0.junk (runA0 V c).1) := dif_pos rfl
theorem out0_0_later (c : Dev nD) (t : Fin cfg0.N) (hz : t.val ≠ 0) : out0_0 V c t = VO0_0.read (Elt F) (VO0_0.writes (Elt F) VO0_0.junk (runB0 V c t hz).1) := dif_neg hz
theorem coverA0_0 (c : Dev nD) (y : S400x64.Idx) : ∃ pc ∈ (runA0 V c).1, y ∈ pc.1.set :=
  View.cover_of_tiledL (runA0 V c).1 S400x64.size (by unfold runA0; sl_kernel_rfl) y
theorem coverB0_0 (c : Dev nD) (t : Fin cfg0.N) (hz : t.val ≠ 0) (y : S400x64.Idx) : ∃ pc ∈ (runB0 V c t hz).1, y ∈ pc.1.set :=
  View.cover_of_tiledL (runB0 V c t hz).1 S400x64.size (by unfold runB0; sl_kernel_rfl) y

/-- The region's invariant before position `n`: before the first point the scoped buffers at anything and the
    generator register at some state; afterwards the same with the scratch at the support. -/
def Phi0 (c : Dev nD) (n : ℕ) : sProp 𝕄 :=
  if n = 0 then Pipeline.ΦA spec0 c
  else iprop(iprop(owns (c : Thread nD τ) scM0 fullShare (sup0 V c)
      ∗ Pipeline.scopedRestBut (Ix := Unit) (Name := ℕ) (U := UR sig nD τ) (Lvl := ℕ) (Val := Elt F) spec0 c [cc0_scratch0]) ∗ (∃ r, prngReg c r))

/-- The entry invariant with the scratch split out of the scoped buffers. -/
theorem PhiA0_eq (c : Dev nD) :
    (Pipeline.ΦA spec0 c : sProp 𝕄)
      = iprop(iprop(iprop((∃ d, owns (c : Thread nD τ) scM0 fullShare d))
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

/-- The proof data: the arrays as the region finds them; after the body each input's buffer at its block and the
    output's at the point's result; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_0 V c t
  Φ t := Phi0 V c t.val
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_0 V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 4000000 in
/-- The body at any point: at the first the branch is taken and the scratch leaves at the support; later the scratch
    is found at the support and left there. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl, after0_0, after0_1, after0_2, after0_3, after0_4]
  rw [show (dat0 V c).Φ t.succ = Phi0 V c (t.val + 1) from rfl, show (dat0 V c).Φ t.castSucc = Phi0 V c t.val from rfl]
  rw [show Phi0 V c (t.val + 1) = iprop(iprop(owns (c : Thread nD τ) scM0 fullShare (sup0 V c)
      ∗ Pipeline.scopedRestBut (Ix := Unit) (Name := ℕ) (U := UR sig nD τ) (Lvl := ℕ) (Val := Elt F) spec0 c [cc0_scratch0]) ∗ (∃ r, prngReg c r)) from if_neg (Nat.succ_ne_zero _)]
  by_cases hz : t.val = 0
  · obtain rfl : t = t0_0 := Fin.ext hz
    rw [show Phi0 V c (t0_0).val = Pipeline.ΦA spec0 c from if_pos rfl, PhiA0_eq, out0_0_first]
    iintro ⟨⟨⟨HS, HB⟩, Hg⟩, Ho, ⟨%d0, H0⟩, ⟨%d1, H1⟩, ⟨%d2, H2⟩, ⟨%d3, H3⟩, ⟨%d4, H4⟩⟩
    iapply ((runA0 V c).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS HB Hg]
    · isplitl [HS HB]
      · isplitl [HS]
        · unfold owns sup0; iexists _; isplitr
          swap; · iexact HS
          ipureintro; exact View.read_writes_of_cover _ _ _ _ _ (scover0 V c)
        iexact HB
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverA0_0 V c)
  · rw [show Phi0 V c t.val = iprop(iprop(owns (c : Thread nD τ) scM0 fullShare (sup0 V c)
      ∗ Pipeline.scopedRestBut (Ix := Unit) (Name := ℕ) (U := UR sig nD τ) (Lvl := ℕ) (Val := Elt F) spec0 c [cc0_scratch0]) ∗ (∃ r, prngReg c r)) from if_neg hz, out0_0_later V c t hz]
    iintro ⟨⟨⟨HS, HB⟩, Hg⟩, Ho, ⟨%d0, H0⟩, ⟨%d1, H1⟩, ⟨%d2, H2⟩, ⟨%d3, H3⟩, ⟨%d4, H4⟩⟩
    iapply ((runB0 V c t hz).2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, HS⟩
    isplitl [HS HB Hg]
    · isplitl [HS HB]
      · isplitl [HS]; · iexact HS
        iexact HB
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverB0_0 V c t hz)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region

end Cert.Kernel.Hand

end
-- ==== Proof.KnRun1A.lean ====
import proofs.«133978_g44306882625591_cont_8to1_c_1075_2_alg».proof.Proof.Gen.Kernel.Launch
import proofs.«133978_g44306882625591_cont_8to1_c_1075_2_alg».proof.Proof.Gen.Kernel.Skeleton
import proofs.«133978_g44306882625591_cont_8to1_c_1075_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The body of pallas_call 1 run at the first grid point: the branch is taken, the support (the features, cut off at zero from the second layer on, times the weights) is stored whole into the carried scratch, and the output block is the adjacency block times that support plus the bias row. -/

/-- The body's branch condition from the grid coordinate: "is this the first grid point?", as the printed scalar chain. -/
abbrev cond1A (i : grid1.Coords) : Prop := (Scalar.cmpi .ne (Scalar.extui (Scalar.cmpi .eq (BitVec.ofNat 32 (i 0).val) 0#32)) 0#32) = 1#1

set_option maxHeartbeats 4000000 in
/-- The pieces the body's stores leave in the output block and in the scratch, with the proof that the body, run on whole
    buffers holding the four input blocks (the scratch and the output at anything), ends holding the inputs as they were,
    the scratch with its pieces written and the output with its pieces written. -/
noncomputable def kernelRun1_A (c : Dev nD) (i : grid1.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S400x10000 .f32) (harg4 : arg4.IsWhole) (arg5 : Memref sig .tc .vmem S400x64 .f32) (harg5 : arg5.IsWhole) (arg6 : Memref sig .tc .vmem S10000x64 .f32) (harg6 : arg6.IsWhole) (hc : cond1A i)
    (x0 : Vec F S10000x64 .f32) (x1 : Vec F S64x64 .f32) (x2 : Vec F S1x64 .f32) (x3 : Vec F S400x10000 .f32) :
    Σ' (L0 : List (View.Piece (Elt F) S400x64 .f32)), { LS : List (View.Piece (Elt F) S10000x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L0) ∗ (∃ f, arg6.view.loc (c : Thread nD τ) ↦[arg6.view.set]{fullShare} arg6.view.writes (Elt F) f LS)) -∗ K ⟨⟩))
          ⊢ wp frame (wpE (defs₀ (F := F)) Variants.none c none) E (cc1__gc_kernel i arg1 harg1 arg2 harg2 arg3 harg3 arg4 harg4 arg5 harg5 arg6 harg6) K } := by
  refine ⟨?_, ?_, fun E K => ?run⟩
  case run =>
    simp only [cc1__gc_kernel_eq_skeleton]; unfold cc1__gc_kernel_skel
    unfold owns
    iintro ⟨⟨%f0, %hf0, H0⟩, ⟨%f1, %hf1, H1⟩, ⟨%f2, %hf2, H2⟩, ⟨%f3, %hf3, H3⟩, ⟨%d0, %g0, -, HO0⟩, ⟨%ds, %fs, -, HS⟩, Hk⟩
    obtain rfl := harg1.eq_unread hf0; obtain rfl := harg2.eq_unread hf1; obtain rfl := harg3.eq_unread hf2; obtain rfl := harg4.eq_unread hf3
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HO0]; · iexists _; iexact HO0
    iexists _; iexact HS

end Cert.Kernel.Hand

end
-- ==== Proof.KnRun1B.lean ====
import proofs.«133978_g44306882625591_cont_8to1_c_1075_2_alg».proof.Proof.Gen.Kernel.Launch
import proofs.«133978_g44306882625591_cont_8to1_c_1075_2_alg».proof.Proof.Gen.Kernel.Skeleton
import proofs.«133978_g44306882625591_cont_8to1_c_1075_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The body of pallas_call 1 run at a later grid point: the branch is not taken, the carried scratch is read as the point before left it and handed back untouched, and the output block is the adjacency block times it plus the bias row. -/

/-- The body's branch condition from the grid coordinate: "is this the first grid point?", as the printed scalar chain. -/
abbrev cond1B (i : grid1.Coords) : Prop := (Scalar.cmpi .ne (Scalar.extui (Scalar.cmpi .eq (BitVec.ofNat 32 (i 0).val) 0#32)) 0#32) = 1#1

set_option maxHeartbeats 4000000 in
/-- The pieces the body's stores leave in the output block, with the proof that the body, run on whole
    buffers holding the four input blocks, the scratch at the support `xs` (the output at anything), ends holding the inputs as they were,
    the scratch as it was and the output with its pieces written. -/
noncomputable def kernelRun1_B (c : Dev nD) (i : grid1.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S400x10000 .f32) (harg4 : arg4.IsWhole) (arg5 : Memref sig .tc .vmem S400x64 .f32) (harg5 : arg5.IsWhole) (arg6 : Memref sig .tc .vmem S10000x64 .f32) (harg6 : arg6.IsWhole) (hc : ¬cond1B i)
    (x0 : Vec F S10000x64 .f32) (x1 : Vec F S64x64 .f32) (x2 : Vec F S1x64 .f32) (x3 : Vec F S400x10000 .f32) (xs : Vec F S10000x64 .f32) :
    { L0 : List (View.Piece (Elt F) S400x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L0) ∗ owns (c : Thread nD τ) arg6 fullShare xs) -∗ K ⟨⟩))
          ⊢ wp frame (wpE (defs₀ (F := F)) Variants.none c none) E (cc1__gc_kernel i arg1 harg1 arg2 harg2 arg3 harg3 arg4 harg4 arg5 harg5 arg6 harg6) K } := by
  refine ⟨?_, fun E K => ?run⟩
  case run =>
    simp only [cc1__gc_kernel_eq_skeleton]; unfold cc1__gc_kernel_skel
    unfold owns
    iintro ⟨⟨%f0, %hf0, H0⟩, ⟨%f1, %hf1, H1⟩, ⟨%f2, %hf2, H2⟩, ⟨%f3, %hf3, H3⟩, ⟨%d0, %g0, -, HO0⟩, ⟨%fs, %hfs, HS⟩, Hk⟩
    obtain rfl := harg1.eq_unread hf0; obtain rfl := harg2.eq_unread hf1; obtain rfl := harg3.eq_unread hf2; obtain rfl := harg4.eq_unread hf3; obtain rfl := harg6.eq_unread hfs
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HO0]; · iexists _; iexact HO0
    iexists _; isplitr; · ipureintro; exact harg6.read_unread _
    iexact HS

end Cert.Kernel.Hand

end
-- ==== Proof.KnRegion1.lean ====
import proofs.«133978_g44306882625591_cont_8to1_c_1075_2_alg».proof.Proof.KnRun1A
import proofs.«133978_g44306882625591_cont_8to1_c_1075_2_alg».proof.Proof.KnRun1B
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Pallas_call 1 as one region of the program, at any contents `V` of the device's buffers when the region is
    entered. Its grid has 25 points; the features, the weights and the bias row are one block each, fetched once;
    the adjacency matrix is read 400 rows at a time. At the first point the body stores the support (features times
    weights) whole into a scratch buffer that stays put for the rest of the grid; at every point the output block is
    the adjacency block times the support plus the bias row. -/

section Region
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The first grid point. -/
abbrev t0_1 : Fin cfg1.N := ⟨0, by decide⟩
/-- The branch is taken exactly at the first point. -/
theorem hcond1A : ∀ t : Fin cfg1.N, cond1A (grid1.coords t) ↔ t.val = 0 :=
  (by decide +kernel : ∀ t : Fin grid1.N, cond1A (grid1.coords t) ↔ t.val = 0)
theorem hcond1B : ∀ t : Fin cfg1.N, cond1B (grid1.coords t) ↔ t.val = 0 :=
  (by decide +kernel : ∀ t : Fin grid1.N, cond1B (grid1.coords t) ↔ t.val = 0)

/-- Each window's current buffer at a point, as the pipeline passes it to the body. -/
abbrev ms1_0 (t : Fin cfg1.N) : Memref sig .tc .vmem S10000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S400x10000 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S400x64 .f32 := win1_4.stage (cfg1.slots t 4)
abbrev hs1_4 (t : Fin cfg1.N) : (ms1_4 t).IsWhole := hstage1_4 ((cfg1.slots t 4).cast nbuf1_4)
/-- The scratch: a whole buffer of the kernel's own, passed beside the windows. -/
abbrev scM1 : Memref sig .tc .vmem S10000x64 .f32 := Memref.whole cc1_scratch0
abbrev VS1 : View sig .tc .vmem S10000x64 .f32 := (scM1).view
abbrev VO1_0 : View sig .tc .vmem S400x64 .f32 := (Memref.whole cc1_stg4_0 : Memref sig .tc .vmem S400x64 .f32).view

/-- The first point's run, on the point's buffers and input blocks. -/
def runA1 (c : Dev nD) := kernelRun1_A (F := F) c (grid1.coords t0_1) (ms1_0 t0_1) (hs1_0 t0_1) (ms1_1 t0_1) (hs1_1 t0_1) (ms1_2 t0_1) (hs1_2 t0_1) (ms1_3 t0_1) (hs1_3 t0_1) (ms1_4 t0_1) (hs1_4 t0_1) scM1 (Memref.isWhole_whole _) ((hcond1A t0_1).mpr rfl) (iblk1 V c 0 t0_1) (iblk1 V c 1 t0_1) (iblk1 V c 2 t0_1) (iblk1 V c 3 t0_1)

theorem scover1 (c : Dev nD) (y : S10000x64.Idx) : ∃ pc ∈ (runA1 V c).2.1, y ∈ pc.1.set :=
  View.cover_of_tiledL (runA1 V c).2.1 S10000x64.size (by unfold runA1; sl_kernel_rfl) y

/-- The support: what the first point leaves in the scratch (its pieces read back), there for every later point. -/
def sup1 (c : Dev nD) : Vec F S10000x64 .f32 := VS1.read (Elt F) (VS1.writes (Elt F) VS1.junk (runA1 V c).2.1)

/-- A later point's run, the scratch at the support. -/
def runB1 (c : Dev nD) (t : Fin cfg1.N) (hz : t.val ≠ 0) := kernelRun1_B (F := F) c (grid1.coords t) (ms1_0 t) (hs1_0 t) (ms1_1 t) (hs1_1 t) (ms1_2 t) (hs1_2 t) (ms1_3 t) (hs1_3 t) (ms1_4 t) (hs1_4 t) scM1 (Memref.isWhole_whole _) (fun h => hz ((hcond1B t).mp h)) (iblk1 V c 0 t) (iblk1 V c 1 t) (iblk1 V c 2 t) (iblk1 V c 3 t) (sup1 V c)

/-- Output 0's block after the body at point `t`: the pieces the point's case leaves, read back. -/
def out1_0 (c : Dev nD) (t : Fin cfg1.N) : Vec F S400x64 .f32 :=
  if hz : t.val = 0 then VO1_0.read (Elt F) (VO1_0.writes (Elt F) VO1_0.junk (runA1 V c).1)
  else VO1_0.read (Elt F) (VO1_0.writes (Elt F) VO1_0.junk (runB1 V c t hz).1)
theorem out1_0_first (c : Dev nD) : out1_0 V c t0_1 = VO1_0.read (Elt F) (VO1_0.writes (Elt F) VO1_0.junk (runA1 V c).1) := dif_pos rfl
theorem out1_0_later (c : Dev nD) (t : Fin cfg1.N) (hz : t.val ≠ 0) : out1_0 V c t = VO1_0.read (Elt F) (VO1_0.writes (Elt F) VO1_0.junk (runB1 V c t hz).1) := dif_neg hz
theorem coverA1_0 (c : Dev nD) (y : S400x64.Idx) : ∃ pc ∈ (runA1 V c).1, y ∈ pc.1.set :=
  View.cover_of_tiledL (runA1 V c).1 S400x64.size (by unfold runA1; sl_kernel_rfl) y
theorem coverB1_0 (c : Dev nD) (t : Fin cfg1.N) (hz : t.val ≠ 0) (y : S400x64.Idx) : ∃ pc ∈ (runB1 V c t hz).1, y ∈ pc.1.set :=
  View.cover_of_tiledL (runB1 V c t hz).1 S400x64.size (by unfold runB1; sl_kernel_rfl) y

/-- The region's invariant before position `n`: before the first point the scoped buffers at anything and the
    generator register at some state; afterwards the same with the scratch at the support. -/
def Phi1 (c : Dev nD) (n : ℕ) : sProp 𝕄 :=
  if n = 0 then Pipeline.ΦA spec1 c
  else iprop(iprop(owns (c : Thread nD τ) scM1 fullShare (sup1 V c)
      ∗ Pipeline.scopedRestBut (Ix := Unit) (Name := ℕ) (U := UR sig nD τ) (Lvl := ℕ) (Val := Elt F) spec1 c [cc1_scratch0]) ∗ (∃ r, prngReg c r))

/-- The entry invariant with the scratch split out of the scoped buffers. -/
theorem PhiA1_eq (c : Dev nD) :
    (Pipeline.ΦA spec1 c : sProp 𝕄)
      = iprop(iprop(iprop((∃ d, owns (c : Thread nD τ) scM1 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

/-- The proof data: the arrays as the region finds them; after the body each input's buffer at its block and the
    output's at the point's result; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_0 V c t
  Φ t := Phi1 V c t.val
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_0 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 4000000 in
/-- The body at any point: at the first the branch is taken and the scratch leaves at the support; later the scratch
    is found at the support and left there. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl, after1_0, after1_1, after1_2, after1_3, after1_4]
  rw [show (dat1 V c).Φ t.succ = Phi1 V c (t.val + 1) from rfl, show (dat1 V c).Φ t.castSucc = Phi1 V c t.val from rfl]
  rw [show Phi1 V c (t.val + 1) = iprop(iprop(owns (c : Thread nD τ) scM1 fullShare (sup1 V c)
      ∗ Pipeline.scopedRestBut (Ix := Unit) (Name := ℕ) (U := UR sig nD τ) (Lvl := ℕ) (Val := Elt F) spec1 c [cc1_scratch0]) ∗ (∃ r, prngReg c r)) from if_neg (Nat.succ_ne_zero _)]
  by_cases hz : t.val = 0
  · obtain rfl : t = t0_1 := Fin.ext hz
    rw [show Phi1 V c (t0_1).val = Pipeline.ΦA spec1 c from if_pos rfl, PhiA1_eq, out1_0_first]
    iintro ⟨⟨⟨HS, HB⟩, Hg⟩, Ho, ⟨%d0, H0⟩, ⟨%d1, H1⟩, ⟨%d2, H2⟩, ⟨%d3, H3⟩, ⟨%d4, H4⟩⟩
    iapply ((runA1 V c).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS HB Hg]
    · isplitl [HS HB]
      · isplitl [HS]
        · unfold owns sup1; iexists _; isplitr
          swap; · iexact HS
          ipureintro; exact View.read_writes_of_cover _ _ _ _ _ (scover1 V c)
        iexact HB
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverA1_0 V c)
  · rw [show Phi1 V c t.val = iprop(iprop(owns (c : Thread nD τ) scM1 fullShare (sup1 V c)
      ∗ Pipeline.scopedRestBut (Ix := Unit) (Name := ℕ) (U := UR sig nD τ) (Lvl := ℕ) (Val := Elt F) spec1 c [cc1_scratch0]) ∗ (∃ r, prngReg c r)) from if_neg hz, out1_0_later V c t hz]
    iintro ⟨⟨⟨HS, HB⟩, Hg⟩, Ho, ⟨%d0, H0⟩, ⟨%d1, H1⟩, ⟨%d2, H2⟩, ⟨%d3, H3⟩, ⟨%d4, H4⟩⟩
    iapply ((runB1 V c t hz).2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, HS⟩
    isplitl [HS HB Hg]
    · isplitl [HS HB]
      · isplitl [HS]; · iexact HS
        iexact HB
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverB1_0 V c t hz)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.Kernel.Hand

end
-- ==== Proof.KnRun2A.lean ====
import proofs.«133978_g44306882625591_cont_8to1_c_1075_2_alg».proof.Proof.Gen.Kernel.Launch
import proofs.«133978_g44306882625591_cont_8to1_c_1075_2_alg».proof.Proof.Gen.Kernel.Skeleton
import proofs.«133978_g44306882625591_cont_8to1_c_1075_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The body of pallas_call 2 run at the first grid point: the branch is taken, the support (the features, cut off at zero from the second layer on, times the weights) is stored whole into the carried scratch, and the output block is the adjacency block times that support plus the bias row. -/

/-- The body's branch condition from the grid coordinate: "is this the first grid point?", as the printed scalar chain. -/
abbrev cond2A (i : grid2.Coords) : Prop := (Scalar.cmpi .ne (Scalar.extui (Scalar.cmpi .eq (BitVec.ofNat 32 (i 0).val) 0#32)) 0#32) = 1#1

set_option maxHeartbeats 4000000 in
/-- The pieces the body's stores leave in the output block and in the scratch, with the proof that the body, run on whole
    buffers holding the four input blocks (the scratch and the output at anything), ends holding the inputs as they were,
    the scratch with its pieces written and the output with its pieces written. -/
noncomputable def kernelRun2_A (c : Dev nD) (i : grid2.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S400x10000 .f32) (harg4 : arg4.IsWhole) (arg5 : Memref sig .tc .vmem S400x64 .f32) (harg5 : arg5.IsWhole) (arg6 : Memref sig .tc .vmem S10000x64 .f32) (harg6 : arg6.IsWhole) (hc : cond2A i)
    (x0 : Vec F S10000x64 .f32) (x1 : Vec F S64x64 .f32) (x2 : Vec F S1x64 .f32) (x3 : Vec F S400x10000 .f32) :
    Σ' (L0 : List (View.Piece (Elt F) S400x64 .f32)), { LS : List (View.Piece (Elt F) S10000x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L0) ∗ (∃ f, arg6.view.loc (c : Thread nD τ) ↦[arg6.view.set]{fullShare} arg6.view.writes (Elt F) f LS)) -∗ K ⟨⟩))
          ⊢ wp frame (wpE (defs₀ (F := F)) Variants.none c none) E (cc2__gc_kernel i arg1 harg1 arg2 harg2 arg3 harg3 arg4 harg4 arg5 harg5 arg6 harg6) K } := by
  refine ⟨?_, ?_, fun E K => ?run⟩
  case run =>
    simp only [cc2__gc_kernel_eq_skeleton]; unfold cc2__gc_kernel_skel
    unfold owns
    iintro ⟨⟨%f0, %hf0, H0⟩, ⟨%f1, %hf1, H1⟩, ⟨%f2, %hf2, H2⟩, ⟨%f3, %hf3, H3⟩, ⟨%d0, %g0, -, HO0⟩, ⟨%ds, %fs, -, HS⟩, Hk⟩
    obtain rfl := harg1.eq_unread hf0; obtain rfl := harg2.eq_unread hf1; obtain rfl := harg3.eq_unread hf2; obtain rfl := harg4.eq_unread hf3
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HO0]; · iexists _; iexact HO0
    iexists _; iexact HS

end Cert.Kernel.Hand

end
-- ==== Proof.KnRun2B.lean ====
import proofs.«133978_g44306882625591_cont_8to1_c_1075_2_alg».proof.Proof.Gen.Kernel.Launch
import proofs.«133978_g44306882625591_cont_8to1_c_1075_2_alg».proof.Proof.Gen.Kernel.Skeleton
import proofs.«133978_g44306882625591_cont_8to1_c_1075_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The body of pallas_call 2 run at a later grid point: the branch is not taken, the carried scratch is read as the point before left it and handed back untouched, and the output block is the adjacency block times it plus the bias row. -/

/-- The body's branch condition from the grid coordinate: "is this the first grid point?", as the printed scalar chain. -/
abbrev cond2B (i : grid2.Coords) : Prop := (Scalar.cmpi .ne (Scalar.extui (Scalar.cmpi .eq (BitVec.ofNat 32 (i 0).val) 0#32)) 0#32) = 1#1

set_option maxHeartbeats 4000000 in
/-- The pieces the body's stores leave in the output block, with the proof that the body, run on whole
    buffers holding the four input blocks, the scratch at the support `xs` (the output at anything), ends holding the inputs as they were,
    the scratch as it was and the output with its pieces written. -/
noncomputable def kernelRun2_B (c : Dev nD) (i : grid2.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S400x10000 .f32) (harg4 : arg4.IsWhole) (arg5 : Memref sig .tc .vmem S400x64 .f32) (harg5 : arg5.IsWhole) (arg6 : Memref sig .tc .vmem S10000x64 .f32) (harg6 : arg6.IsWhole) (hc : ¬cond2B i)
    (x0 : Vec F S10000x64 .f32) (x1 : Vec F S64x64 .f32) (x2 : Vec F S1x64 .f32) (x3 : Vec F S400x10000 .f32) (xs : Vec F S10000x64 .f32) :
    { L0 : List (View.Piece (Elt F) S400x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L0) ∗ owns (c : Thread nD τ) arg6 fullShare xs) -∗ K ⟨⟩))
          ⊢ wp frame (wpE (defs₀ (F := F)) Variants.none c none) E (cc2__gc_kernel i arg1 harg1 arg2 harg2 arg3 harg3 arg4 harg4 arg5 harg5 arg6 harg6) K } := by
  refine ⟨?_, fun E K => ?run⟩
  case run =>
    simp only [cc2__gc_kernel_eq_skeleton]; unfold cc2__gc_kernel_skel
    unfold owns
    iintro ⟨⟨%f0, %hf0, H0⟩, ⟨%f1, %hf1, H1⟩, ⟨%f2, %hf2, H2⟩, ⟨%f3, %hf3, H3⟩, ⟨%d0, %g0, -, HO0⟩, ⟨%fs, %hfs, HS⟩, Hk⟩
    obtain rfl := harg1.eq_unread hf0; obtain rfl := harg2.eq_unread hf1; obtain rfl := harg3.eq_unread hf2; obtain rfl := harg4.eq_unread hf3; obtain rfl := harg6.eq_unread hfs
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HO0]; · iexists _; iexact HO0
    iexists _; isplitr; · ipureintro; exact harg6.read_unread _
    iexact HS

end Cert.Kernel.Hand

end
-- ==== Proof.KnRegion2.lean ====
import proofs.«133978_g44306882625591_cont_8to1_c_1075_2_alg».proof.Proof.KnRun2A
import proofs.«133978_g44306882625591_cont_8to1_c_1075_2_alg».proof.Proof.KnRun2B
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Pallas_call 2 as one region of the program, at any contents `V` of the device's buffers when the region is
    entered. Its grid has 25 points; the features, the weights and the bias row are one block each, fetched once;
    the adjacency matrix is read 400 rows at a time. At the first point the body stores the support (features times
    weights) whole into a scratch buffer that stays put for the rest of the grid; at every point the output block is
    the adjacency block times the support plus the bias row. -/

section Region
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The first grid point. -/
abbrev t0_2 : Fin cfg2.N := ⟨0, by decide⟩
/-- The branch is taken exactly at the first point. -/
theorem hcond2A : ∀ t : Fin cfg2.N, cond2A (grid2.coords t) ↔ t.val = 0 :=
  (by decide +kernel : ∀ t : Fin grid2.N, cond2A (grid2.coords t) ↔ t.val = 0)
theorem hcond2B : ∀ t : Fin cfg2.N, cond2B (grid2.coords t) ↔ t.val = 0 :=
  (by decide +kernel : ∀ t : Fin grid2.N, cond2B (grid2.coords t) ↔ t.val = 0)

/-- Each window's current buffer at a point, as the pipeline passes it to the body. -/
abbrev ms2_0 (t : Fin cfg2.N) : Memref sig .tc .vmem S10000x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S64x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S400x10000 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S400x64 .f32 := win2_4.stage (cfg2.slots t 4)
abbrev hs2_4 (t : Fin cfg2.N) : (ms2_4 t).IsWhole := hstage2_4 ((cfg2.slots t 4).cast nbuf2_4)
/-- The scratch: a whole buffer of the kernel's own, passed beside the windows. -/
abbrev scM2 : Memref sig .tc .vmem S10000x64 .f32 := Memref.whole cc2_scratch0
abbrev VS2 : View sig .tc .vmem S10000x64 .f32 := (scM2).view
abbrev VO2_0 : View sig .tc .vmem S400x64 .f32 := (Memref.whole cc2_stg4_0 : Memref sig .tc .vmem S400x64 .f32).view

/-- The first point's run, on the point's buffers and input blocks. -/
def runA2 (c : Dev nD) := kernelRun2_A (F := F) c (grid2.coords t0_2) (ms2_0 t0_2) (hs2_0 t0_2) (ms2_1 t0_2) (hs2_1 t0_2) (ms2_2 t0_2) (hs2_2 t0_2) (ms2_3 t0_2) (hs2_3 t0_2) (ms2_4 t0_2) (hs2_4 t0_2) scM2 (Memref.isWhole_whole _) ((hcond2A t0_2).mpr rfl) (iblk2 V c 0 t0_2) (iblk2 V c 1 t0_2) (iblk2 V c 2 t0_2) (iblk2 V c 3 t0_2)

theorem scover2 (c : Dev nD) (y : S10000x64.Idx) : ∃ pc ∈ (runA2 V c).2.1, y ∈ pc.1.set :=
  View.cover_of_tiledL (runA2 V c).2.1 S10000x64.size (by unfold runA2; sl_kernel_rfl) y

/-- The support: what the first point leaves in the scratch (its pieces read back), there for every later point. -/
def sup2 (c : Dev nD) : Vec F S10000x64 .f32 := VS2.read (Elt F) (VS2.writes (Elt F) VS2.junk (runA2 V c).2.1)

/-- A later point's run, the scratch at the support. -/
def runB2 (c : Dev nD) (t : Fin cfg2.N) (hz : t.val ≠ 0) := kernelRun2_B (F := F) c (grid2.coords t) (ms2_0 t) (hs2_0 t) (ms2_1 t) (hs2_1 t) (ms2_2 t) (hs2_2 t) (ms2_3 t) (hs2_3 t) (ms2_4 t) (hs2_4 t) scM2 (Memref.isWhole_whole _) (fun h => hz ((hcond2B t).mp h)) (iblk2 V c 0 t) (iblk2 V c 1 t) (iblk2 V c 2 t) (iblk2 V c 3 t) (sup2 V c)

/-- Output 0's block after the body at point `t`: the pieces the point's case leaves, read back. -/
def out2_0 (c : Dev nD) (t : Fin cfg2.N) : Vec F S400x64 .f32 :=
  if hz : t.val = 0 then VO2_0.read (Elt F) (VO2_0.writes (Elt F) VO2_0.junk (runA2 V c).1)
  else VO2_0.read (Elt F) (VO2_0.writes (Elt F) VO2_0.junk (runB2 V c t hz).1)
theorem out2_0_first (c : Dev nD) : out2_0 V c t0_2 = VO2_0.read (Elt F) (VO2_0.writes (Elt F) VO2_0.junk (runA2 V c).1) := dif_pos rfl
theorem out2_0_later (c : Dev nD) (t : Fin cfg2.N) (hz : t.val ≠ 0) : out2_0 V c t = VO2_0.read (Elt F) (VO2_0.writes (Elt F) VO2_0.junk (runB2 V c t hz).1) := dif_neg hz
theorem coverA2_0 (c : Dev nD) (y : S400x64.Idx) : ∃ pc ∈ (runA2 V c).1, y ∈ pc.1.set :=
  View.cover_of_tiledL (runA2 V c).1 S400x64.size (by unfold runA2; sl_kernel_rfl) y
theorem coverB2_0 (c : Dev nD) (t : Fin cfg2.N) (hz : t.val ≠ 0) (y : S400x64.Idx) : ∃ pc ∈ (runB2 V c t hz).1, y ∈ pc.1.set :=
  View.cover_of_tiledL (runB2 V c t hz).1 S400x64.size (by unfold runB2; sl_kernel_rfl) y

/-- The region's invariant before position `n`: before the first point the scoped buffers at anything and the
    generator register at some state; afterwards the same with the scratch at the support. -/
def Phi2 (c : Dev nD) (n : ℕ) : sProp 𝕄 :=
  if n = 0 then Pipeline.ΦA spec2 c
  else iprop(iprop(owns (c : Thread nD τ) scM2 fullShare (sup2 V c)
      ∗ Pipeline.scopedRestBut (Ix := Unit) (Name := ℕ) (U := UR sig nD τ) (Lvl := ℕ) (Val := Elt F) spec2 c [cc2_scratch0]) ∗ (∃ r, prngReg c r))

/-- The entry invariant with the scratch split out of the scoped buffers. -/
theorem PhiA2_eq (c : Dev nD) :
    (Pipeline.ΦA spec2 c : sProp 𝕄)
      = iprop(iprop(iprop((∃ d, owns (c : Thread nD τ) scM2 fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

/-- The proof data: the arrays as the region finds them; after the body each input's buffer at its block and the
    output's at the point's result; the invariant above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_0 V c t
  Φ t := Phi2 V c t.val
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_0 V c t := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

set_option maxHeartbeats 4000000 in
/-- The body at any point: at the first the branch is taken and the scratch leaves at the support; later the scratch
    is found at the support and left there. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl, after2_0, after2_1, after2_2, after2_3, after2_4]
  rw [show (dat2 V c).Φ t.succ = Phi2 V c (t.val + 1) from rfl, show (dat2 V c).Φ t.castSucc = Phi2 V c t.val from rfl]
  rw [show Phi2 V c (t.val + 1) = iprop(iprop(owns (c : Thread nD τ) scM2 fullShare (sup2 V c)
      ∗ Pipeline.scopedRestBut (Ix := Unit) (Name := ℕ) (U := UR sig nD τ) (Lvl := ℕ) (Val := Elt F) spec2 c [cc2_scratch0]) ∗ (∃ r, prngReg c r)) from if_neg (Nat.succ_ne_zero _)]
  by_cases hz : t.val = 0
  · obtain rfl : t = t0_2 := Fin.ext hz
    rw [show Phi2 V c (t0_2).val = Pipeline.ΦA spec2 c from if_pos rfl, PhiA2_eq, out2_0_first]
    iintro ⟨⟨⟨HS, HB⟩, Hg⟩, Ho, ⟨%d0, H0⟩, ⟨%d1, H1⟩, ⟨%d2, H2⟩, ⟨%d3, H3⟩, ⟨%d4, H4⟩⟩
    iapply ((runA2 V c).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS HB Hg]
    · isplitl [HS HB]
      · isplitl [HS]
        · unfold owns sup2; iexists _; isplitr
          swap; · iexact HS
          ipureintro; exact View.read_writes_of_cover _ _ _ _ _ (scover2 V c)
        iexact HB
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverA2_0 V c)
  · rw [show Phi2 V c t.val = iprop(iprop(owns (c : Thread nD τ) scM2 fullShare (sup2 V c)
      ∗ Pipeline.scopedRestBut (Ix := Unit) (Name := ℕ) (U := UR sig nD τ) (Lvl := ℕ) (Val := Elt F) spec2 c [cc2_scratch0]) ∗ (∃ r, prngReg c r)) from if_neg hz, out2_0_later V c t hz]
    iintro ⟨⟨⟨HS, HB⟩, Hg⟩, Ho, ⟨%d0, H0⟩, ⟨%d1, H1⟩, ⟨%d2, H2⟩, ⟨%d3, H3⟩, ⟨%d4, H4⟩⟩
    iapply ((runB2 V c t hz).2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, HS⟩
    isplitl [HS HB Hg]
    · isplitl [HS HB]
      · isplitl [HS]; · iexact HS
        iexact HB
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverB2_0 V c t hz)

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region

end Cert.Kernel.Hand

end
-- ==== Proof.KnRun3A.lean ====
import proofs.«133978_g44306882625591_cont_8to1_c_1075_2_alg».proof.Proof.Gen.Kernel.Launch
import proofs.«133978_g44306882625591_cont_8to1_c_1075_2_alg».proof.Proof.Gen.Kernel.Skeleton
import proofs.«133978_g44306882625591_cont_8to1_c_1075_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The body of pallas_call 3 run at the first grid point: the branch is taken, the support (the features, cut off at zero from the second layer on, times the weights) is stored whole into the carried scratch, and the output block is the adjacency block times that support plus the bias row. -/

/-- The body's branch condition from the grid coordinate: "is this the first grid point?", as the printed scalar chain. -/
abbrev cond3A (i : grid3.Coords) : Prop := (Scalar.cmpi .ne (Scalar.extui (Scalar.cmpi .eq (BitVec.ofNat 32 (i 0).val) 0#32)) 0#32) = 1#1

set_option maxHeartbeats 4000000 in
/-- The pieces the body's stores leave in the output block and in the scratch, with the proof that the body, run on whole
    buffers holding the four input blocks (the scratch and the output at anything), ends holding the inputs as they were,
    the scratch with its pieces written and the output with its pieces written. -/
noncomputable def kernelRun3_A (c : Dev nD) (i : grid3.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S400x10000 .f32) (harg4 : arg4.IsWhole) (arg5 : Memref sig .tc .vmem S400x64 .f32) (harg5 : arg5.IsWhole) (arg6 : Memref sig .tc .vmem S10000x64 .f32) (harg6 : arg6.IsWhole) (hc : cond3A i)
    (x0 : Vec F S10000x64 .f32) (x1 : Vec F S64x64 .f32) (x2 : Vec F S1x64 .f32) (x3 : Vec F S400x10000 .f32) :
    Σ' (L0 : List (View.Piece (Elt F) S400x64 .f32)), { LS : List (View.Piece (Elt F) S10000x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L0) ∗ (∃ f, arg6.view.loc (c : Thread nD τ) ↦[arg6.view.set]{fullShare} arg6.view.writes (Elt F) f LS)) -∗ K ⟨⟩))
          ⊢ wp frame (wpE (defs₀ (F := F)) Variants.none c none) E (cc3__gc_kernel i arg1 harg1 arg2 harg2 arg3 harg3 arg4 harg4 arg5 harg5 arg6 harg6) K } := by
  refine ⟨?_, ?_, fun E K => ?run⟩
  case run =>
    simp only [cc3__gc_kernel_eq_skeleton]; unfold cc3__gc_kernel_skel
    unfold owns
    iintro ⟨⟨%f0, %hf0, H0⟩, ⟨%f1, %hf1, H1⟩, ⟨%f2, %hf2, H2⟩, ⟨%f3, %hf3, H3⟩, ⟨%d0, %g0, -, HO0⟩, ⟨%ds, %fs, -, HS⟩, Hk⟩
    obtain rfl := harg1.eq_unread hf0; obtain rfl := harg2.eq_unread hf1; obtain rfl := harg3.eq_unread hf2; obtain rfl := harg4.eq_unread hf3
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HO0]; · iexists _; iexact HO0
    iexists _; iexact HS

end Cert.Kernel.Hand

end
-- ==== Proof.KnRun3B.lean ====
import proofs.«133978_g44306882625591_cont_8to1_c_1075_2_alg».proof.Proof.Gen.Kernel.Launch
import proofs.«133978_g44306882625591_cont_8to1_c_1075_2_alg».proof.Proof.Gen.Kernel.Skeleton
import proofs.«133978_g44306882625591_cont_8to1_c_1075_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The body of pallas_call 3 run at a later grid point: the branch is not taken, the carried scratch is read as the point before left it and handed back untouched, and the output block is the adjacency block times it plus the bias row. -/

/-- The body's branch condition from the grid coordinate: "is this the first grid point?", as the printed scalar chain. -/
abbrev cond3B (i : grid3.Coords) : Prop := (Scalar.cmpi .ne (Scalar.extui (Scalar.cmpi .eq (BitVec.ofNat 32 (i 0).val) 0#32)) 0#32) = 1#1

set_option maxHeartbeats 4000000 in
/-- The pieces the body's stores leave in the output block, with the proof that the body, run on whole
    buffers holding the four input blocks, the scratch at the support `xs` (the output at anything), ends holding the inputs as they were,
    the scratch as it was and the output with its pieces written. -/
noncomputable def kernelRun3_B (c : Dev nD) (i : grid3.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S400x10000 .f32) (harg4 : arg4.IsWhole) (arg5 : Memref sig .tc .vmem S400x64 .f32) (harg5 : arg5.IsWhole) (arg6 : Memref sig .tc .vmem S10000x64 .f32) (harg6 : arg6.IsWhole) (hc : ¬cond3B i)
    (x0 : Vec F S10000x64 .f32) (x1 : Vec F S64x64 .f32) (x2 : Vec F S1x64 .f32) (x3 : Vec F S400x10000 .f32) (xs : Vec F S10000x64 .f32) :
    { L0 : List (View.Piece (Elt F) S400x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L0) ∗ owns (c : Thread nD τ) arg6 fullShare xs) -∗ K ⟨⟩))
          ⊢ wp frame (wpE (defs₀ (F := F)) Variants.none c none) E (cc3__gc_kernel i arg1 harg1 arg2 harg2 arg3 harg3 arg4 harg4 arg5 harg5 arg6 harg6) K } := by
  refine ⟨?_, fun E K => ?run⟩
  case run =>
    simp only [cc3__gc_kernel_eq_skeleton]; unfold cc3__gc_kernel_skel
    unfold owns
    iintro ⟨⟨%f0, %hf0, H0⟩, ⟨%f1, %hf1, H1⟩, ⟨%f2, %hf2, H2⟩, ⟨%f3, %hf3, H3⟩, ⟨%d0, %g0, -, HO0⟩, ⟨%fs, %hfs, HS⟩, Hk⟩
    obtain rfl := harg1.eq_unread hf0; obtain rfl := harg2.eq_unread hf1; obtain rfl := harg3.eq_unread hf2; obtain rfl := harg4.eq_unread hf3; obtain rfl := harg6.eq_unread hfs
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HO0]; · iexists _; iexact HO0
    iexists _; isplitr; · ipureintro; exact harg6.read_unread _
    iexact HS

end Cert.Kernel.Hand

end
-- ==== Proof.KnRegion3.lean ====
import proofs.«133978_g44306882625591_cont_8to1_c_1075_2_alg».proof.Proof.KnRun3A
import proofs.«133978_g44306882625591_cont_8to1_c_1075_2_alg».proof.Proof.KnRun3B
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Pallas_call 3 as one region of the program, at any contents `V` of the device's buffers when the region is
    entered. Its grid has 25 points; the features, the weights and the bias row are one block each, fetched once;
    the adjacency matrix is read 400 rows at a time. At the first point the body stores the support (features times
    weights) whole into a scratch buffer that stays put for the rest of the grid; at every point the output block is
    the adjacency block times the support plus the bias row. -/

section Region
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- The first grid point. -/
abbrev t0_3 : Fin cfg3.N := ⟨0, by decide⟩
/-- The branch is taken exactly at the first point. -/
theorem hcond3A : ∀ t : Fin cfg3.N, cond3A (grid3.coords t) ↔ t.val = 0 :=
  (by decide +kernel : ∀ t : Fin grid3.N, cond3A (grid3.coords t) ↔ t.val = 0)
theorem hcond3B : ∀ t : Fin cfg3.N, cond3B (grid3.coords t) ↔ t.val = 0 :=
  (by decide +kernel : ∀ t : Fin grid3.N, cond3B (grid3.coords t) ↔ t.val = 0)

/-- Each window's current buffer at a point, as the pipeline passes it to the body. -/
abbrev ms3_0 (t : Fin cfg3.N) : Memref sig .tc .vmem S10000x64 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S64x64 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x64 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S400x10000 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S400x64 .f32 := win3_4.stage (cfg3.slots t 4)
abbrev hs3_4 (t : Fin cfg3.N) : (ms3_4 t).IsWhole := hstage3_4 ((cfg3.slots t 4).cast nbuf3_4)
/-- The scratch: a whole buffer of the kernel's own, passed beside the windows. -/
abbrev scM3 : Memref sig .tc .vmem S10000x64 .f32 := Memref.whole cc3_scratch0
abbrev VS3 : View sig .tc .vmem S10000x64 .f32 := (scM3).view
abbrev VO3_0 : View sig .tc .vmem S400x64 .f32 := (Memref.whole cc3_stg4_0 : Memref sig .tc .vmem S400x64 .f32).view

/-- The first point's run, on the point's buffers and input blocks. -/
def runA3 (c : Dev nD) := kernelRun3_A (F := F) c (grid3.coords t0_3) (ms3_0 t0_3) (hs3_0 t0_3) (ms3_1 t0_3) (hs3_1 t0_3) (ms3_2 t0_3) (hs3_2 t0_3) (ms3_3 t0_3) (hs3_3 t0_3) (ms3_4 t0_3) (hs3_4 t0_3) scM3 (Memref.isWhole_whole _) ((hcond3A t0_3).mpr rfl) (iblk3 V c 0 t0_3) (iblk3 V c 1 t0_3) (iblk3 V c 2 t0_3) (iblk3 V c 3 t0_3)

theorem scover3 (c : Dev nD) (y : S10000x64.Idx) : ∃ pc ∈ (runA3 V c).2.1, y ∈ pc.1.set :=
  View.cover_of_tiledL (runA3 V c).2.1 S10000x64.size (by unfold runA3; sl_kernel_rfl) y

/-- The support: what the first point leaves in the scratch (its pieces read back), there for every later point. -/
def sup3 (c : Dev nD) : Vec F S10000x64 .f32 := VS3.read (Elt F) (VS3.writes (Elt F) VS3.junk (runA3 V c).2.1)

/-- A later point's run, the scratch at the support. -/
def runB3 (c : Dev nD) (t : Fin cfg3.N) (hz : t.val ≠ 0) := kernelRun3_B (F := F) c (grid3.coords t) (ms3_0 t) (hs3_0 t) (ms3_1 t) (hs3_1 t) (ms3_2 t) (hs3_2 t) (ms3_3 t) (hs3_3 t) (ms3_4 t) (hs3_4 t) scM3 (Memref.isWhole_whole _) (fun h => hz ((hcond3B t).mp h)) (iblk3 V c 0 t) (iblk3 V c 1 t) (iblk3 V c 2 t) (iblk3 V c 3 t) (sup3 V c)

/-- Output 0's block after the body at point `t`: the pieces the point's case leaves, read back. -/
def out3_0 (c : Dev nD) (t : Fin cfg3.N) : Vec F S400x64 .f32 :=
  if hz : t.val = 0 then VO3_0.read (Elt F) (VO3_0.writes (Elt F) VO3_0.junk (runA3 V c).1)
  else VO3_0.read (Elt F) (VO3_0.writes (Elt F) VO3_0.junk (runB3 V c t hz).1)
theorem out3_0_first (c : Dev nD) : out3_0 V c t0_3 = VO3_0.read (Elt F) (VO3_0.writes (Elt F) VO3_0.junk (runA3 V c).1) := dif_pos rfl
theorem out3_0_later (c : Dev nD) (t : Fin cfg3.N) (hz : t.val ≠ 0) : out3_0 V c t = VO3_0.read (Elt F) (VO3_0.writes (Elt F) VO3_0.junk (runB3 V c t hz).1) := dif_neg hz
theorem coverA3_0 (c : Dev nD) (y : S400x64.Idx) : ∃ pc ∈ (runA3 V c).1, y ∈ pc.1.set :=
  View.cover_of_tiledL (runA3 V c).1 S400x64.size (by unfold runA3; sl_kernel_rfl) y
theorem coverB3_0 (c : Dev nD) (t : Fin cfg3.N) (hz : t.val ≠ 0) (y : S400x64.Idx) : ∃ pc ∈ (runB3 V c t hz).1, y ∈ pc.1.set :=
  View.cover_of_tiledL (runB3 V c t hz).1 S400x64.size (by unfold runB3; sl_kernel_rfl) y

/-- The region's invariant before position `n`: before the first point the scoped buffers at anything and the
    generator register at some state; afterwards the same with the scratch at the support. -/
def Phi3 (c : Dev nD) (n : ℕ) : sProp 𝕄 :=
  if n = 0 then Pipeline.ΦA spec3 c
  else iprop(iprop(owns (c : Thread nD τ) scM3 fullShare (sup3 V c)
      ∗ Pipeline.scopedRestBut (Ix := Unit) (Name := ℕ) (U := UR sig nD τ) (Lvl := ℕ) (Val := Elt F) spec3 c [cc3_scratch0]) ∗ (∃ r, prngReg c r))

/-- The entry invariant with the scratch split out of the scoped buffers. -/
theorem PhiA3_eq (c : Dev nD) :
    (Pipeline.ΦA spec3 c : sProp 𝕄)
      = iprop(iprop(iprop((∃ d, owns (c : Thread nD τ) scM3 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

/-- The proof data: the arrays as the region finds them; after the body each input's buffer at its block and the
    output's at the point's result; the invariant above; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_0 V c t
  Φ t := Phi3 V c t.val
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_0 V c t := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

set_option maxHeartbeats 4000000 in
/-- The body at any point: at the first the branch is taken and the scratch leaves at the support; later the scratch
    is found at the support and left there. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl, after3_0, after3_1, after3_2, after3_3, after3_4]
  rw [show (dat3 V c).Φ t.succ = Phi3 V c (t.val + 1) from rfl, show (dat3 V c).Φ t.castSucc = Phi3 V c t.val from rfl]
  rw [show Phi3 V c (t.val + 1) = iprop(iprop(owns (c : Thread nD τ) scM3 fullShare (sup3 V c)
      ∗ Pipeline.scopedRestBut (Ix := Unit) (Name := ℕ) (U := UR sig nD τ) (Lvl := ℕ) (Val := Elt F) spec3 c [cc3_scratch0]) ∗ (∃ r, prngReg c r)) from if_neg (Nat.succ_ne_zero _)]
  by_cases hz : t.val = 0
  · obtain rfl : t = t0_3 := Fin.ext hz
    rw [show Phi3 V c (t0_3).val = Pipeline.ΦA spec3 c from if_pos rfl, PhiA3_eq, out3_0_first]
    iintro ⟨⟨⟨HS, HB⟩, Hg⟩, Ho, ⟨%d0, H0⟩, ⟨%d1, H1⟩, ⟨%d2, H2⟩, ⟨%d3, H3⟩, ⟨%d4, H4⟩⟩
    iapply ((runA3 V c).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS HB Hg]
    · isplitl [HS HB]
      · isplitl [HS]
        · unfold owns sup3; iexists _; isplitr
          swap; · iexact HS
          ipureintro; exact View.read_writes_of_cover _ _ _ _ _ (scover3 V c)
        iexact HB
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverA3_0 V c)
  · rw [show Phi3 V c t.val = iprop(iprop(owns (c : Thread nD τ) scM3 fullShare (sup3 V c)
      ∗ Pipeline.scopedRestBut (Ix := Unit) (Name := ℕ) (U := UR sig nD τ) (Lvl := ℕ) (Val := Elt F) spec3 c [cc3_scratch0]) ∗ (∃ r, prngReg c r)) from if_neg hz, out3_0_later V c t hz]
    iintro ⟨⟨⟨HS, HB⟩, Hg⟩, Ho, ⟨%d0, H0⟩, ⟨%d1, H1⟩, ⟨%d2, H2⟩, ⟨%d3, H3⟩, ⟨%d4, H4⟩⟩
    iapply ((runB3 V c t hz).2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, HS⟩
    isplitl [HS HB Hg]
    · isplitl [HS HB]
      · isplitl [HS]; · iexact HS
        iexact HB
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverB3_0 V c t hz)

/-- The library's body obligation, at every point. -/
theorem body_obligation3 (c : Dev nD) : BodyObligation (dat3 (F := F) V c) (defs₀ (F := F)) Variants.none () Set.univ := fun t => by
  rw [bigSep_W3, bigSep_W3]
  exact sound_body3 V c t

end Region

end Cert.Kernel.Hand

end
-- ==== Proof.KnRun4A.lean ====
import proofs.«133978_g44306882625591_cont_8to1_c_1075_2_alg».proof.Proof.Gen.Kernel.Launch
import proofs.«133978_g44306882625591_cont_8to1_c_1075_2_alg».proof.Proof.Gen.Kernel.Skeleton
import proofs.«133978_g44306882625591_cont_8to1_c_1075_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The body of pallas_call 4 run at the first grid point: the branch is taken, the support (the features, cut off at zero from the second layer on, times the weights) is stored whole into the carried scratch, and the output block is the adjacency block times that support plus the bias row. -/

/-- The body's branch condition from the grid coordinate: "is this the first grid point?", as the printed scalar chain. -/
abbrev cond4A (i : grid4.Coords) : Prop := (Scalar.cmpi .ne (Scalar.extui (Scalar.cmpi .eq (BitVec.ofNat 32 (i 0).val) 0#32)) 0#32) = 1#1

set_option maxHeartbeats 4000000 in
/-- The pieces the body's stores leave in each output block and in the scratch, with the proof that the body, run on whole
    buffers holding the four input blocks (the scratch and the output at anything), ends holding the inputs as they were,
    the scratch with its pieces written and each output with its pieces written. -/
noncomputable def kernelRun4_A (c : Dev nD) (i : grid4.Coords) (arg1 : Memref sig .tc .vmem S10000x64 .f32) (harg1 : arg1.IsWhole) (arg2 : Memref sig .tc .vmem S64x40 .f32) (harg2 : arg2.IsWhole) (arg3 : Memref sig .tc .vmem S1x40 .f32) (harg3 : arg3.IsWhole) (arg4 : Memref sig .tc .vmem S400x10000 .f32) (harg4 : arg4.IsWhole) (arg5 : Memref sig .tc .vmem S400x40 .f32) (harg5 : arg5.IsWhole) (arg6 : Memref sig .tc .vmem S400x40 .f32) (harg6 : arg6.IsWhole) (arg7 : Memref sig .tc .vmem S10000x40 .f32) (harg7 : arg7.IsWhole) (hc : cond4A i)
    (x0 : Vec F S10000x64 .f32) (x1 : Vec F S64x40 .f32) (x2 : Vec F S1x40 .f32) (x3 : Vec F S400x10000 .f32) :
    Σ' (L0 : List (View.Piece (Elt F) S400x40 .f32)) (L1 : List (View.Piece (Elt F) S400x40 .f32)), { LS : List (View.Piece (Elt F) S10000x40 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L0) ∗ (∃ f, arg6.view.loc (c : Thread nD τ) ↦[arg6.view.set]{fullShare} arg6.view.writes (Elt F) f L1) ∗ (∃ f, arg7.view.loc (c : Thread nD τ) ↦[arg7.view.set]{fullShare} arg7.view.writes (Elt F) f LS)) -∗ K ⟨⟩))
          ⊢ wp frame (wpE (defs₀ (F := F)) Variants.none c none) E (cc4__gc_final_kernel i arg1 harg1 arg2 harg2 arg3 harg3 arg4 harg4 arg5 harg5 arg6 harg6 arg7 harg7) K } := by
  refine ⟨?_, ?_, ?_, fun E K => ?run⟩
  case run =>
    simp only [cc4__gc_final_kernel_eq_skeleton]; unfold cc4__gc_final_kernel_skel
    unfold owns
    iintro ⟨⟨%f0, %hf0, H0⟩, ⟨%f1, %hf1, H1⟩, ⟨%f2, %hf2, H2⟩, ⟨%f3, %hf3, H3⟩, ⟨%d0, %g0, -, HO0⟩, ⟨%d1, %g1, -, HO1⟩, ⟨%ds, %fs, -, HS⟩, Hk⟩
    obtain rfl := harg1.eq_unread hf0; obtain rfl := harg2.eq_unread hf1; obtain rfl := harg3.eq_unread hf2; obtain rfl := harg4.eq_unread hf3
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HO0]; · iexists _; iexact HO0
    isplitl [HO1]; · iexists _; iexact HO1
    iexists _; iexact HS

end Cert.Kernel.Hand

end
-- ==== Proof.KnRun4B.lean ====
import proofs.«133978_g44306882625591_cont_8to1_c_1075_2_alg».proof.Proof.Gen.Kernel.Launch
import proofs.«133978_g44306882625591_cont_8to1_c_1075_2_alg».proof.Proof.Gen.Kernel.Skeleton
import proofs.«133978_g44306882625591_cont_8to1_c_1075_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The body of pallas_call 4 run at a later grid point: the branch is not taken, the carried scratch is read as the point before left it and handed back untouched, and the output block is the adjacency block times it plus the bias row. -/

/-- The body's branch condition from the grid coordinate: "is this the first grid point?", as the printed scalar chain. -/
abbrev cond4B (i : grid4.Coords) : Prop := (Scalar.cmpi .ne (Scalar.extui (Scalar.cmpi .eq (BitVec.ofNat 32 (i 0).val) 0#32)) 0#32) = 1#1

set_option maxHeartbeats 4000000 in
/-- The pieces the body's stores leave in each output block, with the proof that the body, run on whole
    buffers holding the four input blocks, the scratch at the support `xs` (the output at anything), ends holding the inputs as they were,
    the scratch as it was and each output with its pieces written. -/
noncomputable def kernelRun4_B (c : Dev nD) (i : grid4.Coords) (arg1 : Memref sig .tc .vmem S10000x64 .f32) (harg1 : arg1.IsWhole) (arg2 : Memref sig .tc .vmem S64x40 .f32) (harg2 : arg2.IsWhole) (arg3 : Memref sig .tc .vmem S1x40 .f32) (harg3 : arg3.IsWhole) (arg4 : Memref sig .tc .vmem S400x10000 .f32) (harg4 : arg4.IsWhole) (arg5 : Memref sig .tc .vmem S400x40 .f32) (harg5 : arg5.IsWhole) (arg6 : Memref sig .tc .vmem S400x40 .f32) (harg6 : arg6.IsWhole) (arg7 : Memref sig .tc .vmem S10000x40 .f32) (harg7 : arg7.IsWhole) (hc : ¬cond4B i)
    (x0 : Vec F S10000x64 .f32) (x1 : Vec F S64x40 .f32) (x2 : Vec F S1x40 .f32) (x3 : Vec F S400x10000 .f32) (xs : Vec F S10000x40 .f32) :
    Σ' (L0 : List (View.Piece (Elt F) S400x40 .f32)), { L1 : List (View.Piece (Elt F) S400x40 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L0) ∗ (∃ f, arg6.view.loc (c : Thread nD τ) ↦[arg6.view.set]{fullShare} arg6.view.writes (Elt F) f L1) ∗ owns (c : Thread nD τ) arg7 fullShare xs) -∗ K ⟨⟩))
          ⊢ wp frame (wpE (defs₀ (F := F)) Variants.none c none) E (cc4__gc_final_kernel i arg1 harg1 arg2 harg2 arg3 harg3 arg4 harg4 arg5 harg5 arg6 harg6 arg7 harg7) K } := by
  refine ⟨?_, ?_, fun E K => ?run⟩
  case run =>
    simp only [cc4__gc_final_kernel_eq_skeleton]; unfold cc4__gc_final_kernel_skel
    unfold owns
    iintro ⟨⟨%f0, %hf0, H0⟩, ⟨%f1, %hf1, H1⟩, ⟨%f2, %hf2, H2⟩, ⟨%f3, %hf3, H3⟩, ⟨%d0, %g0, -, HO0⟩, ⟨%d1, %g1, -, HO1⟩, ⟨%fs, %hfs, HS⟩, Hk⟩
    obtain rfl := harg1.eq_unread hf0; obtain rfl := harg2.eq_unread hf1; obtain rfl := harg3.eq_unread hf2; obtain rfl := harg4.eq_unread hf3; obtain rfl := harg7.eq_unread hfs
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HO0]; · iexists _; iexact HO0
    isplitl [HO1]; · iexists _; iexact HO1
    iexists _; isplitr; · ipureintro; exact harg7.read_unread _
    iexact HS

end Cert.Kernel.Hand

end
-- ==== Proof.KnRegion4.lean ====
import proofs.«133978_g44306882625591_cont_8to1_c_1075_2_alg».proof.Proof.KnRun4A
import proofs.«133978_g44306882625591_cont_8to1_c_1075_2_alg».proof.Proof.KnRun4B
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Pallas_call 4 as one region of the program, at any contents `V` of the device's buffers when the region is
    entered. Its grid has 25 points; the features, the weights and the bias row are one block each, fetched once;
    the adjacency matrix is read 400 rows at a time. At the first point the body stores the support (features times
    weights) whole into a scratch buffer that stays put for the rest of the grid; at every point the output block is
    the adjacency block times the support plus the bias row. -/

section Region
variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- The first grid point. -/
abbrev t0_4 : Fin cfg4.N := ⟨0, by decide⟩
/-- The branch is taken exactly at the first point. -/
theorem hcond4A : ∀ t : Fin cfg4.N, cond4A (grid4.coords t) ↔ t.val = 0 :=
  (by decide +kernel : ∀ t : Fin grid4.N, cond4A (grid4.coords t) ↔ t.val = 0)
theorem hcond4B : ∀ t : Fin cfg4.N, cond4B (grid4.coords t) ↔ t.val = 0 :=
  (by decide +kernel : ∀ t : Fin grid4.N, cond4B (grid4.coords t) ↔ t.val = 0)

/-- Each window's current buffer at a point, as the pipeline passes it to the body. -/
abbrev ms4_0 (t : Fin cfg4.N) : Memref sig .tc .vmem S10000x64 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S64x40 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x40 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S400x10000 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S400x40 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S400x40 .f32 := win4_5.stage (cfg4.slots t 5)
abbrev hs4_5 (t : Fin cfg4.N) : (ms4_5 t).IsWhole := hstage4_5 ((cfg4.slots t 5).cast nbuf4_5)
/-- The scratch: a whole buffer of the kernel's own, passed beside the windows. -/
abbrev scM4 : Memref sig .tc .vmem S10000x40 .f32 := Memref.whole cc4_scratch0
abbrev VS4 : View sig .tc .vmem S10000x40 .f32 := (scM4).view
abbrev VO4_0 : View sig .tc .vmem S400x40 .f32 := (Memref.whole cc4_stg4_0 : Memref sig .tc .vmem S400x40 .f32).view
abbrev VO4_1 : View sig .tc .vmem S400x40 .f32 := (Memref.whole cc4_stg5_0 : Memref sig .tc .vmem S400x40 .f32).view

/-- The first point's run, on the point's buffers and input blocks. -/
def runA4 (c : Dev nD) := kernelRun4_A (F := F) c (grid4.coords t0_4) (ms4_0 t0_4) (hs4_0 t0_4) (ms4_1 t0_4) (hs4_1 t0_4) (ms4_2 t0_4) (hs4_2 t0_4) (ms4_3 t0_4) (hs4_3 t0_4) (ms4_4 t0_4) (hs4_4 t0_4) (ms4_5 t0_4) (hs4_5 t0_4) scM4 (Memref.isWhole_whole _) ((hcond4A t0_4).mpr rfl) (iblk4 V c 0 t0_4) (iblk4 V c 1 t0_4) (iblk4 V c 2 t0_4) (iblk4 V c 3 t0_4)

theorem scover4 (c : Dev nD) (y : S10000x40.Idx) : ∃ pc ∈ (runA4 V c).2.2.1, y ∈ pc.1.set :=
  View.cover_of_tiledL (runA4 V c).2.2.1 S10000x40.size (by unfold runA4; sl_kernel_rfl) y

/-- The support: what the first point leaves in the scratch (its pieces read back), there for every later point. -/
def sup4 (c : Dev nD) : Vec F S10000x40 .f32 := VS4.read (Elt F) (VS4.writes (Elt F) VS4.junk (runA4 V c).2.2.1)

/-- A later point's run, the scratch at the support. -/
def runB4 (c : Dev nD) (t : Fin cfg4.N) (hz : t.val ≠ 0) := kernelRun4_B (F := F) c (grid4.coords t) (ms4_0 t) (hs4_0 t) (ms4_1 t) (hs4_1 t) (ms4_2 t) (hs4_2 t) (ms4_3 t) (hs4_3 t) (ms4_4 t) (hs4_4 t) (ms4_5 t) (hs4_5 t) scM4 (Memref.isWhole_whole _) (fun h => hz ((hcond4B t).mp h)) (iblk4 V c 0 t) (iblk4 V c 1 t) (iblk4 V c 2 t) (iblk4 V c 3 t) (sup4 V c)

/-- Output 0's block after the body at point `t`: the pieces the point's case leaves, read back. -/
def out4_0 (c : Dev nD) (t : Fin cfg4.N) : Vec F S400x40 .f32 :=
  if hz : t.val = 0 then VO4_0.read (Elt F) (VO4_0.writes (Elt F) VO4_0.junk (runA4 V c).1)
  else VO4_0.read (Elt F) (VO4_0.writes (Elt F) VO4_0.junk (runB4 V c t hz).1)
theorem out4_0_first (c : Dev nD) : out4_0 V c t0_4 = VO4_0.read (Elt F) (VO4_0.writes (Elt F) VO4_0.junk (runA4 V c).1) := dif_pos rfl
theorem out4_0_later (c : Dev nD) (t : Fin cfg4.N) (hz : t.val ≠ 0) : out4_0 V c t = VO4_0.read (Elt F) (VO4_0.writes (Elt F) VO4_0.junk (runB4 V c t hz).1) := dif_neg hz
theorem coverA4_0 (c : Dev nD) (y : S400x40.Idx) : ∃ pc ∈ (runA4 V c).1, y ∈ pc.1.set :=
  View.cover_of_tiledL (runA4 V c).1 S400x40.size (by unfold runA4; sl_kernel_rfl) y
theorem coverB4_0 (c : Dev nD) (t : Fin cfg4.N) (hz : t.val ≠ 0) (y : S400x40.Idx) : ∃ pc ∈ (runB4 V c t hz).1, y ∈ pc.1.set :=
  View.cover_of_tiledL (runB4 V c t hz).1 S400x40.size (by unfold runB4; sl_kernel_rfl) y
/-- Output 1's block after the body at point `t`: the pieces the point's case leaves, read back. -/
def out4_1 (c : Dev nD) (t : Fin cfg4.N) : Vec F S400x40 .f32 :=
  if hz : t.val = 0 then VO4_1.read (Elt F) (VO4_1.writes (Elt F) VO4_1.junk (runA4 V c).2.1)
  else VO4_1.read (Elt F) (VO4_1.writes (Elt F) VO4_1.junk (runB4 V c t hz).2.1)
theorem out4_1_first (c : Dev nD) : out4_1 V c t0_4 = VO4_1.read (Elt F) (VO4_1.writes (Elt F) VO4_1.junk (runA4 V c).2.1) := dif_pos rfl
theorem out4_1_later (c : Dev nD) (t : Fin cfg4.N) (hz : t.val ≠ 0) : out4_1 V c t = VO4_1.read (Elt F) (VO4_1.writes (Elt F) VO4_1.junk (runB4 V c t hz).2.1) := dif_neg hz
theorem coverA4_1 (c : Dev nD) (y : S400x40.Idx) : ∃ pc ∈ (runA4 V c).2.1, y ∈ pc.1.set :=
  View.cover_of_tiledL (runA4 V c).2.1 S400x40.size (by unfold runA4; sl_kernel_rfl) y
theorem coverB4_1 (c : Dev nD) (t : Fin cfg4.N) (hz : t.val ≠ 0) (y : S400x40.Idx) : ∃ pc ∈ (runB4 V c t hz).2.1, y ∈ pc.1.set :=
  View.cover_of_tiledL (runB4 V c t hz).2.1 S400x40.size (by unfold runB4; sl_kernel_rfl) y

/-- The region's invariant before position `n`: before the first point the scoped buffers at anything and the
    generator register at some state; afterwards the same with the scratch at the support. -/
def Phi4 (c : Dev nD) (n : ℕ) : sProp 𝕄 :=
  if n = 0 then Pipeline.ΦA spec4 c
  else iprop(iprop(owns (c : Thread nD τ) scM4 fullShare (sup4 V c)
      ∗ Pipeline.scopedRestBut (Ix := Unit) (Name := ℕ) (U := UR sig nD τ) (Lvl := ℕ) (Val := Elt F) spec4 c [cc4_scratch0]) ∗ (∃ r, prngReg c r))

/-- The entry invariant with the scratch split out of the scoped buffers. -/
theorem PhiA4_eq (c : Dev nD) :
    (Pipeline.ΦA spec4 c : sProp 𝕄)
      = iprop(iprop(iprop((∃ d, owns (c : Thread nD τ) scM4 fullShare d))
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4, owns_whole]; try rfl

/-- The proof data: the arrays as the region finds them; after the body each input's buffer at its block and the
    output's at the point's result; the invariant above; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_0 V c t
    | ⟨5, _⟩ => out4_1 V c t
  Φ t := Phi4 V c t.val
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = out4_0 V c t := by dsimp only [dat4]
theorem after4_5 (c : Dev nD) (t : Fin cfg4.N) : (dat4 V c).after 5 t = out4_1 V c t := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

set_option maxHeartbeats 4000000 in
/-- The body at any point: at the first the branch is taken and the scratch leaves at the support; later the scratch
    is found at the support and left there. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl, after4_0, after4_1, after4_2, after4_3, after4_4, after4_5]
  rw [show (dat4 V c).Φ t.succ = Phi4 V c (t.val + 1) from rfl, show (dat4 V c).Φ t.castSucc = Phi4 V c t.val from rfl]
  rw [show Phi4 V c (t.val + 1) = iprop(iprop(owns (c : Thread nD τ) scM4 fullShare (sup4 V c)
      ∗ Pipeline.scopedRestBut (Ix := Unit) (Name := ℕ) (U := UR sig nD τ) (Lvl := ℕ) (Val := Elt F) spec4 c [cc4_scratch0]) ∗ (∃ r, prngReg c r)) from if_neg (Nat.succ_ne_zero _)]
  by_cases hz : t.val = 0
  · obtain rfl : t = t0_4 := Fin.ext hz
    rw [show Phi4 V c (t0_4).val = Pipeline.ΦA spec4 c from if_pos rfl, PhiA4_eq, out4_0_first, out4_1_first]
    iintro ⟨⟨⟨HS, HB⟩, Hg⟩, Ho, ⟨%d0, H0⟩, ⟨%d1, H1⟩, ⟨%d2, H2⟩, ⟨%d3, H3⟩, ⟨%d4, H4⟩, ⟨%d5, H5⟩⟩
    iapply ((runA4 V c).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, ⟨%e4, H4⟩, ⟨%e5, H5⟩, ⟨%es, HS⟩⟩
    isplitl [HS HB Hg]
    · isplitl [HS HB]
      · isplitl [HS]
        · unfold owns sup4; iexists _; isplitr
          swap; · iexact HS
          ipureintro; exact View.read_writes_of_cover _ _ _ _ _ (scover4 V c)
        iexact HB
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverA4_0 V c)
    unfold owns; iexists _; isplitr
    swap; · iexact H5
    ipureintro; exact View.read_writes_of_cover _ _ _ _ _ (coverA4_1 V c)
  · rw [show Phi4 V c t.val = iprop(iprop(owns (c : Thread nD τ) scM4 fullShare (sup4 V c)
      ∗ Pipeline.scopedRestBut (Ix := Unit) (Name := ℕ) (U := UR sig nD τ) (Lvl := ℕ) (Val := Elt F) spec4 c [cc4_scratch0]) ∗ (∃ r, prngReg c r)) from if_neg hz, out4_0_later V c t hz, out4_1_later V c t hz]
    iintro ⟨⟨⟨HS, HB⟩, Hg⟩, Ho, ⟨%d0, H0⟩, ⟨%d1, H1⟩, ⟨%d2, H2⟩, ⟨%d3, H3⟩, ⟨%d4, H4⟩, ⟨%d5, H5⟩⟩
    iapply ((runB4 V c t hz).2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, ⟨%e4, H4⟩, ⟨%e5, H5⟩, HS⟩
    isplitl [HS HB Hg]
    · isplitl [HS HB]
      · isplitl [HS]; · iexact HS
        iexact HB
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverB4_0 V c t hz)
    unfold owns; iexists _; isplitr
    swap; · iexact H5
    ipureintro; exact View.read_writes_of_cover _ _ _ _ _ (coverB4_1 V c t hz)

/-- The library's body obligation, at every point. -/
theorem body_obligation4 (c : Dev nD) : BodyObligation (dat4 (F := F) V c) (defs₀ (F := F)) Variants.none () Set.univ := fun t => by
  rw [bigSep_W4, bigSep_W4]
  exact sound_body4 V c t

end Region

end Cert.Kernel.Hand

end
-- ==== Proof.KnRunAll.lean ====
import proofs.«133978_g44306882625591_cont_8to1_c_1075_2_alg».proof.Proof.KnRegion0
import proofs.«133978_g44306882625591_cont_8to1_c_1075_2_alg».proof.Proof.KnRegion1
import proofs.«133978_g44306882625591_cont_8to1_c_1075_2_alg».proof.Proof.KnRegion2
import proofs.«133978_g44306882625591_cont_8to1_c_1075_2_alg».proof.Proof.KnRegion3
import proofs.«133978_g44306882625591_cont_8to1_c_1075_2_alg».proof.Proof.KnRegion4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The whole program as a run of segments: one stretch of host operations (the five bias vectors re-laid as rows),
    then the five regions in order, each entered from what the one before left. The contents of every unscoped buffer
    at each segment boundary are named (a fold from the launch memory), and the run's post reads every unscoped
    buffer off the last of them. -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves, every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- At region 3's exit: its arrays at what the pipeline leaves, every other buffer as entered. -/
def W5 (c : Dev nD) : Valuation τ sig (Elt F) :=
  Pipeline.withArrays spec3 c (W4 m ρ c) fun w => (dat3 (V4 m ρ) c).arrAt w cfg3.N
theorem W5_arr (c : Dev nD) (w : Fin cfg3.W) :
    W5 m ρ c (Proc.devRef .tc (Pipeline.arrRef spec3 w)) = (dat3 (V4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
abbrev V5 : (c : Dev nD) → (b : Ref sig .tc) → Buf (Elt F) ((c : Thread nD τ).loc b) := fun c b => W5 m ρ c b
theorem hF3 (c : Dev nD) (w : Fin cfg3.W) : (dat3 (V4 m ρ) c).arrAt w cfg3.N = V5 m ρ c (Pipeline.arrRef spec3 w) :=
  (W5_arr m ρ c w).symm
theorem hrest3 (c : Dev nD) : ∀ b, b ∉ Finset.univ.image (Pipeline.arrRef spec3) → V5 m ρ c b = V4 m ρ c b :=
  fun b hb => W5_of_ne m ρ c b fun w e => hb (Finset.mem_image.mpr ⟨w, Finset.mem_univ _, e⟩)

/-- At region 4's exit: its arrays at what the pipeline leaves, every other buffer as entered. -/
def W6 (c : Dev nD) : Valuation τ sig (Elt F) :=
  Pipeline.withArrays spec4 c (W5 m ρ c) fun w => (dat4 (V5 m ρ) c).arrAt w cfg4.N
theorem W6_arr (c : Dev nD) (w : Fin cfg4.W) :
    W6 m ρ c (Proc.devRef .tc (Pipeline.arrRef spec4 w)) = (dat4 (V5 m ρ) c).arrAt w cfg4.N := by
  unfold W6; exact Pipeline.withArrays_arr spec4 launch4.win.arr_inj c _ _ w
theorem W6_of_ne (c : Dev nD) (b : Ref sig .tc) (hb : ∀ w, Pipeline.arrRef spec4 w ≠ b) :
    W6 m ρ c (Proc.devRef .tc b) = W5 m ρ c (Proc.devRef .tc b) := by
  unfold W6; exact Pipeline.withArrays_of_ne spec4 c _ _ b hb
abbrev V6 : (c : Dev nD) → (b : Ref sig .tc) → Buf (Elt F) ((c : Thread nD τ).loc b) := fun c b => W6 m ρ c b
theorem hF4 (c : Dev nD) (w : Fin cfg4.W) : (dat4 (V5 m ρ) c).arrAt w cfg4.N = V6 m ρ c (Pipeline.arrRef spec4 w) :=
  (W6_arr m ρ c w).symm
theorem hrest4 (c : Dev nD) : ∀ b, b ∉ Finset.univ.image (Pipeline.arrRef spec4) → V6 m ρ c b = V5 m ρ c b :=
  fun b hb => W6_of_ne m ρ c b fun w e => hb (Finset.mem_image.mpr ⟨w, Finset.mem_univ _, e⟩)

/-- No pallas_call has a prefetched table. -/
abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V4 m ρ) c
  | ⟨4, _⟩ => fun c => dat4 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

set_option backward.isDefEq.respectTransparency.types false in
/-- Region 0 over the thread state "every unscoped buffer at the boundary's contents, the generator register at
    some state, nothing owed": its arrays split out of the unscoped buffers and put back at the exit contents; the
    generator register and the scoped buffers into the region's invariant and out, the scratch forgotten at the end. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = iprop(iprop(owns (c : Thread nD τ) scM0 fullShare (sup0 (V1 m ρ) c)
      ∗ Pipeline.scopedRestBut (Ix := Unit) (Name := ℕ) (U := UR sig nD τ) (Lvl := ℕ) (Val := Elt F) spec0 c [cc0_scratch0]) ∗ (∃ r, prngReg c r)) from rfl]
    iintro ⟨⟨HS, HB⟩, Hp⟩
    isplitl [Hp]; · iexact Hp
    isplitr; · iempintro
    iapply (show iprop(iprop(∃ f : Buf (Elt F) ((c : Thread nD τ).loc cc0_scratch0), ((c : Thread nD τ).loc cc0_scratch0) ↦{fullShare} f)
          ∗ Pipeline.scopedRestBut (Ix := Unit) (Name := ℕ) (U := UR sig nD τ) (Lvl := ℕ) (Val := Elt F) spec0 c [cc0_scratch0])
        ⊢ (Pipeline.scopedRest (Ix := Unit) (Name := ℕ) (U := UR sig nD τ) (Lvl := ℕ) (Val := Elt F) spec0 c : sProp 𝕄) from by
      rw [scopedRest0_split])
    isplitl [HS]
    · simp only [scM0, owns_whole]; iexists _; iexact HS
    iexact HB
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at
    some state, nothing owed": its arrays split out of the unscoped buffers and put back at the exit contents; the
    generator register and the scoped buffers into the region's invariant and out, the scratch forgotten at the end. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = iprop(iprop(owns (c : Thread nD τ) scM1 fullShare (sup1 (V2 m ρ) c)
      ∗ Pipeline.scopedRestBut (Ix := Unit) (Name := ℕ) (U := UR sig nD τ) (Lvl := ℕ) (Val := Elt F) spec1 c [cc1_scratch0]) ∗ (∃ r, prngReg c r)) from rfl]
    iintro ⟨⟨HS, HB⟩, Hp⟩
    isplitl [Hp]; · iexact Hp
    isplitr; · iempintro
    iapply (show iprop(iprop(∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0])
        ⊢ (Pipeline.scopedRest (Ix := Unit) (Name := ℕ) (U := UR sig nD τ) (Lvl := ℕ) (Val := Elt F) spec1 c : sProp 𝕄) from by
      rw [scopedRest1_split])
    isplitl [HS]
    · simp only [scM1, owns_whole]; iexists _; iexact HS
    iexact HB
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state "every unscoped buffer at the boundary's contents, the generator register at
    some state, nothing owed": its arrays split out of the unscoped buffers and put back at the exit contents; the
    generator register and the scoped buffers into the region's invariant and out, the scratch forgotten at the end. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = iprop(iprop(owns (c : Thread nD τ) scM2 fullShare (sup2 (V3 m ρ) c)
      ∗ Pipeline.scopedRestBut (Ix := Unit) (Name := ℕ) (U := UR sig nD τ) (Lvl := ℕ) (Val := Elt F) spec2 c [cc2_scratch0]) ∗ (∃ r, prngReg c r)) from rfl]
    iintro ⟨⟨HS, HB⟩, Hp⟩
    isplitl [Hp]; · iexact Hp
    isplitr; · iempintro
    iapply (show iprop(iprop(∃ f : Buf (Elt F) ((c : Thread nD τ).loc cc2_scratch0), ((c : Thread nD τ).loc cc2_scratch0) ↦{fullShare} f)
          ∗ Pipeline.scopedRestBut (Ix := Unit) (Name := ℕ) (U := UR sig nD τ) (Lvl := ℕ) (Val := Elt F) spec2 c [cc2_scratch0])
        ⊢ (Pipeline.scopedRest (Ix := Unit) (Name := ℕ) (U := UR sig nD τ) (Lvl := ℕ) (Val := Elt F) spec2 c : sProp 𝕄) from by
      rw [scopedRest2_split])
    isplitl [HS]
    · simp only [scM2, owns_whole]; iexists _; iexact HS
    iexact HB
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state "every unscoped buffer at the boundary's contents, the generator register at
    some state, nothing owed": its arrays split out of the unscoped buffers and put back at the exit contents; the
    generator register and the scoped buffers into the region's invariant and out, the scratch forgotten at the end. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec3 c (V4 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = iprop(iprop(owns (c : Thread nD τ) scM3 fullShare (sup3 (V4 m ρ) c)
      ∗ Pipeline.scopedRestBut (Ix := Unit) (Name := ℕ) (U := UR sig nD τ) (Lvl := ℕ) (Val := Elt F) spec3 c [cc3_scratch0]) ∗ (∃ r, prngReg c r)) from rfl]
    iintro ⟨⟨HS, HB⟩, Hp⟩
    isplitl [Hp]; · iexact Hp
    isplitr; · iempintro
    iapply (show iprop(iprop(∃ f : Buf (Elt F) ((c : Thread nD τ).loc cc3_scratch0), ((c : Thread nD τ).loc cc3_scratch0) ↦{fullShare} f)
          ∗ Pipeline.scopedRestBut (Ix := Unit) (Name := ℕ) (U := UR sig nD τ) (Lvl := ℕ) (Val := Elt F) spec3 c [cc3_scratch0])
        ⊢ (Pipeline.scopedRest (Ix := Unit) (Name := ℕ) (U := UR sig nD τ) (Lvl := ℕ) (Val := Elt F) spec3 c : sProp 𝕄) from by
      rw [scopedRest3_split])
    isplitl [HS]
    · simp only [scM3, owns_whole]; iexists _; iexact HS
    iexact HB
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V4 m ρ c) (V5 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state "every unscoped buffer at the boundary's contents, the generator register at
    some state, nothing owed": its arrays split out of the unscoped buffers and put back at the exit contents; the
    generator register and the scoped buffers into the region's invariant and out, the scratch forgotten at the end. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V5 m ρ) c).loose
  hwaits := Pipeline.hwaits_of_owed_zero _ _ _ _ L lv 4 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V5 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = iprop(iprop(owns (c : Thread nD τ) scM4 fullShare (sup4 (V5 m ρ) c)
      ∗ Pipeline.scopedRestBut (Ix := Unit) (Name := ℕ) (U := UR sig nD τ) (Lvl := ℕ) (Val := Elt F) spec4 c [cc4_scratch0]) ∗ (∃ r, prngReg c r)) from rfl]
    iintro ⟨⟨HS, HB⟩, Hp⟩
    isplitl [Hp]; · iexact Hp
    isplitr; · iempintro
    iapply (show iprop(iprop(∃ f : Buf (Elt F) ((c : Thread nD τ).loc cc4_scratch0), ((c : Thread nD τ).loc cc4_scratch0) ↦{fullShare} f)
          ∗ Pipeline.scopedRestBut (Ix := Unit) (Name := ℕ) (U := UR sig nD τ) (Lvl := ℕ) (Val := Elt F) spec4 c [cc4_scratch0])
        ⊢ (Pipeline.scopedRest (Ix := Unit) (Name := ℕ) (U := UR sig nD τ) (Lvl := ℕ) (Val := Elt F) spec4 c : sProp 𝕄) from by
      rw [scopedRest4_split])
    isplitl [HS]
    · simp only [scM4, owns_whole]; iexists _; iexact HS
    iexact HB
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V5 m ρ c) (V6 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh' (W0 m ρ)),
    .region (reg0 m ρ), .region (reg1 m ρ), .region (reg2 m ρ), .region (reg3 m ρ), .region (reg4 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing faulting, and
    every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Cert.Kernel.Hand

end
-- ==== Proof.KnFrame.lean ====
import proofs.«133978_g44306882625591_cont_8to1_c_1075_2_alg».proof.Proof.KnRunAll
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The frame: every argument array ends as launched. Each is read off the last boundary's contents and walked back
    through the five regions (an input window's array is left as found; any other buffer bypasses the region) and the
    host stretch (which writes only the re-laid bias rows) to the launch memory. -/

variable (m : (ℓ : Loc nD τ sig) → Buf (Elt F) ℓ) (ρ : Dev nD → PrngReg)

/-- `main_arg0` reaches the end as launched: no host operation writes it, and a region reads it through an input window or bypasses it. -/
theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := W5_of_ne m ρ c main_arg0 (by decide)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- `main_arg1` reaches the end as launched: no host operation writes it, and a region reads it through an input window or bypasses it. -/
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := (W6_arr m ρ c 3).trans (((dat4 (V5 m ρ) c).arrAt_in 3 rfl _).trans (A_eq4 (V5 m ρ) c 3))
    _ = W4 m ρ c (Proc.devRef .tc main_arg1) := (W5_arr m ρ c 3).trans (((dat3 (V4 m ρ) c).arrAt_in 3 rfl _).trans (A_eq3 (V4 m ρ) c 3))
    _ = W3 m ρ c (Proc.devRef .tc main_arg1) := (W4_arr m ρ c 3).trans (((dat2 (V3 m ρ) c).arrAt_in 3 rfl _).trans (A_eq2 (V3 m ρ) c 3))
    _ = W2 m ρ c (Proc.devRef .tc main_arg1) := (W3_arr m ρ c 3).trans (((dat1 (V2 m ρ) c).arrAt_in 3 rfl _).trans (A_eq1 (V2 m ρ) c 3))
    _ = W1 m ρ c (Proc.devRef .tc main_arg1) := (W2_arr m ρ c 3).trans (((dat0 (V1 m ρ) c).arrAt_in 3 rfl _).trans (A_eq0 (V1 m ρ) c 3))
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- `main_arg2` reaches the end as launched: no host operation writes it, and a region reads it through an input window or bypasses it. -/
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := W5_of_ne m ρ c main_arg2 (by decide)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- `main_arg3` reaches the end as launched: no host operation writes it, and a region reads it through an input window or bypasses it. -/
theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := W5_of_ne m ρ c main_arg3 (by decide)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- `main_arg4` reaches the end as launched: no host operation writes it, and a region reads it through an input window or bypasses it. -/
theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := W5_of_ne m ρ c main_arg4 (by decide)
    _ = W3 m ρ c (Proc.devRef .tc main_arg4) := W4_of_ne m ρ c main_arg4 (by decide)
    _ = W2 m ρ c (Proc.devRef .tc main_arg4) := (W3_arr m ρ c 1).trans (((dat1 (V2 m ρ) c).arrAt_in 1 rfl _).trans (A_eq1 (V2 m ρ) c 1))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- `main_arg5` reaches the end as launched: no host operation writes it, and a region reads it through an input window or bypasses it. -/
theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := W5_of_ne m ρ c main_arg5 (by decide)
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-- `main_arg6` reaches the end as launched: no host operation writes it, and a region reads it through an input window or bypasses it. -/
theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := W5_of_ne m ρ c main_arg6 (by decide)
    _ = W3 m ρ c (Proc.devRef .tc main_arg6) := (W4_arr m ρ c 1).trans (((dat2 (V3 m ρ) c).arrAt_in 1 rfl _).trans (A_eq2 (V3 m ρ) c 1))
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-- `main_arg7` reaches the end as launched: no host operation writes it, and a region reads it through an input window or bypasses it. -/
theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := W5_of_ne m ρ c main_arg7 (by decide)
    _ = W3 m ρ c (Proc.devRef .tc main_arg7) := W4_of_ne m ρ c main_arg7 (by decide)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

/-- `main_arg8` reaches the end as launched: no host operation writes it, and a region reads it through an input window or bypasses it. -/
theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := (W5_arr m ρ c 1).trans (((dat3 (V4 m ρ) c).arrAt_in 1 rfl _).trans (A_eq3 (V4 m ρ) c 1))
    _ = W3 m ρ c (Proc.devRef .tc main_arg8) := W4_of_ne m ρ c main_arg8 (by decide)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

/-- `main_arg9` reaches the end as launched: no host operation writes it, and a region reads it through an input window or bypasses it. -/
theorem W6_main_arg9 (c : Dev nD) : W6 m ρ c (Proc.devRef .tc main_arg9) = m ((c : Thread nD τ).loc main_arg9) :=
  calc W6 m ρ c (Proc.devRef .tc main_arg9)
    _ = W5 m ρ c (Proc.devRef .tc main_arg9) := W6_of_ne m ρ c main_arg9 (by decide)
    _ = W4 m ρ c (Proc.devRef .tc main_arg9) := W5_of_ne m ρ c main_arg9 (by decide)
    _ = W3 m ρ c (Proc.devRef .tc main_arg9) := W4_of_ne m ρ c main_arg9 (by decide)
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

/-- `main_arg10` reaches the end as launched: no host operation writes it, and a region reads it through an input window or bypasses it. -/
theorem W6_main_arg10 (c : Dev nD) : W6 m ρ c (Proc.devRef .tc main_arg10) = m ((c : Thread nD τ).loc main_arg10) :=
  calc W6 m ρ c (Proc.devRef .tc main_arg10)
    _ = W5 m ρ c (Proc.devRef .tc main_arg10) := (W6_arr m ρ c 1).trans (((dat4 (V5 m ρ) c).arrAt_in 1 rfl _).trans (A_eq4 (V5 m ρ) c 1))
    _ = W4 m ρ c (Proc.devRef .tc main_arg10) := W5_of_ne m ρ c main_arg10 (by decide)
    _ = W3 m ρ c (Proc.devRef .tc main_arg10) := W4_of_ne m ρ c main_arg10 (by decide)
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

/-- `main_arg11` reaches the end as launched: no host operation writes it, and a region reads it through an input window or bypasses it. -/
theorem W6_main_arg11 (c : Dev nD) : W6 m ρ c (Proc.devRef .tc main_arg11) = m ((c : Thread nD τ).loc main_arg11) :=
  calc W6 m ρ c (Proc.devRef .tc main_arg11)
    _ = W5 m ρ c (Proc.devRef .tc main_arg11) := W6_of_ne m ρ c main_arg11 (by decide)
    _ = W4 m ρ c (Proc.devRef .tc main_arg11) := W5_of_ne m ρ c main_arg11 (by decide)
    _ = W3 m ρ c (Proc.devRef .tc main_arg11) := W4_of_ne m ρ c main_arg11 (by decide)
    _ = W2 m ρ c (Proc.devRef .tc main_arg11) := W3_of_ne m ρ c main_arg11 (by decide)
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

/-- From any memory with zero counters every weakly fair execution of the program terminates, nothing faulting, and
    every argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (W6_main_arg0 m ρ c),
    (h c _ (mem_uc main_arg1 (by decide))).trans (W6_main_arg1 m ρ c),
    (h c _ (mem_uc main_arg2 (by decide))).trans (W6_main_arg2 m ρ c),
    (h c _ (mem_uc main_arg3 (by decide))).trans (W6_main_arg3 m ρ c),
    (h c _ (mem_uc main_arg4 (by decide))).trans (W6_main_arg4 m ρ c),
    (h c _ (mem_uc main_arg5 (by decide))).trans (W6_main_arg5 m ρ c),
    (h c _ (mem_uc main_arg6 (by decide))).trans (W6_main_arg6 m ρ c),
    (h c _ (mem_uc main_arg7 (by decide))).trans (W6_main_arg7 m ρ c),
    (h c _ (mem_uc main_arg8 (by decide))).trans (W6_main_arg8 m ρ c),
    (h c _ (mem_uc main_arg9 (by decide))).trans (W6_main_arg9 m ρ c),
    (h c _ (mem_uc main_arg10 (by decide))).trans (W6_main_arg10 m ρ c),
    (h c _ (mem_uc main_arg11 (by decide))).trans (W6_main_arg11 m ρ c)⟩) (run_all m ρ)

end Cert.Kernel.Hand

end
-- ==== Proof.KiRun0A.lean ====
import proofs.«133978_g44306882625591_cont_8to1_c_1075_2_alg».proof.Proof.Gen.KernelIdeal.Launch
import proofs.«133978_g44306882625591_cont_8to1_c_1075_2_alg».proof.Proof.Gen.KernelIdeal.Skeleton
import proofs.«133978_g44306882625591_cont_8to1_c_1075_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The body of pallas_call 0 run at the first grid point: the branch is taken, the support (the features, cut off at zero from the second layer on, times the weights) is stored whole into the carried scratch, and the output block is the adjacency block times that support plus the bias row. -/

/-- The body's branch condition from the grid coordinate: "is this the first grid point?", as the printed scalar chain. -/
abbrev cond0A (i : grid0.Coords) : Prop := (Scalar.cmpi .ne (Scalar.extui (Scalar.cmpi .eq (BitVec.ofNat 32 (i 0).val) 0#32)) 0#32) = 1#1

set_option maxHeartbeats 4000000 in
/-- The pieces the body's stores leave in the output block and in the scratch, with the proof that the body, run on whole
    buffers holding the four input blocks (the scratch and the output at anything), ends holding the inputs as they were,
    the scratch with its pieces written and the output with its pieces written. -/
noncomputable def kernelRun0_A (c : Dev nD) (i : grid0.Coords) (arg1 : Memref sig .tc .vmem S10000x128 .f32) (harg1 : arg1.IsWhole) (arg2 : Memref sig .tc .vmem S128x64 .f32) (harg2 : arg2.IsWhole) (arg3 : Memref sig .tc .vmem S1x64 .f32) (harg3 : arg3.IsWhole) (arg4 : Memref sig .tc .vmem S400x10000 .f32) (harg4 : arg4.IsWhole) (arg5 : Memref sig .tc .vmem S400x64 .f32) (harg5 : arg5.IsWhole) (arg6 : Memref sig .tc .vmem S10000x64 .f32) (harg6 : arg6.IsWhole) (hc : cond0A i)
    (x0 : Vec F S10000x128 .f32) (x1 : Vec F S128x64 .f32) (x2 : Vec F S1x64 .f32) (x3 : Vec F S400x10000 .f32) :
    Σ' (L0 : List (View.Piece (Elt F) S400x64 .f32)), { LS : List (View.Piece (Elt F) S10000x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L0) ∗ (∃ f, arg6.view.loc (c : Thread nD τ) ↦[arg6.view.set]{fullShare} arg6.view.writes (Elt F) f LS)) -∗ K ⟨⟩))
          ⊢ wp frame (wpE (defs₀ (F := F)) Variants.none c none) E (cc0__gc_kernel i arg1 harg1 arg2 harg2 arg3 harg3 arg4 harg4 arg5 harg5 arg6 harg6) K } := by
  refine ⟨?_, ?_, fun E K => ?run⟩
  case run =>
    simp only [cc0__gc_kernel_eq_skeleton]; unfold cc0__gc_kernel_skel
    unfold owns
    iintro ⟨⟨%f0, %hf0, H0⟩, ⟨%f1, %hf1, H1⟩, ⟨%f2, %hf2, H2⟩, ⟨%f3, %hf3, H3⟩, ⟨%d0, %g0, -, HO0⟩, ⟨%ds, %fs, -, HS⟩, Hk⟩
    obtain rfl := harg1.eq_unread hf0; obtain rfl := harg2.eq_unread hf1; obtain rfl := harg3.eq_unread hf2; obtain rfl := harg4.eq_unread hf3
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HO0]; · iexists _; iexact HO0
    iexists _; iexact HS

end Cert.KernelIdeal.Hand

end
-- ==== Proof.KiRun0B.lean ====
import proofs.«133978_g44306882625591_cont_8to1_c_1075_2_alg».proof.Proof.Gen.KernelIdeal.Launch
import proofs.«133978_g44306882625591_cont_8to1_c_1075_2_alg».proof.Proof.Gen.KernelIdeal.Skeleton
import proofs.«133978_g44306882625591_cont_8to1_c_1075_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The body of pallas_call 0 run at a later grid point: the branch is not taken, the carried scratch is read as the point before left it and handed back untouched, and the output block is the adjacency block times it plus the bias row. -/

/-- The body's branch condition from the grid coordinate: "is this the first grid point?", as the printed scalar chain. -/
abbrev cond0B (i : grid0.Coords) : Prop := (Scalar.cmpi .ne (Scalar.extui (Scalar.cmpi .eq (BitVec.ofNat 32 (i 0).val) 0#32)) 0#32) = 1#1

set_option maxHeartbeats 4000000 in
/-- The pieces the body's stores leave in the output block, with the proof that the body, run on whole
    buffers holding the four input blocks, the scratch at the support `xs` (the output at anything), ends holding the inputs as they were,
    the scratch as it was and the output with its pieces written. -/
noncomputable def kernelRun0_B (c : Dev nD) (i : grid0.Coords) (arg1 : Memref sig .tc .vmem S10000x128 .f32) (harg1 : arg1.IsWhole) (arg2 : Memref sig .tc .vmem S128x64 .f32) (harg2 : arg2.IsWhole) (arg3 : Memref sig .tc .vmem S1x64 .f32) (harg3 : arg3.IsWhole) (arg4 : Memref sig .tc .vmem S400x10000 .f32) (harg4 : arg4.IsWhole) (arg5 : Memref sig .tc .vmem S400x64 .f32) (harg5 : arg5.IsWhole) (arg6 : Memref sig .tc .vmem S10000x64 .f32) (harg6 : arg6.IsWhole) (hc : ¬cond0B i)
    (x0 : Vec F S10000x128 .f32) (x1 : Vec F S128x64 .f32) (x2 : Vec F S1x64 .f32) (x3 : Vec F S400x10000 .f32) (xs : Vec F S10000x64 .f32) :
    { L0 : List (View.Piece (Elt F) S400x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L0) ∗ owns (c : Thread nD τ) arg6 fullShare xs) -∗ K ⟨⟩))
          ⊢ wp frame (wpE (defs₀ (F := F)) Variants.none c none) E (cc0__gc_kernel i arg1 harg1 arg2 harg2 arg3 harg3 arg4 harg4 arg5 harg5 arg6 harg6) K } := by
  refine ⟨?_, fun E K => ?run⟩
  case run =>
    simp only [cc0__gc_kernel_eq_skeleton]; unfold cc0__gc_kernel_skel
    unfold owns
    iintro ⟨⟨%f0, %hf0, H0⟩, ⟨%f1, %hf1, H1⟩, ⟨%f2, %hf2, H2⟩, ⟨%f3, %hf3, H3⟩, ⟨%d0, %g0, -, HO0⟩, ⟨%fs, %hfs, HS⟩, Hk⟩
    obtain rfl := harg1.eq_unread hf0; obtain rfl := harg2.eq_unread hf1; obtain rfl := harg3.eq_unread hf2; obtain rfl := harg4.eq_unread hf3; obtain rfl := harg6.eq_unread hfs
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HO0]; · iexists _; iexact HO0
    iexists _; isplitr; · ipureintro; exact harg6.read_unread _
    iexact HS

end Cert.KernelIdeal.Hand

end
-- ==== Proof.KiRegion0.lean ====
import proofs.«133978_g44306882625591_cont_8to1_c_1075_2_alg».proof.Proof.KiRun0A
import proofs.«133978_g44306882625591_cont_8to1_c_1075_2_alg».proof.Proof.KiRun0B
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Pallas_call 0 as one region of the program, at any contents `V` of the device's buffers when the region is
    entered. Its grid has 25 points; the features, the weights and the bias row are one block each, fetched once;
    the adjacency matrix is read 400 rows at a time. At the first point the body stores the support (features times
    weights) whole into a scratch buffer that stays put for the rest of the grid; at every point the output block is
    the adjacency block times the support plus the bias row. -/

section Region
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The first grid point. -/
abbrev t0_0 : Fin cfg0.N := ⟨0, by decide⟩
/-- The branch is taken exactly at the first point. -/
theorem hcond0A : ∀ t : Fin cfg0.N, cond0A (grid0.coords t) ↔ t.val = 0 :=
  (by decide +kernel : ∀ t : Fin grid0.N, cond0A (grid0.coords t) ↔ t.val = 0)
theorem hcond0B : ∀ t : Fin cfg0.N, cond0B (grid0.coords t) ↔ t.val = 0 :=
  (by decide +kernel : ∀ t : Fin grid0.N, cond0B (grid0.coords t) ↔ t.val = 0)

/-- Each window's current buffer at a point, as the pipeline passes it to the body. -/
abbrev ms0_0 (t : Fin cfg0.N) : Memref sig .tc .vmem S10000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S400x10000 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S400x64 .f32 := win0_4.stage (cfg0.slots t 4)
abbrev hs0_4 (t : Fin cfg0.N) : (ms0_4 t).IsWhole := hstage0_4 ((cfg0.slots t 4).cast nbuf0_4)
/-- The scratch: a whole buffer of the kernel's own, passed beside the windows. -/
abbrev scM0 : Memref sig .tc .vmem S10000x64 .f32 := Memref.whole cc0_scratch0
abbrev VS0 : View sig .tc .vmem S10000x64 .f32 := (scM0).view
abbrev VO0_0 : View sig .tc .vmem S400x64 .f32 := (Memref.whole cc0_stg4_0 : Memref sig .tc .vmem S400x64 .f32).view

/-- The first point's run, on the point's buffers and input blocks. -/
def runA0 (c : Dev nD) := kernelRun0_A (F := F) c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) scM0 (Memref.isWhole_whole _) ((hcond0A t0_0).mpr rfl) (iblk0 V c 0 t0_0) (iblk0 V c 1 t0_0) (iblk0 V c 2 t0_0) (iblk0 V c 3 t0_0)

theorem scover0 (c : Dev nD) (y : S10000x64.Idx) : ∃ pc ∈ (runA0 V c).2.1, y ∈ pc.1.set :=
  View.cover_of_tiledL (runA0 V c).2.1 S10000x64.size (by unfold runA0; sl_kernel_rfl) y

/-- The support: what the first point leaves in the scratch (its pieces read back), there for every later point. -/
def sup0 (c : Dev nD) : Vec F S10000x64 .f32 := VS0.read (Elt F) (VS0.writes (Elt F) VS0.junk (runA0 V c).2.1)

/-- A later point's run, the scratch at the support. -/
def runB0 (c : Dev nD) (t : Fin cfg0.N) (hz : t.val ≠ 0) := kernelRun0_B (F := F) c (grid0.coords t) (ms0_0 t) (hs0_0 t) (ms0_1 t) (hs0_1 t) (ms0_2 t) (hs0_2 t) (ms0_3 t) (hs0_3 t) (ms0_4 t) (hs0_4 t) scM0 (Memref.isWhole_whole _) (fun h => hz ((hcond0B t).mp h)) (iblk0 V c 0 t) (iblk0 V c 1 t) (iblk0 V c 2 t) (iblk0 V c 3 t) (sup0 V c)

/-- Output 0's block after the body at point `t`: the pieces the point's case leaves, read back. -/
def out0_0 (c : Dev nD) (t : Fin cfg0.N) : Vec F S400x64 .f32 :=
  if hz : t.val = 0 then VO0_0.read (Elt F) (VO0_0.writes (Elt F) VO0_0.junk (runA0 V c).1)
  else VO0_0.read (Elt F) (VO0_0.writes (Elt F) VO0_0.junk (runB0 V c t hz).1)
theorem out0_0_first (c : Dev nD) : out0_0 V c t0_0 = VO0_0.read (Elt F) (VO0_0.writes (Elt F) VO0_0.junk (runA0 V c).1) := dif_pos rfl
theorem out0_0_later (c : Dev nD) (t : Fin cfg0.N) (hz : t.val ≠ 0) : out0_0 V c t = VO0_0.read (Elt F) (VO0_0.writes (Elt F) VO0_0.junk (runB0 V c t hz).1) := dif_neg hz
theorem coverA0_0 (c : Dev nD) (y : S400x64.Idx) : ∃ pc ∈ (runA0 V c).1, y ∈ pc.1.set :=
  View.cover_of_tiledL (runA0 V c).1 S400x64.size (by unfold runA0; sl_kernel_rfl) y
theorem coverB0_0 (c : Dev nD) (t : Fin cfg0.N) (hz : t.val ≠ 0) (y : S400x64.Idx) : ∃ pc ∈ (runB0 V c t hz).1, y ∈ pc.1.set :=
  View.cover_of_tiledL (runB0 V c t hz).1 S400x64.size (by unfold runB0; sl_kernel_rfl) y

/-- The region's invariant before position `n`: before the first point the scoped buffers at anything and the
    generator register at some state; afterwards the same with the scratch at the support. -/
def Phi0 (c : Dev nD) (n : ℕ) : sProp 𝕄 :=
  if n = 0 then Pipeline.ΦA spec0 c
  else iprop(iprop(owns (c : Thread nD τ) scM0 fullShare (sup0 V c)
      ∗ Pipeline.scopedRestBut (Ix := Unit) (Name := ℕ) (U := UR sig nD τ) (Lvl := ℕ) (Val := Elt F) spec0 c [cc0_scratch0]) ∗ (∃ r, prngReg c r))

/-- The entry invariant with the scratch split out of the scoped buffers. -/
theorem PhiA0_eq (c : Dev nD) :
    (Pipeline.ΦA spec0 c : sProp 𝕄)
      = iprop(iprop(iprop((∃ d, owns (c : Thread nD τ) scM0 fullShare d))
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

/-- The proof data: the arrays as the region finds them; after the body each input's buffer at its block and the
    output's at the point's result; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_0 V c t
  Φ t := Phi0 V c t.val
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_0 V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 4000000 in
/-- The body at any point: at the first the branch is taken and the scratch leaves at the support; later the scratch
    is found at the support and left there. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl, after0_0, after0_1, after0_2, after0_3, after0_4]
  rw [show (dat0 V c).Φ t.succ = Phi0 V c (t.val + 1) from rfl, show (dat0 V c).Φ t.castSucc = Phi0 V c t.val from rfl]
  rw [show Phi0 V c (t.val + 1) = iprop(iprop(owns (c : Thread nD τ) scM0 fullShare (sup0 V c)
      ∗ Pipeline.scopedRestBut (Ix := Unit) (Name := ℕ) (U := UR sig nD τ) (Lvl := ℕ) (Val := Elt F) spec0 c [cc0_scratch0]) ∗ (∃ r, prngReg c r)) from if_neg (Nat.succ_ne_zero _)]
  by_cases hz : t.val = 0
  · obtain rfl : t = t0_0 := Fin.ext hz
    rw [show Phi0 V c (t0_0).val = Pipeline.ΦA spec0 c from if_pos rfl, PhiA0_eq, out0_0_first]
    iintro ⟨⟨⟨HS, HB⟩, Hg⟩, Ho, ⟨%d0, H0⟩, ⟨%d1, H1⟩, ⟨%d2, H2⟩, ⟨%d3, H3⟩, ⟨%d4, H4⟩⟩
    iapply ((runA0 V c).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS HB Hg]
    · isplitl [HS HB]
      · isplitl [HS]
        · unfold owns sup0; iexists _; isplitr
          swap; · iexact HS
          ipureintro; exact View.read_writes_of_cover _ _ _ _ _ (scover0 V c)
        iexact HB
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverA0_0 V c)
  · rw [show Phi0 V c t.val = iprop(iprop(owns (c : Thread nD τ) scM0 fullShare (sup0 V c)
      ∗ Pipeline.scopedRestBut (Ix := Unit) (Name := ℕ) (U := UR sig nD τ) (Lvl := ℕ) (Val := Elt F) spec0 c [cc0_scratch0]) ∗ (∃ r, prngReg c r)) from if_neg hz, out0_0_later V c t hz]
    iintro ⟨⟨⟨HS, HB⟩, Hg⟩, Ho, ⟨%d0, H0⟩, ⟨%d1, H1⟩, ⟨%d2, H2⟩, ⟨%d3, H3⟩, ⟨%d4, H4⟩⟩
    iapply ((runB0 V c t hz).2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, HS⟩
    isplitl [HS HB Hg]
    · isplitl [HS HB]
      · isplitl [HS]; · iexact HS
        iexact HB
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverB0_0 V c t hz)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region

end Cert.KernelIdeal.Hand

end
-- ==== Proof.KiRun1A.lean ====
import proofs.«133978_g44306882625591_cont_8to1_c_1075_2_alg».proof.Proof.Gen.KernelIdeal.Launch
import proofs.«133978_g44306882625591_cont_8to1_c_1075_2_alg».proof.Proof.Gen.KernelIdeal.Skeleton
import proofs.«133978_g44306882625591_cont_8to1_c_1075_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The body of pallas_call 1 run at the first grid point: the branch is taken, the support (the features, cut off at zero from the second layer on, times the weights) is stored whole into the carried scratch, and the output block is the adjacency block times that support plus the bias row. -/

/-- The body's branch condition from the grid coordinate: "is this the first grid point?", as the printed scalar chain. -/
abbrev cond1A (i : grid1.Coords) : Prop := (Scalar.cmpi .ne (Scalar.extui (Scalar.cmpi .eq (BitVec.ofNat 32 (i 0).val) 0#32)) 0#32) = 1#1

set_option maxHeartbeats 4000000 in
/-- The pieces the body's stores leave in the output block and in the scratch, with the proof that the body, run on whole
    buffers holding the four input blocks (the scratch and the output at anything), ends holding the inputs as they were,
    the scratch with its pieces written and the output with its pieces written. -/
noncomputable def kernelRun1_A (c : Dev nD) (i : grid1.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S400x10000 .f32) (harg4 : arg4.IsWhole) (arg5 : Memref sig .tc .vmem S400x64 .f32) (harg5 : arg5.IsWhole) (arg6 : Memref sig .tc .vmem S10000x64 .f32) (harg6 : arg6.IsWhole) (hc : cond1A i)
    (x0 : Vec F S10000x64 .f32) (x1 : Vec F S64x64 .f32) (x2 : Vec F S1x64 .f32) (x3 : Vec F S400x10000 .f32) :
    Σ' (L0 : List (View.Piece (Elt F) S400x64 .f32)), { LS : List (View.Piece (Elt F) S10000x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L0) ∗ (∃ f, arg6.view.loc (c : Thread nD τ) ↦[arg6.view.set]{fullShare} arg6.view.writes (Elt F) f LS)) -∗ K ⟨⟩))
          ⊢ wp frame (wpE (defs₀ (F := F)) Variants.none c none) E (cc1__gc_kernel i arg1 harg1 arg2 harg2 arg3 harg3 arg4 harg4 arg5 harg5 arg6 harg6) K } := by
  refine ⟨?_, ?_, fun E K => ?run⟩
  case run =>
    simp only [cc1__gc_kernel_eq_skeleton]; unfold cc1__gc_kernel_skel
    unfold owns
    iintro ⟨⟨%f0, %hf0, H0⟩, ⟨%f1, %hf1, H1⟩, ⟨%f2, %hf2, H2⟩, ⟨%f3, %hf3, H3⟩, ⟨%d0, %g0, -, HO0⟩, ⟨%ds, %fs, -, HS⟩, Hk⟩
    obtain rfl := harg1.eq_unread hf0; obtain rfl := harg2.eq_unread hf1; obtain rfl := harg3.eq_unread hf2; obtain rfl := harg4.eq_unread hf3
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HO0]; · iexists _; iexact HO0
    iexists _; iexact HS

end Cert.KernelIdeal.Hand

end
-- ==== Proof.KiRun1B.lean ====
import proofs.«133978_g44306882625591_cont_8to1_c_1075_2_alg».proof.Proof.Gen.KernelIdeal.Launch
import proofs.«133978_g44306882625591_cont_8to1_c_1075_2_alg».proof.Proof.Gen.KernelIdeal.Skeleton
import proofs.«133978_g44306882625591_cont_8to1_c_1075_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The body of pallas_call 1 run at a later grid point: the branch is not taken, the carried scratch is read as the point before left it and handed back untouched, and the output block is the adjacency block times it plus the bias row. -/

/-- The body's branch condition from the grid coordinate: "is this the first grid point?", as the printed scalar chain. -/
abbrev cond1B (i : grid1.Coords) : Prop := (Scalar.cmpi .ne (Scalar.extui (Scalar.cmpi .eq (BitVec.ofNat 32 (i 0).val) 0#32)) 0#32) = 1#1

set_option maxHeartbeats 4000000 in
/-- The pieces the body's stores leave in the output block, with the proof that the body, run on whole
    buffers holding the four input blocks, the scratch at the support `xs` (the output at anything), ends holding the inputs as they were,
    the scratch as it was and the output with its pieces written. -/
noncomputable def kernelRun1_B (c : Dev nD) (i : grid1.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S400x10000 .f32) (harg4 : arg4.IsWhole) (arg5 : Memref sig .tc .vmem S400x64 .f32) (harg5 : arg5.IsWhole) (arg6 : Memref sig .tc .vmem S10000x64 .f32) (harg6 : arg6.IsWhole) (hc : ¬cond1B i)
    (x0 : Vec F S10000x64 .f32) (x1 : Vec F S64x64 .f32) (x2 : Vec F S1x64 .f32) (x3 : Vec F S400x10000 .f32) (xs : Vec F S10000x64 .f32) :
    { L0 : List (View.Piece (Elt F) S400x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L0) ∗ owns (c : Thread nD τ) arg6 fullShare xs) -∗ K ⟨⟩))
          ⊢ wp frame (wpE (defs₀ (F := F)) Variants.none c none) E (cc1__gc_kernel i arg1 harg1 arg2 harg2 arg3 harg3 arg4 harg4 arg5 harg5 arg6 harg6) K } := by
  refine ⟨?_, fun E K => ?run⟩
  case run =>
    simp only [cc1__gc_kernel_eq_skeleton]; unfold cc1__gc_kernel_skel
    unfold owns
    iintro ⟨⟨%f0, %hf0, H0⟩, ⟨%f1, %hf1, H1⟩, ⟨%f2, %hf2, H2⟩, ⟨%f3, %hf3, H3⟩, ⟨%d0, %g0, -, HO0⟩, ⟨%fs, %hfs, HS⟩, Hk⟩
    obtain rfl := harg1.eq_unread hf0; obtain rfl := harg2.eq_unread hf1; obtain rfl := harg3.eq_unread hf2; obtain rfl := harg4.eq_unread hf3; obtain rfl := harg6.eq_unread hfs
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HO0]; · iexists _; iexact HO0
    iexists _; isplitr; · ipureintro; exact harg6.read_unread _
    iexact HS

end Cert.KernelIdeal.Hand

end
-- ==== Proof.KiRegion1.lean ====
import proofs.«133978_g44306882625591_cont_8to1_c_1075_2_alg».proof.Proof.KiRun1A
import proofs.«133978_g44306882625591_cont_8to1_c_1075_2_alg».proof.Proof.KiRun1B
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Pallas_call 1 as one region of the program, at any contents `V` of the device's buffers when the region is
    entered. Its grid has 25 points; the features, the weights and the bias row are one block each, fetched once;
    the adjacency matrix is read 400 rows at a time. At the first point the body stores the support (features times
    weights) whole into a scratch buffer that stays put for the rest of the grid; at every point the output block is
    the adjacency block times the support plus the bias row. -/

section Region
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The first grid point. -/
abbrev t0_1 : Fin cfg1.N := ⟨0, by decide⟩
/-- The branch is taken exactly at the first point. -/
theorem hcond1A : ∀ t : Fin cfg1.N, cond1A (grid1.coords t) ↔ t.val = 0 :=
  (by decide +kernel : ∀ t : Fin grid1.N, cond1A (grid1.coords t) ↔ t.val = 0)
theorem hcond1B : ∀ t : Fin cfg1.N, cond1B (grid1.coords t) ↔ t.val = 0 :=
  (by decide +kernel : ∀ t : Fin grid1.N, cond1B (grid1.coords t) ↔ t.val = 0)

/-- Each window's current buffer at a point, as the pipeline passes it to the body. -/
abbrev ms1_0 (t : Fin cfg1.N) : Memref sig .tc .vmem S10000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S400x10000 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S400x64 .f32 := win1_4.stage (cfg1.slots t 4)
abbrev hs1_4 (t : Fin cfg1.N) : (ms1_4 t).IsWhole := hstage1_4 ((cfg1.slots t 4).cast nbuf1_4)
/-- The scratch: a whole buffer of the kernel's own, passed beside the windows. -/
abbrev scM1 : Memref sig .tc .vmem S10000x64 .f32 := Memref.whole cc1_scratch0
abbrev VS1 : View sig .tc .vmem S10000x64 .f32 := (scM1).view
abbrev VO1_0 : View sig .tc .vmem S400x64 .f32 := (Memref.whole cc1_stg4_0 : Memref sig .tc .vmem S400x64 .f32).view

/-- The first point's run, on the point's buffers and input blocks. -/
def runA1 (c : Dev nD) := kernelRun1_A (F := F) c (grid1.coords t0_1) (ms1_0 t0_1) (hs1_0 t0_1) (ms1_1 t0_1) (hs1_1 t0_1) (ms1_2 t0_1) (hs1_2 t0_1) (ms1_3 t0_1) (hs1_3 t0_1) (ms1_4 t0_1) (hs1_4 t0_1) scM1 (Memref.isWhole_whole _) ((hcond1A t0_1).mpr rfl) (iblk1 V c 0 t0_1) (iblk1 V c 1 t0_1) (iblk1 V c 2 t0_1) (iblk1 V c 3 t0_1)

theorem scover1 (c : Dev nD) (y : S10000x64.Idx) : ∃ pc ∈ (runA1 V c).2.1, y ∈ pc.1.set :=
  View.cover_of_tiledL (runA1 V c).2.1 S10000x64.size (by unfold runA1; sl_kernel_rfl) y

/-- The support: what the first point leaves in the scratch (its pieces read back), there for every later point. -/
def sup1 (c : Dev nD) : Vec F S10000x64 .f32 := VS1.read (Elt F) (VS1.writes (Elt F) VS1.junk (runA1 V c).2.1)

/-- A later point's run, the scratch at the support. -/
def runB1 (c : Dev nD) (t : Fin cfg1.N) (hz : t.val ≠ 0) := kernelRun1_B (F := F) c (grid1.coords t) (ms1_0 t) (hs1_0 t) (ms1_1 t) (hs1_1 t) (ms1_2 t) (hs1_2 t) (ms1_3 t) (hs1_3 t) (ms1_4 t) (hs1_4 t) scM1 (Memref.isWhole_whole _) (fun h => hz ((hcond1B t).mp h)) (iblk1 V c 0 t) (iblk1 V c 1 t) (iblk1 V c 2 t) (iblk1 V c 3 t) (sup1 V c)

/-- Output 0's block after the body at point `t`: the pieces the point's case leaves, read back. -/
def out1_0 (c : Dev nD) (t : Fin cfg1.N) : Vec F S400x64 .f32 :=
  if hz : t.val = 0 then VO1_0.read (Elt F) (VO1_0.writes (Elt F) VO1_0.junk (runA1 V c).1)
  else VO1_0.read (Elt F) (VO1_0.writes (Elt F) VO1_0.junk (runB1 V c t hz).1)
theorem out1_0_first (c : Dev nD) : out1_0 V c t0_1 = VO1_0.read (Elt F) (VO1_0.writes (Elt F) VO1_0.junk (runA1 V c).1) := dif_pos rfl
theorem out1_0_later (c : Dev nD) (t : Fin cfg1.N) (hz : t.val ≠ 0) : out1_0 V c t = VO1_0.read (Elt F) (VO1_0.writes (Elt F) VO1_0.junk (runB1 V c t hz).1) := dif_neg hz
theorem coverA1_0 (c : Dev nD) (y : S400x64.Idx) : ∃ pc ∈ (runA1 V c).1, y ∈ pc.1.set :=
  View.cover_of_tiledL (runA1 V c).1 S400x64.size (by unfold runA1; sl_kernel_rfl) y
theorem coverB1_0 (c : Dev nD) (t : Fin cfg1.N) (hz : t.val ≠ 0) (y : S400x64.Idx) : ∃ pc ∈ (runB1 V c t hz).1, y ∈ pc.1.set :=
  View.cover_of_tiledL (runB1 V c t hz).1 S400x64.size (by unfold runB1; sl_kernel_rfl) y

/-- The region's invariant before position `n`: before the first point the scoped buffers at anything and the
    generator register at some state; afterwards the same with the scratch at the support. -/
def Phi1 (c : Dev nD) (n : ℕ) : sProp 𝕄 :=
  if n = 0 then Pipeline.ΦA spec1 c
  else iprop(iprop(owns (c : Thread nD τ) scM1 fullShare (sup1 V c)
      ∗ Pipeline.scopedRestBut (Ix := Unit) (Name := ℕ) (U := UR sig nD τ) (Lvl := ℕ) (Val := Elt F) spec1 c [cc1_scratch0]) ∗ (∃ r, prngReg c r))

/-- The entry invariant with the scratch split out of the scoped buffers. -/
theorem PhiA1_eq (c : Dev nD) :
    (Pipeline.ΦA spec1 c : sProp 𝕄)
      = iprop(iprop(iprop((∃ d, owns (c : Thread nD τ) scM1 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

/-- The proof data: the arrays as the region finds them; after the body each input's buffer at its block and the
    output's at the point's result; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_0 V c t
  Φ t := Phi1 V c t.val
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_0 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 4000000 in
/-- The body at any point: at the first the branch is taken and the scratch leaves at the support; later the scratch
    is found at the support and left there. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl, after1_0, after1_1, after1_2, after1_3, after1_4]
  rw [show (dat1 V c).Φ t.succ = Phi1 V c (t.val + 1) from rfl, show (dat1 V c).Φ t.castSucc = Phi1 V c t.val from rfl]
  rw [show Phi1 V c (t.val + 1) = iprop(iprop(owns (c : Thread nD τ) scM1 fullShare (sup1 V c)
      ∗ Pipeline.scopedRestBut (Ix := Unit) (Name := ℕ) (U := UR sig nD τ) (Lvl := ℕ) (Val := Elt F) spec1 c [cc1_scratch0]) ∗ (∃ r, prngReg c r)) from if_neg (Nat.succ_ne_zero _)]
  by_cases hz : t.val = 0
  · obtain rfl : t = t0_1 := Fin.ext hz
    rw [show Phi1 V c (t0_1).val = Pipeline.ΦA spec1 c from if_pos rfl, PhiA1_eq, out1_0_first]
    iintro ⟨⟨⟨HS, HB⟩, Hg⟩, Ho, ⟨%d0, H0⟩, ⟨%d1, H1⟩, ⟨%d2, H2⟩, ⟨%d3, H3⟩, ⟨%d4, H4⟩⟩
    iapply ((runA1 V c).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS HB Hg]
    · isplitl [HS HB]
      · isplitl [HS]
        · unfold owns sup1; iexists _; isplitr
          swap; · iexact HS
          ipureintro; exact View.read_writes_of_cover _ _ _ _ _ (scover1 V c)
        iexact HB
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverA1_0 V c)
  · rw [show Phi1 V c t.val = iprop(iprop(owns (c : Thread nD τ) scM1 fullShare (sup1 V c)
      ∗ Pipeline.scopedRestBut (Ix := Unit) (Name := ℕ) (U := UR sig nD τ) (Lvl := ℕ) (Val := Elt F) spec1 c [cc1_scratch0]) ∗ (∃ r, prngReg c r)) from if_neg hz, out1_0_later V c t hz]
    iintro ⟨⟨⟨HS, HB⟩, Hg⟩, Ho, ⟨%d0, H0⟩, ⟨%d1, H1⟩, ⟨%d2, H2⟩, ⟨%d3, H3⟩, ⟨%d4, H4⟩⟩
    iapply ((runB1 V c t hz).2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, HS⟩
    isplitl [HS HB Hg]
    · isplitl [HS HB]
      · isplitl [HS]; · iexact HS
        iexact HB
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverB1_0 V c t hz)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.KernelIdeal.Hand

end
-- ==== Proof.KiRun2A.lean ====
import proofs.«133978_g44306882625591_cont_8to1_c_1075_2_alg».proof.Proof.Gen.KernelIdeal.Launch
import proofs.«133978_g44306882625591_cont_8to1_c_1075_2_alg».proof.Proof.Gen.KernelIdeal.Skeleton
import proofs.«133978_g44306882625591_cont_8to1_c_1075_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The body of pallas_call 2 run at the first grid point: the branch is taken, the support (the features, cut off at zero from the second layer on, times the weights) is stored whole into the carried scratch, and the output block is the adjacency block times that support plus the bias row. -/

/-- The body's branch condition from the grid coordinate: "is this the first grid point?", as the printed scalar chain. -/
abbrev cond2A (i : grid2.Coords) : Prop := (Scalar.cmpi .ne (Scalar.extui (Scalar.cmpi .eq (BitVec.ofNat 32 (i 0).val) 0#32)) 0#32) = 1#1

set_option maxHeartbeats 4000000 in
/-- The pieces the body's stores leave in the output block and in the scratch, with the proof that the body, run on whole
    buffers holding the four input blocks (the scratch and the output at anything), ends holding the inputs as they were,
    the scratch with its pieces written and the output with its pieces written. -/
noncomputable def kernelRun2_A (c : Dev nD) (i : grid2.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S400x10000 .f32) (harg4 : arg4.IsWhole) (arg5 : Memref sig .tc .vmem S400x64 .f32) (harg5 : arg5.IsWhole) (arg6 : Memref sig .tc .vmem S10000x64 .f32) (harg6 : arg6.IsWhole) (hc : cond2A i)
    (x0 : Vec F S10000x64 .f32) (x1 : Vec F S64x64 .f32) (x2 : Vec F S1x64 .f32) (x3 : Vec F S400x10000 .f32) :
    Σ' (L0 : List (View.Piece (Elt F) S400x64 .f32)), { LS : List (View.Piece (Elt F) S10000x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L0) ∗ (∃ f, arg6.view.loc (c : Thread nD τ) ↦[arg6.view.set]{fullShare} arg6.view.writes (Elt F) f LS)) -∗ K ⟨⟩))
          ⊢ wp frame (wpE (defs₀ (F := F)) Variants.none c none) E (cc2__gc_kernel i arg1 harg1 arg2 harg2 arg3 harg3 arg4 harg4 arg5 harg5 arg6 harg6) K } := by
  refine ⟨?_, ?_, fun E K => ?run⟩
  case run =>
    simp only [cc2__gc_kernel_eq_skeleton]; unfold cc2__gc_kernel_skel
    unfold owns
    iintro ⟨⟨%f0, %hf0, H0⟩, ⟨%f1, %hf1, H1⟩, ⟨%f2, %hf2, H2⟩, ⟨%f3, %hf3, H3⟩, ⟨%d0, %g0, -, HO0⟩, ⟨%ds, %fs, -, HS⟩, Hk⟩
    obtain rfl := harg1.eq_unread hf0; obtain rfl := harg2.eq_unread hf1; obtain rfl := harg3.eq_unread hf2; obtain rfl := harg4.eq_unread hf3
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HO0]; · iexists _; iexact HO0
    iexists _; iexact HS

end Cert.KernelIdeal.Hand

end
-- ==== Proof.KiRun2B.lean ====
import proofs.«133978_g44306882625591_cont_8to1_c_1075_2_alg».proof.Proof.Gen.KernelIdeal.Launch
import proofs.«133978_g44306882625591_cont_8to1_c_1075_2_alg».proof.Proof.Gen.KernelIdeal.Skeleton
import proofs.«133978_g44306882625591_cont_8to1_c_1075_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The body of pallas_call 2 run at a later grid point: the branch is not taken, the carried scratch is read as the point before left it and handed back untouched, and the output block is the adjacency block times it plus the bias row. -/

/-- The body's branch condition from the grid coordinate: "is this the first grid point?", as the printed scalar chain. -/
abbrev cond2B (i : grid2.Coords) : Prop := (Scalar.cmpi .ne (Scalar.extui (Scalar.cmpi .eq (BitVec.ofNat 32 (i 0).val) 0#32)) 0#32) = 1#1

set_option maxHeartbeats 4000000 in
/-- The pieces the body's stores leave in the output block, with the proof that the body, run on whole
    buffers holding the four input blocks, the scratch at the support `xs` (the output at anything), ends holding the inputs as they were,
    the scratch as it was and the output with its pieces written. -/
noncomputable def kernelRun2_B (c : Dev nD) (i : grid2.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S400x10000 .f32) (harg4 : arg4.IsWhole) (arg5 : Memref sig .tc .vmem S400x64 .f32) (harg5 : arg5.IsWhole) (arg6 : Memref sig .tc .vmem S10000x64 .f32) (harg6 : arg6.IsWhole) (hc : ¬cond2B i)
    (x0 : Vec F S10000x64 .f32) (x1 : Vec F S64x64 .f32) (x2 : Vec F S1x64 .f32) (x3 : Vec F S400x10000 .f32) (xs : Vec F S10000x64 .f32) :
    { L0 : List (View.Piece (Elt F) S400x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L0) ∗ owns (c : Thread nD τ) arg6 fullShare xs) -∗ K ⟨⟩))
          ⊢ wp frame (wpE (defs₀ (F := F)) Variants.none c none) E (cc2__gc_kernel i arg1 harg1 arg2 harg2 arg3 harg3 arg4 harg4 arg5 harg5 arg6 harg6) K } := by
  refine ⟨?_, fun E K => ?run⟩
  case run =>
    simp only [cc2__gc_kernel_eq_skeleton]; unfold cc2__gc_kernel_skel
    unfold owns
    iintro ⟨⟨%f0, %hf0, H0⟩, ⟨%f1, %hf1, H1⟩, ⟨%f2, %hf2, H2⟩, ⟨%f3, %hf3, H3⟩, ⟨%d0, %g0, -, HO0⟩, ⟨%fs, %hfs, HS⟩, Hk⟩
    obtain rfl := harg1.eq_unread hf0; obtain rfl := harg2.eq_unread hf1; obtain rfl := harg3.eq_unread hf2; obtain rfl := harg4.eq_unread hf3; obtain rfl := harg6.eq_unread hfs
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HO0]; · iexists _; iexact HO0
    iexists _; isplitr; · ipureintro; exact harg6.read_unread _
    iexact HS

end Cert.KernelIdeal.Hand

end
-- ==== Proof.KiRegion2.lean ====
import proofs.«133978_g44306882625591_cont_8to1_c_1075_2_alg».proof.Proof.KiRun2A
import proofs.«133978_g44306882625591_cont_8to1_c_1075_2_alg».proof.Proof.KiRun2B
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Pallas_call 2 as one region of the program, at any contents `V` of the device's buffers when the region is
    entered. Its grid has 25 points; the features, the weights and the bias row are one block each, fetched once;
    the adjacency matrix is read 400 rows at a time. At the first point the body stores the support (features times
    weights) whole into a scratch buffer that stays put for the rest of the grid; at every point the output block is
    the adjacency block times the support plus the bias row. -/

section Region
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The first grid point. -/
abbrev t0_2 : Fin cfg2.N := ⟨0, by decide⟩
/-- The branch is taken exactly at the first point. -/
theorem hcond2A : ∀ t : Fin cfg2.N, cond2A (grid2.coords t) ↔ t.val = 0 :=
  (by decide +kernel : ∀ t : Fin grid2.N, cond2A (grid2.coords t) ↔ t.val = 0)
theorem hcond2B : ∀ t : Fin cfg2.N, cond2B (grid2.coords t) ↔ t.val = 0 :=
  (by decide +kernel : ∀ t : Fin grid2.N, cond2B (grid2.coords t) ↔ t.val = 0)

/-- Each window's current buffer at a point, as the pipeline passes it to the body. -/
abbrev ms2_0 (t : Fin cfg2.N) : Memref sig .tc .vmem S10000x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S64x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S400x10000 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S400x64 .f32 := win2_4.stage (cfg2.slots t 4)
abbrev hs2_4 (t : Fin cfg2.N) : (ms2_4 t).IsWhole := hstage2_4 ((cfg2.slots t 4).cast nbuf2_4)
/-- The scratch: a whole buffer of the kernel's own, passed beside the windows. -/
abbrev scM2 : Memref sig .tc .vmem S10000x64 .f32 := Memref.whole cc2_scratch0
abbrev VS2 : View sig .tc .vmem S10000x64 .f32 := (scM2).view
abbrev VO2_0 : View sig .tc .vmem S400x64 .f32 := (Memref.whole cc2_stg4_0 : Memref sig .tc .vmem S400x64 .f32).view

/-- The first point's run, on the point's buffers and input blocks. -/
def runA2 (c : Dev nD) := kernelRun2_A (F := F) c (grid2.coords t0_2) (ms2_0 t0_2) (hs2_0 t0_2) (ms2_1 t0_2) (hs2_1 t0_2) (ms2_2 t0_2) (hs2_2 t0_2) (ms2_3 t0_2) (hs2_3 t0_2) (ms2_4 t0_2) (hs2_4 t0_2) scM2 (Memref.isWhole_whole _) ((hcond2A t0_2).mpr rfl) (iblk2 V c 0 t0_2) (iblk2 V c 1 t0_2) (iblk2 V c 2 t0_2) (iblk2 V c 3 t0_2)

theorem scover2 (c : Dev nD) (y : S10000x64.Idx) : ∃ pc ∈ (runA2 V c).2.1, y ∈ pc.1.set :=
  View.cover_of_tiledL (runA2 V c).2.1 S10000x64.size (by unfold runA2; sl_kernel_rfl) y

/-- The support: what the first point leaves in the scratch (its pieces read back), there for every later point. -/
def sup2 (c : Dev nD) : Vec F S10000x64 .f32 := VS2.read (Elt F) (VS2.writes (Elt F) VS2.junk (runA2 V c).2.1)

/-- A later point's run, the scratch at the support. -/
def runB2 (c : Dev nD) (t : Fin cfg2.N) (hz : t.val ≠ 0) := kernelRun2_B (F := F) c (grid2.coords t) (ms2_0 t) (hs2_0 t) (ms2_1 t) (hs2_1 t) (ms2_2 t) (hs2_2 t) (ms2_3 t) (hs2_3 t) (ms2_4 t) (hs2_4 t) scM2 (Memref.isWhole_whole _) (fun h => hz ((hcond2B t).mp h)) (iblk2 V c 0 t) (iblk2 V c 1 t) (iblk2 V c 2 t) (iblk2 V c 3 t) (sup2 V c)

/-- Output 0's block after the body at point `t`: the pieces the point's case leaves, read back. -/
def out2_0 (c : Dev nD) (t : Fin cfg2.N) : Vec F S400x64 .f32 :=
  if hz : t.val = 0 then VO2_0.read (Elt F) (VO2_0.writes (Elt F) VO2_0.junk (runA2 V c).1)
  else VO2_0.read (Elt F) (VO2_0.writes (Elt F) VO2_0.junk (runB2 V c t hz).1)
theorem out2_0_first (c : Dev nD) : out2_0 V c t0_2 = VO2_0.read (Elt F) (VO2_0.writes (Elt F) VO2_0.junk (runA2 V c).1) := dif_pos rfl
theorem out2_0_later (c : Dev nD) (t : Fin cfg2.N) (hz : t.val ≠ 0) : out2_0 V c t = VO2_0.read (Elt F) (VO2_0.writes (Elt F) VO2_0.junk (runB2 V c t hz).1) := dif_neg hz
theorem coverA2_0 (c : Dev nD) (y : S400x64.Idx) : ∃ pc ∈ (runA2 V c).1, y ∈ pc.1.set :=
  View.cover_of_tiledL (runA2 V c).1 S400x64.size (by unfold runA2; sl_kernel_rfl) y
theorem coverB2_0 (c : Dev nD) (t : Fin cfg2.N) (hz : t.val ≠ 0) (y : S400x64.Idx) : ∃ pc ∈ (runB2 V c t hz).1, y ∈ pc.1.set :=
  View.cover_of_tiledL (runB2 V c t hz).1 S400x64.size (by unfold runB2; sl_kernel_rfl) y

/-- The region's invariant before position `n`: before the first point the scoped buffers at anything and the
    generator register at some state; afterwards the same with the scratch at the support. -/
def Phi2 (c : Dev nD) (n : ℕ) : sProp 𝕄 :=
  if n = 0 then Pipeline.ΦA spec2 c
  else iprop(iprop(owns (c : Thread nD τ) scM2 fullShare (sup2 V c)
      ∗ Pipeline.scopedRestBut (Ix := Unit) (Name := ℕ) (U := UR sig nD τ) (Lvl := ℕ) (Val := Elt F) spec2 c [cc2_scratch0]) ∗ (∃ r, prngReg c r))

/-- The entry invariant with the scratch split out of the scoped buffers. -/
theorem PhiA2_eq (c : Dev nD) :
    (Pipeline.ΦA spec2 c : sProp 𝕄)
      = iprop(iprop(iprop((∃ d, owns (c : Thread nD τ) scM2 fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

/-- The proof data: the arrays as the region finds them; after the body each input's buffer at its block and the
    output's at the point's result; the invariant above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_0 V c t
  Φ t := Phi2 V c t.val
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_0 V c t := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

set_option maxHeartbeats 4000000 in
/-- The body at any point: at the first the branch is taken and the scratch leaves at the support; later the scratch
    is found at the support and left there. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl, after2_0, after2_1, after2_2, after2_3, after2_4]
  rw [show (dat2 V c).Φ t.succ = Phi2 V c (t.val + 1) from rfl, show (dat2 V c).Φ t.castSucc = Phi2 V c t.val from rfl]
  rw [show Phi2 V c (t.val + 1) = iprop(iprop(owns (c : Thread nD τ) scM2 fullShare (sup2 V c)
      ∗ Pipeline.scopedRestBut (Ix := Unit) (Name := ℕ) (U := UR sig nD τ) (Lvl := ℕ) (Val := Elt F) spec2 c [cc2_scratch0]) ∗ (∃ r, prngReg c r)) from if_neg (Nat.succ_ne_zero _)]
  by_cases hz : t.val = 0
  · obtain rfl : t = t0_2 := Fin.ext hz
    rw [show Phi2 V c (t0_2).val = Pipeline.ΦA spec2 c from if_pos rfl, PhiA2_eq, out2_0_first]
    iintro ⟨⟨⟨HS, HB⟩, Hg⟩, Ho, ⟨%d0, H0⟩, ⟨%d1, H1⟩, ⟨%d2, H2⟩, ⟨%d3, H3⟩, ⟨%d4, H4⟩⟩
    iapply ((runA2 V c).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS HB Hg]
    · isplitl [HS HB]
      · isplitl [HS]
        · unfold owns sup2; iexists _; isplitr
          swap; · iexact HS
          ipureintro; exact View.read_writes_of_cover _ _ _ _ _ (scover2 V c)
        iexact HB
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverA2_0 V c)
  · rw [show Phi2 V c t.val = iprop(iprop(owns (c : Thread nD τ) scM2 fullShare (sup2 V c)
      ∗ Pipeline.scopedRestBut (Ix := Unit) (Name := ℕ) (U := UR sig nD τ) (Lvl := ℕ) (Val := Elt F) spec2 c [cc2_scratch0]) ∗ (∃ r, prngReg c r)) from if_neg hz, out2_0_later V c t hz]
    iintro ⟨⟨⟨HS, HB⟩, Hg⟩, Ho, ⟨%d0, H0⟩, ⟨%d1, H1⟩, ⟨%d2, H2⟩, ⟨%d3, H3⟩, ⟨%d4, H4⟩⟩
    iapply ((runB2 V c t hz).2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, HS⟩
    isplitl [HS HB Hg]
    · isplitl [HS HB]
      · isplitl [HS]; · iexact HS
        iexact HB
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverB2_0 V c t hz)

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region

end Cert.KernelIdeal.Hand

end
-- ==== Proof.KiRun3A.lean ====
import proofs.«133978_g44306882625591_cont_8to1_c_1075_2_alg».proof.Proof.Gen.KernelIdeal.Launch
import proofs.«133978_g44306882625591_cont_8to1_c_1075_2_alg».proof.Proof.Gen.KernelIdeal.Skeleton
import proofs.«133978_g44306882625591_cont_8to1_c_1075_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The body of pallas_call 3 run at the first grid point: the branch is taken, the support (the features, cut off at zero from the second layer on, times the weights) is stored whole into the carried scratch, and the output block is the adjacency block times that support plus the bias row. -/

/-- The body's branch condition from the grid coordinate: "is this the first grid point?", as the printed scalar chain. -/
abbrev cond3A (i : grid3.Coords) : Prop := (Scalar.cmpi .ne (Scalar.extui (Scalar.cmpi .eq (BitVec.ofNat 32 (i 0).val) 0#32)) 0#32) = 1#1

set_option maxHeartbeats 4000000 in
/-- The pieces the body's stores leave in the output block and in the scratch, with the proof that the body, run on whole
    buffers holding the four input blocks (the scratch and the output at anything), ends holding the inputs as they were,
    the scratch with its pieces written and the output with its pieces written. -/
noncomputable def kernelRun3_A (c : Dev nD) (i : grid3.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S400x10000 .f32) (harg4 : arg4.IsWhole) (arg5 : Memref sig .tc .vmem S400x64 .f32) (harg5 : arg5.IsWhole) (arg6 : Memref sig .tc .vmem S10000x64 .f32) (harg6 : arg6.IsWhole) (hc : cond3A i)
    (x0 : Vec F S10000x64 .f32) (x1 : Vec F S64x64 .f32) (x2 : Vec F S1x64 .f32) (x3 : Vec F S400x10000 .f32) :
    Σ' (L0 : List (View.Piece (Elt F) S400x64 .f32)), { LS : List (View.Piece (Elt F) S10000x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L0) ∗ (∃ f, arg6.view.loc (c : Thread nD τ) ↦[arg6.view.set]{fullShare} arg6.view.writes (Elt F) f LS)) -∗ K ⟨⟩))
          ⊢ wp frame (wpE (defs₀ (F := F)) Variants.none c none) E (cc3__gc_kernel i arg1 harg1 arg2 harg2 arg3 harg3 arg4 harg4 arg5 harg5 arg6 harg6) K } := by
  refine ⟨?_, ?_, fun E K => ?run⟩
  case run =>
    simp only [cc3__gc_kernel_eq_skeleton]; unfold cc3__gc_kernel_skel
    unfold owns
    iintro ⟨⟨%f0, %hf0, H0⟩, ⟨%f1, %hf1, H1⟩, ⟨%f2, %hf2, H2⟩, ⟨%f3, %hf3, H3⟩, ⟨%d0, %g0, -, HO0⟩, ⟨%ds, %fs, -, HS⟩, Hk⟩
    obtain rfl := harg1.eq_unread hf0; obtain rfl := harg2.eq_unread hf1; obtain rfl := harg3.eq_unread hf2; obtain rfl := harg4.eq_unread hf3
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HO0]; · iexists _; iexact HO0
    iexists _; iexact HS

end Cert.KernelIdeal.Hand

end
-- ==== Proof.KiRun3B.lean ====
import proofs.«133978_g44306882625591_cont_8to1_c_1075_2_alg».proof.Proof.Gen.KernelIdeal.Launch
import proofs.«133978_g44306882625591_cont_8to1_c_1075_2_alg».proof.Proof.Gen.KernelIdeal.Skeleton
import proofs.«133978_g44306882625591_cont_8to1_c_1075_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The body of pallas_call 3 run at a later grid point: the branch is not taken, the carried scratch is read as the point before left it and handed back untouched, and the output block is the adjacency block times it plus the bias row. -/

/-- The body's branch condition from the grid coordinate: "is this the first grid point?", as the printed scalar chain. -/
abbrev cond3B (i : grid3.Coords) : Prop := (Scalar.cmpi .ne (Scalar.extui (Scalar.cmpi .eq (BitVec.ofNat 32 (i 0).val) 0#32)) 0#32) = 1#1

set_option maxHeartbeats 4000000 in
/-- The pieces the body's stores leave in the output block, with the proof that the body, run on whole
    buffers holding the four input blocks, the scratch at the support `xs` (the output at anything), ends holding the inputs as they were,
    the scratch as it was and the output with its pieces written. -/
noncomputable def kernelRun3_B (c : Dev nD) (i : grid3.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S400x10000 .f32) (harg4 : arg4.IsWhole) (arg5 : Memref sig .tc .vmem S400x64 .f32) (harg5 : arg5.IsWhole) (arg6 : Memref sig .tc .vmem S10000x64 .f32) (harg6 : arg6.IsWhole) (hc : ¬cond3B i)
    (x0 : Vec F S10000x64 .f32) (x1 : Vec F S64x64 .f32) (x2 : Vec F S1x64 .f32) (x3 : Vec F S400x10000 .f32) (xs : Vec F S10000x64 .f32) :
    { L0 : List (View.Piece (Elt F) S400x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L0) ∗ owns (c : Thread nD τ) arg6 fullShare xs) -∗ K ⟨⟩))
          ⊢ wp frame (wpE (defs₀ (F := F)) Variants.none c none) E (cc3__gc_kernel i arg1 harg1 arg2 harg2 arg3 harg3 arg4 harg4 arg5 harg5 arg6 harg6) K } := by
  refine ⟨?_, fun E K => ?run⟩
  case run =>
    simp only [cc3__gc_kernel_eq_skeleton]; unfold cc3__gc_kernel_skel
    unfold owns
    iintro ⟨⟨%f0, %hf0, H0⟩, ⟨%f1, %hf1, H1⟩, ⟨%f2, %hf2, H2⟩, ⟨%f3, %hf3, H3⟩, ⟨%d0, %g0, -, HO0⟩, ⟨%fs, %hfs, HS⟩, Hk⟩
    obtain rfl := harg1.eq_unread hf0; obtain rfl := harg2.eq_unread hf1; obtain rfl := harg3.eq_unread hf2; obtain rfl := harg4.eq_unread hf3; obtain rfl := harg6.eq_unread hfs
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HO0]; · iexists _; iexact HO0
    iexists _; isplitr; · ipureintro; exact harg6.read_unread _
    iexact HS

end Cert.KernelIdeal.Hand

end
-- ==== Proof.KiRegion3.lean ====
import proofs.«133978_g44306882625591_cont_8to1_c_1075_2_alg».proof.Proof.KiRun3A
import proofs.«133978_g44306882625591_cont_8to1_c_1075_2_alg».proof.Proof.KiRun3B
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Pallas_call 3 as one region of the program, at any contents `V` of the device's buffers when the region is
    entered. Its grid has 25 points; the features, the weights and the bias row are one block each, fetched once;
    the adjacency matrix is read 400 rows at a time. At the first point the body stores the support (features times
    weights) whole into a scratch buffer that stays put for the rest of the grid; at every point the output block is
    the adjacency block times the support plus the bias row. -/

section Region
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- The first grid point. -/
abbrev t0_3 : Fin cfg3.N := ⟨0, by decide⟩
/-- The branch is taken exactly at the first point. -/
theorem hcond3A : ∀ t : Fin cfg3.N, cond3A (grid3.coords t) ↔ t.val = 0 :=
  (by decide +kernel : ∀ t : Fin grid3.N, cond3A (grid3.coords t) ↔ t.val = 0)
theorem hcond3B : ∀ t : Fin cfg3.N, cond3B (grid3.coords t) ↔ t.val = 0 :=
  (by decide +kernel : ∀ t : Fin grid3.N, cond3B (grid3.coords t) ↔ t.val = 0)

/-- Each window's current buffer at a point, as the pipeline passes it to the body. -/
abbrev ms3_0 (t : Fin cfg3.N) : Memref sig .tc .vmem S10000x64 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S64x64 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x64 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S400x10000 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S400x64 .f32 := win3_4.stage (cfg3.slots t 4)
abbrev hs3_4 (t : Fin cfg3.N) : (ms3_4 t).IsWhole := hstage3_4 ((cfg3.slots t 4).cast nbuf3_4)
/-- The scratch: a whole buffer of the kernel's own, passed beside the windows. -/
abbrev scM3 : Memref sig .tc .vmem S10000x64 .f32 := Memref.whole cc3_scratch0
abbrev VS3 : View sig .tc .vmem S10000x64 .f32 := (scM3).view
abbrev VO3_0 : View sig .tc .vmem S400x64 .f32 := (Memref.whole cc3_stg4_0 : Memref sig .tc .vmem S400x64 .f32).view

/-- The first point's run, on the point's buffers and input blocks. -/
def runA3 (c : Dev nD) := kernelRun3_A (F := F) c (grid3.coords t0_3) (ms3_0 t0_3) (hs3_0 t0_3) (ms3_1 t0_3) (hs3_1 t0_3) (ms3_2 t0_3) (hs3_2 t0_3) (ms3_3 t0_3) (hs3_3 t0_3) (ms3_4 t0_3) (hs3_4 t0_3) scM3 (Memref.isWhole_whole _) ((hcond3A t0_3).mpr rfl) (iblk3 V c 0 t0_3) (iblk3 V c 1 t0_3) (iblk3 V c 2 t0_3) (iblk3 V c 3 t0_3)

theorem scover3 (c : Dev nD) (y : S10000x64.Idx) : ∃ pc ∈ (runA3 V c).2.1, y ∈ pc.1.set :=
  View.cover_of_tiledL (runA3 V c).2.1 S10000x64.size (by unfold runA3; sl_kernel_rfl) y

/-- The support: what the first point leaves in the scratch (its pieces read back), there for every later point. -/
def sup3 (c : Dev nD) : Vec F S10000x64 .f32 := VS3.read (Elt F) (VS3.writes (Elt F) VS3.junk (runA3 V c).2.1)

/-- A later point's run, the scratch at the support. -/
def runB3 (c : Dev nD) (t : Fin cfg3.N) (hz : t.val ≠ 0) := kernelRun3_B (F := F) c (grid3.coords t) (ms3_0 t) (hs3_0 t) (ms3_1 t) (hs3_1 t) (ms3_2 t) (hs3_2 t) (ms3_3 t) (hs3_3 t) (ms3_4 t) (hs3_4 t) scM3 (Memref.isWhole_whole _) (fun h => hz ((hcond3B t).mp h)) (iblk3 V c 0 t) (iblk3 V c 1 t) (iblk3 V c 2 t) (iblk3 V c 3 t) (sup3 V c)

/-- Output 0's block after the body at point `t`: the pieces the point's case leaves, read back. -/
def out3_0 (c : Dev nD) (t : Fin cfg3.N) : Vec F S400x64 .f32 :=
  if hz : t.val = 0 then VO3_0.read (Elt F) (VO3_0.writes (Elt F) VO3_0.junk (runA3 V c).1)
  else VO3_0.read (Elt F) (VO3_0.writes (Elt F) VO3_0.junk (runB3 V c t hz).1)
theorem out3_0_first (c : Dev nD) : out3_0 V c t0_3 = VO3_0.read (Elt F) (VO3_0.writes (Elt F) VO3_0.junk (runA3 V c).1) := dif_pos rfl
theorem out3_0_later (c : Dev nD) (t : Fin cfg3.N) (hz : t.val ≠ 0) : out3_0 V c t = VO3_0.read (Elt F) (VO3_0.writes (Elt F) VO3_0.junk (runB3 V c t hz).1) := dif_neg hz
theorem coverA3_0 (c : Dev nD) (y : S400x64.Idx) : ∃ pc ∈ (runA3 V c).1, y ∈ pc.1.set :=
  View.cover_of_tiledL (runA3 V c).1 S400x64.size (by unfold runA3; sl_kernel_rfl) y
theorem coverB3_0 (c : Dev nD) (t : Fin cfg3.N) (hz : t.val ≠ 0) (y : S400x64.Idx) : ∃ pc ∈ (runB3 V c t hz).1, y ∈ pc.1.set :=
  View.cover_of_tiledL (runB3 V c t hz).1 S400x64.size (by unfold runB3; sl_kernel_rfl) y

/-- The region's invariant before position `n`: before the first point the scoped buffers at anything and the
    generator register at some state; afterwards the same with the scratch at the support. -/
def Phi3 (c : Dev nD) (n : ℕ) : sProp 𝕄 :=
  if n = 0 then Pipeline.ΦA spec3 c
  else iprop(iprop(owns (c : Thread nD τ) scM3 fullShare (sup3 V c)
      ∗ Pipeline.scopedRestBut (Ix := Unit) (Name := ℕ) (U := UR sig nD τ) (Lvl := ℕ) (Val := Elt F) spec3 c [cc3_scratch0]) ∗ (∃ r, prngReg c r))

/-- The entry invariant with the scratch split out of the scoped buffers. -/
theorem PhiA3_eq (c : Dev nD) :
    (Pipeline.ΦA spec3 c : sProp 𝕄)
      = iprop(iprop(iprop((∃ d, owns (c : Thread nD τ) scM3 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

/-- The proof data: the arrays as the region finds them; after the body each input's buffer at its block and the
    output's at the point's result; the invariant above; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_0 V c t
  Φ t := Phi3 V c t.val
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_0 V c t := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

set_option maxHeartbeats 4000000 in
/-- The body at any point: at the first the branch is taken and the scratch leaves at the support; later the scratch
    is found at the support and left there. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl, after3_0, after3_1, after3_2, after3_3, after3_4]
  rw [show (dat3 V c).Φ t.succ = Phi3 V c (t.val + 1) from rfl, show (dat3 V c).Φ t.castSucc = Phi3 V c t.val from rfl]
  rw [show Phi3 V c (t.val + 1) = iprop(iprop(owns (c : Thread nD τ) scM3 fullShare (sup3 V c)
      ∗ Pipeline.scopedRestBut (Ix := Unit) (Name := ℕ) (U := UR sig nD τ) (Lvl := ℕ) (Val := Elt F) spec3 c [cc3_scratch0]) ∗ (∃ r, prngReg c r)) from if_neg (Nat.succ_ne_zero _)]
  by_cases hz : t.val = 0
  · obtain rfl : t = t0_3 := Fin.ext hz
    rw [show Phi3 V c (t0_3).val = Pipeline.ΦA spec3 c from if_pos rfl, PhiA3_eq, out3_0_first]
    iintro ⟨⟨⟨HS, HB⟩, Hg⟩, Ho, ⟨%d0, H0⟩, ⟨%d1, H1⟩, ⟨%d2, H2⟩, ⟨%d3, H3⟩, ⟨%d4, H4⟩⟩
    iapply ((runA3 V c).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS HB Hg]
    · isplitl [HS HB]
      · isplitl [HS]
        · unfold owns sup3; iexists _; isplitr
          swap; · iexact HS
          ipureintro; exact View.read_writes_of_cover _ _ _ _ _ (scover3 V c)
        iexact HB
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverA3_0 V c)
  · rw [show Phi3 V c t.val = iprop(iprop(owns (c : Thread nD τ) scM3 fullShare (sup3 V c)
      ∗ Pipeline.scopedRestBut (Ix := Unit) (Name := ℕ) (U := UR sig nD τ) (Lvl := ℕ) (Val := Elt F) spec3 c [cc3_scratch0]) ∗ (∃ r, prngReg c r)) from if_neg hz, out3_0_later V c t hz]
    iintro ⟨⟨⟨HS, HB⟩, Hg⟩, Ho, ⟨%d0, H0⟩, ⟨%d1, H1⟩, ⟨%d2, H2⟩, ⟨%d3, H3⟩, ⟨%d4, H4⟩⟩
    iapply ((runB3 V c t hz).2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, HS⟩
    isplitl [HS HB Hg]
    · isplitl [HS HB]
      · isplitl [HS]; · iexact HS
        iexact HB
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverB3_0 V c t hz)

/-- The library's body obligation, at every point. -/
theorem body_obligation3 (c : Dev nD) : BodyObligation (dat3 (F := F) V c) (defs₀ (F := F)) Variants.none () Set.univ := fun t => by
  rw [bigSep_W3, bigSep_W3]
  exact sound_body3 V c t

end Region

end Cert.KernelIdeal.Hand

end
-- ==== Proof.KiRun4A.lean ====
import proofs.«133978_g44306882625591_cont_8to1_c_1075_2_alg».proof.Proof.Gen.KernelIdeal.Launch
import proofs.«133978_g44306882625591_cont_8to1_c_1075_2_alg».proof.Proof.Gen.KernelIdeal.Skeleton
import proofs.«133978_g44306882625591_cont_8to1_c_1075_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The body of pallas_call 4 run at the first grid point: the branch is taken, the support (the features, cut off at zero from the second layer on, times the weights) is stored whole into the carried scratch, and the output block is the adjacency block times that support plus the bias row. -/

/-- The body's branch condition from the grid coordinate: "is this the first grid point?", as the printed scalar chain. -/
abbrev cond4A (i : grid4.Coords) : Prop := (Scalar.cmpi .ne (Scalar.extui (Scalar.cmpi .eq (BitVec.ofNat 32 (i 0).val) 0#32)) 0#32) = 1#1

set_option maxHeartbeats 4000000 in
/-- The pieces the body's stores leave in each output block and in the scratch, with the proof that the body, run on whole
    buffers holding the four input blocks (the scratch and the output at anything), ends holding the inputs as they were,
    the scratch with its pieces written and each output with its pieces written. -/
noncomputable def kernelRun4_A (c : Dev nD) (i : grid4.Coords) (arg1 : Memref sig .tc .vmem S10000x64 .f32) (harg1 : arg1.IsWhole) (arg2 : Memref sig .tc .vmem S64x40 .f32) (harg2 : arg2.IsWhole) (arg3 : Memref sig .tc .vmem S1x40 .f32) (harg3 : arg3.IsWhole) (arg4 : Memref sig .tc .vmem S400x10000 .f32) (harg4 : arg4.IsWhole) (arg5 : Memref sig .tc .vmem S400x40 .f32) (harg5 : arg5.IsWhole) (arg6 : Memref sig .tc .vmem S400x40 .f32) (harg6 : arg6.IsWhole) (arg7 : Memref sig .tc .vmem S10000x40 .f32) (harg7 : arg7.IsWhole) (hc : cond4A i)
    (x0 : Vec F S10000x64 .f32) (x1 : Vec F S64x40 .f32) (x2 : Vec F S1x40 .f32) (x3 : Vec F S400x10000 .f32) :
    Σ' (L0 : List (View.Piece (Elt F) S400x40 .f32)) (L1 : List (View.Piece (Elt F) S400x40 .f32)), { LS : List (View.Piece (Elt F) S10000x40 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L0) ∗ (∃ f, arg6.view.loc (c : Thread nD τ) ↦[arg6.view.set]{fullShare} arg6.view.writes (Elt F) f L1) ∗ (∃ f, arg7.view.loc (c : Thread nD τ) ↦[arg7.view.set]{fullShare} arg7.view.writes (Elt F) f LS)) -∗ K ⟨⟩))
          ⊢ wp frame (wpE (defs₀ (F := F)) Variants.none c none) E (cc4__gc_final_kernel i arg1 harg1 arg2 harg2 arg3 harg3 arg4 harg4 arg5 harg5 arg6 harg6 arg7 harg7) K } := by
  refine ⟨?_, ?_, ?_, fun E K => ?run⟩
  case run =>
    simp only [cc4__gc_final_kernel_eq_skeleton]; unfold cc4__gc_final_kernel_skel
    unfold owns
    iintro ⟨⟨%f0, %hf0, H0⟩, ⟨%f1, %hf1, H1⟩, ⟨%f2, %hf2, H2⟩, ⟨%f3, %hf3, H3⟩, ⟨%d0, %g0, -, HO0⟩, ⟨%d1, %g1, -, HO1⟩, ⟨%ds, %fs, -, HS⟩, Hk⟩
    obtain rfl := harg1.eq_unread hf0; obtain rfl := harg2.eq_unread hf1; obtain rfl := harg3.eq_unread hf2; obtain rfl := harg4.eq_unread hf3
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HO0]; · iexists _; iexact HO0
    isplitl [HO1]; · iexists _; iexact HO1
    iexists _; iexact HS

end Cert.KernelIdeal.Hand

end
-- ==== Proof.KiRun4B.lean ====
import proofs.«133978_g44306882625591_cont_8to1_c_1075_2_alg».proof.Proof.Gen.KernelIdeal.Launch
import proofs.«133978_g44306882625591_cont_8to1_c_1075_2_alg».proof.Proof.Gen.KernelIdeal.Skeleton
import proofs.«133978_g44306882625591_cont_8to1_c_1075_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The body of pallas_call 4 run at a later grid point: the branch is not taken, the carried scratch is read as the point before left it and handed back untouched, and the output block is the adjacency block times it plus the bias row. -/

/-- The body's branch condition from the grid coordinate: "is this the first grid point?", as the printed scalar chain. -/
abbrev cond4B (i : grid4.Coords) : Prop := (Scalar.cmpi .ne (Scalar.extui (Scalar.cmpi .eq (BitVec.ofNat 32 (i 0).val) 0#32)) 0#32) = 1#1

set_option maxHeartbeats 4000000 in
/-- The pieces the body's stores leave in each output block, with the proof that the body, run on whole
    buffers holding the four input blocks, the scratch at the support `xs` (the output at anything), ends holding the inputs as they were,
    the scratch as it was and each output with its pieces written. -/
noncomputable def kernelRun4_B (c : Dev nD) (i : grid4.Coords) (arg1 : Memref sig .tc .vmem S10000x64 .f32) (harg1 : arg1.IsWhole) (arg2 : Memref sig .tc .vmem S64x40 .f32) (harg2 : arg2.IsWhole) (arg3 : Memref sig .tc .vmem S1x40 .f32) (harg3 : arg3.IsWhole) (arg4 : Memref sig .tc .vmem S400x10000 .f32) (harg4 : arg4.IsWhole) (arg5 : Memref sig .tc .vmem S400x40 .f32) (harg5 : arg5.IsWhole) (arg6 : Memref sig .tc .vmem S400x40 .f32) (harg6 : arg6.IsWhole) (arg7 : Memref sig .tc .vmem S10000x40 .f32) (harg7 : arg7.IsWhole) (hc : ¬cond4B i)
    (x0 : Vec F S10000x64 .f32) (x1 : Vec F S64x40 .f32) (x2 : Vec F S1x40 .f32) (x3 : Vec F S400x10000 .f32) (xs : Vec F S10000x40 .f32) :
    Σ' (L0 : List (View.Piece (Elt F) S400x40 .f32)), { L1 : List (View.Piece (Elt F) S400x40 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L0) ∗ (∃ f, arg6.view.loc (c : Thread nD τ) ↦[arg6.view.set]{fullShare} arg6.view.writes (Elt F) f L1) ∗ owns (c : Thread nD τ) arg7 fullShare xs) -∗ K ⟨⟩))
          ⊢ wp frame (wpE (defs₀ (F := F)) Variants.none c none) E (cc4__gc_final_kernel i arg1 harg1 arg2 harg2 arg3 harg3 arg4 harg4 arg5 harg5 arg6 harg6 arg7 harg7) K } := by
  refine ⟨?_, ?_, fun E K => ?run⟩
  case run =>
    simp only [cc4__gc_final_kernel_eq_skeleton]; unfold cc4__gc_final_kernel_skel
    unfold owns
    iintro ⟨⟨%f0, %hf0, H0⟩, ⟨%f1, %hf1, H1⟩, ⟨%f2, %hf2, H2⟩, ⟨%f3, %hf3, H3⟩, ⟨%d0, %g0, -, HO0⟩, ⟨%d1, %g1, -, HO1⟩, ⟨%fs, %hfs, HS⟩, Hk⟩
    obtain rfl := harg1.eq_unread hf0; obtain rfl := harg2.eq_unread hf1; obtain rfl := harg3.eq_unread hf2; obtain rfl := harg4.eq_unread hf3; obtain rfl := harg7.eq_unread hfs
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HO0]; · iexists _; iexact HO0
    isplitl [HO1]; · iexists _; iexact HO1
    iexists _; isplitr; · ipureintro; exact harg7.read_unread _
    iexact HS

end Cert.KernelIdeal.Hand

end
-- ==== Proof.KiRegion4.lean ====
import proofs.«133978_g44306882625591_cont_8to1_c_1075_2_alg».proof.Proof.KiRun4A
import proofs.«133978_g44306882625591_cont_8to1_c_1075_2_alg».proof.Proof.KiRun4B
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Pallas_call 4 as one region of the program, at any contents `V` of the device's buffers when the region is
    entered. Its grid has 25 points; the features, the weights and the bias row are one block each, fetched once;
    the adjacency matrix is read 400 rows at a time. At the first point the body stores the support (features times
    weights) whole into a scratch buffer that stays put for the rest of the grid; at every point the output block is
    the adjacency block times the support plus the bias row. -/

section Region
variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- The first grid point. -/
abbrev t0_4 : Fin cfg4.N := ⟨0, by decide⟩
/-- The branch is taken exactly at the first point. -/
theorem hcond4A : ∀ t : Fin cfg4.N, cond4A (grid4.coords t) ↔ t.val = 0 :=
  (by decide +kernel : ∀ t : Fin grid4.N, cond4A (grid4.coords t) ↔ t.val = 0)
theorem hcond4B : ∀ t : Fin cfg4.N, cond4B (grid4.coords t) ↔ t.val = 0 :=
  (by decide +kernel : ∀ t : Fin grid4.N, cond4B (grid4.coords t) ↔ t.val = 0)

/-- Each window's current buffer at a point, as the pipeline passes it to the body. -/
abbrev ms4_0 (t : Fin cfg4.N) : Memref sig .tc .vmem S10000x64 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S64x40 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x40 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S400x10000 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S400x40 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S400x40 .f32 := win4_5.stage (cfg4.slots t 5)
abbrev hs4_5 (t : Fin cfg4.N) : (ms4_5 t).IsWhole := hstage4_5 ((cfg4.slots t 5).cast nbuf4_5)
/-- The scratch: a whole buffer of the kernel's own, passed beside the windows. -/
abbrev scM4 : Memref sig .tc .vmem S10000x40 .f32 := Memref.whole cc4_scratch0
abbrev VS4 : View sig .tc .vmem S10000x40 .f32 := (scM4).view
abbrev VO4_0 : View sig .tc .vmem S400x40 .f32 := (Memref.whole cc4_stg4_0 : Memref sig .tc .vmem S400x40 .f32).view
abbrev VO4_1 : View sig .tc .vmem S400x40 .f32 := (Memref.whole cc4_stg5_0 : Memref sig .tc .vmem S400x40 .f32).view

/-- The first point's run, on the point's buffers and input blocks. -/
def runA4 (c : Dev nD) := kernelRun4_A (F := F) c (grid4.coords t0_4) (ms4_0 t0_4) (hs4_0 t0_4) (ms4_1 t0_4) (hs4_1 t0_4) (ms4_2 t0_4) (hs4_2 t0_4) (ms4_3 t0_4) (hs4_3 t0_4) (ms4_4 t0_4) (hs4_4 t0_4) (ms4_5 t0_4) (hs4_5 t0_4) scM4 (Memref.isWhole_whole _) ((hcond4A t0_4).mpr rfl) (iblk4 V c 0 t0_4) (iblk4 V c 1 t0_4) (iblk4 V c 2 t0_4) (iblk4 V c 3 t0_4)

theorem scover4 (c : Dev nD) (y : S10000x40.Idx) : ∃ pc ∈ (runA4 V c).2.2.1, y ∈ pc.1.set :=
  View.cover_of_tiledL (runA4 V c).2.2.1 S10000x40.size (by unfold runA4; sl_kernel_rfl) y

/-- The support: what the first point leaves in the scratch (its pieces read back), there for every later point. -/
def sup4 (c : Dev nD) : Vec F S10000x40 .f32 := VS4.read (Elt F) (VS4.writes (Elt F) VS4.junk (runA4 V c).2.2.1)

/-- A later point's run, the scratch at the support. -/
def runB4 (c : Dev nD) (t : Fin cfg4.N) (hz : t.val ≠ 0) := kernelRun4_B (F := F) c (grid4.coords t) (ms4_0 t) (hs4_0 t) (ms4_1 t) (hs4_1 t) (ms4_2 t) (hs4_2 t) (ms4_3 t) (hs4_3 t) (ms4_4 t) (hs4_4 t) (ms4_5 t) (hs4_5 t) scM4 (Memref.isWhole_whole _) (fun h => hz ((hcond4B t).mp h)) (iblk4 V c 0 t) (iblk4 V c 1 t) (iblk4 V c 2 t) (iblk4 V c 3 t) (sup4 V c)

/-- Output 0's block after the body at point `t`: the pieces the point's case leaves, read back. -/
def out4_0 (c : Dev nD) (t : Fin cfg4.N) : Vec F S400x40 .f32 :=
  if hz : t.val = 0 then VO4_0.read (Elt F) (VO4_0.writes (Elt F) VO4_0.junk (runA4 V c).1)
  else VO4_0.read (Elt F) (VO4_0.writes (Elt F) VO4_0.junk (runB4 V c t hz).1)
theorem out4_0_first (c : Dev nD) : out4_0 V c t0_4 = VO4_0.read (Elt F) (VO4_0.writes (Elt F) VO4_0.junk (runA4 V c).1) := dif_pos rfl
theorem out4_0_later (c : Dev nD) (t : Fin cfg4.N) (hz : t.val ≠ 0) : out4_0 V c t = VO4_0.read (Elt F) (VO4_0.writes (Elt F) VO4_0.junk (runB4 V c t hz).1) := dif_neg hz
theorem coverA4_0 (c : Dev nD) (y : S400x40.Idx) : ∃ pc ∈ (runA4 V c).1, y ∈ pc.1.set :=
  View.cover_of_tiledL (runA4 V c).1 S400x40.size (by unfold runA4; sl_kernel_rfl) y
theorem coverB4_0 (c : Dev nD) (t : Fin cfg4.N) (hz : t.val ≠ 0) (y : S400x40.Idx) : ∃ pc ∈ (runB4 V c t hz).1, y ∈ pc.1.set :=
  View.cover_of_tiledL (runB4 V c t hz).1 S400x40.size (by unfold runB4; sl_kernel_rfl) y
/-- Output 1's block after the body at point `t`: the pieces the point's case leaves, read back. -/
def out4_1 (c : Dev nD) (t : Fin cfg4.N) : Vec F S400x40 .f32 :=
  if hz : t.val = 0 then VO4_1.read (Elt F) (VO4_1.writes (Elt F) VO4_1.junk (runA4 V c).2.1)
  else VO4_1.read (Elt F) (VO4_1.writes (Elt F) VO4_1.junk (runB4 V c t hz).2.1)
theorem out4_1_first (c : Dev nD) : out4_1 V c t0_4 = VO4_1.read (Elt F) (VO4_1.writes (Elt F) VO4_1.junk (runA4 V c).2.1) := dif_pos rfl
theorem out4_1_later (c : Dev nD) (t : Fin cfg4.N) (hz : t.val ≠ 0) : out4_1 V c t = VO4_1.read (Elt F) (VO4_1.writes (Elt F) VO4_1.junk (runB4 V c t hz).2.1) := dif_neg hz
theorem coverA4_1 (c : Dev nD) (y : S400x40.Idx) : ∃ pc ∈ (runA4 V c).2.1, y ∈ pc.1.set :=
  View.cover_of_tiledL (runA4 V c).2.1 S400x40.size (by unfold runA4; sl_kernel_rfl) y
theorem coverB4_1 (c : Dev nD) (t : Fin cfg4.N) (hz : t.val ≠ 0) (y : S400x40.Idx) : ∃ pc ∈ (runB4 V c t hz).2.1, y ∈ pc.1.set :=
  View.cover_of_tiledL (runB4 V c t hz).2.1 S400x40.size (by unfold runB4; sl_kernel_rfl) y

/-- The region's invariant before position `n`: before the first point the scoped buffers at anything and the
    generator register at some state; afterwards the same with the scratch at the support. -/
def Phi4 (c : Dev nD) (n : ℕ) : sProp 𝕄 :=
  if n = 0 then Pipeline.ΦA spec4 c
  else iprop(iprop(owns (c : Thread nD τ) scM4 fullShare (sup4 V c)
      ∗ Pipeline.scopedRestBut (Ix := Unit) (Name := ℕ) (U := UR sig nD τ) (Lvl := ℕ) (Val := Elt F) spec4 c [cc4_scratch0]) ∗ (∃ r, prngReg c r))

/-- The entry invariant with the scratch split out of the scoped buffers. -/
theorem PhiA4_eq (c : Dev nD) :
    (Pipeline.ΦA spec4 c : sProp 𝕄)
      = iprop(iprop(iprop((∃ d, owns (c : Thread nD τ) scM4 fullShare d))
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4, owns_whole]; try rfl

/-- The proof data: the arrays as the region finds them; after the body each input's buffer at its block and the
    output's at the point's result; the invariant above; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_0 V c t
    | ⟨5, _⟩ => out4_1 V c t
  Φ t := Phi4 V c t.val
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = out4_0 V c t := by dsimp only [dat4]
theorem after4_5 (c : Dev nD) (t : Fin cfg4.N) : (dat4 V c).after 5 t = out4_1 V c t := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

set_option maxHeartbeats 4000000 in
/-- The body at any point: at the first the branch is taken and the scratch leaves at the support; later the scratch
    is found at the support and left there. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl, after4_0, after4_1, after4_2, after4_3, after4_4, after4_5]
  rw [show (dat4 V c).Φ t.succ = Phi4 V c (t.val + 1) from rfl, show (dat4 V c).Φ t.castSucc = Phi4 V c t.val from rfl]
  rw [show Phi4 V c (t.val + 1) = iprop(iprop(owns (c : Thread nD τ) scM4 fullShare (sup4 V c)
      ∗ Pipeline.scopedRestBut (Ix := Unit) (Name := ℕ) (U := UR sig nD τ) (Lvl := ℕ) (Val := Elt F) spec4 c [cc4_scratch0]) ∗ (∃ r, prngReg c r)) from if_neg (Nat.succ_ne_zero _)]
  by_cases hz : t.val = 0
  · obtain rfl : t = t0_4 := Fin.ext hz
    rw [show Phi4 V c (t0_4).val = Pipeline.ΦA spec4 c from if_pos rfl, PhiA4_eq, out4_0_first, out4_1_first]
    iintro ⟨⟨⟨HS, HB⟩, Hg⟩, Ho, ⟨%d0, H0⟩, ⟨%d1, H1⟩, ⟨%d2, H2⟩, ⟨%d3, H3⟩, ⟨%d4, H4⟩, ⟨%d5, H5⟩⟩
    iapply ((runA4 V c).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, ⟨%e4, H4⟩, ⟨%e5, H5⟩, ⟨%es, HS⟩⟩
    isplitl [HS HB Hg]
    · isplitl [HS HB]
      · isplitl [HS]
        · unfold owns sup4; iexists _; isplitr
          swap; · iexact HS
          ipureintro; exact View.read_writes_of_cover _ _ _ _ _ (scover4 V c)
        iexact HB
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverA4_0 V c)
    unfold owns; iexists _; isplitr
    swap; · iexact H5
    ipureintro; exact View.read_writes_of_cover _ _ _ _ _ (coverA4_1 V c)
  · rw [show Phi4 V c t.val = iprop(iprop(owns (c : Thread nD τ) scM4 fullShare (sup4 V c)
      ∗ Pipeline.scopedRestBut (Ix := Unit) (Name := ℕ) (U := UR sig nD τ) (Lvl := ℕ) (Val := Elt F) spec4 c [cc4_scratch0]) ∗ (∃ r, prngReg c r)) from if_neg hz, out4_0_later V c t hz, out4_1_later V c t hz]
    iintro ⟨⟨⟨HS, HB⟩, Hg⟩, Ho, ⟨%d0, H0⟩, ⟨%d1, H1⟩, ⟨%d2, H2⟩, ⟨%d3, H3⟩, ⟨%d4, H4⟩, ⟨%d5, H5⟩⟩
    iapply ((runB4 V c t hz).2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, ⟨%e4, H4⟩, ⟨%e5, H5⟩, HS⟩
    isplitl [HS HB Hg]
    · isplitl [HS HB]
      · isplitl [HS]; · iexact HS
        iexact HB
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverB4_0 V c t hz)
    unfold owns; iexists _; isplitr
    swap; · iexact H5
    ipureintro; exact View.read_writes_of_cover _ _ _ _ _ (coverB4_1 V c t hz)

/-- The library's body obligation, at every point. -/
theorem body_obligation4 (c : Dev nD) : BodyObligation (dat4 (F := F) V c) (defs₀ (F := F)) Variants.none () Set.univ := fun t => by
  rw [bigSep_W4, bigSep_W4]
  exact sound_body4 V c t

end Region

end Cert.KernelIdeal.Hand

end
-- ==== Proof.KiRunAll.lean ====
import proofs.«133978_g44306882625591_cont_8to1_c_1075_2_alg».proof.Proof.KiRegion0
import proofs.«133978_g44306882625591_cont_8to1_c_1075_2_alg».proof.Proof.KiRegion1
import proofs.«133978_g44306882625591_cont_8to1_c_1075_2_alg».proof.Proof.KiRegion2
import proofs.«133978_g44306882625591_cont_8to1_c_1075_2_alg».proof.Proof.KiRegion3
import proofs.«133978_g44306882625591_cont_8to1_c_1075_2_alg».proof.Proof.KiRegion4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The whole program as a run of segments: one stretch of host operations (the five bias vectors re-laid as rows),
    then the five regions in order, each entered from what the one before left. The contents of every unscoped buffer
    at each segment boundary are named (a fold from the launch memory), and the run's post reads every unscoped
    buffer off the last of them. -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves, every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- At region 3's exit: its arrays at what the pipeline leaves, every other buffer as entered. -/
def W5 (c : Dev nD) : Valuation τ sig (Elt F) :=
  Pipeline.withArrays spec3 c (W4 m ρ c) fun w => (dat3 (V4 m ρ) c).arrAt w cfg3.N
theorem W5_arr (c : Dev nD) (w : Fin cfg3.W) :
    W5 m ρ c (Proc.devRef .tc (Pipeline.arrRef spec3 w)) = (dat3 (V4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
abbrev V5 : (c : Dev nD) → (b : Ref sig .tc) → Buf (Elt F) ((c : Thread nD τ).loc b) := fun c b => W5 m ρ c b
theorem hF3 (c : Dev nD) (w : Fin cfg3.W) : (dat3 (V4 m ρ) c).arrAt w cfg3.N = V5 m ρ c (Pipeline.arrRef spec3 w) :=
  (W5_arr m ρ c w).symm
theorem hrest3 (c : Dev nD) : ∀ b, b ∉ Finset.univ.image (Pipeline.arrRef spec3) → V5 m ρ c b = V4 m ρ c b :=
  fun b hb => W5_of_ne m ρ c b fun w e => hb (Finset.mem_image.mpr ⟨w, Finset.mem_univ _, e⟩)

/-- At region 4's exit: its arrays at what the pipeline leaves, every other buffer as entered. -/
def W6 (c : Dev nD) : Valuation τ sig (Elt F) :=
  Pipeline.withArrays spec4 c (W5 m ρ c) fun w => (dat4 (V5 m ρ) c).arrAt w cfg4.N
theorem W6_arr (c : Dev nD) (w : Fin cfg4.W) :
    W6 m ρ c (Proc.devRef .tc (Pipeline.arrRef spec4 w)) = (dat4 (V5 m ρ) c).arrAt w cfg4.N := by
  unfold W6; exact Pipeline.withArrays_arr spec4 launch4.win.arr_inj c _ _ w
theorem W6_of_ne (c : Dev nD) (b : Ref sig .tc) (hb : ∀ w, Pipeline.arrRef spec4 w ≠ b) :
    W6 m ρ c (Proc.devRef .tc b) = W5 m ρ c (Proc.devRef .tc b) := by
  unfold W6; exact Pipeline.withArrays_of_ne spec4 c _ _ b hb
abbrev V6 : (c : Dev nD) → (b : Ref sig .tc) → Buf (Elt F) ((c : Thread nD τ).loc b) := fun c b => W6 m ρ c b
theorem hF4 (c : Dev nD) (w : Fin cfg4.W) : (dat4 (V5 m ρ) c).arrAt w cfg4.N = V6 m ρ c (Pipeline.arrRef spec4 w) :=
  (W6_arr m ρ c w).symm
theorem hrest4 (c : Dev nD) : ∀ b, b ∉ Finset.univ.image (Pipeline.arrRef spec4) → V6 m ρ c b = V5 m ρ c b :=
  fun b hb => W6_of_ne m ρ c b fun w e => hb (Finset.mem_image.mpr ⟨w, Finset.mem_univ _, e⟩)

/-- No pallas_call has a prefetched table. -/
abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V4 m ρ) c
  | ⟨4, _⟩ => fun c => dat4 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

set_option backward.isDefEq.respectTransparency.types false in
/-- Region 0 over the thread state "every unscoped buffer at the boundary's contents, the generator register at
    some state, nothing owed": its arrays split out of the unscoped buffers and put back at the exit contents; the
    generator register and the scoped buffers into the region's invariant and out, the scratch forgotten at the end. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = iprop(iprop(owns (c : Thread nD τ) scM0 fullShare (sup0 (V1 m ρ) c)
      ∗ Pipeline.scopedRestBut (Ix := Unit) (Name := ℕ) (U := UR sig nD τ) (Lvl := ℕ) (Val := Elt F) spec0 c [cc0_scratch0]) ∗ (∃ r, prngReg c r)) from rfl]
    iintro ⟨⟨HS, HB⟩, Hp⟩
    isplitl [Hp]; · iexact Hp
    isplitr; · iempintro
    iapply (show iprop(iprop(∃ f : Buf (Elt F) ((c : Thread nD τ).loc cc0_scratch0), ((c : Thread nD τ).loc cc0_scratch0) ↦{fullShare} f)
          ∗ Pipeline.scopedRestBut (Ix := Unit) (Name := ℕ) (U := UR sig nD τ) (Lvl := ℕ) (Val := Elt F) spec0 c [cc0_scratch0])
        ⊢ (Pipeline.scopedRest (Ix := Unit) (Name := ℕ) (U := UR sig nD τ) (Lvl := ℕ) (Val := Elt F) spec0 c : sProp 𝕄) from by
      rw [scopedRest0_split])
    isplitl [HS]
    · simp only [scM0, owns_whole]; iexists _; iexact HS
    iexact HB
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at
    some state, nothing owed": its arrays split out of the unscoped buffers and put back at the exit contents; the
    generator register and the scoped buffers into the region's invariant and out, the scratch forgotten at the end. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = iprop(iprop(owns (c : Thread nD τ) scM1 fullShare (sup1 (V2 m ρ) c)
      ∗ Pipeline.scopedRestBut (Ix := Unit) (Name := ℕ) (U := UR sig nD τ) (Lvl := ℕ) (Val := Elt F) spec1 c [cc1_scratch0]) ∗ (∃ r, prngReg c r)) from rfl]
    iintro ⟨⟨HS, HB⟩, Hp⟩
    isplitl [Hp]; · iexact Hp
    isplitr; · iempintro
    iapply (show iprop(iprop(∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0])
        ⊢ (Pipeline.scopedRest (Ix := Unit) (Name := ℕ) (U := UR sig nD τ) (Lvl := ℕ) (Val := Elt F) spec1 c : sProp 𝕄) from by
      rw [scopedRest1_split])
    isplitl [HS]
    · simp only [scM1, owns_whole]; iexists _; iexact HS
    iexact HB
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state "every unscoped buffer at the boundary's contents, the generator register at
    some state, nothing owed": its arrays split out of the unscoped buffers and put back at the exit contents; the
    generator register and the scoped buffers into the region's invariant and out, the scratch forgotten at the end. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = iprop(iprop(owns (c : Thread nD τ) scM2 fullShare (sup2 (V3 m ρ) c)
      ∗ Pipeline.scopedRestBut (Ix := Unit) (Name := ℕ) (U := UR sig nD τ) (Lvl := ℕ) (Val := Elt F) spec2 c [cc2_scratch0]) ∗ (∃ r, prngReg c r)) from rfl]
    iintro ⟨⟨HS, HB⟩, Hp⟩
    isplitl [Hp]; · iexact Hp
    isplitr; · iempintro
    iapply (show iprop(iprop(∃ f : Buf (Elt F) ((c : Thread nD τ).loc cc2_scratch0), ((c : Thread nD τ).loc cc2_scratch0) ↦{fullShare} f)
          ∗ Pipeline.scopedRestBut (Ix := Unit) (Name := ℕ) (U := UR sig nD τ) (Lvl := ℕ) (Val := Elt F) spec2 c [cc2_scratch0])
        ⊢ (Pipeline.scopedRest (Ix := Unit) (Name := ℕ) (U := UR sig nD τ) (Lvl := ℕ) (Val := Elt F) spec2 c : sProp 𝕄) from by
      rw [scopedRest2_split])
    isplitl [HS]
    · simp only [scM2, owns_whole]; iexists _; iexact HS
    iexact HB
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state "every unscoped buffer at the boundary's contents, the generator register at
    some state, nothing owed": its arrays split out of the unscoped buffers and put back at the exit contents; the
    generator register and the scoped buffers into the region's invariant and out, the scratch forgotten at the end. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec3 c (V4 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = iprop(iprop(owns (c : Thread nD τ) scM3 fullShare (sup3 (V4 m ρ) c)
      ∗ Pipeline.scopedRestBut (Ix := Unit) (Name := ℕ) (U := UR sig nD τ) (Lvl := ℕ) (Val := Elt F) spec3 c [cc3_scratch0]) ∗ (∃ r, prngReg c r)) from rfl]
    iintro ⟨⟨HS, HB⟩, Hp⟩
    isplitl [Hp]; · iexact Hp
    isplitr; · iempintro
    iapply (show iprop(iprop(∃ f : Buf (Elt F) ((c : Thread nD τ).loc cc3_scratch0), ((c : Thread nD τ).loc cc3_scratch0) ↦{fullShare} f)
          ∗ Pipeline.scopedRestBut (Ix := Unit) (Name := ℕ) (U := UR sig nD τ) (Lvl := ℕ) (Val := Elt F) spec3 c [cc3_scratch0])
        ⊢ (Pipeline.scopedRest (Ix := Unit) (Name := ℕ) (U := UR sig nD τ) (Lvl := ℕ) (Val := Elt F) spec3 c : sProp 𝕄) from by
      rw [scopedRest3_split])
    isplitl [HS]
    · simp only [scM3, owns_whole]; iexists _; iexact HS
    iexact HB
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V4 m ρ c) (V5 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state "every unscoped buffer at the boundary's contents, the generator register at
    some state, nothing owed": its arrays split out of the unscoped buffers and put back at the exit contents; the
    generator register and the scoped buffers into the region's invariant and out, the scratch forgotten at the end. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V5 m ρ) c).loose
  hwaits := Pipeline.hwaits_of_owed_zero _ _ _ _ L lv 4 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V5 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = iprop(iprop(owns (c : Thread nD τ) scM4 fullShare (sup4 (V5 m ρ) c)
      ∗ Pipeline.scopedRestBut (Ix := Unit) (Name := ℕ) (U := UR sig nD τ) (Lvl := ℕ) (Val := Elt F) spec4 c [cc4_scratch0]) ∗ (∃ r, prngReg c r)) from rfl]
    iintro ⟨⟨HS, HB⟩, Hp⟩
    isplitl [Hp]; · iexact Hp
    isplitr; · iempintro
    iapply (show iprop(iprop(∃ f : Buf (Elt F) ((c : Thread nD τ).loc cc4_scratch0), ((c : Thread nD τ).loc cc4_scratch0) ↦{fullShare} f)
          ∗ Pipeline.scopedRestBut (Ix := Unit) (Name := ℕ) (U := UR sig nD τ) (Lvl := ℕ) (Val := Elt F) spec4 c [cc4_scratch0])
        ⊢ (Pipeline.scopedRest (Ix := Unit) (Name := ℕ) (U := UR sig nD τ) (Lvl := ℕ) (Val := Elt F) spec4 c : sProp 𝕄) from by
      rw [scopedRest4_split])
    isplitl [HS]
    · simp only [scM4, owns_whole]; iexists _; iexact HS
    iexact HB
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V5 m ρ c) (V6 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh' (W0 m ρ)),
    .region (reg0 m ρ), .region (reg1 m ρ), .region (reg2 m ρ), .region (reg3 m ρ), .region (reg4 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing faulting, and
    every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Cert.KernelIdeal.Hand

end
-- ==== Proof.KiFrame.lean ====
import proofs.«133978_g44306882625591_cont_8to1_c_1075_2_alg».proof.Proof.KiRunAll
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The frame: every argument array ends as launched. Each is read off the last boundary's contents and walked back
    through the five regions (an input window's array is left as found; any other buffer bypasses the region) and the
    host stretch (which writes only the re-laid bias rows) to the launch memory. -/

variable (m : (ℓ : Loc nD τ sig) → Buf (Elt F) ℓ) (ρ : Dev nD → PrngReg)

/-- `main_arg0` reaches the end as launched: no host operation writes it, and a region reads it through an input window or bypasses it. -/
theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := W5_of_ne m ρ c main_arg0 (by decide)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- `main_arg1` reaches the end as launched: no host operation writes it, and a region reads it through an input window or bypasses it. -/
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := (W6_arr m ρ c 3).trans (((dat4 (V5 m ρ) c).arrAt_in 3 rfl _).trans (A_eq4 (V5 m ρ) c 3))
    _ = W4 m ρ c (Proc.devRef .tc main_arg1) := (W5_arr m ρ c 3).trans (((dat3 (V4 m ρ) c).arrAt_in 3 rfl _).trans (A_eq3 (V4 m ρ) c 3))
    _ = W3 m ρ c (Proc.devRef .tc main_arg1) := (W4_arr m ρ c 3).trans (((dat2 (V3 m ρ) c).arrAt_in 3 rfl _).trans (A_eq2 (V3 m ρ) c 3))
    _ = W2 m ρ c (Proc.devRef .tc main_arg1) := (W3_arr m ρ c 3).trans (((dat1 (V2 m ρ) c).arrAt_in 3 rfl _).trans (A_eq1 (V2 m ρ) c 3))
    _ = W1 m ρ c (Proc.devRef .tc main_arg1) := (W2_arr m ρ c 3).trans (((dat0 (V1 m ρ) c).arrAt_in 3 rfl _).trans (A_eq0 (V1 m ρ) c 3))
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- `main_arg2` reaches the end as launched: no host operation writes it, and a region reads it through an input window or bypasses it. -/
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := W5_of_ne m ρ c main_arg2 (by decide)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- `main_arg3` reaches the end as launched: no host operation writes it, and a region reads it through an input window or bypasses it. -/
theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := W5_of_ne m ρ c main_arg3 (by decide)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- `main_arg4` reaches the end as launched: no host operation writes it, and a region reads it through an input window or bypasses it. -/
theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := W5_of_ne m ρ c main_arg4 (by decide)
    _ = W3 m ρ c (Proc.devRef .tc main_arg4) := W4_of_ne m ρ c main_arg4 (by decide)
    _ = W2 m ρ c (Proc.devRef .tc main_arg4) := (W3_arr m ρ c 1).trans (((dat1 (V2 m ρ) c).arrAt_in 1 rfl _).trans (A_eq1 (V2 m ρ) c 1))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- `main_arg5` reaches the end as launched: no host operation writes it, and a region reads it through an input window or bypasses it. -/
theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := W5_of_ne m ρ c main_arg5 (by decide)
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-- `main_arg6` reaches the end as launched: no host operation writes it, and a region reads it through an input window or bypasses it. -/
theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := W5_of_ne m ρ c main_arg6 (by decide)
    _ = W3 m ρ c (Proc.devRef .tc main_arg6) := (W4_arr m ρ c 1).trans (((dat2 (V3 m ρ) c).arrAt_in 1 rfl _).trans (A_eq2 (V3 m ρ) c 1))
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-- `main_arg7` reaches the end as launched: no host operation writes it, and a region reads it through an input window or bypasses it. -/
theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := W5_of_ne m ρ c main_arg7 (by decide)
    _ = W3 m ρ c (Proc.devRef .tc main_arg7) := W4_of_ne m ρ c main_arg7 (by decide)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

/-- `main_arg8` reaches the end as launched: no host operation writes it, and a region reads it through an input window or bypasses it. -/
theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := (W5_arr m ρ c 1).trans (((dat3 (V4 m ρ) c).arrAt_in 1 rfl _).trans (A_eq3 (V4 m ρ) c 1))
    _ = W3 m ρ c (Proc.devRef .tc main_arg8) := W4_of_ne m ρ c main_arg8 (by decide)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

/-- `main_arg9` reaches the end as launched: no host operation writes it, and a region reads it through an input window or bypasses it. -/
theorem W6_main_arg9 (c : Dev nD) : W6 m ρ c (Proc.devRef .tc main_arg9) = m ((c : Thread nD τ).loc main_arg9) :=
  calc W6 m ρ c (Proc.devRef .tc main_arg9)
    _ = W5 m ρ c (Proc.devRef .tc main_arg9) := W6_of_ne m ρ c main_arg9 (by decide)
    _ = W4 m ρ c (Proc.devRef .tc main_arg9) := W5_of_ne m ρ c main_arg9 (by decide)
    _ = W3 m ρ c (Proc.devRef .tc main_arg9) := W4_of_ne m ρ c main_arg9 (by decide)
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

/-- `main_arg10` reaches the end as launched: no host operation writes it, and a region reads it through an input window or bypasses it. -/
theorem W6_main_arg10 (c : Dev nD) : W6 m ρ c (Proc.devRef .tc main_arg10) = m ((c : Thread nD τ).loc main_arg10) :=
  calc W6 m ρ c (Proc.devRef .tc main_arg10)
    _ = W5 m ρ c (Proc.devRef .tc main_arg10) := (W6_arr m ρ c 1).trans (((dat4 (V5 m ρ) c).arrAt_in 1 rfl _).trans (A_eq4 (V5 m ρ) c 1))
    _ = W4 m ρ c (Proc.devRef .tc main_arg10) := W5_of_ne m ρ c main_arg10 (by decide)
    _ = W3 m ρ c (Proc.devRef .tc main_arg10) := W4_of_ne m ρ c main_arg10 (by decide)
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

/-- `main_arg11` reaches the end as launched: no host operation writes it, and a region reads it through an input window or bypasses it. -/
theorem W6_main_arg11 (c : Dev nD) : W6 m ρ c (Proc.devRef .tc main_arg11) = m ((c : Thread nD τ).loc main_arg11) :=
  calc W6 m ρ c (Proc.devRef .tc main_arg11)
    _ = W5 m ρ c (Proc.devRef .tc main_arg11) := W6_of_ne m ρ c main_arg11 (by decide)
    _ = W4 m ρ c (Proc.devRef .tc main_arg11) := W5_of_ne m ρ c main_arg11 (by decide)
    _ = W3 m ρ c (Proc.devRef .tc main_arg11) := W4_of_ne m ρ c main_arg11 (by decide)
    _ = W2 m ρ c (Proc.devRef .tc main_arg11) := W3_of_ne m ρ c main_arg11 (by decide)
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

/-- From any memory with zero counters every weakly fair execution of the program terminates, nothing faulting, and
    every argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (W6_main_arg0 m ρ c),
    (h c _ (mem_uc main_arg1 (by decide))).trans (W6_main_arg1 m ρ c),
    (h c _ (mem_uc main_arg2 (by decide))).trans (W6_main_arg2 m ρ c),
    (h c _ (mem_uc main_arg3 (by decide))).trans (W6_main_arg3 m ρ c),
    (h c _ (mem_uc main_arg4 (by decide))).trans (W6_main_arg4 m ρ c),
    (h c _ (mem_uc main_arg5 (by decide))).trans (W6_main_arg5 m ρ c),
    (h c _ (mem_uc main_arg6 (by decide))).trans (W6_main_arg6 m ρ c),
    (h c _ (mem_uc main_arg7 (by decide))).trans (W6_main_arg7 m ρ c),
    (h c _ (mem_uc main_arg8 (by decide))).trans (W6_main_arg8 m ρ c),
    (h c _ (mem_uc main_arg9 (by decide))).trans (W6_main_arg9 m ρ c),
    (h c _ (mem_uc main_arg10 (by decide))).trans (W6_main_arg10 m ρ c),
    (h c _ (mem_uc main_arg11 (by decide))).trans (W6_main_arg11 m ρ c)⟩) (run_all m ρ)

end Cert.KernelIdeal.Hand

end
-- ==== Proof.KiPieces.lean ====
/-
  What each region's stores leave, as the generated stored values of the point's blocks: the scratch after the first grid
  point is the support of that point's feature and weight blocks, and each output block is the body's value of the point's
  adjacency block, that support and the bias row. Every store of these bodies is one whole-buffer piece, so a buffer read back
  after its store is the stored value, and a whole-buffer load of an untouched input block is the block.
-/
import proofs.«133978_g44306882625591_cont_8to1_c_1075_2_alg».proof.Proof.KiRegion0
import proofs.«133978_g44306882625591_cont_8to1_c_1075_2_alg».proof.Proof.KiRegion1
import proofs.«133978_g44306882625591_cont_8to1_c_1075_2_alg».proof.Proof.KiRegion2
import proofs.«133978_g44306882625591_cont_8to1_c_1075_2_alg».proof.Proof.KiRegion3
import proofs.«133978_g44306882625591_cont_8to1_c_1075_2_alg».proof.Proof.KiRegion4
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets of a whole-buffer rectangle of rank two. -/
theorem hz00 : (![0, 0] : Fin 2 → Nat) = fun _ => 0 := funext fun a => by fin_cases a <;> rfl

section Pieces
variable (V : (c : Dev nD) → (b : Ref sig .tc) → Buf (Elt F) ((c : Thread nD τ).loc b))

/-! ## Region 0 -/

/-- The support the first point leaves in the scratch is the body's first stored value of the point's two blocks. -/
theorem sup0_eq (c : Dev nD) : sup0 V c = k0_pay1 (iblk0 V c 0 t0_0) (iblk0 V c 1 t0_0) := by
  unfold sup0
  rw [View.read_writes_eq_canon _ _ _ (scover0 V c)]
  unfold runA0 kernelRun0_A
  dsimp only
  try sl_unfold_words
  rw [View.canon_unit_zero hz00]
  simp only [View.readAt_eq_ld, (hs0_0 t0_0).read_unread, (hs0_1 t0_0).read_unread, (hs0_2 t0_0).read_unread,
      (hs0_3 t0_0).read_unread, View.ld_unit_zero (S := S10000x128) hz00, View.ld_unit_zero (S := S128x64) hz00,
      View.ld_unit_zero (S := S1x64) hz00, View.ld_unit_zero (S := S400x10000) hz00]

/-- Output 0's block at every point is the body's stored value of the adjacency block, the support and the bias row. -/
theorem out0_0_eq (c : Dev nD) (t : Fin cfg0.N) :
    out0_0 V c t = k0_pay2 (iblk0 V c 3 t) (sup0 V c) (iblk0 V c 2 t) := by
  by_cases hz : t.val = 0
  · obtain rfl : t = t0_0 := Fin.ext hz
    rw [out0_0_first, sup0_eq, View.read_writes_eq_canon _ _ _ (coverA0_0 V c)]
    unfold runA0 kernelRun0_A
    dsimp only
    try sl_unfold_words
    rw [View.canon_unit_zero hz00, View.readCov_unit_zero (S := S10000x64) _ hz00]
    simp only [View.readAt_eq_ld, (hs0_0 t0_0).read_unread, (hs0_1 t0_0).read_unread, (hs0_2 t0_0).read_unread,
      (hs0_3 t0_0).read_unread, View.ld_unit_zero (S := S10000x128) hz00, View.ld_unit_zero (S := S128x64) hz00,
      View.ld_unit_zero (S := S1x64) hz00, View.ld_unit_zero (S := S400x10000) hz00]
  · rw [out0_0_later V c t hz, View.read_writes_eq_canon _ _ _ (coverB0_0 V c t hz)]
    unfold runB0 kernelRun0_B
    dsimp only
    try sl_unfold_words
    rw [View.canon_unit_zero hz00]
    simp only [View.readAt_eq_ld, (hs0_2 t).read_unread, (hs0_3 t).read_unread,
      (Memref.isWhole_whole _).read_unread, View.ld_unit_zero (S := S1x64) hz00, View.ld_unit_zero (S := S400x10000) hz00,
      View.ld_unit_zero (S := S10000x64) hz00]

/-! ## Region 1 -/

/-- The support the first point leaves in the scratch is the body's first stored value of the point's two blocks. -/
theorem sup1_eq (c : Dev nD) : sup1 V c = k1_pay1 (iblk1 V c 0 t0_1) (iblk1 V c 1 t0_1) := by
  unfold sup1
  rw [View.read_writes_eq_canon _ _ _ (scover1 V c)]
  unfold runA1 kernelRun1_A
  dsimp only
  try sl_unfold_words
  rw [View.canon_unit_zero hz00]
  simp only [View.readAt_eq_ld, (hs1_0 t0_1).read_unread, (hs1_1 t0_1).read_unread, (hs1_2 t0_1).read_unread,
      (hs1_3 t0_1).read_unread, View.ld_unit_zero (S := S10000x64) hz00, View.ld_unit_zero (S := S64x64) hz00,
      View.ld_unit_zero (S := S1x64) hz00, View.ld_unit_zero (S := S400x10000) hz00]

/-- Output 0's block at every point is the body's stored value of the adjacency block, the support and the bias row. -/
theorem out1_0_eq (c : Dev nD) (t : Fin cfg1.N) :
    out1_0 V c t = k1_pay2 (iblk1 V c 3 t) (sup1 V c) (iblk1 V c 2 t) := by
  by_cases hz : t.val = 0
  · obtain rfl : t = t0_1 := Fin.ext hz
    rw [out1_0_first, sup1_eq, View.read_writes_eq_canon _ _ _ (coverA1_0 V c)]
    unfold runA1 kernelRun1_A
    dsimp only
    try sl_unfold_words
    rw [View.canon_unit_zero hz00, View.readCov_unit_zero (S := S10000x64) _ hz00]
    simp only [View.readAt_eq_ld, (hs1_0 t0_1).read_unread, (hs1_1 t0_1).read_unread, (hs1_2 t0_1).read_unread,
      (hs1_3 t0_1).read_unread, View.ld_unit_zero (S := S10000x64) hz00, View.ld_unit_zero (S := S64x64) hz00,
      View.ld_unit_zero (S := S1x64) hz00, View.ld_unit_zero (S := S400x10000) hz00]
  · rw [out1_0_later V c t hz, View.read_writes_eq_canon _ _ _ (coverB1_0 V c t hz)]
    unfold runB1 kernelRun1_B
    dsimp only
    try sl_unfold_words
    rw [View.canon_unit_zero hz00]
    simp only [View.readAt_eq_ld, (hs1_2 t).read_unread, (hs1_3 t).read_unread,
      (Memref.isWhole_whole _).read_unread, View.ld_unit_zero (S := S1x64) hz00, View.ld_unit_zero (S := S400x10000) hz00,
      View.ld_unit_zero (S := S10000x64) hz00]

/-! ## Region 2 -/

/-- The support the first point leaves in the scratch is the body's first stored value of the point's two blocks. -/
theorem sup2_eq (c : Dev nD) : sup2 V c = k2_pay1 (iblk2 V c 0 t0_2) (iblk2 V c 1 t0_2) := by
  unfold sup2
  rw [View.read_writes_eq_canon _ _ _ (scover2 V c)]
  unfold runA2 kernelRun2_A
  dsimp only
  try sl_unfold_words
  rw [View.canon_unit_zero hz00]
  simp only [View.readAt_eq_ld, (hs2_0 t0_2).read_unread, (hs2_1 t0_2).read_unread, (hs2_2 t0_2).read_unread,
      (hs2_3 t0_2).read_unread, View.ld_unit_zero (S := S10000x64) hz00, View.ld_unit_zero (S := S64x64) hz00,
      View.ld_unit_zero (S := S1x64) hz00, View.ld_unit_zero (S := S400x10000) hz00]

/-- Output 0's block at every point is the body's stored value of the adjacency block, the support and the bias row. -/
theorem out2_0_eq (c : Dev nD) (t : Fin cfg2.N) :
    out2_0 V c t = k2_pay2 (iblk2 V c 3 t) (sup2 V c) (iblk2 V c 2 t) := by
  by_cases hz : t.val = 0
  · obtain rfl : t = t0_2 := Fin.ext hz
    rw [out2_0_first, sup2_eq, View.read_writes_eq_canon _ _ _ (coverA2_0 V c)]
    unfold runA2 kernelRun2_A
    dsimp only
    try sl_unfold_words
    rw [View.canon_unit_zero hz00, View.readCov_unit_zero (S := S10000x64) _ hz00]
    simp only [View.readAt_eq_ld, (hs2_0 t0_2).read_unread, (hs2_1 t0_2).read_unread, (hs2_2 t0_2).read_unread,
      (hs2_3 t0_2).read_unread, View.ld_unit_zero (S := S10000x64) hz00, View.ld_unit_zero (S := S64x64) hz00,
      View.ld_unit_zero (S := S1x64) hz00, View.ld_unit_zero (S := S400x10000) hz00]
  · rw [out2_0_later V c t hz, View.read_writes_eq_canon _ _ _ (coverB2_0 V c t hz)]
    unfold runB2 kernelRun2_B
    dsimp only
    try sl_unfold_words
    rw [View.canon_unit_zero hz00]
    simp only [View.readAt_eq_ld, (hs2_2 t).read_unread, (hs2_3 t).read_unread,
      (Memref.isWhole_whole _).read_unread, View.ld_unit_zero (S := S1x64) hz00, View.ld_unit_zero (S := S400x10000) hz00,
      View.ld_unit_zero (S := S10000x64) hz00]

/-! ## Region 3 -/

/-- The support the first point leaves in the scratch is the body's first stored value of the point's two blocks. -/
theorem sup3_eq (c : Dev nD) : sup3 V c = k3_pay1 (iblk3 V c 0 t0_3) (iblk3 V c 1 t0_3) := by
  unfold sup3
  rw [View.read_writes_eq_canon _ _ _ (scover3 V c)]
  unfold runA3 kernelRun3_A
  dsimp only
  try sl_unfold_words
  rw [View.canon_unit_zero hz00]
  simp only [View.readAt_eq_ld, (hs3_0 t0_3).read_unread, (hs3_1 t0_3).read_unread, (hs3_2 t0_3).read_unread,
      (hs3_3 t0_3).read_unread, View.ld_unit_zero (S := S10000x64) hz00, View.ld_unit_zero (S := S64x64) hz00,
      View.ld_unit_zero (S := S1x64) hz00, View.ld_unit_zero (S := S400x10000) hz00]

/-- Output 0's block at every point is the body's stored value of the adjacency block, the support and the bias row. -/
theorem out3_0_eq (c : Dev nD) (t : Fin cfg3.N) :
    out3_0 V c t = k3_pay2 (iblk3 V c 3 t) (sup3 V c) (iblk3 V c 2 t) := by
  by_cases hz : t.val = 0
  · obtain rfl : t = t0_3 := Fin.ext hz
    rw [out3_0_first, sup3_eq, View.read_writes_eq_canon _ _ _ (coverA3_0 V c)]
    unfold runA3 kernelRun3_A
    dsimp only
    try sl_unfold_words
    rw [View.canon_unit_zero hz00, View.readCov_unit_zero (S := S10000x64) _ hz00]
    simp only [View.readAt_eq_ld, (hs3_0 t0_3).read_unread, (hs3_1 t0_3).read_unread, (hs3_2 t0_3).read_unread,
      (hs3_3 t0_3).read_unread, View.ld_unit_zero (S := S10000x64) hz00, View.ld_unit_zero (S := S64x64) hz00,
      View.ld_unit_zero (S := S1x64) hz00, View.ld_unit_zero (S := S400x10000) hz00]
  · rw [out3_0_later V c t hz, View.read_writes_eq_canon _ _ _ (coverB3_0 V c t hz)]
    unfold runB3 kernelRun3_B
    dsimp only
    try sl_unfold_words
    rw [View.canon_unit_zero hz00]
    simp only [View.readAt_eq_ld, (hs3_2 t).read_unread, (hs3_3 t).read_unread,
      (Memref.isWhole_whole _).read_unread, View.ld_unit_zero (S := S1x64) hz00, View.ld_unit_zero (S := S400x10000) hz00,
      View.ld_unit_zero (S := S10000x64) hz00]

/-! ## Region 4 -/

/-- The support the first point leaves in the scratch is the body's first stored value of the point's two blocks. -/
theorem sup4_eq (c : Dev nD) : sup4 V c = k4_pay1 (iblk4 V c 0 t0_4) (iblk4 V c 1 t0_4) := by
  unfold sup4
  rw [View.read_writes_eq_canon _ _ _ (scover4 V c)]
  unfold runA4 kernelRun4_A
  dsimp only
  try sl_unfold_words
  rw [View.canon_unit_zero hz00]
  simp only [View.readAt_eq_ld, (hs4_0 t0_4).read_unread, (hs4_1 t0_4).read_unread, (hs4_2 t0_4).read_unread,
      (hs4_3 t0_4).read_unread, View.ld_unit_zero (S := S10000x64) hz00, View.ld_unit_zero (S := S64x40) hz00,
      View.ld_unit_zero (S := S1x40) hz00, View.ld_unit_zero (S := S400x10000) hz00]

/-- Output 0's block at every point is the body's stored value of the adjacency block, the support and the bias row. -/
theorem out4_0_eq (c : Dev nD) (t : Fin cfg4.N) :
    out4_0 V c t = k4_pay2 (iblk4 V c 3 t) (sup4 V c) (iblk4 V c 2 t) := by
  by_cases hz : t.val = 0
  · obtain rfl : t = t0_4 := Fin.ext hz
    rw [out4_0_first, sup4_eq, View.read_writes_eq_canon _ _ _ (coverA4_0 V c)]
    unfold runA4 kernelRun4_A
    dsimp only
    try sl_unfold_words
    rw [View.canon_unit_zero hz00, View.readCov_unit_zero (S := S10000x40) _ hz00]
    simp only [View.readAt_eq_ld, (hs4_0 t0_4).read_unread, (hs4_1 t0_4).read_unread, (hs4_2 t0_4).read_unread,
      (hs4_3 t0_4).read_unread, View.ld_unit_zero (S := S10000x64) hz00, View.ld_unit_zero (S := S64x40) hz00,
      View.ld_unit_zero (S := S1x40) hz00, View.ld_unit_zero (S := S400x10000) hz00]
  · rw [out4_0_later V c t hz, View.read_writes_eq_canon _ _ _ (coverB4_0 V c t hz)]
    unfold runB4 kernelRun4_B
    dsimp only
    try sl_unfold_words
    rw [View.canon_unit_zero hz00]
    simp only [View.readAt_eq_ld, (hs4_2 t).read_unread, (hs4_3 t).read_unread,
      (Memref.isWhole_whole _).read_unread, View.ld_unit_zero (S := S1x40) hz00, View.ld_unit_zero (S := S400x10000) hz00,
      View.ld_unit_zero (S := S10000x40) hz00]

/-- Output 1's block at every point is the body's stored value of the adjacency block, the support and the bias row. -/
theorem out4_1_eq (c : Dev nD) (t : Fin cfg4.N) :
    out4_1 V c t = k4_pay3 (iblk4 V c 3 t) (sup4 V c) (iblk4 V c 2 t) := by
  by_cases hz : t.val = 0
  · obtain rfl : t = t0_4 := Fin.ext hz
    rw [out4_1_first, sup4_eq, View.read_writes_eq_canon _ _ _ (coverA4_1 V c)]
    unfold runA4 kernelRun4_A
    dsimp only
    try sl_unfold_words
    rw [View.canon_unit_zero hz00, View.readCov_unit_zero (S := S10000x40) _ hz00]
    simp only [View.readAt_eq_ld, (hs4_0 t0_4).read_unread, (hs4_1 t0_4).read_unread, (hs4_2 t0_4).read_unread,
      (hs4_3 t0_4).read_unread, View.ld_unit_zero (S := S10000x64) hz00, View.ld_unit_zero (S := S64x40) hz00,
      View.ld_unit_zero (S := S1x40) hz00, View.ld_unit_zero (S := S400x10000) hz00]
  · rw [out4_1_later V c t hz, View.read_writes_eq_canon _ _ _ (coverB4_1 V c t hz)]
    unfold runB4 kernelRun4_B
    dsimp only
    try sl_unfold_words
    rw [View.canon_unit_zero hz00]
    simp only [View.readAt_eq_ld, (hs4_2 t).read_unread, (hs4_3 t).read_unread,
      (Memref.isWhole_whole _).read_unread, View.ld_unit_zero (S := S1x40) hz00, View.ld_unit_zero (S := S400x10000) hz00,
      View.ld_unit_zero (S := S10000x40) hz00]

end Pieces

end Cert.KernelIdeal.Hand

end
-- ==== Proof.Spec.lean ====
/-
  The five-layer graph convolution as plain functions of the argument arrays, entry by entry on the extended reals.

  One layer sends node features h (n rows) through a weight matrix W and a bias row b and then mixes the rows by
  the adjacency matrix: out(i, j) = sum_k adj(i, k) * (sum_l h(k, l) * W(l, j)) + b(j). The inner sum is the
  "support" h * W; the outer one reads row i of the adjacency matrix. Between layers every entry is cut off
  below at zero. The last layer's output is also returned row-normalised: each row minus the logarithm of the
  sum of the exponentials of its entries, computed through the row's maximum m to keep the exponentials small.
  The two programs compared spell that last step differently -- x - (log(sum exp(x - m)) + m) against
  (x - m) - log(sum exp(x - m)) -- and both spellings are stated here.
-/
import Idealize.ShloMosaic.PureOps.Ideal
import Idealize.ShloMosaic.Lib.ValueIdx

noncomputable section

open scoped BigOperators

namespace Cert.GcnSpec

open Idealize.ShloMosaic Idealize.ShloMosaic.ValueIdx

/-- An r-by-c matrix of extended reals, indexed as an array of shape [r, c]. -/
abbrev Mat (r c : Nat) : Type := (⟨2, ![r, c]⟩ : Shape).Idx → EReal
/-- A row of n extended reals, indexed as an array of shape [n]. -/
abbrev Vect (n : Nat) : Type := (⟨1, ![n]⟩ : Shape).Idx → EReal

/-- The support (h * W)(k, j) = sum_l h(k, l) * W(l, j). -/
def supp {n d e : Nat} (h : Mat n d) (W : Mat d e) (k : Fin n) (j : Fin e) : EReal :=
  ∑ l : Fin d, h (ix2 k l) * W (ix2 l j)

/-- One layer at (i, j): row i of the adjacency matrix against column j of the support, plus the bias. -/
def gcAt {n d e : Nat} (adj : Mat n n) (h : Mat n d) (W : Mat d e) (b : Vect e) (i : Fin n) (j : Fin e) : EReal :=
  (∑ k : Fin n, adj (ix2 i k) * supp h W k j) + b (ix1 j)

/-- One layer as a matrix. -/
def gc {n d e : Nat} (adj : Mat n n) (h : Mat n d) (W : Mat d e) (b : Vect e) : Mat n e :=
  fun y => gcAt adj h W b (y 0) (y 1)

/-- Every entry cut off below at zero. -/
def relu {r c : Nat} (h : Mat r c) : Mat r c := fun y => max (h y) 0

/-- Row i's maximum, folded from minus infinity. -/
def rowMax {n e : Nat} (x : Mat n e) (i : Fin n) : EReal :=
  (Finset.univ : Finset (Fin e)).fold max ⊥ (fun j => x (ix2 i j))

/-- log of the sum over row i of exp(x - m), m the row's maximum. -/
def logSumExp {n e : Nat} (x : Mat n e) (i : Fin n) : EReal :=
  Ideal.log (∑ j : Fin e, Ideal.exp (x (ix2 i j) - rowMax x i))

/-- The row-normalised output, first spelling: x - (log(sum exp(x - m)) + m). -/
def logSoftmaxA {n e : Nat} (x : Mat n e) : Mat n e :=
  fun y => x (ix2 (y 0) (y 1)) - (logSumExp x (y 0) + rowMax x (y 0))

/-- The row-normalised output, second spelling: (x - m) - log(sum exp(x - m)). -/
def logSoftmaxB {n e : Nat} (x : Mat n e) : Mat n e :=
  fun y => (x (ix2 (y 0) (y 1)) - rowMax x (y 0)) - logSumExp x (y 0)

/-- The five embeddings, layer by layer. -/
structure Net where
  e1 : Mat 10000 64
  e2 : Mat 10000 64
  e3 : Mat 10000 64
  e4 : Mat 10000 64
  e5 : Mat 10000 40

/-- The network's five layers from its twelve arguments. -/
def net (x : Mat 10000 128) (adj : Mat 10000 10000) (W1 : Mat 128 64) (b1 : Vect 64) (W2 : Mat 64 64) (b2 : Vect 64)
    (W3 : Mat 64 64) (b3 : Vect 64) (W4 : Mat 64 64) (b4 : Vect 64) (W5 : Mat 64 40) (b5 : Vect 40) : Net :=
  let e1 := gc adj x W1 b1
  let e2 := gc adj (relu e1) W2 b2
  let e3 := gc adj (relu e2) W3 b3
  let e4 := gc adj (relu e3) W4 b4
  let e5 := gc adj (relu e4) W5 b5
  ⟨e1, e2, e3, e4, e5⟩

end Cert.GcnSpec

end
-- ==== Proof.LibKeepdims.lean ====
/-
  Layout operations a keepdims reduction meets, read at an index written by coordinates: a vector cast to a one-column
  matrix, a one-column matrix broadcast along its rows, a vector seen as a [1, 1, a] block and back, and a load through a
  unit-stride rectangle that offsets only the last axis of a rank-3 block.
-/
import Idealize.ShloMosaic.Lib.Pipeline.Value
import Idealize.ShloMosaic.Lib.ValueIdx

namespace Idealize.ShloMosaic.Keepdims

open Idealize.ShloMosaic Idealize.ShloMosaic.ValueIdx

variable {α : Type}

/-- An `[a]` vector cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a]` block cast to `[a]` reads, at `i`, the operand at `(0, 0, i)`. -/
theorem shapeCast_11a_a_apply {a : ℕ} (x : (⟨3, ![1, 1, a]⟩ : Shape).Idx → α) (h : (⟨3, ![1, 1, a]⟩ : Shape).ShapeCasts ⟨1, ![a]⟩)
    (i : Fin a) : shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp)

/-- An `[a]` vector cast to `[1, 1, a]` reads, at `(u, v, i)`, the operand at `i`. -/
theorem shapeCast_a_11a_apply {a : ℕ} (x : (⟨1, ![a]⟩ : Shape).Idx → α) (h : (⟨1, ![a]⟩ : Shape).ShapeCasts ⟨3, ![1, 1, a]⟩)
    (u v : Fin 1) (i : Fin a) : shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]; simp)

/-- A load through the unit-stride rectangle of sizes `[n0, n1, m]` at offsets `[0, 0, o]` of an `[n0, n1, n2]` block
    reads, at `(a, b, j)`, the block at `(a, b, o + j)`. -/
theorem ld_last3_apply {Val : EltTy → Type} {e : EltTy} {n0 n1 n2 m : ℕ} (o : ℕ) (X : (⟨3, ![n0, n1, n2]⟩ : Shape).Idx → Val e)
    (inb : ∀ a, (![0, 0, o] : Fin 3 → ℕ) a + (![n0, n1, m] : Fin 3 → ℕ) a ≤ (⟨3, ![n0, n1, n2]⟩ : Shape).size a)
    (a : Fin n0) (b : Fin n1) (j : Fin m) (k : Fin n2) (hk : k.val = o + j.val) :
    View.ld X (Rect.unit (s := ⟨3, ![n0, n1, n2]⟩) ![0, 0, o] ![n0, n1, m] inb) (ix3 a b j) = X (ix3 a b k) := by
  show X _ = X _
  refine congrArg X (funext fun ax => Fin.ext ?_)
  match ax with
  | ⟨0, _⟩ => show 0 + 1 * a.val = a.val; omega
  | ⟨1, _⟩ => show 0 + 1 * b.val = b.val; omega
  | ⟨2, _⟩ => show o + 1 * j.val = k.val; omega

end Idealize.ShloMosaic.Keepdims
-- ==== Proof.PayloadAt.lean ====
/-
  The pure values the five kernel bodies store, read at one index on the extended reals, against the specification's
  formulas. Each body stores two arrays: the support (features times weights, after the cut-off at zero from the
  second layer on) and the mixed rows (a block of adjacency rows times the support, plus the bias row); the last
  body also stores the row-normalised block. A matrix product accumulated into zeros is, at (r, j), the sum over the
  inner index of the products of the operands' entries; the bias row [1, c] broadcast down the rows reads its column;
  the row maximum is the fold of max from minus infinity over the row; and the column [r, 1] of a per-row quantity
  broadcast across the row reads that row's value.
-/
import proofs.«133978_g44306882625591_cont_8to1_c_1075_2_alg».proof.Proof.Gen.KernelIdeal.Skeleton
import proofs.«133978_g44306882625591_cont_8to1_c_1075_2_alg».proof.Proof.Spec
import proofs.«133978_g44306882625591_cont_8to1_c_1075_2_alg».proof.Proof.LibKeepdims
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.PayloadAt

open Idealize.ShloMosaic Idealize.ShloMosaic.ValueIdx Cert.KernelIdeal

/-! ## A matrix product into zeros, at an index -/

/-- The operand indices of the [10000, 128] by [128, 64] product at an output index and a contraction position, by coordinates. -/
theorem lhs0_10000x128x64 (i : S10000x64.Idx) (q : dot_S10000x128_S128x64_S10000x64_1_0_0_1_n_n.contr.Idx) : (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide),
    dif_pos (show (0 : Fin S10000x128.rank) ∈ dot_S10000x128_S128x64_S10000x64_1_0_0_1_n_n.lhsNonContracting by decide)]
  rfl
theorem lhs1_10000x128x64 (i : S10000x64.Idx) (q : dot_S10000x128_S128x64_S10000x64_1_0_0_1_n_n.contr.Idx) : (dot_S10000x128_S128x64_S10000x64_1_0_0_1_n_n.lhsIdx i q 1).val = (q ⟨0, by decide⟩).val :=
  dot_S10000x128_S128x64_S10000x64_1_0_0_1_n_n.lhsIdx_val_of_single rfl i q
theorem rhs0_10000x128x64 (i : S10000x64.Idx) (q : dot_S10000x128_S128x64_S10000x64_1_0_0_1_n_n.contr.Idx) : (dot_S10000x128_S128x64_S10000x64_1_0_0_1_n_n.rhsIdx i q 0).val = (q ⟨0, by decide⟩).val :=
  dot_S10000x128_S128x64_S10000x64_1_0_0_1_n_n.rhsIdx_val_of_single rfl i q
theorem rhs1_10000x128x64 (i : S10000x64.Idx) (q : dot_S10000x128_S128x64_S10000x64_1_0_0_1_n_n.contr.Idx) : (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide),
    dif_pos (show (1 : Fin S128x64.rank) ∈ dot_S10000x128_S128x64_S10000x64_1_0_0_1_n_n.rhsNonContracting by decide)]
  rfl

/-- The [10000, 128] by [128, 64] product accumulated into zeros, at (r, j): the sum over the inner index. -/
theorem mm_10000x128x64 (a : FVec Ideal S10000x128 .f32) (b : FVec Ideal S128x64 .f32) (r : Fin 10000) (j : Fin 64) :
    matmul dot_S10000x128_S128x64_S10000x64_1_0_0_1_n_n none a b (constant S10000x64 .f32 0x00000000#32) (ix2 r j)
      = ∑ k : Fin 128, a (ix2 r k) * b (ix2 k j) := by
  refine (Ideal.matmul_constant_zero_apply dot_S10000x128_S128x64_S10000x64_1_0_0_1_n_n none a b (ix2 r j)).trans ?_
  rw [← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 r j) ((contrEquiv1 dot_S10000x128_S128x64_S10000x64_1_0_0_1_n_n 128 rfl rfl).symm k) = ix2 r k :=
    funext fun c => Fin.ext (by
      match c with
      | ⟨0, _⟩ => exact lhs0_10000x128x64 _ _
      | ⟨1, _⟩ => exact (lhs1_10000x128x64 _ _).trans hk)
  have er : dot_S10000x128_S128x64_S10000x64_1_0_0_1_n_n.rhsIdx (ix2 r j) ((contrEquiv1 dot_S10000x128_S128x64_S10000x64_1_0_0_1_n_n 128 rfl rfl).symm k) = ix2 k j :=
    funext fun c => Fin.ext (by
      match c with
      | ⟨0, _⟩ => exact (rhs0_10000x128x64 _ _).trans hk
      | ⟨1, _⟩ => exact rhs1_10000x128x64 _ _)
  rw [el, er]

/-- The operand indices of the [400, 10000] by [10000, 64] product at an output index and a contraction position, by coordinates. -/
theorem lhs0_400x10000x64 (i : S400x64.Idx) (q : dot_S400x10000_S10000x64_S400x64_1_0_0_1_n_n.contr.Idx) : (dot_S400x10000_S10000x64_S400x64_1_0_0_1_n_n.lhsIdx i q 0).val = (i 0).val := by
  unfold DotDims.lhsIdx
  rw [dif_neg (show ¬(0 : Fin S400x10000.rank) ∈ dot_S400x10000_S10000x64_S400x64_1_0_0_1_n_n.lhsBatch by decide),
    dif_pos (show (0 : Fin S400x10000.rank) ∈ dot_S400x10000_S10000x64_S400x64_1_0_0_1_n_n.lhsNonContracting by decide)]
  rfl
theorem lhs1_400x10000x64 (i : S400x64.Idx) (q : dot_S400x10000_S10000x64_S400x64_1_0_0_1_n_n.contr.Idx) : (dot_S400x10000_S10000x64_S400x64_1_0_0_1_n_n.lhsIdx i q 1).val = (q ⟨0, by decide⟩).val :=
  dot_S400x10000_S10000x64_S400x64_1_0_0_1_n_n.lhsIdx_val_of_single rfl i q
theorem rhs0_400x10000x64 (i : S400x64.Idx) (q : dot_S400x10000_S10000x64_S400x64_1_0_0_1_n_n.contr.Idx) : (dot_S400x10000_S10000x64_S400x64_1_0_0_1_n_n.rhsIdx i q 0).val = (q ⟨0, by decide⟩).val :=
  dot_S400x10000_S10000x64_S400x64_1_0_0_1_n_n.rhsIdx_val_of_single rfl i q
theorem rhs1_400x10000x64 (i : S400x64.Idx) (q : dot_S400x10000_S10000x64_S400x64_1_0_0_1_n_n.contr.Idx) : (dot_S400x10000_S10000x64_S400x64_1_0_0_1_n_n.rhsIdx i q 1).val = (i 1).val := by
  unfold DotDims.rhsIdx
  rw [dif_neg (show ¬(1 : Fin S10000x64.rank) ∈ dot_S400x10000_S10000x64_S400x64_1_0_0_1_n_n.rhsBatch by decide),
    dif_pos (show (1 : Fin S10000x64.rank) ∈ dot_S400x10000_S10000x64_S400x64_1_0_0_1_n_n.rhsNonContracting by decide)]
  rfl

/-- The [400, 10000] by [10000, 64] product accumulated into zeros, at (r, j): the sum over the inner index. -/
theorem mm_400x10000x64 (a : FVec Ideal S400x10000 .f32) (b : FVec Ideal S10000x64 .f32) (r : Fin 400) (j : Fin 64) :
    matmul dot_S400x10000_S10000x64_S400x64_1_0_0_1_n_n none a b (constant S400x64 .f32 0x00000000#32) (ix2 r j)
      = ∑ k : Fin 10000, a (ix2 r k) * b (ix2 k j) := by
  refine (Ideal.matmul_constant_zero_apply dot_S400x10000_S10000x64_S400x64_1_0_0_1_n_n none a b (ix2 r j)).trans ?_
  rw [← Equiv.sum_comp (contrEquiv1 dot_S400x10000_S10000x64_S400x64_1_0_0_1_n_n 10000 rfl rfl).symm]
  refine Finset.sum_congr rfl fun k _ => ?_
  have hk := contrEquiv1_symm_val dot_S400x10000_S10000x64_S400x64_1_0_0_1_n_n 10000 rfl rfl k
  have el : dot_S400x10000_S10000x64_S400x64_1_0_0_1_n_n.lhsIdx (ix2 r j) ((contrEquiv1 dot_S400x10000_S10000x64_S400x64_1_0_0_1_n_n 10000 rfl rfl).symm k) = ix2 r k :=
    funext fun c => Fin.ext (by
      match c with
      | ⟨0, _⟩ => exact lhs0_400x10000x64 _ _
      | ⟨1, _⟩ => exact (lhs1_400x10000x64 _ _).trans hk)
  have er : dot_S400x10000_S10000x64_S400x64_1_0_0_1_n_n.rhsIdx (ix2 r j) ((contrEquiv1 dot_S400x10000_S10000x64_S400x64_1_0_0_1_n_n 10000 rfl rfl).symm k) = ix2 k j :=
    funext fun c => Fin.ext (by
      match c with
      | ⟨0, _⟩ => exact (rhs0_400x10000x64 _ _).trans hk
      | ⟨1, _⟩ => exact rhs1_400x10000x64 _ _)
  rw [el, er]

/-- The operand indices of the [10000, 64] by [64, 64] product at an output index and a contraction position, by coordinates. -/
theorem lhs0_10000x64x64 (i : S10000x64.Idx) (q : dot_S10000x64_S64x64_S10000x64_1_0_0_1_n_n.contr.Idx) : (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl
theorem lhs1_10000x64x64 (i : S10000x64.Idx) (q : dot_S10000x64_S64x64_S10000x64_1_0_0_1_n_n.contr.Idx) : (dot_S10000x64_S64x64_S10000x64_1_0_0_1_n_n.lhsIdx i q 1).val = (q ⟨0, by decide⟩).val :=
  dot_S10000x64_S64x64_S10000x64_1_0_0_1_n_n.lhsIdx_val_of_single rfl i q
theorem rhs0_10000x64x64 (i : S10000x64.Idx) (q : dot_S10000x64_S64x64_S10000x64_1_0_0_1_n_n.contr.Idx) : (dot_S10000x64_S64x64_S10000x64_1_0_0_1_n_n.rhsIdx i q 0).val = (q ⟨0, by decide⟩).val :=
  dot_S10000x64_S64x64_S10000x64_1_0_0_1_n_n.rhsIdx_val_of_single rfl i q
theorem rhs1_10000x64x64 (i : S10000x64.Idx) (q : dot_S10000x64_S64x64_S10000x64_1_0_0_1_n_n.contr.Idx) : (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-- The [10000, 64] by [64, 64] product accumulated into zeros, at (r, j): the sum over the inner index. -/
theorem mm_10000x64x64 (a : FVec Ideal S10000x64 .f32) (b : FVec Ideal S64x64 .f32) (r : Fin 10000) (j : Fin 64) :
    matmul dot_S10000x64_S64x64_S10000x64_1_0_0_1_n_n none a b (constant S10000x64 .f32 0x00000000#32) (ix2 r j)
      = ∑ k : Fin 64, a (ix2 r k) * b (ix2 k j) := by
  refine (Ideal.matmul_constant_zero_apply dot_S10000x64_S64x64_S10000x64_1_0_0_1_n_n none a b (ix2 r j)).trans ?_
  rw [← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 r j) ((contrEquiv1 dot_S10000x64_S64x64_S10000x64_1_0_0_1_n_n 64 rfl rfl).symm k) = ix2 r k :=
    funext fun c => Fin.ext (by
      match c with
      | ⟨0, _⟩ => exact lhs0_10000x64x64 _ _
      | ⟨1, _⟩ => exact (lhs1_10000x64x64 _ _).trans hk)
  have er : dot_S10000x64_S64x64_S10000x64_1_0_0_1_n_n.rhsIdx (ix2 r j) ((contrEquiv1 dot_S10000x64_S64x64_S10000x64_1_0_0_1_n_n 64 rfl rfl).symm k) = ix2 k j :=
    funext fun c => Fin.ext (by
      match c with
      | ⟨0, _⟩ => exact (rhs0_10000x64x64 _ _).trans hk
      | ⟨1, _⟩ => exact rhs1_10000x64x64 _ _)
  rw [el, er]

/-- The operand indices of the [10000, 64] by [64, 40] product at an output index and a contraction position, by coordinates. -/
theorem lhs0_10000x64x40 (i : S10000x40.Idx) (q : dot_S10000x64_S64x40_S10000x40_1_0_0_1_n_n.contr.Idx) : (dot_S10000x64_S64x40_S10000x40_1_0_0_1_n_n.lhsIdx i q 0).val = (i 0).val := by
  unfold DotDims.lhsIdx
  rw [dif_neg (show ¬(0 : Fin S10000x64.rank) ∈ dot_S10000x64_S64x40_S10000x40_1_0_0_1_n_n.lhsBatch by decide),
    dif_pos (show (0 : Fin S10000x64.rank) ∈ dot_S10000x64_S64x40_S10000x40_1_0_0_1_n_n.lhsNonContracting by decide)]
  rfl
theorem lhs1_10000x64x40 (i : S10000x40.Idx) (q : dot_S10000x64_S64x40_S10000x40_1_0_0_1_n_n.contr.Idx) : (dot_S10000x64_S64x40_S10000x40_1_0_0_1_n_n.lhsIdx i q 1).val = (q ⟨0, by decide⟩).val :=
  dot_S10000x64_S64x40_S10000x40_1_0_0_1_n_n.lhsIdx_val_of_single rfl i q
theorem rhs0_10000x64x40 (i : S10000x40.Idx) (q : dot_S10000x64_S64x40_S10000x40_1_0_0_1_n_n.contr.Idx) : (dot_S10000x64_S64x40_S10000x40_1_0_0_1_n_n.rhsIdx i q 0).val = (q ⟨0, by decide⟩).val :=
  dot_S10000x64_S64x40_S10000x40_1_0_0_1_n_n.rhsIdx_val_of_single rfl i q
theorem rhs1_10000x64x40 (i : S10000x40.Idx) (q : dot_S10000x64_S64x40_S10000x40_1_0_0_1_n_n.contr.Idx) : (dot_S10000x64_S64x40_S10000x40_1_0_0_1_n_n.rhsIdx i q 1).val = (i 1).val := by
  unfold DotDims.rhsIdx
  rw [dif_neg (show ¬(1 : Fin S64x40.rank) ∈ dot_S10000x64_S64x40_S10000x40_1_0_0_1_n_n.rhsBatch by decide),
    dif_pos (show (1 : Fin S64x40.rank) ∈ dot_S10000x64_S64x40_S10000x40_1_0_0_1_n_n.rhsNonContracting by decide)]
  rfl

/-- The [10000, 64] by [64, 40] product accumulated into zeros, at (r, j): the sum over the inner index. -/
theorem mm_10000x64x40 (a : FVec Ideal S10000x64 .f32) (b : FVec Ideal S64x40 .f32) (r : Fin 10000) (j : Fin 40) :
    matmul dot_S10000x64_S64x40_S10000x40_1_0_0_1_n_n none a b (constant S10000x40 .f32 0x00000000#32) (ix2 r j)
      = ∑ k : Fin 64, a (ix2 r k) * b (ix2 k j) := by
  refine (Ideal.matmul_constant_zero_apply dot_S10000x64_S64x40_S10000x40_1_0_0_1_n_n none a b (ix2 r j)).trans ?_
  rw [← Equiv.sum_comp (contrEquiv1 dot_S10000x64_S64x40_S10000x40_1_0_0_1_n_n 64 rfl rfl).symm]
  refine Finset.sum_congr rfl fun k _ => ?_
  have hk := contrEquiv1_symm_val dot_S10000x64_S64x40_S10000x40_1_0_0_1_n_n 64 rfl rfl k
  have el : dot_S10000x64_S64x40_S10000x40_1_0_0_1_n_n.lhsIdx (ix2 r j) ((contrEquiv1 dot_S10000x64_S64x40_S10000x40_1_0_0_1_n_n 64 rfl rfl).symm k) = ix2 r k :=
    funext fun c => Fin.ext (by
      match c with
      | ⟨0, _⟩ => exact lhs0_10000x64x40 _ _
      | ⟨1, _⟩ => exact (lhs1_10000x64x40 _ _).trans hk)
  have er : dot_S10000x64_S64x40_S10000x40_1_0_0_1_n_n.rhsIdx (ix2 r j) ((contrEquiv1 dot_S10000x64_S64x40_S10000x40_1_0_0_1_n_n 64 rfl rfl).symm k) = ix2 k j :=
    funext fun c => Fin.ext (by
      match c with
      | ⟨0, _⟩ => exact (rhs0_10000x64x40 _ _).trans hk
      | ⟨1, _⟩ => exact rhs1_10000x64x40 _ _)
  rw [el, er]

/-- The operand indices of the [400, 10000] by [10000, 40] product at an output index and a contraction position, by coordinates. -/
theorem lhs0_400x10000x40 (i : S400x40.Idx) (q : dot_S400x10000_S10000x40_S400x40_1_0_0_1_n_n.contr.Idx) : (dot_S400x10000_S10000x40_S400x40_1_0_0_1_n_n.lhsIdx i q 0).val = (i 0).val := by
  unfold DotDims.lhsIdx
  rw [dif_neg (show ¬(0 : Fin S400x10000.rank) ∈ dot_S400x10000_S10000x40_S400x40_1_0_0_1_n_n.lhsBatch by decide),
    dif_pos (show (0 : Fin S400x10000.rank) ∈ dot_S400x10000_S10000x40_S400x40_1_0_0_1_n_n.lhsNonContracting by decide)]
  rfl
theorem lhs1_400x10000x40 (i : S400x40.Idx) (q : dot_S400x10000_S10000x40_S400x40_1_0_0_1_n_n.contr.Idx) : (dot_S400x10000_S10000x40_S400x40_1_0_0_1_n_n.lhsIdx i q 1).val = (q ⟨0, by decide⟩).val :=
  dot_S400x10000_S10000x40_S400x40_1_0_0_1_n_n.lhsIdx_val_of_single rfl i q
theorem rhs0_400x10000x40 (i : S400x40.Idx) (q : dot_S400x10000_S10000x40_S400x40_1_0_0_1_n_n.contr.Idx) : (dot_S400x10000_S10000x40_S400x40_1_0_0_1_n_n.rhsIdx i q 0).val = (q ⟨0, by decide⟩).val :=
  dot_S400x10000_S10000x40_S400x40_1_0_0_1_n_n.rhsIdx_val_of_single rfl i q
theorem rhs1_400x10000x40 (i : S400x40.Idx) (q : dot_S400x10000_S10000x40_S400x40_1_0_0_1_n_n.contr.Idx) : (dot_S400x10000_S10000x40_S400x40_1_0_0_1_n_n.rhsIdx i q 1).val = (i 1).val := by
  unfold DotDims.rhsIdx
  rw [dif_neg (show ¬(1 : Fin S10000x40.rank) ∈ dot_S400x10000_S10000x40_S400x40_1_0_0_1_n_n.rhsBatch by decide),
    dif_pos (show (1 : Fin S10000x40.rank) ∈ dot_S400x10000_S10000x40_S400x40_1_0_0_1_n_n.rhsNonContracting by decide)]
  rfl

/-- The [400, 10000] by [10000, 40] product accumulated into zeros, at (r, j): the sum over the inner index. -/
theorem mm_400x10000x40 (a : FVec Ideal S400x10000 .f32) (b : FVec Ideal S10000x40 .f32) (r : Fin 400) (j : Fin 40) :
    matmul dot_S400x10000_S10000x40_S400x40_1_0_0_1_n_n none a b (constant S400x40 .f32 0x00000000#32) (ix2 r j)
      = ∑ k : Fin 10000, a (ix2 r k) * b (ix2 k j) := by
  refine (Ideal.matmul_constant_zero_apply dot_S400x10000_S10000x40_S400x40_1_0_0_1_n_n none a b (ix2 r j)).trans ?_
  rw [← Equiv.sum_comp (contrEquiv1 dot_S400x10000_S10000x40_S400x40_1_0_0_1_n_n 10000 rfl rfl).symm]
  refine Finset.sum_congr rfl fun k _ => ?_
  have hk := contrEquiv1_symm_val dot_S400x10000_S10000x40_S400x40_1_0_0_1_n_n 10000 rfl rfl k
  have el : dot_S400x10000_S10000x40_S400x40_1_0_0_1_n_n.lhsIdx (ix2 r j) ((contrEquiv1 dot_S400x10000_S10000x40_S400x40_1_0_0_1_n_n 10000 rfl rfl).symm k) = ix2 r k :=
    funext fun c => Fin.ext (by
      match c with
      | ⟨0, _⟩ => exact lhs0_400x10000x40 _ _
      | ⟨1, _⟩ => exact (lhs1_400x10000x40 _ _).trans hk)
  have er : dot_S400x10000_S10000x40_S400x40_1_0_0_1_n_n.rhsIdx (ix2 r j) ((contrEquiv1 dot_S400x10000_S10000x40_S400x40_1_0_0_1_n_n 10000 rfl rfl).symm k) = ix2 k j :=
    funext fun c => Fin.ext (by
      match c with
      | ⟨0, _⟩ => exact (rhs0_400x10000x40 _ _).trans hk
      | ⟨1, _⟩ => exact rhs1_400x10000x40 _ _)
  rw [el, er]

/-! ## The cut-off at zero -/

/-- The entrywise maximum with the zero splat is the cut-off at zero. -/
theorem relu_eq {r c : Nat} (h : FVec Ideal ⟨2, ![r, c]⟩ .f32)
    (hc : (⟨2, ![r, c]⟩ : Shape).ShapeCasts ⟨2, ![r, c]⟩) :
    maximumf (shapeCast ⟨2, ![r, c]⟩ h hc) (broadcast ⟨2, ![r, c]⟩ (Scalar.ofBits (F := Ideal) .f32 0x00000000#32))
      = GcnSpec.relu h := by
  rw [shapeCast_self]
  funext y
  show max (h y) (Ideal.ofBits .f32 0x00000000#32) = max (h y) 0
  rw [Ideal.ofBits_zero_f32]

/-! ## The stored values -/

/-- Body 0's support: features times weights. -/
theorem k0_pay1_at (h : FVec Ideal S10000x128 .f32) (W : FVec Ideal S128x64 .f32) (k : Fin 10000) (j : Fin 64) :
    Gen.k0_pay1 (F := Ideal) h W (ix2 k j) = GcnSpec.supp h W k j := by
  show shapeCast S10000x64 (matmul dot_S10000x128_S128x64_S10000x64_1_0_0_1_n_n none h W (constant S10000x64 .f32 0x00000000#32)) _ (ix2 k j) = _
  rw [shapeCast_self]
  exact mm_10000x128x64 h W k j

/-- Body 0's mixed rows: the adjacency block times the support, plus the bias row. -/
theorem k0_pay2_at (a : FVec Ideal S400x10000 .f32) (s : FVec Ideal S10000x64 .f32) (b : FVec Ideal S1x64 .f32)
    (r : Fin 400) (j : Fin 64) :
    Gen.k0_pay2 (F := Ideal) a s b (ix2 r j)
      = (∑ k : Fin 10000, a (ix2 r k) * s (ix2 k j)) + b (ix2 (0 : Fin 1) j) := by
  show matmul dot_S400x10000_S10000x64_S400x64_1_0_0_1_n_n none a s (constant S400x64 .f32 0x00000000#32) (ix2 r j)
      + broadcastTo S400x64 (shapeCast S1x64 b _) _ (ix2 r j) = _
  rw [mm_400x10000x64, shapeCast_self, broadcastTo_1b_ab_apply]

/-- Body 1's support: the features cut off at zero, times the weights. -/
theorem k1_pay1_at (h : FVec Ideal S10000x64 .f32) (W : FVec Ideal S64x64 .f32) (k : Fin 10000) (j : Fin 64) :
    Gen.k1_pay1 (F := Ideal) h W (ix2 k j) = GcnSpec.supp (GcnSpec.relu h) W k j := by
  show shapeCast S10000x64 (matmul dot_S10000x64_S64x64_S10000x64_1_0_0_1_n_n none
      (maximumf (shapeCast S10000x64 h _) (broadcast S10000x64 (Scalar.ofBits (F := Ideal) .f32 0x00000000#32)))
      W (constant S10000x64 .f32 0x00000000#32)) _ (ix2 k j) = _
  rw [shapeCast_self, relu_eq]
  exact mm_10000x64x64 (GcnSpec.relu h) W k j

/-- Body 1's mixed rows: the adjacency block times the support, plus the bias row. -/
theorem k1_pay2_at (a : FVec Ideal S400x10000 .f32) (s : FVec Ideal S10000x64 .f32) (b : FVec Ideal S1x64 .f32)
    (r : Fin 400) (j : Fin 64) :
    Gen.k1_pay2 (F := Ideal) a s b (ix2 r j)
      = (∑ k : Fin 10000, a (ix2 r k) * s (ix2 k j)) + b (ix2 (0 : Fin 1) j) := by
  show matmul dot_S400x10000_S10000x64_S400x64_1_0_0_1_n_n none a s (constant S400x64 .f32 0x00000000#32) (ix2 r j)
      + broadcastTo S400x64 (shapeCast S1x64 b _) _ (ix2 r j) = _
  rw [mm_400x10000x64, shapeCast_self, broadcastTo_1b_ab_apply]

/-- Body 2's support: the features cut off at zero, times the weights. -/
theorem k2_pay1_at (h : FVec Ideal S10000x64 .f32) (W : FVec Ideal S64x64 .f32) (k : Fin 10000) (j : Fin 64) :
    Gen.k2_pay1 (F := Ideal) h W (ix2 k j) = GcnSpec.supp (GcnSpec.relu h) W k j := by
  show shapeCast S10000x64 (matmul dot_S10000x64_S64x64_S10000x64_1_0_0_1_n_n none
      (maximumf (shapeCast S10000x64 h _) (broadcast S10000x64 (Scalar.ofBits (F := Ideal) .f32 0x00000000#32)))
      W (constant S10000x64 .f32 0x00000000#32)) _ (ix2 k j) = _
  rw [shapeCast_self, relu_eq]
  exact mm_10000x64x64 (GcnSpec.relu h) W k j

/-- Body 2's mixed rows: the adjacency block times the support, plus the bias row. -/
theorem k2_pay2_at (a : FVec Ideal S400x10000 .f32) (s : FVec Ideal S10000x64 .f32) (b : FVec Ideal S1x64 .f32)
    (r : Fin 400) (j : Fin 64) :
    Gen.k2_pay2 (F := Ideal) a s b (ix2 r j)
      = (∑ k : Fin 10000, a (ix2 r k) * s (ix2 k j)) + b (ix2 (0 : Fin 1) j) := by
  show matmul dot_S400x10000_S10000x64_S400x64_1_0_0_1_n_n none a s (constant S400x64 .f32 0x00000000#32) (ix2 r j)
      + broadcastTo S400x64 (shapeCast S1x64 b _) _ (ix2 r j) = _
  rw [mm_400x10000x64, shapeCast_self, broadcastTo_1b_ab_apply]

/-- Body 3's support: the features cut off at zero, times the weights. -/
theorem k3_pay1_at (h : FVec Ideal S10000x64 .f32) (W : FVec Ideal S64x64 .f32) (k : Fin 10000) (j : Fin 64) :
    Gen.k3_pay1 (F := Ideal) h W (ix2 k j) = GcnSpec.supp (GcnSpec.relu h) W k j := by
  show shapeCast S10000x64 (matmul dot_S10000x64_S64x64_S10000x64_1_0_0_1_n_n none
      (maximumf (shapeCast S10000x64 h _) (broadcast S10000x64 (Scalar.ofBits (F := Ideal) .f32 0x00000000#32)))
      W (constant S10000x64 .f32 0x00000000#32)) _ (ix2 k j) = _
  rw [shapeCast_self, relu_eq]
  exact mm_10000x64x64 (GcnSpec.relu h) W k j

/-- Body 3's mixed rows: the adjacency block times the support, plus the bias row. -/
theorem k3_pay2_at (a : FVec Ideal S400x10000 .f32) (s : FVec Ideal S10000x64 .f32) (b : FVec Ideal S1x64 .f32)
    (r : Fin 400) (j : Fin 64) :
    Gen.k3_pay2 (F := Ideal) a s b (ix2 r j)
      = (∑ k : Fin 10000, a (ix2 r k) * s (ix2 k j)) + b (ix2 (0 : Fin 1) j) := by
  show matmul dot_S400x10000_S10000x64_S400x64_1_0_0_1_n_n none a s (constant S400x64 .f32 0x00000000#32) (ix2 r j)
      + broadcastTo S400x64 (shapeCast S1x64 b _) _ (ix2 r j) = _
  rw [mm_400x10000x64, shapeCast_self, broadcastTo_1b_ab_apply]

/-- Body 4's support: the features cut off at zero, times the weights. -/
theorem k4_pay1_at (h : FVec Ideal S10000x64 .f32) (W : FVec Ideal S64x40 .f32) (k : Fin 10000) (j : Fin 40) :
    Gen.k4_pay1 (F := Ideal) h W (ix2 k j) = GcnSpec.supp (GcnSpec.relu h) W k j := by
  show shapeCast S10000x40 (matmul dot_S10000x64_S64x40_S10000x40_1_0_0_1_n_n none
      (maximumf (shapeCast S10000x64 h _) (broadcast S10000x64 (Scalar.ofBits (F := Ideal) .f32 0x00000000#32)))
      W (constant S10000x40 .f32 0x00000000#32)) _ (ix2 k j) = _
  rw [shapeCast_self, relu_eq]
  exact mm_10000x64x40 (GcnSpec.relu h) W k j

/-- Body 4's mixed rows: the adjacency block times the support, plus the bias row. -/
theorem k4_pay2_at (a : FVec Ideal S400x10000 .f32) (s : FVec Ideal S10000x40 .f32) (b : FVec Ideal S1x40 .f32)
    (r : Fin 400) (j : Fin 40) :
    Gen.k4_pay2 (F := Ideal) a s b (ix2 r j)
      = (∑ k : Fin 10000, a (ix2 r k) * s (ix2 k j)) + b (ix2 (0 : Fin 1) j) := by
  show matmul dot_S400x10000_S10000x40_S400x40_1_0_0_1_n_n none a s (constant S400x40 .f32 0x00000000#32) (ix2 r j)
      + broadcastTo S400x40 (shapeCast S1x40 b _) _ (ix2 r j) = _
  rw [mm_400x10000x40, shapeCast_self, broadcastTo_1b_ab_apply]

/-! ## The row-normalised block -/

/-- Over the reduction of the columns of a [400, 40] block, the index above row r with column k inserted is (r, k). -/
theorem lift_eq (h : S400x40.Reduces [1] S400) (r : Fin 400) (k : Fin 40) : h.lift (ix1 r) k = ix2 r k :=
  funext fun c => Fin.ext (by
    match c with
    | ⟨0, _⟩ => rfl
    | ⟨1, _⟩ => rfl)

/-- The f32 word of minus infinity reads as the bottom of the extended reals. -/
theorem ofBits_negInf_f32 : Ideal.ofBits .f32 0xFF800000#32 = (⊥ : EReal) := by simp [Ideal.ofBits, Ideal.ieee]

/-- The maximum over the columns, folded from minus infinity, at row r: the specification's row maximum. -/
theorem rowMax_at (e : FVec Ideal S400x40 .f32) (h : S400x40.Reduces [1] S400) (hφ : FKind.Formats .f32)
    (hacc : (0xFF800000#32 : BitVec 32) = FKind.maximumf.neutral .f32 hφ) (r : Fin 400) :
    multiReduction .maximumf [1] S400 e 0xFF800000#32 h hφ hacc (ix1 r) = GcnSpec.rowMax e r := by
  refine (Ideal.multiReduction_maximumf_single e 0xFF800000#32 h hφ hacc (ix1 r)).trans ?_
  have hf : (fun k : Fin 40 => e (h.lift (ix1 r) k)) = fun k : Fin 40 => e (ix2 r k) :=
    funext fun k => congrArg e (lift_eq h r k)
  show Finset.fold max (Ideal.ofBits .f32 0xFF800000#32) (fun k : Fin 40 => e (h.lift (ix1 r) k)) Finset.univ
      = Finset.fold max ⊥ (fun k : Fin 40 => e (ix2 r k)) Finset.univ
  rw [ofBits_negInf_f32, hf]

/-- The sum over the columns, at row r. -/
theorem rowSum_at (x : FVec Ideal S400x40 .f32) (h : S400x40.Reduces [1] S400) (hφ : FKind.Formats .f32)
    (hacc : (0x00000000#32 : BitVec 32) = FKind.add.neutral .f32 hφ) (r : Fin 400) :
    multiReduction .add [1] S400 x 0x00000000#32 h hφ hacc (ix1 r) = ∑ k : Fin 40, x (ix2 r k) := by
  refine (Ideal.multiReduction_add_single x 0x00000000#32 h hφ hacc (ix1 r)).trans ?_
  exact Finset.sum_congr rfl fun k _ => congrArg x (lift_eq h r k)

/-- The exponential of the block minus a per-row quantity spread across the row, at (r, k). -/
theorem expCentered_at (e : FVec Ideal S400x40 .f32) (M : FVec Ideal S400 .f32) (hc : S400.ShapeCasts S400x1)
    (hb : S400x1.Broadcasts S400x40) (r : Fin 400) (k : Fin 40) :
    exp (subf e (broadcastTo S400x40 (shapeCast S400x1 M hc) hb)) (ix2 r k) = Ideal.exp (e (ix2 r k) - M (ix1 r)) := by
  show Ideal.exp (e (ix2 r k) - broadcastTo S400x40 (shapeCast S400x1 M hc) hb (ix2 r k)) = _
  rw [Keepdims.broadcastTo_a1_ab_apply, Keepdims.shapeCast_a_a1_apply]

/-- The block minus (log of a per-row quantity plus another), both spread across the row, at (r, j). -/
theorem rowNorm_core (e : FVec Ideal S400x40 .f32) (S M : FVec Ideal S400 .f32) (hc : S400.ShapeCasts S400x1)
    (hb : S400x1.Broadcasts S400x40) (r : Fin 400) (j : Fin 40) :
    subf e (broadcastTo S400x40 (addf (log (shapeCast S400x1 S hc)) (shapeCast S400x1 M hc)) hb) (ix2 r j)
      = e (ix2 r j) - (Ideal.log (S (ix1 r)) + M (ix1 r)) := by
  show e (ix2 r j) - broadcastTo S400x40 (addf (log (shapeCast S400x1 S hc)) (shapeCast S400x1 M hc)) hb (ix2 r j) = _
  rw [Keepdims.broadcastTo_a1_ab_apply]
  show e (ix2 r j) - (Ideal.log (shapeCast S400x1 S hc (ix2 r (0 : Fin 1))) + shapeCast S400x1 M hc (ix2 r (0 : Fin 1))) = _
  rw [Keepdims.shapeCast_a_a1_apply, Keepdims.shapeCast_a_a1_apply]

/-- The last body's row-normalised block is the specification's first spelling applied to its mixed rows, as arrays. -/
theorem k4_pay3_at (a : FVec Ideal S400x10000 .f32) (s : FVec Ideal S10000x40 .f32) (b : FVec Ideal S1x40 .f32) :
    Gen.k4_pay3 (F := Ideal) a s b = GcnSpec.logSoftmaxA (Gen.k4_pay2 (F := Ideal) a s b) := by
  funext y
  obtain ⟨r, j, rfl⟩ : ∃ r j, y = ix2 r j := ⟨y 0, y 1, eq_ix2 y⟩
  unfold Gen.k4_pay3
  generalize Gen.k4_pay2 (F := Ideal) a s b = e
  refine (rowNorm_core e _ _ _ _ r j).trans ?_
  show e (ix2 r j) - (Ideal.log _ + _)
      = e (ix2 r j) - (Ideal.log (∑ k : Fin 40, Ideal.exp (e (ix2 r k) - GcnSpec.rowMax e r)) + GcnSpec.rowMax e r)
  refine congrArg₂ (fun u v => e (ix2 r j) - (Ideal.log u + v)) ?_ (rowMax_at e _ _ _ r)
  refine (rowSum_at _ _ _ _ r).trans ?_
  refine Finset.sum_congr rfl fun k _ => ?_
  refine (expCentered_at e _ _ _ r k).trans ?_
  exact congrArg (fun m => Ideal.exp (e (ix2 r k) - m)) (rowMax_at e _ _ _ r)

end Cert.PayloadAt

end
-- ==== Proof.KiBlocks.lean ====
/-
  From the blocks each grid point writes back to the whole output array, for the five regions of the kernel.

  Region K has 25 grid points. The feature, weight and bias windows are one block each (the whole array); the adjacency
  window's block at point t is rows 400 t .. 400 t + 399 of the adjacency matrix, and the output window's block at point t
  is the same rows of the output. An entry (r, j) of the block the body leaves at point t is
  sum_k adj(400 t + r, k) * (sum_l h(k, l) * W(l, j)) + b(j) -- the layer function at row 400 t + r -- so what point t writes
  back is block t of the layer, and since every row is in the block of the point that its number divided by 400 names, the
  array ends holding the layer. The last region's second output is the row-normalised layer: normalising a block's rows
  is normalising the same rows of the whole matrix, because a row's maximum and sum of exponentials read that row only.
-/
import proofs.«133978_g44306882625591_cont_8to1_c_1075_2_alg».proof.Proof.KiPieces
import proofs.«133978_g44306882625591_cont_8to1_c_1075_2_alg».proof.Proof.KiRegion0
import proofs.«133978_g44306882625591_cont_8to1_c_1075_2_alg».proof.Proof.KiRegion1
import proofs.«133978_g44306882625591_cont_8to1_c_1075_2_alg».proof.Proof.KiRegion2
import proofs.«133978_g44306882625591_cont_8to1_c_1075_2_alg».proof.Proof.KiRegion3
import proofs.«133978_g44306882625591_cont_8to1_c_1075_2_alg».proof.Proof.KiRegion4
import proofs.«133978_g44306882625591_cont_8to1_c_1075_2_alg».proof.Proof.PayloadAt
import proofs.«133978_g44306882625591_cont_8to1_c_1075_2_alg».proof.Proof.Spec
import Idealize.ShloMosaic.Lib.Pipeline.Value
import Idealize.ShloMosaic.Lib.ValueIdx
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx Cert.GcnSpec Cert.PayloadAt

variable (V : (c : Dev nD) → (b : Ref sig .tc) → Buf (Elt Ideal) ((c : Thread nD τ).loc b))

/-- A one-row matrix read as a row. -/
def rowOf {e : Nat} (B : Mat 1 e) : Vect e := fun y => B (ix2 (0 : Fin 1) (y 0))

/-- The row-normalised output at a row depends on that row only: two matrices that agree on a row of each have the
    same normalised entries along it. -/
theorem logSoftmaxA_rows {n m e : Nat} (X : Mat n e) (Y : Mat m e) (r : Fin n) (R : Fin m)
    (h : ∀ j : Fin e, X (ix2 r j) = Y (ix2 R j)) (j : Fin e) : logSoftmaxA X (ix2 r j) = logSoftmaxA Y (ix2 R j) := by
  have hf : (fun j : Fin e => X (ix2 r j)) = fun j : Fin e => Y (ix2 R j) := funext h
  have hm : rowMax X r = rowMax Y R := by unfold rowMax; rw [hf]
  have hl : logSumExp X r = logSumExp Y R := by
    unfold logSumExp
    rw [hm]
    exact congrArg Ideal.log (Finset.sum_congr rfl fun j _ => by rw [h j])
  show X (ix2 r j) - (logSumExp X r + rowMax X r) = Y (ix2 R j) - (logSumExp Y R + rowMax Y R)
  rw [h j, hm, hl]

/-! ## Region 0 -/

/-- The block indices over the grid: the three whole windows stay at block (0, 0); the adjacency window and the output
    window are at row block t. -/
theorem idx_facts0 : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem iblk0_0_apply (c : Dev nD) (t : Fin cfg0.N) (x : S10000x128.Idx) :
    (iblk0 V c 0 t : FVec Ideal S10000x128 .f32) x = (V c main_arg0 : Mat 10000 128) x := by
  obtain ⟨e0, e1, -⟩ := idx_facts0 t
  unfold iblk0
  rw [View.read_apply]
  show V c main_arg0 _ = V c main_arg0 _
  congr 1
  funext a; apply Fin.ext
  match a with
  | ⟨0, _⟩ => show win0_0.index t 0 * 10000 + 1 * (x 0).val = (x 0).val; rw [e0]; omega
  | ⟨1, _⟩ => show win0_0.index t 1 * 128 + 1 * (x 1).val = (x 1).val; rw [e1]; omega

theorem iblk0_1_apply (c : Dev nD) (t : Fin cfg0.N) (x : S128x64.Idx) :
    (iblk0 V c 1 t : FVec Ideal S128x64 .f32) x = (V c main_arg2 : Mat 128 64) x := by
  obtain ⟨-, -, e0, e1, -⟩ := idx_facts0 t
  unfold iblk0
  rw [View.read_apply]
  show V c main_arg2 _ = V c main_arg2 _
  congr 1
  funext a; apply Fin.ext
  match a with
  | ⟨0, _⟩ => show win0_1.index t 0 * 128 + 1 * (x 0).val = (x 0).val; rw [e0]; omega
  | ⟨1, _⟩ => show win0_1.index t 1 * 64 + 1 * (x 1).val = (x 1).val; rw [e1]; omega

theorem iblk0_2_apply (c : Dev nD) (t : Fin cfg0.N) (x : S1x64.Idx) :
    (iblk0 V c 2 t : FVec Ideal S1x64 .f32) x = (V c main_v0 : Mat 1 64) x := by
  obtain ⟨-, -, -, -, e0, e1, -⟩ := idx_facts0 t
  unfold iblk0
  rw [View.read_apply]
  show V c main_v0 _ = V c main_v0 _
  congr 1
  funext a; apply Fin.ext
  match a with
  | ⟨0, _⟩ => show win0_2.index t 0 * 1 + 1 * (x 0).val = (x 0).val; rw [e0]; omega
  | ⟨1, _⟩ => show win0_2.index t 1 * 64 + 1 * (x 1).val = (x 1).val; rw [e1]; omega

theorem iblk0_3_apply (c : Dev nD) (t : Fin cfg0.N) (r : Fin 400) (k : Fin 10000) (R : Fin 10000)
    (hR : R.val = 400 * t.val + r.val) :
    (iblk0 V c 3 t : FVec Ideal S400x10000 .f32) (ix2 r k) = (V c main_arg1 : Mat 10000 10000) (ix2 R k) := by
  obtain ⟨-, -, -, -, -, -, e0, e1, -⟩ := idx_facts0 t
  unfold iblk0
  rw [View.read_apply]
  show V c main_arg1 _ = V c main_arg1 _
  congr 1
  funext a; apply Fin.ext
  match a with
  | ⟨0, _⟩ => show win0_3.index t 0 * 400 + 1 * r.val = R.val; rw [e0, hR]; omega
  | ⟨1, _⟩ => show win0_3.index t 1 * 10000 + 1 * k.val = k.val; rw [e1]; omega

/-- One entry of an output block: row r of the adjacency block against column j of the support, plus the bias, is the
    layer function at the row that the block's row r is in the whole matrix. -/
theorem entry0 (A : FVec Ideal S400x10000 .f32) (H : FVec Ideal S10000x128 .f32) (W : FVec Ideal S128x64 .f32)
    (B : FVec Ideal S1x64 .f32) (adj : Mat 10000 10000) (h : Mat 10000 128) (w : Mat 128 64) (b : Mat 1 64)
    (R : Fin 10000) (r : Fin 400) (j : Fin 64)
    (hA : ∀ k : Fin 10000, A (ix2 r k) = adj (ix2 R k)) (hH : ∀ x, H x = h x) (hW : ∀ x, W x = w x) (hB : ∀ x, B x = b x) :
    k0_pay2 (F := Ideal) A (k0_pay1 (F := Ideal) H W) B (ix2 r j) = gc adj h w (rowOf b) (ix2 R j) := by
  obtain rfl : H = h := funext hH
  obtain rfl : W = w := funext hW
  obtain rfl : B = b := funext hB
  rw [k0_pay2_at]
  show _ = (∑ k : Fin 10000, adj (ix2 R k) * supp H W k j) + B (ix2 (0 : Fin 1) j)
  refine congrArg₂ (· + ·) (Finset.sum_congr rfl fun k _ => ?_) rfl
  rw [hA k, k0_pay1_at]

/-- Layer 1 of the network on the buffers as region 0 finds them. -/
def E0 (c : Dev nD) : Mat 10000 64 :=
  gc (V c main_arg1 : Mat 10000 10000) (V c main_arg0 : Mat 10000 128) (V c main_arg2 : Mat 128 64) (rowOf (V c main_v0 : Mat 1 64))

/-- Row r of point t's output block is row 400 t + r of the output array. -/
theorem emb0_4 (t : Fin cfg0.N) (r : Fin 400) (j : Fin 64) (R : Fin 10000) (hR : R.val = 400 * t.val + r.val) :
    ((cfg0.win 4).blk t).view.emb (ix2 r j) = ix2 R j := by
  obtain ⟨-, -, -, -, -, -, -, -, e0, e1⟩ := idx_facts0 t
  funext a; apply Fin.ext
  match a with
  | ⟨0, _⟩ => show win0_4.index t 0 * 400 + 1 * r.val = R.val; rw [e0, hR]; omega
  | ⟨1, _⟩ => show win0_4.index t 1 * 64 + 1 * j.val = j.val; rw [e1]; omega

/-- The body's value of point t's blocks, entry by entry, is block t of the layer. -/
theorem block0_eq (c : Dev nD) (t : Fin cfg0.N) (r : Fin 400) (j : Fin 64) (R : Fin 10000) (hR : R.val = 400 * t.val + r.val) :
    k0_pay2 (F := Ideal) (iblk0 V c 3 t) (k0_pay1 (F := Ideal) (iblk0 V c 0 t0_0) (iblk0 V c 1 t0_0)) (iblk0 V c 2 t) (ix2 r j)
      = E0 V c (ix2 R j) := by
  unfold E0
  exact entry0 _ _ _ _ _ _ _ _ R r j (fun k => iblk0_3_apply V c t r k R hR) (iblk0_0_apply V c t0_0)
    (iblk0_1_apply V c t0_0) (iblk0_2_apply V c t)

/-- What point t writes back is block t of the layer. -/
theorem flushed0_eq (c : Dev nD) (t : Fin cfg0.N)
    (hs : sup0 V c = k0_pay1 (iblk0 V c 0 t0_0) (iblk0 V c 1 t0_0))
    (ho : ∀ t, out0_0 V c t = k0_pay2 (iblk0 V c 3 t) (sup0 V c) (iblk0 V c 2 t)) :
    (dat0 (F := Ideal) V c).flushed 4 t = ((cfg0.win 4).blk t).view.read (Elt Ideal) (E0 V c) := by
  show (cfg0.win 4).cut (grid0.coords t) ((dat0 V c).after 4 t) = _
  rw [after0_4, ho, hs]
  refine funext fun (y : S400x64.Idx) => ?_
  obtain ⟨r, j, rfl⟩ : ∃ (r : Fin 400) (j : Fin 64), y = ix2 r j := ⟨y 0, y 1, eq_ix2 y⟩
  have hr : r.val < 400 := r.isLt
  have ht : t.val < 25 := t.isLt
  rw [View.read_apply, emb0_4 t r j (⟨400 * t.val + r.val, by omega⟩ : Fin 10000) rfl]
  exact block0_eq V c t r j _ rfl

/-- An index of the output array is in point t's block iff each coordinate is in the block's range. -/
theorem mem_blk0 (t : Fin cfg0.N) (i : S10000x64.Idx) :
    i ∈ ((cfg0.win 4).blk t).view.set ↔ ∀ a : Fin 2, win0_4.index t a * S400x64.size a ≤ (i a).val
      ∧ (i a).val < win0_4.index t a * S400x64.size a + S400x64.size a := by
  show i ∈ ((View.whole main_v5).slice (win0_4.rect t)).set ↔ _
  rw [View.set_slice_whole, Rect.mem_set_unit]
  exact Iff.rfl

/-- Every row is in the block of the point that its number divided by 400 names. -/
theorem cover0 (i : S10000x64.Idx) :
    ∃ t : Fin cfg0.N, (cfg0.win 4).flush t = true ∧ i ∈ ((cfg0.win 4).blk t).view.set := by
  have h0 : (i 0).val < 10000 := (i 0).isLt
  have h1 : (i 1).val < 64 := (i 1).isLt
  have hq : (i 0).val / 400 < cfg0.N := by show _ < 25; omega
  refine ⟨(⟨(i 0).val / 400, hq⟩ : Fin cfg0.N), flush0_4 _, ?_⟩
  rw [mem_blk0]
  obtain ⟨-, -, -, -, -, -, -, -, e0, e1⟩ := idx_facts0 (⟨(i 0).val / 400, hq⟩ : Fin cfg0.N)
  intro a
  match a with
  | ⟨0, _⟩ =>
    show win0_4.index _ 0 * 400 ≤ (i 0).val ∧ (i 0).val < win0_4.index _ 0 * 400 + 400
    rw [e0]; show (i 0).val / 400 * 400 ≤ (i 0).val ∧ (i 0).val < (i 0).val / 400 * 400 + 400; omega
  | ⟨1, _⟩ =>
    show win0_4.index _ 1 * 64 ≤ (i 1).val ∧ (i 1).val < win0_4.index _ 1 * 64 + 64
    rw [e1]; omega

/-- The output array of region 0 ends holding layer 1, given what the body's stores leave. -/
theorem final0_of (c : Dev nD)
    (hs : sup0 V c = k0_pay1 (iblk0 V c 0 t0_0) (iblk0 V c 1 t0_0))
    (ho : ∀ t, out0_0 V c t = k0_pay2 (iblk0 V c 3 t) (sup0 V c) (iblk0 V c 2 t)) :
    (dat0 (F := Ideal) V c).arrAt 4 cfg0.N = E0 V c :=
  (dat0 V c).arrAt_eq_of_cover 4 (E0 V c) (fun t _ => flushed0_eq V c t hs ho) cover0

/-- The output array of region 0 ends holding layer 1. -/
theorem final0 (c : Dev nD) : (dat0 (F := Ideal) V c).arrAt 4 cfg0.N = E0 V c :=
  final0_of V c (sup0_eq V c) (out0_0_eq V c)

/-! ## Region 1 -/

/-- The block indices over the grid: the three whole windows stay at block (0, 0); the adjacency window and the output
    window are at row block t. -/
theorem idx_facts1 : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

theorem iblk1_0_apply (c : Dev nD) (t : Fin cfg1.N) (x : S10000x64.Idx) :
    (iblk1 V c 0 t : FVec Ideal S10000x64 .f32) x = (V c main_v5 : Mat 10000 64) x := by
  obtain ⟨e0, e1, -⟩ := idx_facts1 t
  unfold iblk1
  rw [View.read_apply]
  show V c main_v5 _ = V c main_v5 _
  congr 1
  funext a; apply Fin.ext
  match a with
  | ⟨0, _⟩ => show win1_0.index t 0 * 10000 + 1 * (x 0).val = (x 0).val; rw [e0]; omega
  | ⟨1, _⟩ => show win1_0.index t 1 * 64 + 1 * (x 1).val = (x 1).val; rw [e1]; omega

theorem iblk1_1_apply (c : Dev nD) (t : Fin cfg1.N) (x : S64x64.Idx) :
    (iblk1 V c 1 t : FVec Ideal S64x64 .f32) x = (V c main_arg4 : Mat 64 64) x := by
  obtain ⟨-, -, e0, e1, -⟩ := idx_facts1 t
  unfold iblk1
  rw [View.read_apply]
  show V c main_arg4 _ = V c main_arg4 _
  congr 1
  funext a; apply Fin.ext
  match a with
  | ⟨0, _⟩ => show win1_1.index t 0 * 64 + 1 * (x 0).val = (x 0).val; rw [e0]; omega
  | ⟨1, _⟩ => show win1_1.index t 1 * 64 + 1 * (x 1).val = (x 1).val; rw [e1]; omega

theorem iblk1_2_apply (c : Dev nD) (t : Fin cfg1.N) (x : S1x64.Idx) :
    (iblk1 V c 2 t : FVec Ideal S1x64 .f32) x = (V c main_v1 : Mat 1 64) x := by
  obtain ⟨-, -, -, -, e0, e1, -⟩ := idx_facts1 t
  unfold iblk1
  rw [View.read_apply]
  show V c main_v1 _ = V c main_v1 _
  congr 1
  funext a; apply Fin.ext
  match a with
  | ⟨0, _⟩ => show win1_2.index t 0 * 1 + 1 * (x 0).val = (x 0).val; rw [e0]; omega
  | ⟨1, _⟩ => show win1_2.index t 1 * 64 + 1 * (x 1).val = (x 1).val; rw [e1]; omega

theorem iblk1_3_apply (c : Dev nD) (t : Fin cfg1.N) (r : Fin 400) (k : Fin 10000) (R : Fin 10000)
    (hR : R.val = 400 * t.val + r.val) :
    (iblk1 V c 3 t : FVec Ideal S400x10000 .f32) (ix2 r k) = (V c main_arg1 : Mat 10000 10000) (ix2 R k) := by
  obtain ⟨-, -, -, -, -, -, e0, e1, -⟩ := idx_facts1 t
  unfold iblk1
  rw [View.read_apply]
  show V c main_arg1 _ = V c main_arg1 _
  congr 1
  funext a; apply Fin.ext
  match a with
  | ⟨0, _⟩ => show win1_3.index t 0 * 400 + 1 * r.val = R.val; rw [e0, hR]; omega
  | ⟨1, _⟩ => show win1_3.index t 1 * 10000 + 1 * k.val = k.val; rw [e1]; omega

/-- One entry of an output block: row r of the adjacency block against column j of the support, plus the bias, is the
    layer function at the row that the block's row r is in the whole matrix. -/
theorem entry1 (A : FVec Ideal S400x10000 .f32) (H : FVec Ideal S10000x64 .f32) (W : FVec Ideal S64x64 .f32)
    (B : FVec Ideal S1x64 .f32) (adj : Mat 10000 10000) (h : Mat 10000 64) (w : Mat 64 64) (b : Mat 1 64)
    (R : Fin 10000) (r : Fin 400) (j : Fin 64)
    (hA : ∀ k : Fin 10000, A (ix2 r k) = adj (ix2 R k)) (hH : ∀ x, H x = h x) (hW : ∀ x, W x = w x) (hB : ∀ x, B x = b x) :
    k1_pay2 (F := Ideal) A (k1_pay1 (F := Ideal) H W) B (ix2 r j) = gc adj (relu h) w (rowOf b) (ix2 R j) := by
  obtain rfl : H = h := funext hH
  obtain rfl : W = w := funext hW
  obtain rfl : B = b := funext hB
  rw [k1_pay2_at]
  show _ = (∑ k : Fin 10000, adj (ix2 R k) * supp (relu H) W k j) + B (ix2 (0 : Fin 1) j)
  refine congrArg₂ (· + ·) (Finset.sum_congr rfl fun k _ => ?_) rfl
  rw [hA k, k1_pay1_at]

/-- Layer 2 of the network on the buffers as region 1 finds them. -/
def E1 (c : Dev nD) : Mat 10000 64 :=
  gc (V c main_arg1 : Mat 10000 10000) (relu (V c main_v5 : Mat 10000 64)) (V c main_arg4 : Mat 64 64) (rowOf (V c main_v1 : Mat 1 64))

/-- Row r of point t's output block is row 400 t + r of the output array. -/
theorem emb1_4 (t : Fin cfg1.N) (r : Fin 400) (j : Fin 64) (R : Fin 10000) (hR : R.val = 400 * t.val + r.val) :
    ((cfg1.win 4).blk t).view.emb (ix2 r j) = ix2 R j := by
  obtain ⟨-, -, -, -, -, -, -, -, e0, e1⟩ := idx_facts1 t
  funext a; apply Fin.ext
  match a with
  | ⟨0, _⟩ => show win1_4.index t 0 * 400 + 1 * r.val = R.val; rw [e0, hR]; omega
  | ⟨1, _⟩ => show win1_4.index t 1 * 64 + 1 * j.val = j.val; rw [e1]; omega

/-- The body's value of point t's blocks, entry by entry, is block t of the layer. -/
theorem block1_eq (c : Dev nD) (t : Fin cfg1.N) (r : Fin 400) (j : Fin 64) (R : Fin 10000) (hR : R.val = 400 * t.val + r.val) :
    k1_pay2 (F := Ideal) (iblk1 V c 3 t) (k1_pay1 (F := Ideal) (iblk1 V c 0 t0_1) (iblk1 V c 1 t0_1)) (iblk1 V c 2 t) (ix2 r j)
      = E1 V c (ix2 R j) := by
  unfold E1
  exact entry1 _ _ _ _ _ _ _ _ R r j (fun k => iblk1_3_apply V c t r k R hR) (iblk1_0_apply V c t0_1)
    (iblk1_1_apply V c t0_1) (iblk1_2_apply V c t)

/-- What point t writes back is block t of the layer. -/
theorem flushed1_eq (c : Dev nD) (t : Fin cfg1.N)
    (hs : sup1 V c = k1_pay1 (iblk1 V c 0 t0_1) (iblk1 V c 1 t0_1))
    (ho : ∀ t, out1_0 V c t = k1_pay2 (iblk1 V c 3 t) (sup1 V c) (iblk1 V c 2 t)) :
    (dat1 (F := Ideal) V c).flushed 4 t = ((cfg1.win 4).blk t).view.read (Elt Ideal) (E1 V c) := by
  show (cfg1.win 4).cut (grid1.coords t) ((dat1 V c).after 4 t) = _
  rw [after1_4, ho, hs]
  refine funext fun (y : S400x64.Idx) => ?_
  obtain ⟨r, j, rfl⟩ : ∃ (r : Fin 400) (j : Fin 64), y = ix2 r j := ⟨y 0, y 1, eq_ix2 y⟩
  have hr : r.val < 400 := r.isLt
  have ht : t.val < 25 := t.isLt
  rw [View.read_apply, emb1_4 t r j (⟨400 * t.val + r.val, by omega⟩ : Fin 10000) rfl]
  exact block1_eq V c t r j _ rfl

/-- An index of the output array is in point t's block iff each coordinate is in the block's range. -/
theorem mem_blk1 (t : Fin cfg1.N) (i : S10000x64.Idx) :
    i ∈ ((cfg1.win 4).blk t).view.set ↔ ∀ a : Fin 2, win1_4.index t a * S400x64.size a ≤ (i a).val
      ∧ (i a).val < win1_4.index t a * S400x64.size a + S400x64.size a := by
  show i ∈ ((View.whole main_v6).slice (win1_4.rect t)).set ↔ _
  rw [View.set_slice_whole, Rect.mem_set_unit]
  exact Iff.rfl

/-- Every row is in the block of the point that its number divided by 400 names. -/
theorem cover1 (i : S10000x64.Idx) :
    ∃ t : Fin cfg1.N, (cfg1.win 4).flush t = true ∧ i ∈ ((cfg1.win 4).blk t).view.set := by
  have h0 : (i 0).val < 10000 := (i 0).isLt
  have h1 : (i 1).val < 64 := (i 1).isLt
  have hq : (i 0).val / 400 < cfg1.N := by show _ < 25; omega
  refine ⟨(⟨(i 0).val / 400, hq⟩ : Fin cfg1.N), flush1_4 _, ?_⟩
  rw [mem_blk1]
  obtain ⟨-, -, -, -, -, -, -, -, e0, e1⟩ := idx_facts1 (⟨(i 0).val / 400, hq⟩ : Fin cfg1.N)
  intro a
  match a with
  | ⟨0, _⟩ =>
    show win1_4.index _ 0 * 400 ≤ (i 0).val ∧ (i 0).val < win1_4.index _ 0 * 400 + 400
    rw [e0]; show (i 0).val / 400 * 400 ≤ (i 0).val ∧ (i 0).val < (i 0).val / 400 * 400 + 400; omega
  | ⟨1, _⟩ =>
    show win1_4.index _ 1 * 64 ≤ (i 1).val ∧ (i 1).val < win1_4.index _ 1 * 64 + 64
    rw [e1]; omega

/-- The output array of region 1 ends holding layer 2, given what the body's stores leave. -/
theorem final1_of (c : Dev nD)
    (hs : sup1 V c = k1_pay1 (iblk1 V c 0 t0_1) (iblk1 V c 1 t0_1))
    (ho : ∀ t, out1_0 V c t = k1_pay2 (iblk1 V c 3 t) (sup1 V c) (iblk1 V c 2 t)) :
    (dat1 (F := Ideal) V c).arrAt 4 cfg1.N = E1 V c :=
  (dat1 V c).arrAt_eq_of_cover 4 (E1 V c) (fun t _ => flushed1_eq V c t hs ho) cover1

/-- The output array of region 1 ends holding layer 2. -/
theorem final1 (c : Dev nD) : (dat1 (F := Ideal) V c).arrAt 4 cfg1.N = E1 V c :=
  final1_of V c (sup1_eq V c) (out1_0_eq V c)

/-! ## Region 2 -/

/-- The block indices over the grid: the three whole windows stay at block (0, 0); the adjacency window and the output
    window are at row block t. -/
theorem idx_facts2 : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

theorem iblk2_0_apply (c : Dev nD) (t : Fin cfg2.N) (x : S10000x64.Idx) :
    (iblk2 V c 0 t : FVec Ideal S10000x64 .f32) x = (V c main_v6 : Mat 10000 64) x := by
  obtain ⟨e0, e1, -⟩ := idx_facts2 t
  unfold iblk2
  rw [View.read_apply]
  show V c main_v6 _ = V c main_v6 _
  congr 1
  funext a; apply Fin.ext
  match a with
  | ⟨0, _⟩ => show win2_0.index t 0 * 10000 + 1 * (x 0).val = (x 0).val; rw [e0]; omega
  | ⟨1, _⟩ => show win2_0.index t 1 * 64 + 1 * (x 1).val = (x 1).val; rw [e1]; omega

theorem iblk2_1_apply (c : Dev nD) (t : Fin cfg2.N) (x : S64x64.Idx) :
    (iblk2 V c 1 t : FVec Ideal S64x64 .f32) x = (V c main_arg6 : Mat 64 64) x := by
  obtain ⟨-, -, e0, e1, -⟩ := idx_facts2 t
  unfold iblk2
  rw [View.read_apply]
  show V c main_arg6 _ = V c main_arg6 _
  congr 1
  funext a; apply Fin.ext
  match a with
  | ⟨0, _⟩ => show win2_1.index t 0 * 64 + 1 * (x 0).val = (x 0).val; rw [e0]; omega
  | ⟨1, _⟩ => show win2_1.index t 1 * 64 + 1 * (x 1).val = (x 1).val; rw [e1]; omega

theorem iblk2_2_apply (c : Dev nD) (t : Fin cfg2.N) (x : S1x64.Idx) :
    (iblk2 V c 2 t : FVec Ideal S1x64 .f32) x = (V c main_v2 : Mat 1 64) x := by
  obtain ⟨-, -, -, -, e0, e1, -⟩ := idx_facts2 t
  unfold iblk2
  rw [View.read_apply]
  show V c main_v2 _ = V c main_v2 _
  congr 1
  funext a; apply Fin.ext
  match a with
  | ⟨0, _⟩ => show win2_2.index t 0 * 1 + 1 * (x 0).val = (x 0).val; rw [e0]; omega
  | ⟨1, _⟩ => show win2_2.index t 1 * 64 + 1 * (x 1).val = (x 1).val; rw [e1]; omega

theorem iblk2_3_apply (c : Dev nD) (t : Fin cfg2.N) (r : Fin 400) (k : Fin 10000) (R : Fin 10000)
    (hR : R.val = 400 * t.val + r.val) :
    (iblk2 V c 3 t : FVec Ideal S400x10000 .f32) (ix2 r k) = (V c main_arg1 : Mat 10000 10000) (ix2 R k) := by
  obtain ⟨-, -, -, -, -, -, e0, e1, -⟩ := idx_facts2 t
  unfold iblk2
  rw [View.read_apply]
  show V c main_arg1 _ = V c main_arg1 _
  congr 1
  funext a; apply Fin.ext
  match a with
  | ⟨0, _⟩ => show win2_3.index t 0 * 400 + 1 * r.val = R.val; rw [e0, hR]; omega
  | ⟨1, _⟩ => show win2_3.index t 1 * 10000 + 1 * k.val = k.val; rw [e1]; omega

/-- One entry of an output block: row r of the adjacency block against column j of the support, plus the bias, is the
    layer function at the row that the block's row r is in the whole matrix. -/
theorem entry2 (A : FVec Ideal S400x10000 .f32) (H : FVec Ideal S10000x64 .f32) (W : FVec Ideal S64x64 .f32)
    (B : FVec Ideal S1x64 .f32) (adj : Mat 10000 10000) (h : Mat 10000 64) (w : Mat 64 64) (b : Mat 1 64)
    (R : Fin 10000) (r : Fin 400) (j : Fin 64)
    (hA : ∀ k : Fin 10000, A (ix2 r k) = adj (ix2 R k)) (hH : ∀ x, H x = h x) (hW : ∀ x, W x = w x) (hB : ∀ x, B x = b x) :
    k2_pay2 (F := Ideal) A (k2_pay1 (F := Ideal) H W) B (ix2 r j) = gc adj (relu h) w (rowOf b) (ix2 R j) := by
  obtain rfl : H = h := funext hH
  obtain rfl : W = w := funext hW
  obtain rfl : B = b := funext hB
  rw [k2_pay2_at]
  show _ = (∑ k : Fin 10000, adj (ix2 R k) * supp (relu H) W k j) + B (ix2 (0 : Fin 1) j)
  refine congrArg₂ (· + ·) (Finset.sum_congr rfl fun k _ => ?_) rfl
  rw [hA k, k2_pay1_at]

/-- Layer 3 of the network on the buffers as region 2 finds them. -/
def E2 (c : Dev nD) : Mat 10000 64 :=
  gc (V c main_arg1 : Mat 10000 10000) (relu (V c main_v6 : Mat 10000 64)) (V c main_arg6 : Mat 64 64) (rowOf (V c main_v2 : Mat 1 64))

/-- Row r of point t's output block is row 400 t + r of the output array. -/
theorem emb2_4 (t : Fin cfg2.N) (r : Fin 400) (j : Fin 64) (R : Fin 10000) (hR : R.val = 400 * t.val + r.val) :
    ((cfg2.win 4).blk t).view.emb (ix2 r j) = ix2 R j := by
  obtain ⟨-, -, -, -, -, -, -, -, e0, e1⟩ := idx_facts2 t
  funext a; apply Fin.ext
  match a with
  | ⟨0, _⟩ => show win2_4.index t 0 * 400 + 1 * r.val = R.val; rw [e0, hR]; omega
  | ⟨1, _⟩ => show win2_4.index t 1 * 64 + 1 * j.val = j.val; rw [e1]; omega

/-- The body's value of point t's blocks, entry by entry, is block t of the layer. -/
theorem block2_eq (c : Dev nD) (t : Fin cfg2.N) (r : Fin 400) (j : Fin 64) (R : Fin 10000) (hR : R.val = 400 * t.val + r.val) :
    k2_pay2 (F := Ideal) (iblk2 V c 3 t) (k2_pay1 (F := Ideal) (iblk2 V c 0 t0_2) (iblk2 V c 1 t0_2)) (iblk2 V c 2 t) (ix2 r j)
      = E2 V c (ix2 R j) := by
  unfold E2
  exact entry2 _ _ _ _ _ _ _ _ R r j (fun k => iblk2_3_apply V c t r k R hR) (iblk2_0_apply V c t0_2)
    (iblk2_1_apply V c t0_2) (iblk2_2_apply V c t)

/-- What point t writes back is block t of the layer. -/
theorem flushed2_eq (c : Dev nD) (t : Fin cfg2.N)
    (hs : sup2 V c = k2_pay1 (iblk2 V c 0 t0_2) (iblk2 V c 1 t0_2))
    (ho : ∀ t, out2_0 V c t = k2_pay2 (iblk2 V c 3 t) (sup2 V c) (iblk2 V c 2 t)) :
    (dat2 (F := Ideal) V c).flushed 4 t = ((cfg2.win 4).blk t).view.read (Elt Ideal) (E2 V c) := by
  show (cfg2.win 4).cut (grid2.coords t) ((dat2 V c).after 4 t) = _
  rw [after2_4, ho, hs]
  refine funext fun (y : S400x64.Idx) => ?_
  obtain ⟨r, j, rfl⟩ : ∃ (r : Fin 400) (j : Fin 64), y = ix2 r j := ⟨y 0, y 1, eq_ix2 y⟩
  have hr : r.val < 400 := r.isLt
  have ht : t.val < 25 := t.isLt
  rw [View.read_apply, emb2_4 t r j (⟨400 * t.val + r.val, by omega⟩ : Fin 10000) rfl]
  exact block2_eq V c t r j _ rfl

/-- An index of the output array is in point t's block iff each coordinate is in the block's range. -/
theorem mem_blk2 (t : Fin cfg2.N) (i : S10000x64.Idx) :
    i ∈ ((cfg2.win 4).blk t).view.set ↔ ∀ a : Fin 2, win2_4.index t a * S400x64.size a ≤ (i a).val
      ∧ (i a).val < win2_4.index t a * S400x64.size a + S400x64.size a := by
  show i ∈ ((View.whole main_v7).slice (win2_4.rect t)).set ↔ _
  rw [View.set_slice_whole, Rect.mem_set_unit]
  exact Iff.rfl

/-- Every row is in the block of the point that its number divided by 400 names. -/
theorem cover2 (i : S10000x64.Idx) :
    ∃ t : Fin cfg2.N, (cfg2.win 4).flush t = true ∧ i ∈ ((cfg2.win 4).blk t).view.set := by
  have h0 : (i 0).val < 10000 := (i 0).isLt
  have h1 : (i 1).val < 64 := (i 1).isLt
  have hq : (i 0).val / 400 < cfg2.N := by show _ < 25; omega
  refine ⟨(⟨(i 0).val / 400, hq⟩ : Fin cfg2.N), flush2_4 _, ?_⟩
  rw [mem_blk2]
  obtain ⟨-, -, -, -, -, -, -, -, e0, e1⟩ := idx_facts2 (⟨(i 0).val / 400, hq⟩ : Fin cfg2.N)
  intro a
  match a with
  | ⟨0, _⟩ =>
    show win2_4.index _ 0 * 400 ≤ (i 0).val ∧ (i 0).val < win2_4.index _ 0 * 400 + 400
    rw [e0]; show (i 0).val / 400 * 400 ≤ (i 0).val ∧ (i 0).val < (i 0).val / 400 * 400 + 400; omega
  | ⟨1, _⟩ =>
    show win2_4.index _ 1 * 64 ≤ (i 1).val ∧ (i 1).val < win2_4.index _ 1 * 64 + 64
    rw [e1]; omega

/-- The output array of region 2 ends holding layer 3, given what the body's stores leave. -/
theorem final2_of (c : Dev nD)
    (hs : sup2 V c = k2_pay1 (iblk2 V c 0 t0_2) (iblk2 V c 1 t0_2))
    (ho : ∀ t, out2_0 V c t = k2_pay2 (iblk2 V c 3 t) (sup2 V c) (iblk2 V c 2 t)) :
    (dat2 (F := Ideal) V c).arrAt 4 cfg2.N = E2 V c :=
  (dat2 V c).arrAt_eq_of_cover 4 (E2 V c) (fun t _ => flushed2_eq V c t hs ho) cover2

/-- The output array of region 2 ends holding layer 3. -/
theorem final2 (c : Dev nD) : (dat2 (F := Ideal) V c).arrAt 4 cfg2.N = E2 V c :=
  final2_of V c (sup2_eq V c) (out2_0_eq V c)

/-! ## Region 3 -/

/-- The block indices over the grid: the three whole windows stay at block (0, 0); the adjacency window and the output
    window are at row block t. -/
theorem idx_facts3 : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

theorem iblk3_0_apply (c : Dev nD) (t : Fin cfg3.N) (x : S10000x64.Idx) :
    (iblk3 V c 0 t : FVec Ideal S10000x64 .f32) x = (V c main_v7 : Mat 10000 64) x := by
  obtain ⟨e0, e1, -⟩ := idx_facts3 t
  unfold iblk3
  rw [View.read_apply]
  show V c main_v7 _ = V c main_v7 _
  congr 1
  funext a; apply Fin.ext
  match a with
  | ⟨0, _⟩ => show win3_0.index t 0 * 10000 + 1 * (x 0).val = (x 0).val; rw [e0]; omega
  | ⟨1, _⟩ => show win3_0.index t 1 * 64 + 1 * (x 1).val = (x 1).val; rw [e1]; omega

theorem iblk3_1_apply (c : Dev nD) (t : Fin cfg3.N) (x : S64x64.Idx) :
    (iblk3 V c 1 t : FVec Ideal S64x64 .f32) x = (V c main_arg8 : Mat 64 64) x := by
  obtain ⟨-, -, e0, e1, -⟩ := idx_facts3 t
  unfold iblk3
  rw [View.read_apply]
  show V c main_arg8 _ = V c main_arg8 _
  congr 1
  funext a; apply Fin.ext
  match a with
  | ⟨0, _⟩ => show win3_1.index t 0 * 64 + 1 * (x 0).val = (x 0).val; rw [e0]; omega
  | ⟨1, _⟩ => show win3_1.index t 1 * 64 + 1 * (x 1).val = (x 1).val; rw [e1]; omega

theorem iblk3_2_apply (c : Dev nD) (t : Fin cfg3.N) (x : S1x64.Idx) :
    (iblk3 V c 2 t : FVec Ideal S1x64 .f32) x = (V c main_v3 : Mat 1 64) x := by
  obtain ⟨-, -, -, -, e0, e1, -⟩ := idx_facts3 t
  unfold iblk3
  rw [View.read_apply]
  show V c main_v3 _ = V c main_v3 _
  congr 1
  funext a; apply Fin.ext
  match a with
  | ⟨0, _⟩ => show win3_2.index t 0 * 1 + 1 * (x 0).val = (x 0).val; rw [e0]; omega
  | ⟨1, _⟩ => show win3_2.index t 1 * 64 + 1 * (x 1).val = (x 1).val; rw [e1]; omega

theorem iblk3_3_apply (c : Dev nD) (t : Fin cfg3.N) (r : Fin 400) (k : Fin 10000) (R : Fin 10000)
    (hR : R.val = 400 * t.val + r.val) :
    (iblk3 V c 3 t : FVec Ideal S400x10000 .f32) (ix2 r k) = (V c main_arg1 : Mat 10000 10000) (ix2 R k) := by
  obtain ⟨-, -, -, -, -, -, e0, e1, -⟩ := idx_facts3 t
  unfold iblk3
  rw [View.read_apply]
  show V c main_arg1 _ = V c main_arg1 _
  congr 1
  funext a; apply Fin.ext
  match a with
  | ⟨0, _⟩ => show win3_3.index t 0 * 400 + 1 * r.val = R.val; rw [e0, hR]; omega
  | ⟨1, _⟩ => show win3_3.index t 1 * 10000 + 1 * k.val = k.val; rw [e1]; omega

/-- One entry of an output block: row r of the adjacency block against column j of the support, plus the bias, is the
    layer function at the row that the block's row r is in the whole matrix. -/
theorem entry3 (A : FVec Ideal S400x10000 .f32) (H : FVec Ideal S10000x64 .f32) (W : FVec Ideal S64x64 .f32)
    (B : FVec Ideal S1x64 .f32) (adj : Mat 10000 10000) (h : Mat 10000 64) (w : Mat 64 64) (b : Mat 1 64)
    (R : Fin 10000) (r : Fin 400) (j : Fin 64)
    (hA : ∀ k : Fin 10000, A (ix2 r k) = adj (ix2 R k)) (hH : ∀ x, H x = h x) (hW : ∀ x, W x = w x) (hB : ∀ x, B x = b x) :
    k3_pay2 (F := Ideal) A (k3_pay1 (F := Ideal) H W) B (ix2 r j) = gc adj (relu h) w (rowOf b) (ix2 R j) := by
  obtain rfl : H = h := funext hH
  obtain rfl : W = w := funext hW
  obtain rfl : B = b := funext hB
  rw [k3_pay2_at]
  show _ = (∑ k : Fin 10000, adj (ix2 R k) * supp (relu H) W k j) + B (ix2 (0 : Fin 1) j)
  refine congrArg₂ (· + ·) (Finset.sum_congr rfl fun k _ => ?_) rfl
  rw [hA k, k3_pay1_at]

/-- Layer 4 of the network on the buffers as region 3 finds them. -/
def E3 (c : Dev nD) : Mat 10000 64 :=
  gc (V c main_arg1 : Mat 10000 10000) (relu (V c main_v7 : Mat 10000 64)) (V c main_arg8 : Mat 64 64) (rowOf (V c main_v3 : Mat 1 64))

/-- Row r of point t's output block is row 400 t + r of the output array. -/
theorem emb3_4 (t : Fin cfg3.N) (r : Fin 400) (j : Fin 64) (R : Fin 10000) (hR : R.val = 400 * t.val + r.val) :
    ((cfg3.win 4).blk t).view.emb (ix2 r j) = ix2 R j := by
  obtain ⟨-, -, -, -, -, -, -, -, e0, e1⟩ := idx_facts3 t
  funext a; apply Fin.ext
  match a with
  | ⟨0, _⟩ => show win3_4.index t 0 * 400 + 1 * r.val = R.val; rw [e0, hR]; omega
  | ⟨1, _⟩ => show win3_4.index t 1 * 64 + 1 * j.val = j.val; rw [e1]; omega

/-- The body's value of point t's blocks, entry by entry, is block t of the layer. -/
theorem block3_eq (c : Dev nD) (t : Fin cfg3.N) (r : Fin 400) (j : Fin 64) (R : Fin 10000) (hR : R.val = 400 * t.val + r.val) :
    k3_pay2 (F := Ideal) (iblk3 V c 3 t) (k3_pay1 (F := Ideal) (iblk3 V c 0 t0_3) (iblk3 V c 1 t0_3)) (iblk3 V c 2 t) (ix2 r j)
      = E3 V c (ix2 R j) := by
  unfold E3
  exact entry3 _ _ _ _ _ _ _ _ R r j (fun k => iblk3_3_apply V c t r k R hR) (iblk3_0_apply V c t0_3)
    (iblk3_1_apply V c t0_3) (iblk3_2_apply V c t)

/-- What point t writes back is block t of the layer. -/
theorem flushed3_eq (c : Dev nD) (t : Fin cfg3.N)
    (hs : sup3 V c = k3_pay1 (iblk3 V c 0 t0_3) (iblk3 V c 1 t0_3))
    (ho : ∀ t, out3_0 V c t = k3_pay2 (iblk3 V c 3 t) (sup3 V c) (iblk3 V c 2 t)) :
    (dat3 (F := Ideal) V c).flushed 4 t = ((cfg3.win 4).blk t).view.read (Elt Ideal) (E3 V c) := by
  show (cfg3.win 4).cut (grid3.coords t) ((dat3 V c).after 4 t) = _
  rw [after3_4, ho, hs]
  refine funext fun (y : S400x64.Idx) => ?_
  obtain ⟨r, j, rfl⟩ : ∃ (r : Fin 400) (j : Fin 64), y = ix2 r j := ⟨y 0, y 1, eq_ix2 y⟩
  have hr : r.val < 400 := r.isLt
  have ht : t.val < 25 := t.isLt
  rw [View.read_apply, emb3_4 t r j (⟨400 * t.val + r.val, by omega⟩ : Fin 10000) rfl]
  exact block3_eq V c t r j _ rfl

/-- An index of the output array is in point t's block iff each coordinate is in the block's range. -/
theorem mem_blk3 (t : Fin cfg3.N) (i : S10000x64.Idx) :
    i ∈ ((cfg3.win 4).blk t).view.set ↔ ∀ a : Fin 2, win3_4.index t a * S400x64.size a ≤ (i a).val
      ∧ (i a).val < win3_4.index t a * S400x64.size a + S400x64.size a := by
  show i ∈ ((View.whole main_v8).slice (win3_4.rect t)).set ↔ _
  rw [View.set_slice_whole, Rect.mem_set_unit]
  exact Iff.rfl

/-- Every row is in the block of the point that its number divided by 400 names. -/
theorem cover3 (i : S10000x64.Idx) :
    ∃ t : Fin cfg3.N, (cfg3.win 4).flush t = true ∧ i ∈ ((cfg3.win 4).blk t).view.set := by
  have h0 : (i 0).val < 10000 := (i 0).isLt
  have h1 : (i 1).val < 64 := (i 1).isLt
  have hq : (i 0).val / 400 < cfg3.N := by show _ < 25; omega
  refine ⟨(⟨(i 0).val / 400, hq⟩ : Fin cfg3.N), flush3_4 _, ?_⟩
  rw [mem_blk3]
  obtain ⟨-, -, -, -, -, -, -, -, e0, e1⟩ := idx_facts3 (⟨(i 0).val / 400, hq⟩ : Fin cfg3.N)
  intro a
  match a with
  | ⟨0, _⟩ =>
    show win3_4.index _ 0 * 400 ≤ (i 0).val ∧ (i 0).val < win3_4.index _ 0 * 400 + 400
    rw [e0]; show (i 0).val / 400 * 400 ≤ (i 0).val ∧ (i 0).val < (i 0).val / 400 * 400 + 400; omega
  | ⟨1, _⟩ =>
    show win3_4.index _ 1 * 64 ≤ (i 1).val ∧ (i 1).val < win3_4.index _ 1 * 64 + 64
    rw [e1]; omega

/-- The output array of region 3 ends holding layer 4, given what the body's stores leave. -/
theorem final3_of (c : Dev nD)
    (hs : sup3 V c = k3_pay1 (iblk3 V c 0 t0_3) (iblk3 V c 1 t0_3))
    (ho : ∀ t, out3_0 V c t = k3_pay2 (iblk3 V c 3 t) (sup3 V c) (iblk3 V c 2 t)) :
    (dat3 (F := Ideal) V c).arrAt 4 cfg3.N = E3 V c :=
  (dat3 V c).arrAt_eq_of_cover 4 (E3 V c) (fun t _ => flushed3_eq V c t hs ho) cover3

/-- The output array of region 3 ends holding layer 4. -/
theorem final3 (c : Dev nD) : (dat3 (F := Ideal) V c).arrAt 4 cfg3.N = E3 V c :=
  final3_of V c (sup3_eq V c) (out3_0_eq V c)

/-! ## Region 4 -/

/-- The block indices over the grid: the three whole windows stay at block (0, 0); the adjacency window and the output
    windows are at row block t. -/
theorem idx_facts4 : ∀ t : Fin cfg4.N,
    win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0
    ∧ win4_5.index t (0 : Fin 2) = t.val ∧ win4_5.index t (1 : Fin 2) = 0 :=
  (by decide +kernel : ∀ t : Fin grid4.N, _)

theorem iblk4_0_apply (c : Dev nD) (t : Fin cfg4.N) (x : S10000x64.Idx) :
    (iblk4 V c 0 t : FVec Ideal S10000x64 .f32) x = (V c main_v8 : Mat 10000 64) x := by
  obtain ⟨e0, e1, -⟩ := idx_facts4 t
  unfold iblk4
  rw [View.read_apply]
  show V c main_v8 _ = V c main_v8 _
  congr 1
  funext a; apply Fin.ext
  match a with
  | ⟨0, _⟩ => show win4_0.index t 0 * 10000 + 1 * (x 0).val = (x 0).val; rw [e0]; omega
  | ⟨1, _⟩ => show win4_0.index t 1 * 64 + 1 * (x 1).val = (x 1).val; rw [e1]; omega

theorem iblk4_1_apply (c : Dev nD) (t : Fin cfg4.N) (x : S64x40.Idx) :
    (iblk4 V c 1 t : FVec Ideal S64x40 .f32) x = (V c main_arg10 : Mat 64 40) x := by
  obtain ⟨-, -, e0, e1, -⟩ := idx_facts4 t
  unfold iblk4
  rw [View.read_apply]
  show V c main_arg10 _ = V c main_arg10 _
  congr 1
  funext a; apply Fin.ext
  match a with
  | ⟨0, _⟩ => show win4_1.index t 0 * 64 + 1 * (x 0).val = (x 0).val; rw [e0]; omega
  | ⟨1, _⟩ => show win4_1.index t 1 * 40 + 1 * (x 1).val = (x 1).val; rw [e1]; omega

theorem iblk4_2_apply (c : Dev nD) (t : Fin cfg4.N) (x : S1x40.Idx) :
    (iblk4 V c 2 t : FVec Ideal S1x40 .f32) x = (V c main_v4 : Mat 1 40) x := by
  obtain ⟨-, -, -, -, e0, e1, -⟩ := idx_facts4 t
  unfold iblk4
  rw [View.read_apply]
  show V c main_v4 _ = V c main_v4 _
  congr 1
  funext a; apply Fin.ext
  match a with
  | ⟨0, _⟩ => show win4_2.index t 0 * 1 + 1 * (x 0).val = (x 0).val; rw [e0]; omega
  | ⟨1, _⟩ => show win4_2.index t 1 * 40 + 1 * (x 1).val = (x 1).val; rw [e1]; omega

theorem iblk4_3_apply (c : Dev nD) (t : Fin cfg4.N) (r : Fin 400) (k : Fin 10000) (R : Fin 10000)
    (hR : R.val = 400 * t.val + r.val) :
    (iblk4 V c 3 t : FVec Ideal S400x10000 .f32) (ix2 r k) = (V c main_arg1 : Mat 10000 10000) (ix2 R k) := by
  obtain ⟨-, -, -, -, -, -, e0, e1, -⟩ := idx_facts4 t
  unfold iblk4
  rw [View.read_apply]
  show V c main_arg1 _ = V c main_arg1 _
  congr 1
  funext a; apply Fin.ext
  match a with
  | ⟨0, _⟩ => show win4_3.index t 0 * 400 + 1 * r.val = R.val; rw [e0, hR]; omega
  | ⟨1, _⟩ => show win4_3.index t 1 * 10000 + 1 * k.val = k.val; rw [e1]; omega

/-- One entry of an output block: row r of the adjacency block against column j of the support, plus the bias, is the
    layer function at the row that the block's row r is in the whole matrix. -/
theorem entry4 (A : FVec Ideal S400x10000 .f32) (H : FVec Ideal S10000x64 .f32) (W : FVec Ideal S64x40 .f32)
    (B : FVec Ideal S1x40 .f32) (adj : Mat 10000 10000) (h : Mat 10000 64) (w : Mat 64 40) (b : Mat 1 40)
    (R : Fin 10000) (r : Fin 400) (j : Fin 40)
    (hA : ∀ k : Fin 10000, A (ix2 r k) = adj (ix2 R k)) (hH : ∀ x, H x = h x) (hW : ∀ x, W x = w x) (hB : ∀ x, B x = b x) :
    k4_pay2 (F := Ideal) A (k4_pay1 (F := Ideal) H W) B (ix2 r j) = gc adj (relu h) w (rowOf b) (ix2 R j) := by
  obtain rfl : H = h := funext hH
  obtain rfl : W = w := funext hW
  obtain rfl : B = b := funext hB
  rw [k4_pay2_at]
  show _ = (∑ k : Fin 10000, adj (ix2 R k) * supp (relu H) W k j) + B (ix2 (0 : Fin 1) j)
  refine congrArg₂ (· + ·) (Finset.sum_congr rfl fun k _ => ?_) rfl
  rw [hA k, k4_pay1_at]

/-- Layer 5 of the network on the buffers as region 4 finds them. -/
def E4 (c : Dev nD) : Mat 10000 40 :=
  gc (V c main_arg1 : Mat 10000 10000) (relu (V c main_v8 : Mat 10000 64)) (V c main_arg10 : Mat 64 40) (rowOf (V c main_v4 : Mat 1 40))

/-- Row r of point t's output block is row 400 t + r of the output array. -/
theorem emb4_4 (t : Fin cfg4.N) (r : Fin 400) (j : Fin 40) (R : Fin 10000) (hR : R.val = 400 * t.val + r.val) :
    ((cfg4.win 4).blk t).view.emb (ix2 r j) = ix2 R j := by
  obtain ⟨-, -, -, -, -, -, -, -, e0, e1, -⟩ := idx_facts4 t
  funext a; apply Fin.ext
  match a with
  | ⟨0, _⟩ => show win4_4.index t 0 * 400 + 1 * r.val = R.val; rw [e0, hR]; omega
  | ⟨1, _⟩ => show win4_4.index t 1 * 40 + 1 * j.val = j.val; rw [e1]; omega

/-- The body's value of point t's blocks, entry by entry, is block t of the layer. -/
theorem block4_eq (c : Dev nD) (t : Fin cfg4.N) (r : Fin 400) (j : Fin 40) (R : Fin 10000) (hR : R.val = 400 * t.val + r.val) :
    k4_pay2 (F := Ideal) (iblk4 V c 3 t) (k4_pay1 (F := Ideal) (iblk4 V c 0 t0_4) (iblk4 V c 1 t0_4)) (iblk4 V c 2 t) (ix2 r j)
      = E4 V c (ix2 R j) := by
  unfold E4
  exact entry4 _ _ _ _ _ _ _ _ R r j (fun k => iblk4_3_apply V c t r k R hR) (iblk4_0_apply V c t0_4)
    (iblk4_1_apply V c t0_4) (iblk4_2_apply V c t)

/-- What point t writes back is block t of the layer. -/
theorem flushed4_eq (c : Dev nD) (t : Fin cfg4.N)
    (hs : sup4 V c = k4_pay1 (iblk4 V c 0 t0_4) (iblk4 V c 1 t0_4))
    (ho : ∀ t, out4_0 V c t = k4_pay2 (iblk4 V c 3 t) (sup4 V c) (iblk4 V c 2 t)) :
    (dat4 (F := Ideal) V c).flushed 4 t = ((cfg4.win 4).blk t).view.read (Elt Ideal) (E4 V c) := by
  show (cfg4.win 4).cut (grid4.coords t) ((dat4 V c).after 4 t) = _
  rw [after4_4, ho, hs]
  refine funext fun (y : S400x40.Idx) => ?_
  obtain ⟨r, j, rfl⟩ : ∃ (r : Fin 400) (j : Fin 40), y = ix2 r j := ⟨y 0, y 1, eq_ix2 y⟩
  have hr : r.val < 400 := r.isLt
  have ht : t.val < 25 := t.isLt
  rw [View.read_apply, emb4_4 t r j (⟨400 * t.val + r.val, by omega⟩ : Fin 10000) rfl]
  exact block4_eq V c t r j _ rfl

/-- An index of the output array is in point t's block iff each coordinate is in the block's range. -/
theorem mem_blk4 (t : Fin cfg4.N) (i : S10000x40.Idx) :
    i ∈ ((cfg4.win 4).blk t).view.set ↔ ∀ a : Fin 2, win4_4.index t a * S400x40.size a ≤ (i a).val
      ∧ (i a).val < win4_4.index t a * S400x40.size a + S400x40.size a := by
  show i ∈ ((View.whole main_v9_0).slice (win4_4.rect t)).set ↔ _
  rw [View.set_slice_whole, Rect.mem_set_unit]
  exact Iff.rfl

/-- Every row is in the block of the point that its number divided by 400 names. -/
theorem cover4 (i : S10000x40.Idx) :
    ∃ t : Fin cfg4.N, (cfg4.win 4).flush t = true ∧ i ∈ ((cfg4.win 4).blk t).view.set := by
  have h0 : (i 0).val < 10000 := (i 0).isLt
  have h1 : (i 1).val < 40 := (i 1).isLt
  have hq : (i 0).val / 400 < cfg4.N := by show _ < 25; omega
  refine ⟨(⟨(i 0).val / 400, hq⟩ : Fin cfg4.N), flush4_4 _, ?_⟩
  rw [mem_blk4]
  obtain ⟨-, -, -, -, -, -, -, -, e0, e1, -⟩ := idx_facts4 (⟨(i 0).val / 400, hq⟩ : Fin cfg4.N)
  intro a
  match a with
  | ⟨0, _⟩ =>
    show win4_4.index _ 0 * 400 ≤ (i 0).val ∧ (i 0).val < win4_4.index _ 0 * 400 + 400
    rw [e0]; show (i 0).val / 400 * 400 ≤ (i 0).val ∧ (i 0).val < (i 0).val / 400 * 400 + 400; omega
  | ⟨1, _⟩ =>
    show win4_4.index _ 1 * 40 ≤ (i 1).val ∧ (i 1).val < win4_4.index _ 1 * 40 + 40
    rw [e1]; omega

/-- The output array of region 4 ends holding layer 5, given what the body's stores leave. -/
theorem final4_of (c : Dev nD)
    (hs : sup4 V c = k4_pay1 (iblk4 V c 0 t0_4) (iblk4 V c 1 t0_4))
    (ho : ∀ t, out4_0 V c t = k4_pay2 (iblk4 V c 3 t) (sup4 V c) (iblk4 V c 2 t)) :
    (dat4 (F := Ideal) V c).arrAt 4 cfg4.N = E4 V c :=
  (dat4 V c).arrAt_eq_of_cover 4 (E4 V c) (fun t _ => flushed4_eq V c t hs ho) cover4

/-- Row r of point t's second output block is row 400 t + r of the second output array. -/
theorem emb4_5 (t : Fin cfg4.N) (r : Fin 400) (j : Fin 40) (R : Fin 10000) (hR : R.val = 400 * t.val + r.val) :
    ((cfg4.win 5).blk t).view.emb (ix2 r j) = ix2 R j := by
  obtain ⟨-, -, -, -, -, -, -, -, -, -, e0, e1⟩ := idx_facts4 t
  funext a; apply Fin.ext
  match a with
  | ⟨0, _⟩ => show win4_5.index t 0 * 400 + 1 * r.val = R.val; rw [e0, hR]; omega
  | ⟨1, _⟩ => show win4_5.index t 1 * 40 + 1 * j.val = j.val; rw [e1]; omega

/-- What point t writes back to the second output is block t of the row-normalised layer. -/
theorem flushed4_1_eq (c : Dev nD) (t : Fin cfg4.N)
    (hs : sup4 V c = k4_pay1 (iblk4 V c 0 t0_4) (iblk4 V c 1 t0_4))
    (ho : ∀ t, out4_1 V c t = k4_pay3 (iblk4 V c 3 t) (sup4 V c) (iblk4 V c 2 t)) :
    (dat4 (F := Ideal) V c).flushed 5 t = ((cfg4.win 5).blk t).view.read (Elt Ideal) (logSoftmaxA (E4 V c)) := by
  show (cfg4.win 5).cut (grid4.coords t) ((dat4 V c).after 5 t) = _
  rw [after4_5, ho, hs]
  refine funext fun (y : S400x40.Idx) => ?_
  obtain ⟨r, j, rfl⟩ : ∃ (r : Fin 400) (j : Fin 40), y = ix2 r j := ⟨y 0, y 1, eq_ix2 y⟩
  have hr : r.val < 400 := r.isLt
  have ht : t.val < 25 := t.isLt
  rw [View.read_apply, emb4_5 t r j (⟨400 * t.val + r.val, by omega⟩ : Fin 10000) rfl, k4_pay3_at]
  exact logSoftmaxA_rows _ (E4 V c) r _ (fun j' => block4_eq V c t r j' _ rfl) j

/-- An index of the second output array is in point t's block iff each coordinate is in the block's range. -/
theorem mem_blk4_1 (t : Fin cfg4.N) (i : S10000x40.Idx) :
    i ∈ ((cfg4.win 5).blk t).view.set ↔ ∀ a : Fin 2, win4_5.index t a * S400x40.size a ≤ (i a).val
      ∧ (i a).val < win4_5.index t a * S400x40.size a + S400x40.size a := by
  show i ∈ ((View.whole main_v9_1).slice (win4_5.rect t)).set ↔ _
  rw [View.set_slice_whole, Rect.mem_set_unit]
  exact Iff.rfl

/-- Every row of the second output is in the block of the point that its number divided by 400 names. -/
theorem cover4_1 (i : S10000x40.Idx) :
    ∃ t : Fin cfg4.N, (cfg4.win 5).flush t = true ∧ i ∈ ((cfg4.win 5).blk t).view.set := by
  have h0 : (i 0).val < 10000 := (i 0).isLt
  have h1 : (i 1).val < 40 := (i 1).isLt
  have hq : (i 0).val / 400 < cfg4.N := by show _ < 25; omega
  refine ⟨(⟨(i 0).val / 400, hq⟩ : Fin cfg4.N), flush4_5 _, ?_⟩
  rw [mem_blk4_1]
  obtain ⟨-, -, -, -, -, -, -, -, -, -, e0, e1⟩ := idx_facts4 (⟨(i 0).val / 400, hq⟩ : Fin cfg4.N)
  intro a
  match a with
  | ⟨0, _⟩ =>
    show win4_5.index _ 0 * 400 ≤ (i 0).val ∧ (i 0).val < win4_5.index _ 0 * 400 + 400
    rw [e0]; show (i 0).val / 400 * 400 ≤ (i 0).val ∧ (i 0).val < (i 0).val / 400 * 400 + 400; omega
  | ⟨1, _⟩ =>
    show win4_5.index _ 1 * 40 ≤ (i 1).val ∧ (i 1).val < win4_5.index _ 1 * 40 + 40
    rw [e1]; omega

/-- The second output array of region 4 ends holding the row-normalised layer, first spelling. -/
theorem final4_1_of (c : Dev nD)
    (hs : sup4 V c = k4_pay1 (iblk4 V c 0 t0_4) (iblk4 V c 1 t0_4))
    (ho : ∀ t, out4_1 V c t = k4_pay3 (iblk4 V c 3 t) (sup4 V c) (iblk4 V c 2 t)) :
    (dat4 (F := Ideal) V c).arrAt 5 cfg4.N = logSoftmaxA (E4 V c) :=
  (dat4 V c).arrAt_eq_of_cover 5 (logSoftmaxA (E4 V c)) (fun t _ => flushed4_1_eq V c t hs ho) cover4_1

/-- The output array of region 4 ends holding layer 5. -/
theorem final4 (c : Dev nD) : (dat4 (F := Ideal) V c).arrAt 4 cfg4.N = E4 V c :=
  final4_of V c (sup4_eq V c) (out4_0_eq V c)

/-- The second output array of region 4 ends holding the row-normalised layer, first spelling. -/
theorem final4_1 (c : Dev nD) : (dat4 (F := Ideal) V c).arrAt 5 cfg4.N = logSoftmaxA (E4 V c) :=
  final4_1_of V c (sup4_eq V c) (out4_1_eq V c)

end Cert.KernelIdeal.Hand

end
-- ==== Proof.KiValue.lean ====
import proofs.«133978_g44306882625591_cont_8to1_c_1075_2_alg».proof.Proof.KiFrame
import proofs.«133978_g44306882625591_cont_8to1_c_1075_2_alg».proof.Proof.KiBlocks
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The values the idealized kernel's six results end at, as the network's layers of the launch contents of the twelve
    argument arrays. Region by region: the adjacency matrix, the weights and the bias row reach the region as launched
    (no region writes them; the host stretch only re-lays each bias vector as a one-row matrix), the features are the
    region before's output, and the region's output array is the layer of those. -/

open Idealize.ShloMosaic.ValueIdx Cert.GcnSpec

variable (m : (ℓ : Loc nD τ sig) → Buf (Elt Ideal) ℓ) (ρ : Dev nD → PrngReg)

/-- The network's five layers on the launch contents of core `c`'s argument arrays. -/
def NN (c : Dev nD) : Net :=
  net (m ((c : Thread nD τ).loc main_arg0) : Mat 10000 128)
    (m ((c : Thread nD τ).loc main_arg1) : Mat 10000 10000)
    (m ((c : Thread nD τ).loc main_arg2) : Mat 128 64)
    (m ((c : Thread nD τ).loc main_arg3) : Vect 64)
    (m ((c : Thread nD τ).loc main_arg4) : Mat 64 64)
    (m ((c : Thread nD τ).loc main_arg5) : Vect 64)
    (m ((c : Thread nD τ).loc main_arg6) : Mat 64 64)
    (m ((c : Thread nD τ).loc main_arg7) : Vect 64)
    (m ((c : Thread nD τ).loc main_arg8) : Mat 64 64)
    (m ((c : Thread nD τ).loc main_arg9) : Vect 64)
    (m ((c : Thread nD τ).loc main_arg10) : Mat 64 40)
    (m ((c : Thread nD τ).loc main_arg11) : Vect 40)

/-! ## The host stretch: arguments untouched, each bias vector re-laid as a row -/
theorem host_main_arg0 (c : Dev nD) : W1 m ρ c (Proc.devRef .tc main_arg0) = m ((c : Thread nD τ).loc main_arg0) :=
  (StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem host_main_arg1 (c : Dev nD) : W1 m ρ c (Proc.devRef .tc main_arg1) = m ((c : Thread nD τ).loc main_arg1) :=
  (StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem host_main_arg2 (c : Dev nD) : W1 m ρ c (Proc.devRef .tc main_arg2) = m ((c : Thread nD τ).loc main_arg2) :=
  (StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem host_main_arg4 (c : Dev nD) : W1 m ρ c (Proc.devRef .tc main_arg4) = m ((c : Thread nD τ).loc main_arg4) :=
  (StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem host_main_arg6 (c : Dev nD) : W1 m ρ c (Proc.devRef .tc main_arg6) = m ((c : Thread nD τ).loc main_arg6) :=
  (StableHlo.after_of_forall_not_mem (b := Proc.devRef .tc main_arg6) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem host_main_arg8 (c : Dev nD) : W1 m ρ c (Proc.devRef .tc main_arg8) = m ((c : Thread nD τ).loc main_arg8) :=
  (StableHlo.after_of_forall_not_mem (b := Proc.devRef .tc main_arg8) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem host_main_arg10 (c : Dev nD) : W1 m ρ c (Proc.devRef .tc main_arg10) = m ((c : Thread nD τ).loc main_arg10) :=
  (StableHlo.after_of_forall_not_mem (b := Proc.devRef .tc main_arg10) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem host_bias0 (c : Dev nD) : rowOf (W1 m ρ c (Proc.devRef .tc main_v0) : Mat 1 64) = (m ((c : Thread nD τ).loc main_arg3) : Vect 64) := by
  have e : (W1 m ρ c (Proc.devRef .tc main_v0) : S1x64.Idx → EReal) = shapeCast S1x64 (m ((c : Thread nD τ).loc main_arg3) : S64.Idx → EReal) shapeCasts_S64_S1x64 := by
    dsimp only [W1, W0, hostOps0]; after_results; rfl
  rw [e]
  funext y
  obtain ⟨j, rfl⟩ : ∃ j : Fin 64, y = ix1 j := ⟨y 0, eq_ix1 y⟩
  exact shapeCast_a_1a_apply _ _ (0 : Fin 1) j
theorem host_bias1 (c : Dev nD) : rowOf (W1 m ρ c (Proc.devRef .tc main_v1) : Mat 1 64) = (m ((c : Thread nD τ).loc main_arg5) : Vect 64) := by
  have e : (W1 m ρ c (Proc.devRef .tc main_v1) : S1x64.Idx → EReal) = shapeCast S1x64 (m ((c : Thread nD τ).loc main_arg5) : S64.Idx → EReal) shapeCasts_S64_S1x64 := by
    dsimp only [W1, W0, hostOps0]; after_results; rfl
  rw [e]
  funext y
  obtain ⟨j, rfl⟩ : ∃ j : Fin 64, y = ix1 j := ⟨y 0, eq_ix1 y⟩
  exact shapeCast_a_1a_apply _ _ (0 : Fin 1) j
theorem host_bias2 (c : Dev nD) : rowOf (W1 m ρ c (Proc.devRef .tc main_v2) : Mat 1 64) = (m ((c : Thread nD τ).loc main_arg7) : Vect 64) := by
  have e : (W1 m ρ c (Proc.devRef .tc main_v2) : S1x64.Idx → EReal) = shapeCast S1x64 (m ((c : Thread nD τ).loc main_arg7) : S64.Idx → EReal) shapeCasts_S64_S1x64 := by
    dsimp only [W1, W0, hostOps0]; after_results; rfl
  rw [e]
  funext y
  obtain ⟨j, rfl⟩ : ∃ j : Fin 64, y = ix1 j := ⟨y 0, eq_ix1 y⟩
  exact shapeCast_a_1a_apply _ _ (0 : Fin 1) j
theorem host_bias3 (c : Dev nD) : rowOf (W1 m ρ c (Proc.devRef .tc main_v3) : Mat 1 64) = (m ((c : Thread nD τ).loc main_arg9) : Vect 64) := by
  have e : (W1 m ρ c (Proc.devRef .tc main_v3) : S1x64.Idx → EReal) = shapeCast S1x64 (m ((c : Thread nD τ).loc main_arg9) : S64.Idx → EReal) shapeCasts_S64_S1x64 := by
    dsimp only [W1, W0, hostOps0]; after_results; rfl
  rw [e]
  funext y
  obtain ⟨j, rfl⟩ : ∃ j : Fin 64, y = ix1 j := ⟨y 0, eq_ix1 y⟩
  exact shapeCast_a_1a_apply _ _ (0 : Fin 1) j
theorem host_bias4 (c : Dev nD) : rowOf (W1 m ρ c (Proc.devRef .tc main_v4) : Mat 1 40) = (m ((c : Thread nD τ).loc main_arg11) : Vect 40) := by
  have e : (W1 m ρ c (Proc.devRef .tc main_v4) : S1x40.Idx → EReal) = shapeCast S1x40 (m ((c : Thread nD τ).loc main_arg11) : S40.Idx → EReal) shapeCasts_S40_S1x40 := by
    dsimp only [W1, W0, hostOps0]; after_results; rfl
  rw [e]
  funext y
  obtain ⟨j, rfl⟩ : ∃ j : Fin 40, y = ix1 j := ⟨y 0, eq_ix1 y⟩
  exact shapeCast_a_1a_apply _ _ (0 : Fin 1) j

/-! ## A region's output from its four inputs -/
theorem E0_of (V : (c : Dev nD) → (b : Ref sig .tc) → Buf (Elt Ideal) ((c : Thread nD τ).loc b)) (c : Dev nD)
    (adj : Mat 10000 10000) (h : Mat 10000 128) (W : Mat 128 64) (b : Vect 64)
    (h1 : (V c main_arg1 : Mat 10000 10000) = adj) (h0 : (V c main_arg0 : Mat 10000 128) = h) (h2 : (V c main_arg2 : Mat 128 64) = W) (h3 : rowOf (V c main_v0 : Mat 1 64) = b) :
    E0 V c = gc adj h W b := by
  unfold E0; rw [h1, h0, h2, h3]
theorem E1_of (V : (c : Dev nD) → (b : Ref sig .tc) → Buf (Elt Ideal) ((c : Thread nD τ).loc b)) (c : Dev nD)
    (adj : Mat 10000 10000) (h : Mat 10000 64) (W : Mat 64 64) (b : Vect 64)
    (h1 : (V c main_arg1 : Mat 10000 10000) = adj) (h0 : (V c main_v5 : Mat 10000 64) = h) (h2 : (V c main_arg4 : Mat 64 64) = W) (h3 : rowOf (V c main_v1 : Mat 1 64) = b) :
    E1 V c = gc adj (relu h) W b := by
  unfold E1; rw [h1, h0, h2, h3]
theorem E2_of (V : (c : Dev nD) → (b : Ref sig .tc) → Buf (Elt Ideal) ((c : Thread nD τ).loc b)) (c : Dev nD)
    (adj : Mat 10000 10000) (h : Mat 10000 64) (W : Mat 64 64) (b : Vect 64)
    (h1 : (V c main_arg1 : Mat 10000 10000) = adj) (h0 : (V c main_v6 : Mat 10000 64) = h) (h2 : (V c main_arg6 : Mat 64 64) = W) (h3 : rowOf (V c main_v2 : Mat 1 64) = b) :
    E2 V c = gc adj (relu h) W b := by
  unfold E2; rw [h1, h0, h2, h3]
theorem E3_of (V : (c : Dev nD) → (b : Ref sig .tc) → Buf (Elt Ideal) ((c : Thread nD τ).loc b)) (c : Dev nD)
    (adj : Mat 10000 10000) (h : Mat 10000 64) (W : Mat 64 64) (b : Vect 64)
    (h1 : (V c main_arg1 : Mat 10000 10000) = adj) (h0 : (V c main_v7 : Mat 10000 64) = h) (h2 : (V c main_arg8 : Mat 64 64) = W) (h3 : rowOf (V c main_v3 : Mat 1 64) = b) :
    E3 V c = gc adj (relu h) W b := by
  unfold E3; rw [h1, h0, h2, h3]
theorem E4_of (V : (c : Dev nD) → (b : Ref sig .tc) → Buf (Elt Ideal) ((c : Thread nD τ).loc b)) (c : Dev nD)
    (adj : Mat 10000 10000) (h : Mat 10000 64) (W : Mat 64 40) (b : Vect 40)
    (h1 : (V c main_arg1 : Mat 10000 10000) = adj) (h0 : (V c main_v8 : Mat 10000 64) = h) (h2 : (V c main_arg10 : Mat 64 40) = W) (h3 : rowOf (V c main_v4 : Mat 1 40) = b) :
    E4 V c = gc adj (relu h) W b := by
  unfold E4; rw [h1, h0, h2, h3]

/-! ## Region by region -/
theorem adj_0 (c : Dev nD) : (V1 m ρ c main_arg1 : Mat 10000 10000) = (m ((c : Thread nD τ).loc main_arg1) : Mat 10000 10000) :=
  (show W1 m ρ c (Proc.devRef .tc main_arg1) = W1 m ρ c (Proc.devRef .tc main_arg1) from rfl).trans (host_main_arg1 m ρ c)
theorem wgt_0 (c : Dev nD) : (V1 m ρ c main_arg2 : Mat 128 64) = (m ((c : Thread nD τ).loc main_arg2) : Mat 128 64) :=
  (show W1 m ρ c (Proc.devRef .tc main_arg2) = W1 m ρ c (Proc.devRef .tc main_arg2) from rfl).trans (host_main_arg2 m ρ c)
theorem bias_0 (c : Dev nD) : rowOf (V1 m ρ c main_v0 : Mat 1 64) = (m ((c : Thread nD τ).loc main_arg3) : Vect 64) := by
  have hw : W1 m ρ c (Proc.devRef .tc main_v0) = W1 m ρ c (Proc.devRef .tc main_v0) := rfl
  show rowOf (W1 m ρ c (Proc.devRef .tc main_v0) : Mat 1 64) = _
  rw [hw]; exact host_bias0 m ρ c
theorem inp_0 (c : Dev nD) : (V1 m ρ c main_arg0 : Mat 10000 128) = (m ((c : Thread nD τ).loc main_arg0) : Mat 10000 128) := host_main_arg0 m ρ c
/-- Region 0's output array at its exit is layer 1 of the network on the launch contents. -/
theorem val0 (c : Dev nD) : (W2 m ρ c (Proc.devRef .tc main_v5) : Mat 10000 64) = (NN m c).e1 :=
  ((W2_arr m ρ c 4).trans (final0 (V1 m ρ) c)).trans
    ((E0_of (V1 m ρ) c _ _ _ _ (adj_0 m ρ c) (inp_0 m ρ c) (wgt_0 m ρ c) (bias_0 m ρ c)).trans rfl)

theorem adj_1 (c : Dev nD) : (V2 m ρ c main_arg1 : Mat 10000 10000) = (m ((c : Thread nD τ).loc main_arg1) : Mat 10000 10000) :=
  (show W2 m ρ c (Proc.devRef .tc main_arg1) = W1 m ρ c (Proc.devRef .tc main_arg1) from by
    calc W2 m ρ c (Proc.devRef .tc main_arg1)
    _ = W1 m ρ c (Proc.devRef .tc main_arg1) := (W2_arr m ρ c 3).trans (((dat0 (V1 m ρ) c).arrAt_in 3 rfl _).trans (A_eq0 (V1 m ρ) c 3))).trans (host_main_arg1 m ρ c)
theorem wgt_1 (c : Dev nD) : (V2 m ρ c main_arg4 : Mat 64 64) = (m ((c : Thread nD τ).loc main_arg4) : Mat 64 64) :=
  (show W2 m ρ c (Proc.devRef .tc main_arg4) = W1 m ρ c (Proc.devRef .tc main_arg4) from by
    calc W2 m ρ c (Proc.devRef .tc main_arg4)
    _ = W1 m ρ c (Proc.devRef .tc main_arg4) := W2_of_ne m ρ c main_arg4 (by decide)).trans (host_main_arg4 m ρ c)
theorem bias_1 (c : Dev nD) : rowOf (V2 m ρ c main_v1 : Mat 1 64) = (m ((c : Thread nD τ).loc main_arg5) : Vect 64) := by
  have hw : W2 m ρ c (Proc.devRef .tc main_v1) = W1 m ρ c (Proc.devRef .tc main_v1) := by
    calc W2 m ρ c (Proc.devRef .tc main_v1)
    _ = W1 m ρ c (Proc.devRef .tc main_v1) := W2_of_ne m ρ c main_v1 (by decide)
  show rowOf (W2 m ρ c (Proc.devRef .tc main_v1) : Mat 1 64) = _
  rw [hw]; exact host_bias1 m ρ c
theorem inp_1 (c : Dev nD) : (V2 m ρ c main_v5 : Mat 10000 64) = (NN m c).e1 := val0 m ρ c
/-- Region 1's output array at its exit is layer 2 of the network on the launch contents. -/
theorem val1 (c : Dev nD) : (W3 m ρ c (Proc.devRef .tc main_v6) : Mat 10000 64) = (NN m c).e2 :=
  ((W3_arr m ρ c 4).trans (final1 (V2 m ρ) c)).trans
    ((E1_of (V2 m ρ) c _ _ _ _ (adj_1 m ρ c) (inp_1 m ρ c) (wgt_1 m ρ c) (bias_1 m ρ c)).trans rfl)

theorem adj_2 (c : Dev nD) : (V3 m ρ c main_arg1 : Mat 10000 10000) = (m ((c : Thread nD τ).loc main_arg1) : Mat 10000 10000) :=
  (show W3 m ρ c (Proc.devRef .tc main_arg1) = W1 m ρ c (Proc.devRef .tc main_arg1) from by
    calc W3 m ρ c (Proc.devRef .tc main_arg1)
    _ = W2 m ρ c (Proc.devRef .tc main_arg1) := (W3_arr m ρ c 3).trans (((dat1 (V2 m ρ) c).arrAt_in 3 rfl _).trans (A_eq1 (V2 m ρ) c 3))
    _ = W1 m ρ c (Proc.devRef .tc main_arg1) := (W2_arr m ρ c 3).trans (((dat0 (V1 m ρ) c).arrAt_in 3 rfl _).trans (A_eq0 (V1 m ρ) c 3))).trans (host_main_arg1 m ρ c)
theorem wgt_2 (c : Dev nD) : (V3 m ρ c main_arg6 : Mat 64 64) = (m ((c : Thread nD τ).loc main_arg6) : Mat 64 64) :=
  (show W3 m ρ c (Proc.devRef .tc main_arg6) = W1 m ρ c (Proc.devRef .tc main_arg6) from by
    calc W3 m ρ c (Proc.devRef .tc main_arg6)
    _ = W2 m ρ c (Proc.devRef .tc main_arg6) := W3_of_ne m ρ c main_arg6 (by decide)
    _ = W1 m ρ c (Proc.devRef .tc main_arg6) := W2_of_ne m ρ c main_arg6 (by decide)).trans (host_main_arg6 m ρ c)
theorem bias_2 (c : Dev nD) : rowOf (V3 m ρ c main_v2 : Mat 1 64) = (m ((c : Thread nD τ).loc main_arg7) : Vect 64) := by
  have hw : W3 m ρ c (Proc.devRef .tc main_v2) = W1 m ρ c (Proc.devRef .tc main_v2) := by
    calc W3 m ρ c (Proc.devRef .tc main_v2)
    _ = W2 m ρ c (Proc.devRef .tc main_v2) := W3_of_ne m ρ c main_v2 (by decide)
    _ = W1 m ρ c (Proc.devRef .tc main_v2) := W2_of_ne m ρ c main_v2 (by decide)
  show rowOf (W3 m ρ c (Proc.devRef .tc main_v2) : Mat 1 64) = _
  rw [hw]; exact host_bias2 m ρ c
theorem inp_2 (c : Dev nD) : (V3 m ρ c main_v6 : Mat 10000 64) = (NN m c).e2 := val1 m ρ c
/-- Region 2's output array at its exit is layer 3 of the network on the launch contents. -/
theorem val2 (c : Dev nD) : (W4 m ρ c (Proc.devRef .tc main_v7) : Mat 10000 64) = (NN m c).e3 :=
  ((W4_arr m ρ c 4).trans (final2 (V3 m ρ) c)).trans
    ((E2_of (V3 m ρ) c _ _ _ _ (adj_2 m ρ c) (inp_2 m ρ c) (wgt_2 m ρ c) (bias_2 m ρ c)).trans rfl)

theorem adj_3 (c : Dev nD) : (V4 m ρ c main_arg1 : Mat 10000 10000) = (m ((c : Thread nD τ).loc main_arg1) : Mat 10000 10000) :=
  (show W4 m ρ c (Proc.devRef .tc main_arg1) = W1 m ρ c (Proc.devRef .tc main_arg1) from by
    calc W4 m ρ c (Proc.devRef .tc main_arg1)
    _ = W3 m ρ c (Proc.devRef .tc main_arg1) := (W4_arr m ρ c 3).trans (((dat2 (V3 m ρ) c).arrAt_in 3 rfl _).trans (A_eq2 (V3 m ρ) c 3))
    _ = W2 m ρ c (Proc.devRef .tc main_arg1) := (W3_arr m ρ c 3).trans (((dat1 (V2 m ρ) c).arrAt_in 3 rfl _).trans (A_eq1 (V2 m ρ) c 3))
    _ = W1 m ρ c (Proc.devRef .tc main_arg1) := (W2_arr m ρ c 3).trans (((dat0 (V1 m ρ) c).arrAt_in 3 rfl _).trans (A_eq0 (V1 m ρ) c 3))).trans (host_main_arg1 m ρ c)
theorem wgt_3 (c : Dev nD) : (V4 m ρ c main_arg8 : Mat 64 64) = (m ((c : Thread nD τ).loc main_arg8) : Mat 64 64) :=
  (show W4 m ρ c (Proc.devRef .tc main_arg8) = W1 m ρ c (Proc.devRef .tc main_arg8) from by
    calc W4 m ρ c (Proc.devRef .tc main_arg8)
    _ = W3 m ρ c (Proc.devRef .tc main_arg8) := W4_of_ne m ρ c main_arg8 (by decide)
    _ = W2 m ρ c (Proc.devRef .tc main_arg8) := W3_of_ne m ρ c main_arg8 (by decide)
    _ = W1 m ρ c (Proc.devRef .tc main_arg8) := W2_of_ne m ρ c main_arg8 (by decide)).trans (host_main_arg8 m ρ c)
theorem bias_3 (c : Dev nD) : rowOf (V4 m ρ c main_v3 : Mat 1 64) = (m ((c : Thread nD τ).loc main_arg9) : Vect 64) := by
  have hw : W4 m ρ c (Proc.devRef .tc main_v3) = W1 m ρ c (Proc.devRef .tc main_v3) := by
    calc W4 m ρ c (Proc.devRef .tc main_v3)
    _ = W3 m ρ c (Proc.devRef .tc main_v3) := W4_of_ne m ρ c main_v3 (by decide)
    _ = W2 m ρ c (Proc.devRef .tc main_v3) := W3_of_ne m ρ c main_v3 (by decide)
    _ = W1 m ρ c (Proc.devRef .tc main_v3) := W2_of_ne m ρ c main_v3 (by decide)
  show rowOf (W4 m ρ c (Proc.devRef .tc main_v3) : Mat 1 64) = _
  rw [hw]; exact host_bias3 m ρ c
theorem inp_3 (c : Dev nD) : (V4 m ρ c main_v7 : Mat 10000 64) = (NN m c).e3 := val2 m ρ c
/-- Region 3's output array at its exit is layer 4 of the network on the launch contents. -/
theorem val3 (c : Dev nD) : (W5 m ρ c (Proc.devRef .tc main_v8) : Mat 10000 64) = (NN m c).e4 :=
  ((W5_arr m ρ c 4).trans (final3 (V4 m ρ) c)).trans
    ((E3_of (V4 m ρ) c _ _ _ _ (adj_3 m ρ c) (inp_3 m ρ c) (wgt_3 m ρ c) (bias_3 m ρ c)).trans rfl)

theorem adj_4 (c : Dev nD) : (V5 m ρ c main_arg1 : Mat 10000 10000) = (m ((c : Thread nD τ).loc main_arg1) : Mat 10000 10000) :=
  (show W5 m ρ c (Proc.devRef .tc main_arg1) = W1 m ρ c (Proc.devRef .tc main_arg1) from by
    calc W5 m ρ c (Proc.devRef .tc main_arg1)
    _ = W4 m ρ c (Proc.devRef .tc main_arg1) := (W5_arr m ρ c 3).trans (((dat3 (V4 m ρ) c).arrAt_in 3 rfl _).trans (A_eq3 (V4 m ρ) c 3))
    _ = W3 m ρ c (Proc.devRef .tc main_arg1) := (W4_arr m ρ c 3).trans (((dat2 (V3 m ρ) c).arrAt_in 3 rfl _).trans (A_eq2 (V3 m ρ) c 3))
    _ = W2 m ρ c (Proc.devRef .tc main_arg1) := (W3_arr m ρ c 3).trans (((dat1 (V2 m ρ) c).arrAt_in 3 rfl _).trans (A_eq1 (V2 m ρ) c 3))
    _ = W1 m ρ c (Proc.devRef .tc main_arg1) := (W2_arr m ρ c 3).trans (((dat0 (V1 m ρ) c).arrAt_in 3 rfl _).trans (A_eq0 (V1 m ρ) c 3))).trans (host_main_arg1 m ρ c)
theorem wgt_4 (c : Dev nD) : (V5 m ρ c main_arg10 : Mat 64 40) = (m ((c : Thread nD τ).loc main_arg10) : Mat 64 40) :=
  (show W5 m ρ c (Proc.devRef .tc main_arg10) = W1 m ρ c (Proc.devRef .tc main_arg10) from by
    calc W5 m ρ c (Proc.devRef .tc main_arg10)
    _ = W4 m ρ c (Proc.devRef .tc main_arg10) := W5_of_ne m ρ c main_arg10 (by decide)
    _ = W3 m ρ c (Proc.devRef .tc main_arg10) := W4_of_ne m ρ c main_arg10 (by decide)
    _ = W2 m ρ c (Proc.devRef .tc main_arg10) := W3_of_ne m ρ c main_arg10 (by decide)
    _ = W1 m ρ c (Proc.devRef .tc main_arg10) := W2_of_ne m ρ c main_arg10 (by decide)).trans (host_main_arg10 m ρ c)
theorem bias_4 (c : Dev nD) : rowOf (V5 m ρ c main_v4 : Mat 1 40) = (m ((c : Thread nD τ).loc main_arg11) : Vect 40) := by
  have hw : W5 m ρ c (Proc.devRef .tc main_v4) = W1 m ρ c (Proc.devRef .tc main_v4) := by
    calc W5 m ρ c (Proc.devRef .tc main_v4)
    _ = W4 m ρ c (Proc.devRef .tc main_v4) := W5_of_ne m ρ c main_v4 (by decide)
    _ = W3 m ρ c (Proc.devRef .tc main_v4) := W4_of_ne m ρ c main_v4 (by decide)
    _ = W2 m ρ c (Proc.devRef .tc main_v4) := W3_of_ne m ρ c main_v4 (by decide)
    _ = W1 m ρ c (Proc.devRef .tc main_v4) := W2_of_ne m ρ c main_v4 (by decide)
  show rowOf (W5 m ρ c (Proc.devRef .tc main_v4) : Mat 1 40) = _
  rw [hw]; exact host_bias4 m ρ c
theorem inp_4 (c : Dev nD) : (V5 m ρ c main_v8 : Mat 10000 64) = (NN m c).e4 := val3 m ρ c
/-- Region 4's output array at its exit is layer 5 of the network on the launch contents. -/
theorem val4 (c : Dev nD) : (W6 m ρ c (Proc.devRef .tc main_v9_0) : Mat 10000 40) = (NN m c).e5 :=
  ((W6_arr m ρ c 4).trans (final4 (V5 m ρ) c)).trans
    ((E4_of (V5 m ρ) c _ _ _ _ (adj_4 m ρ c) (inp_4 m ρ c) (wgt_4 m ρ c) (bias_4 m ρ c)).trans rfl)

/-- Region 4's second output: the row-normalised fifth layer, first spelling. -/
theorem val4_1 (c : Dev nD) : (W6 m ρ c (Proc.devRef .tc main_v9_1) : Mat 10000 40) = logSoftmaxA (NN m c).e5 :=
  ((W6_arr m ρ c 5).trans (final4_1 (V5 m ρ) c)).trans
    (congrArg logSoftmaxA ((E4_of (V5 m ρ) c _ _ _ _ (adj_4 m ρ c) (inp_4 m ρ c) (wgt_4 m ρ c) (bias_4 m ρ c)).trans rfl))

/-! ## The earlier outputs reach the end as their regions left them -/
theorem end_main_v5 (c : Dev nD) : W6 m ρ c (Proc.devRef .tc main_v5) = W2 m ρ c (Proc.devRef .tc main_v5) :=
  calc W6 m ρ c (Proc.devRef .tc main_v5)
    _ = W5 m ρ c (Proc.devRef .tc main_v5) := W6_of_ne m ρ c main_v5 (by decide)
    _ = W4 m ρ c (Proc.devRef .tc main_v5) := W5_of_ne m ρ c main_v5 (by decide)
    _ = W3 m ρ c (Proc.devRef .tc main_v5) := W4_of_ne m ρ c main_v5 (by decide)
    _ = W2 m ρ c (Proc.devRef .tc main_v5) := (W3_arr m ρ c 0).trans (((dat1 (V2 m ρ) c).arrAt_in 0 rfl _).trans (A_eq1 (V2 m ρ) c 0))
theorem end_main_v6 (c : Dev nD) : W6 m ρ c (Proc.devRef .tc main_v6) = W3 m ρ c (Proc.devRef .tc main_v6) :=
  calc W6 m ρ c (Proc.devRef .tc main_v6)
    _ = W5 m ρ c (Proc.devRef .tc main_v6) := W6_of_ne m ρ c main_v6 (by decide)
    _ = W4 m ρ c (Proc.devRef .tc main_v6) := W5_of_ne m ρ c main_v6 (by decide)
    _ = W3 m ρ c (Proc.devRef .tc main_v6) := (W4_arr m ρ c 0).trans (((dat2 (V3 m ρ) c).arrAt_in 0 rfl _).trans (A_eq2 (V3 m ρ) c 0))
theorem end_main_v7 (c : Dev nD) : W6 m ρ c (Proc.devRef .tc main_v7) = W4 m ρ c (Proc.devRef .tc main_v7) :=
  calc W6 m ρ c (Proc.devRef .tc main_v7)
    _ = W5 m ρ c (Proc.devRef .tc main_v7) := W6_of_ne m ρ c main_v7 (by decide)
    _ = W4 m ρ c (Proc.devRef .tc main_v7) := (W5_arr m ρ c 0).trans (((dat3 (V4 m ρ) c).arrAt_in 0 rfl _).trans (A_eq3 (V4 m ρ) c 0))
theorem end_main_v8 (c : Dev nD) : W6 m ρ c (Proc.devRef .tc main_v8) = W5 m ρ c (Proc.devRef .tc main_v8) :=
  calc W6 m ρ c (Proc.devRef .tc main_v8)
    _ = W5 m ρ c (Proc.devRef .tc main_v8) := (W6_arr m ρ c 0).trans (((dat4 (V5 m ρ) c).arrAt_in 0 rfl _).trans (A_eq4 (V5 m ρ) c 0))

/-- The six results at the end of the run. -/
theorem kernel_values (c : Dev nD) :
    (W6 m ρ c (Proc.devRef .tc main_v9_1) : Mat 10000 40) = logSoftmaxA (NN m c).e5
    ∧ (W6 m ρ c (Proc.devRef .tc main_v5) : Mat 10000 64) = (NN m c).e1
    ∧ (W6 m ρ c (Proc.devRef .tc main_v6) : Mat 10000 64) = (NN m c).e2
    ∧ (W6 m ρ c (Proc.devRef .tc main_v7) : Mat 10000 64) = (NN m c).e3
    ∧ (W6 m ρ c (Proc.devRef .tc main_v8) : Mat 10000 64) = (NN m c).e4
    ∧ (W6 m ρ c (Proc.devRef .tc main_v9_0) : Mat 10000 40) = (NN m c).e5 :=
  ⟨val4_1 m ρ c, (end_main_v5 m ρ c).trans (val0 m ρ c), (end_main_v6 m ρ c).trans (val1 m ρ c),
    (end_main_v7 m ρ c).trans (val2 m ρ c), (end_main_v8 m ρ c).trans (val3 m ρ c), val4 m ρ c⟩

end Cert.KernelIdeal.Hand

end
-- ==== Proof.RefIsSpec.lean ====
/-
  The reference program, read one operation at a time, computes the layer-by-layer specification.

  Each layer of the reference is two matrix products, a bias row broadcast down the rows, and a sum; read at an
  index (p, q) that is sum_k adj(p, k) * (sum_l h(k, l) * W(l, q)) + b(q), the layer function of the
  specification. Between layers the maximum with the zero constant is the cut-off at zero. The last result
  subtracts from every entry its row's maximum (folded from minus infinity, and once more compared with minus
  infinity, which changes nothing) and then the logarithm of the row's sum of exponentials of those differences:
  the second spelling of the row-normalised output.
-/
import proofs.«133978_g44306882625591_cont_8to1_c_1075_2_alg».proof.Proof.RefReadP
import proofs.«133978_g44306882625591_cont_8to1_c_1075_2_alg».proof.Proof.Spec
import Idealize.ShloMosaic.Lib.Pipeline.Value
import Idealize.ShloMosaic.Lib.ValueIdx
import Idealize.ShloMosaic.PureOps.Ideal.Laws

noncomputable section

open scoped BigOperators

namespace Cert.RefSpec

open Cert.ReferenceIdeal Cert.ReferenceIdeal.Gen Idealize.ShloMosaic Idealize.ShloMosaic.TcCoe Idealize.SL.Sem Idealize.ShloMosaic.StableHlo
open Idealize.ShloMosaic.ValueIdx Cert.GcnSpec Cert.ReferenceIdeal.Read

/-- One layer at (p, q): the double sum plus the bias. -/
theorem gc_apply {n d e : Nat} (adj : Mat n n) (h : Mat n d) (W : Mat d e) (b : Vect e) (p : Fin n) (q : Fin e) :
    gc adj h W b (ix2 p q) = (∑ k : Fin n, adj (ix2 p k) * ∑ l : Fin d, h (ix2 k l) * W (ix2 l q)) + b (ix1 q) := rfl

/-- The word of minus infinity denotes the bottom element. -/
theorem ofBits_neg_inf : Ideal.ofBits .f32 0xFF800000#32 = (⊥ : EReal) := by
  simp [Ideal.ofBits, Ideal.ieee]

/-- A row index with column k put back on the dropped axis is (p, k). -/
theorem lift_row (h : S10000x40.Reduces [1] S10000) (p : Fin 10000) (k : Fin (S10000x40.size 1)) :
    h.lift (ix1 p) k = ix2 p (⟨k.val, k.isLt⟩ : Fin 40) := by
  funext c; apply Fin.ext
  fin_cases c <;> rfl

/-- The maximum over axis 1 folded from minus infinity is the row maximum. -/
theorem reduce_max_row (X : (⟨S10000x40, .f32⟩ : BufTy).Contents (Elt Ideal)) (p : Fin 10000) :
    Host.reduce (FloatOps.maximumf (F := Ideal) (φ := .f32)) X (constant (F := Ideal) S_ .f32 0xFF800000#32)
      reducesTo_S10000x40_S10000_d1 h_S_ (ix1 p) = rowMax X p := by
  have h : S10000x40.Reduces [1] S10000 := by decide
  refine (Host.reduce_eq_fold_single (FloatOps.maximumf (F := Ideal) (φ := .f32)) X
    (constant (F := Ideal) S_ .f32 0xFF800000#32) reducesTo_S10000x40_S10000_d1 h h_S_ (ix1 p)).trans ?_
  have hf : (X ∘ h.lift (ix1 p)) = fun k : Fin 40 => X (ix2 p k) := funext fun k => congrArg X (lift_row h p k)
  have hi : (constant (F := Ideal) S_ .f32 0xFF800000#32) (Shape.Idx.first h_S_) = (⊥ : EReal) := ofBits_neg_inf
  rw [hi]
  exact congrArg (fun f => Finset.fold max (⊥ : EReal) f (Finset.univ : Finset (Fin 40))) hf

variable (x0 : (⟨S10000x128, .f32⟩ : BufTy).Contents (Elt Ideal))
  (x1 : (⟨S10000x10000, .f32⟩ : BufTy).Contents (Elt Ideal))
  (x2 : (⟨S128x64, .f32⟩ : BufTy).Contents (Elt Ideal))
  (x3 : (⟨S64, .f32⟩ : BufTy).Contents (Elt Ideal))
  (x4 : (⟨S64x64, .f32⟩ : BufTy).Contents (Elt Ideal))
  (x5 : (⟨S64, .f32⟩ : BufTy).Contents (Elt Ideal))
  (x6 : (⟨S64x64, .f32⟩ : BufTy).Contents (Elt Ideal))
  (x7 : (⟨S64, .f32⟩ : BufTy).Contents (Elt Ideal))
  (x8 : (⟨S64x64, .f32⟩ : BufTy).Contents (Elt Ideal))
  (x9 : (⟨S64, .f32⟩ : BufTy).Contents (Elt Ideal))
  (x10 : (⟨S64x40, .f32⟩ : BufTy).Contents (Elt Ideal))
  (x11 : (⟨S40, .f32⟩ : BufTy).Contents (Elt Ideal))

/-! ## The generated index functions at an index given by its coordinates -/

theorem lidx_v1 (p : Fin 10000) (q : Fin 64) (k : Fin 10000) : lidx_main_v1 (ix2 p q) k = ix2 p k := by
  funext a; match a with | ⟨0, _⟩ => rfl | ⟨1, _⟩ => rfl
theorem ridx_v1 (p : Fin 10000) (q : Fin 64) (k : Fin 10000) : ridx_main_v1 (ix2 p q) k = ix2 k q := by
  funext a; match a with | ⟨0, _⟩ => rfl | ⟨1, _⟩ => rfl
theorem lidx_v0 (k : Fin 10000) (q : Fin 64) (l : Fin 128) : lidx_main_v0 (ix2 k q) l = ix2 k l := by
  funext a; match a with | ⟨0, _⟩ => rfl | ⟨1, _⟩ => rfl
theorem ridx_v0 (k : Fin 10000) (q : Fin 64) (l : Fin 128) : ridx_main_v0 (ix2 k q) l = ix2 l q := by
  funext a; match a with | ⟨0, _⟩ => rfl | ⟨1, _⟩ => rfl
theorem bidx_v2 (p : Fin 10000) (q : Fin 64) : idx_main_v2 (idx_main_v3 (ix2 p q)) = ix1 q := by
  funext a; match a with | ⟨0, _⟩ => rfl

theorem lidx_v7 (p : Fin 10000) (q : Fin 64) (k : Fin 10000) : lidx_main_v7 (ix2 p q) k = ix2 p k := by
  funext a; match a with | ⟨0, _⟩ => rfl | ⟨1, _⟩ => rfl
theorem ridx_v7 (p : Fin 10000) (q : Fin 64) (k : Fin 10000) : ridx_main_v7 (ix2 p q) k = ix2 k q := by
  funext a; match a with | ⟨0, _⟩ => rfl | ⟨1, _⟩ => rfl
theorem lidx_v6 (k : Fin 10000) (q : Fin 64) (l : Fin 64) : lidx_main_v6 (ix2 k q) l = ix2 k l := by
  funext a; match a with | ⟨0, _⟩ => rfl | ⟨1, _⟩ => rfl
theorem ridx_v6 (k : Fin 10000) (q : Fin 64) (l : Fin 64) : ridx_main_v6 (ix2 k q) l = ix2 l q := by
  funext a; match a with | ⟨0, _⟩ => rfl | ⟨1, _⟩ => rfl
theorem bidx_v8 (p : Fin 10000) (q : Fin 64) : idx_main_v8 (idx_main_v9 (ix2 p q)) = ix1 q := by
  funext a; match a with | ⟨0, _⟩ => rfl

theorem lidx_v13 (p : Fin 10000) (q : Fin 64) (k : Fin 10000) : lidx_main_v13 (ix2 p q) k = ix2 p k := by
  funext a; match a with | ⟨0, _⟩ => rfl | ⟨1, _⟩ => rfl
theorem ridx_v13 (p : Fin 10000) (q : Fin 64) (k : Fin 10000) : ridx_main_v13 (ix2 p q) k = ix2 k q := by
  funext a; match a with | ⟨0, _⟩ => rfl | ⟨1, _⟩ => rfl
theorem lidx_v12 (k : Fin 10000) (q : Fin 64) (l : Fin 64) : lidx_main_v12 (ix2 k q) l = ix2 k l := by
  funext a; match a with | ⟨0, _⟩ => rfl | ⟨1, _⟩ => rfl
theorem ridx_v12 (k : Fin 10000) (q : Fin 64) (l : Fin 64) : ridx_main_v12 (ix2 k q) l = ix2 l q := by
  funext a; match a with | ⟨0, _⟩ => rfl | ⟨1, _⟩ => rfl
theorem bidx_v14 (p : Fin 10000) (q : Fin 64) : idx_main_v14 (idx_main_v15 (ix2 p q)) = ix1 q := by
  funext a; match a with | ⟨0, _⟩ => rfl

theorem lidx_v19 (p : Fin 10000) (q : Fin 64) (k : Fin 10000) : lidx_main_v19 (ix2 p q) k = ix2 p k := by
  funext a; match a with | ⟨0, _⟩ => rfl | ⟨1, _⟩ => rfl
theorem ridx_v19 (p : Fin 10000) (q : Fin 64) (k : Fin 10000) : ridx_main_v19 (ix2 p q) k = ix2 k q := by
  funext a; match a with | ⟨0, _⟩ => rfl | ⟨1, _⟩ => rfl
theorem lidx_v18 (k : Fin 10000) (q : Fin 64) (l : Fin 64) : lidx_main_v18 (ix2 k q) l = ix2 k l := by
  funext a; match a with | ⟨0, _⟩ => rfl | ⟨1, _⟩ => rfl
theorem ridx_v18 (k : Fin 10000) (q : Fin 64) (l : Fin 64) : ridx_main_v18 (ix2 k q) l = ix2 l q := by
  funext a; match a with | ⟨0, _⟩ => rfl | ⟨1, _⟩ => rfl
theorem bidx_v20 (p : Fin 10000) (q : Fin 64) : idx_main_v20 (idx_main_v21 (ix2 p q)) = ix1 q := by
  funext a; match a with | ⟨0, _⟩ => rfl

theorem lidx_v25 (p : Fin 10000) (q : Fin 40) (k : Fin 10000) : lidx_main_v25 (ix2 p q) k = ix2 p k := by
  funext a; match a with | ⟨0, _⟩ => rfl | ⟨1, _⟩ => rfl
theorem ridx_v25 (p : Fin 10000) (q : Fin 40) (k : Fin 10000) : ridx_main_v25 (ix2 p q) k = ix2 k q := by
  funext a; match a with | ⟨0, _⟩ => rfl | ⟨1, _⟩ => rfl
theorem lidx_v24 (k : Fin 10000) (q : Fin 40) (l : Fin 64) : lidx_main_v24 (ix2 k q) l = ix2 k l := by
  funext a; match a with | ⟨0, _⟩ => rfl | ⟨1, _⟩ => rfl
theorem ridx_v24 (k : Fin 10000) (q : Fin 40) (l : Fin 64) : ridx_main_v24 (ix2 k q) l = ix2 l q := by
  funext a; match a with | ⟨0, _⟩ => rfl | ⟨1, _⟩ => rfl
theorem bidx_v26 (p : Fin 10000) (q : Fin 40) : idx_main_v26 (idx_main_v27 (ix2 p q)) = ix1 q := by
  funext a; match a with | ⟨0, _⟩ => rfl

/-! ## The layers, one after another -/

/-- Layer 1: the sum of the two products and the broadcast bias is the layer function. -/
theorem ref_e1' : val_main_v4 (F := Ideal) x0 x1 x2 x3 = gc x1 x0 x2 x3 := by
  funext i
  obtain ⟨p, q, rfl⟩ : ∃ (p : Fin 10000) (q : Fin 64), i = ix2 p q := ⟨i 0, i 1, eq_ix2 i⟩
  rw [val_main_v4_apply, val_main_v1_apply, val_main_v3_apply, val_main_v2_apply, bidx_v2, gc_apply, Ideal.addf_def]
  refine congrArg₂ (· + ·) (Finset.sum_congr rfl fun k _ => ?_) rfl
  rw [lidx_v1, ridx_v1, val_main_v0_apply]
  refine congrArg₂ (· * ·) rfl (Finset.sum_congr rfl fun l _ => ?_)
  rw [lidx_v0, ridx_v0]

/-- After layer 1 every entry is cut off below at zero. -/
theorem ref_h1' : val_main_v5 (F := Ideal) x0 x1 x2 x3 = relu (gc x1 x0 x2 x3) := by
  funext i
  rw [val_main_v5_apply, val_main_call0_v0_apply, val_main_call0_cst_apply, ref_e1', Ideal.maximumf_def, Ideal.ofBits_def, Ideal.ofBits_zero_f32]
  rfl

/-- Layer 2: the sum of the two products and the broadcast bias is the layer function. -/
theorem ref_e2' : val_main_v10 (F := Ideal) x0 x1 x2 x3 x4 x5 = gc x1 (relu (gc x1 x0 x2 x3)) x4 x5 := by
  funext i
  obtain ⟨p, q, rfl⟩ : ∃ (p : Fin 10000) (q : Fin 64), i = ix2 p q := ⟨i 0, i 1, eq_ix2 i⟩
  rw [val_main_v10_apply, val_main_v7_apply, val_main_v9_apply, val_main_v8_apply, bidx_v8, gc_apply, Ideal.addf_def]
  refine congrArg₂ (· + ·) (Finset.sum_congr rfl fun k _ => ?_) rfl
  rw [lidx_v7, ridx_v7, val_main_v6_apply]
  refine congrArg₂ (· * ·) rfl (Finset.sum_congr rfl fun l _ => ?_)
  rw [lidx_v6, ridx_v6, ref_h1']

/-- After layer 2 every entry is cut off below at zero. -/
theorem ref_h2' : val_main_v11 (F := Ideal) x0 x1 x2 x3 x4 x5 = relu (gc x1 (relu (gc x1 x0 x2 x3)) x4 x5) := by
  funext i
  rw [val_main_v11_apply, val_main_call1_v0_apply, val_main_call1_cst_apply, ref_e2', Ideal.maximumf_def, Ideal.ofBits_def, Ideal.ofBits_zero_f32]
  rfl

/-- Layer 3: the sum of the two products and the broadcast bias is the layer function. -/
theorem ref_e3' : val_main_v16 (F := Ideal) x0 x1 x2 x3 x4 x5 x6 x7 = gc x1 (relu (gc x1 (relu (gc x1 x0 x2 x3)) x4 x5)) x6 x7 := by
  funext i
  obtain ⟨p, q, rfl⟩ : ∃ (p : Fin 10000) (q : Fin 64), i = ix2 p q := ⟨i 0, i 1, eq_ix2 i⟩
  rw [val_main_v16_apply, val_main_v13_apply, val_main_v15_apply, val_main_v14_apply, bidx_v14, gc_apply, Ideal.addf_def]
  refine congrArg₂ (· + ·) (Finset.sum_congr rfl fun k _ => ?_) rfl
  rw [lidx_v13, ridx_v13, val_main_v12_apply]
  refine congrArg₂ (· * ·) rfl (Finset.sum_congr rfl fun l _ => ?_)
  rw [lidx_v12, ridx_v12, ref_h2']

/-- After layer 3 every entry is cut off below at zero. -/
theorem ref_h3' : val_main_v17 (F := Ideal) x0 x1 x2 x3 x4 x5 x6 x7 = relu (gc x1 (relu (gc x1 (relu (gc x1 x0 x2 x3)) x4 x5)) x6 x7) := by
  funext i
  rw [val_main_v17_apply, val_main_call2_v0_apply, val_main_call2_cst_apply, ref_e3', Ideal.maximumf_def, Ideal.ofBits_def, Ideal.ofBits_zero_f32]
  rfl

/-- Layer 4: the sum of the two products and the broadcast bias is the layer function. -/
theorem ref_e4' : val_main_v22 (F := Ideal) x0 x1 x2 x3 x4 x5 x6 x7 x8 x9 = gc x1 (relu (gc x1 (relu (gc x1 (relu (gc x1 x0 x2 x3)) x4 x5)) x6 x7)) x8 x9 := by
  funext i
  obtain ⟨p, q, rfl⟩ : ∃ (p : Fin 10000) (q : Fin 64), i = ix2 p q := ⟨i 0, i 1, eq_ix2 i⟩
  rw [val_main_v22_apply, val_main_v19_apply, val_main_v21_apply, val_main_v20_apply, bidx_v20, gc_apply, Ideal.addf_def]
  refine congrArg₂ (· + ·) (Finset.sum_congr rfl fun k _ => ?_) rfl
  rw [lidx_v19, ridx_v19, val_main_v18_apply]
  refine congrArg₂ (· * ·) rfl (Finset.sum_congr rfl fun l _ => ?_)
  rw [lidx_v18, ridx_v18, ref_h3']

/-- After layer 4 every entry is cut off below at zero. -/
theorem ref_h4' : val_main_v23 (F := Ideal) x0 x1 x2 x3 x4 x5 x6 x7 x8 x9 = relu (gc x1 (relu (gc x1 (relu (gc x1 (relu (gc x1 x0 x2 x3)) x4 x5)) x6 x7)) x8 x9) := by
  funext i
  rw [val_main_v23_apply, val_main_call3_v0_apply, val_main_call3_cst_apply, ref_e4', Ideal.maximumf_def, Ideal.ofBits_def, Ideal.ofBits_zero_f32]
  rfl

/-- Layer 5: the sum of the two products and the broadcast bias is the layer function. -/
theorem ref_e5' : val_main_v28 (F := Ideal) x0 x1 x2 x3 x4 x5 x6 x7 x8 x9 x10 x11 = gc x1 (relu (gc x1 (relu (gc x1 (relu (gc x1 (relu (gc x1 x0 x2 x3)) x4 x5)) x6 x7)) x8 x9)) x10 x11 := by
  funext i
  obtain ⟨p, q, rfl⟩ : ∃ (p : Fin 10000) (q : Fin 40), i = ix2 p q := ⟨i 0, i 1, eq_ix2 i⟩
  rw [val_main_v28_apply, val_main_v25_apply, val_main_v27_apply, val_main_v26_apply, bidx_v26, gc_apply, Ideal.addf_def]
  refine congrArg₂ (· + ·) (Finset.sum_congr rfl fun k _ => ?_) rfl
  rw [lidx_v25, ridx_v25, val_main_v24_apply]
  refine congrArg₂ (· * ·) rfl (Finset.sum_congr rfl fun l _ => ?_)
  rw [lidx_v24, ridx_v24, ref_h4']

/-! ## The row-normalised output -/

/-- The reduce over axis 1 with a maximum body, from minus infinity, at row p: the row maximum of layer 5. -/
theorem call4_v0_at (p : Fin 10000) :
    val_main_call4_v0 (F := Ideal) x0 x1 x2 x3 x4 x5 x6 x7 x8 x9 x10 x11 (ix1 p) = rowMax (gc x1 (relu (gc x1 (relu (gc x1 (relu (gc x1 (relu (gc x1 x0 x2 x3)) x4 x5)) x6 x7)) x8 x9)) x10 x11) p := by
  unfold val_main_call4_v0 val_main_call4_cst
  rw [ref_e5']
  exact reduce_max_row _ p

/-- Taking the maximum with minus infinity once more changes nothing. -/
theorem call4_v2_at (p : Fin 10000) :
    val_main_call4_v2 (F := Ideal) x0 x1 x2 x3 x4 x5 x6 x7 x8 x9 x10 x11 (ix1 p) = rowMax (gc x1 (relu (gc x1 (relu (gc x1 (relu (gc x1 (relu (gc x1 x0 x2 x3)) x4 x5)) x6 x7)) x8 x9)) x10 x11) p := by
  rw [val_main_call4_v2_apply, val_main_call4_v1_apply, val_main_call4_cst_0_apply, call4_v0_at, Ideal.maximumf_def,
    Ideal.ofBits_def, ofBits_neg_inf]
  exact max_bot_left _

/-- The entry minus its row's maximum. -/
theorem call4_v5_at (p : Fin 10000) (q : Fin 40) :
    val_main_call4_v5 (F := Ideal) x0 x1 x2 x3 x4 x5 x6 x7 x8 x9 x10 x11 (ix2 p q)
      = (gc x1 (relu (gc x1 (relu (gc x1 (relu (gc x1 (relu (gc x1 x0 x2 x3)) x4 x5)) x6 x7)) x8 x9)) x10 x11) (ix2 p q) - rowMax (gc x1 (relu (gc x1 (relu (gc x1 (relu (gc x1 (relu (gc x1 x0 x2 x3)) x4 x5)) x6 x7)) x8 x9)) x10 x11) p := by
  have hi : idx_main_call4_v3 (idx_main_call4_v4 (ix2 p q)) = ix1 p := by
    funext a; match a with | ⟨0, _⟩ => rfl
  rw [val_main_call4_v5_apply, val_main_call4_v4_apply, val_main_call4_v3_apply, hi, call4_v2_at, ref_e5', Ideal.subf_def]

/-- The logarithm of the row's sum of exponentials, broadcast along the row. -/
theorem call4_v10_at (p : Fin 10000) (q : Fin 40) :
    val_main_call4_v10 (F := Ideal) x0 x1 x2 x3 x4 x5 x6 x7 x8 x9 x10 x11 (ix2 p q) = logSumExp (gc x1 (relu (gc x1 (relu (gc x1 (relu (gc x1 (relu (gc x1 x0 x2 x3)) x4 x5)) x6 x7)) x8 x9)) x10 x11) p := by
  have hi : idx_main_call4_v8 (idx_main_call4_v10 (ix2 p q)) = ix1 p := by
    funext a; match a with | ⟨0, _⟩ => rfl
  rw [val_main_call4_v10_apply, val_main_call4_v9_apply, val_main_call4_v8_apply, hi, val_main_call4_v7_apply,
    val_main_call4_cst_1_apply, Ideal.hostUnary_log_def, Ideal.ofBits_def, Ideal.ofBits_zero_f32, zero_add]
  unfold logSumExp
  refine congrArg Ideal.log (Finset.sum_congr rfl fun k _ => ?_)
  have hk : idx_main_call4_v7 (ix1 p) k = ix2 p k := by
    funext a; match a with | ⟨0, _⟩ => rfl | ⟨1, _⟩ => rfl
  rw [hk, val_main_call4_v6_apply, call4_v5_at, Ideal.hostUnary_exp_def]

/-- The last result is the second spelling of the row-normalised output of layer 5. -/
theorem ref_out' : val_main_v29 (F := Ideal) x0 x1 x2 x3 x4 x5 x6 x7 x8 x9 x10 x11 = logSoftmaxB (gc x1 (relu (gc x1 (relu (gc x1 (relu (gc x1 (relu (gc x1 x0 x2 x3)) x4 x5)) x6 x7)) x8 x9)) x10 x11) := by
  funext i
  obtain ⟨p, q, rfl⟩ : ∃ (p : Fin 10000) (q : Fin 40), i = ix2 p q := ⟨i 0, i 1, eq_ix2 i⟩
  rw [val_main_v29_apply, call4_v5_at, call4_v10_at, Ideal.subf_def]
  rfl

/-! ## The six results against the network's record -/

/-- Result e1 of the reference is layer 1 of the network. -/
theorem ref_e1 : val_main_v4 (F := Ideal) x0 x1 x2 x3 = (net x0 x1 x2 x3 x4 x5 x6 x7 x8 x9 x10 x11).e1 :=
  ref_e1' x0 x1 x2 x3

/-- Result e2 of the reference is layer 2 of the network. -/
theorem ref_e2 : val_main_v10 (F := Ideal) x0 x1 x2 x3 x4 x5 = (net x0 x1 x2 x3 x4 x5 x6 x7 x8 x9 x10 x11).e2 :=
  ref_e2' x0 x1 x2 x3 x4 x5

/-- Result e3 of the reference is layer 3 of the network. -/
theorem ref_e3 : val_main_v16 (F := Ideal) x0 x1 x2 x3 x4 x5 x6 x7 = (net x0 x1 x2 x3 x4 x5 x6 x7 x8 x9 x10 x11).e3 :=
  ref_e3' x0 x1 x2 x3 x4 x5 x6 x7

/-- Result e4 of the reference is layer 4 of the network. -/
theorem ref_e4 : val_main_v22 (F := Ideal) x0 x1 x2 x3 x4 x5 x6 x7 x8 x9 = (net x0 x1 x2 x3 x4 x5 x6 x7 x8 x9 x10 x11).e4 :=
  ref_e4' x0 x1 x2 x3 x4 x5 x6 x7 x8 x9

/-- Result e5 of the reference is layer 5 of the network. -/
theorem ref_e5 : val_main_v28 (F := Ideal) x0 x1 x2 x3 x4 x5 x6 x7 x8 x9 x10 x11 = (net x0 x1 x2 x3 x4 x5 x6 x7 x8 x9 x10 x11).e5 :=
  ref_e5' x0 x1 x2 x3 x4 x5 x6 x7 x8 x9 x10 x11

/-- The reference's last result is the row-normalised output, second spelling, of the network's layer 5. -/
theorem ref_out : val_main_v29 (F := Ideal) x0 x1 x2 x3 x4 x5 x6 x7 x8 x9 x10 x11 = logSoftmaxB (net x0 x1 x2 x3 x4 x5 x6 x7 x8 x9 x10 x11).e5 :=
  ref_out' x0 x1 x2 x3 x4 x5 x6 x7 x8 x9 x10 x11

end Cert.RefSpec

end
-- ==== Proof.Algebra.lean ====
/-
  Pure mathematics on the extended reals for the five-layer graph convolution of Spec.lean; no program is mentioned.

  Two facts. First, finiteness propagates: a layer's entry is a finite sum of products plus a bias, so if every entry
  of every argument array is a real number (neither infinity) then so is every entry of every layer, and cutting off
  below at zero keeps that. Second, on a real matrix with nonempty rows the two spellings of the row-normalised
  output agree: the row maximum m is a real (the maximum of finitely many reals, folded from minus infinity over a
  nonempty index set), each exp(x - m) is a positive real, their sum S is a positive real, log S is the real
  logarithm L of S, and then x - (L + m) = (x - m) - L is an identity of real numbers. (With an infinite entry the
  identity can fail on the extended reals, whose subtraction is not associative at the infinities; that is why the
  realness is carried.)
-/
import proofs.«133978_g44306882625591_cont_8to1_c_1075_2_alg».proof.Proof.Spec

noncomputable section

open scoped BigOperators

namespace Cert.GcnAlgebra

open Idealize.ShloMosaic Idealize.ShloMosaic.ValueIdx Cert.GcnSpec

/-! ## Arrays of real numbers -/

/-- Every entry of the array is a real number (neither infinity). The index type is arbitrary: a matrix
    (Mat r c), a row (Vect n) and any array over a shape's index set are all instances. -/
def IsReal {ι : Type} (x : ι → EReal) : Prop := ∀ i, ∃ r : ℝ, x i = (r : EReal)

/-- An entry that is neither infinity is a real number, and conversely. -/
theorem isReal_iff {ι : Type} (x : ι → EReal) : IsReal x ↔ ∀ i, x i ≠ ⊥ ∧ x i ≠ ⊤ := by
  constructor
  · intro h i
    obtain ⟨r, hr⟩ := h i
    rw [hr]
    exact ⟨EReal.coe_ne_bot r, EReal.coe_ne_top r⟩
  · intro h i
    exact ⟨(x i).toReal, (EReal.coe_toReal (h i).2 (h i).1).symm⟩

/-! ## Finite sums, maxima and folds of reals stay real -/

/-- The inclusion of the reals commutes with finite sums. -/
theorem coe_finset_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of reals is a real. -/
theorem sum_real {ι : Type} (s : Finset ι) (g : ι → EReal) (h : ∀ i, ∃ r : ℝ, g i = (r : EReal)) :
    ∃ r : ℝ, ∑ i ∈ s, g i = (r : EReal) := by
  choose f hf using h
  refine ⟨∑ i ∈ s, f i, ?_⟩
  rw [← coe_finset_sum]
  exact Finset.sum_congr rfl (fun i _ => hf i)

/-- The inclusion of the reals commutes with the maximum of two numbers. -/
theorem coe_max (a b : ℝ) : max (a : EReal) (b : EReal) = ((max a b : ℝ) : EReal) :=
  (EReal.coe_strictMono.monotone.map_max).symm

/-- The maximum of finitely many reals, folded from minus infinity over a nonempty index set, is a real. -/
theorem fold_max_real {ι : Type} (s : Finset ι) (f : ι → EReal) (hf : ∀ i, ∃ r : ℝ, f i = (r : EReal))
    (hs : s.Nonempty) : ∃ r : ℝ, s.fold max ⊥ f = (r : EReal) := by
  classical
  induction s using Finset.induction_on with
  | empty => exact absurd hs Finset.not_nonempty_empty
  | insert a s ha ih =>
    rw [Finset.fold_insert ha]
    obtain ⟨ra, hra⟩ := hf a
    rcases s.eq_empty_or_nonempty with rfl | hne
    · exact ⟨ra, by rw [Finset.fold_empty, hra, max_eq_left bot_le]⟩
    · obtain ⟨r, hr⟩ := ih hne
      exact ⟨max ra r, by rw [hr, hra, coe_max]⟩

/-! ## One layer of the network keeps real arrays real -/

/-- The support h * W of real matrices has real entries: a finite sum of products of reals. -/
theorem supp_real {n d e : Nat} {h : Mat n d} {W : Mat d e} (hh : IsReal h) (hW : IsReal W) (k : Fin n) (j : Fin e) :
    ∃ r : ℝ, supp h W k j = (r : EReal) := by
  unfold supp
  refine sum_real _ _ (fun l => ?_)
  obtain ⟨a, ha⟩ := hh (ix2 k l)
  obtain ⟨b, hb⟩ := hW (ix2 l j)
  exact ⟨a * b, by rw [ha, hb, EReal.coe_mul]⟩

/-- One layer at (i, j) is real: a finite sum of products of reals plus a real. -/
theorem gcAt_real {n d e : Nat} {adj : Mat n n} {h : Mat n d} {W : Mat d e} {b : Vect e}
    (hadj : IsReal adj) (hh : IsReal h) (hW : IsReal W) (hb : IsReal b) (i : Fin n) (j : Fin e) :
    ∃ r : ℝ, gcAt adj h W b i j = (r : EReal) := by
  unfold gcAt
  obtain ⟨s, hs⟩ := sum_real (Finset.univ : Finset (Fin n)) (fun k => adj (ix2 i k) * supp h W k j) (fun k => by
    obtain ⟨a, ha⟩ := hadj (ix2 i k)
    obtain ⟨c, hc⟩ := supp_real hh hW k j
    exact ⟨a * c, by rw [ha, hc, EReal.coe_mul]⟩)
  obtain ⟨c, hc⟩ := hb (ix1 j)
  exact ⟨s + c, by rw [hs, hc, EReal.coe_add]⟩

/-- One layer of real arguments is a real matrix. -/
theorem gc_real {n d e : Nat} {adj : Mat n n} {h : Mat n d} {W : Mat d e} {b : Vect e}
    (hadj : IsReal adj) (hh : IsReal h) (hW : IsReal W) (hb : IsReal b) : IsReal (gc adj h W b) :=
  fun y => gcAt_real hadj hh hW hb (y 0) (y 1)

/-- Cutting a real matrix off below at zero leaves it real. -/
theorem relu_real {r c : Nat} {h : Mat r c} (hh : IsReal h) : IsReal (relu h) := by
  intro y
  obtain ⟨a, ha⟩ := hh y
  refine ⟨max a 0, ?_⟩
  show max (h y) 0 = _
  rw [ha, ← EReal.coe_zero, coe_max]

/-- All five embeddings of the network are real matrices when its twelve arguments are. -/
theorem net_real {x : Mat 10000 128} {adj : Mat 10000 10000} {W1 : Mat 128 64} {b1 : Vect 64} {W2 : Mat 64 64}
    {b2 : Vect 64} {W3 : Mat 64 64} {b3 : Vect 64} {W4 : Mat 64 64} {b4 : Vect 64} {W5 : Mat 64 40} {b5 : Vect 40}
    (hx : IsReal x) (hadj : IsReal adj) (hW1 : IsReal W1) (hb1 : IsReal b1) (hW2 : IsReal W2) (hb2 : IsReal b2)
    (hW3 : IsReal W3) (hb3 : IsReal b3) (hW4 : IsReal W4) (hb4 : IsReal b4) (hW5 : IsReal W5) (hb5 : IsReal b5) :
    IsReal (net x adj W1 b1 W2 b2 W3 b3 W4 b4 W5 b5).e1 ∧ IsReal (net x adj W1 b1 W2 b2 W3 b3 W4 b4 W5 b5).e2 ∧
    IsReal (net x adj W1 b1 W2 b2 W3 b3 W4 b4 W5 b5).e3 ∧ IsReal (net x adj W1 b1 W2 b2 W3 b3 W4 b4 W5 b5).e4 ∧
    IsReal (net x adj W1 b1 W2 b2 W3 b3 W4 b4 W5 b5).e5 := by
  have h1 : IsReal (gc adj x W1 b1) := gc_real hadj hx hW1 hb1
  have h2 : IsReal (gc adj (relu (gc adj x W1 b1)) W2 b2) := gc_real hadj (relu_real h1) hW2 hb2
  have h3 := gc_real hadj (relu_real h2) hW3 hb3
  have h4 := gc_real hadj (relu_real h3) hW4 hb4
  have h5 := gc_real hadj (relu_real h4) hW5 hb5
  exact ⟨h1, h2, h3, h4, h5⟩

/-! ## The two spellings of the row-normalised output agree on real matrices -/

/-- The maximum of a nonempty row of reals is a real. -/
theorem rowMax_real {n e : Nat} (x : Mat n e) (hx : IsReal x) (he : 0 < e) (i : Fin n) :
    ∃ m : ℝ, rowMax x i = (m : EReal) := by
  unfold rowMax
  haveI : Nonempty (Fin e) := ⟨⟨0, he⟩⟩
  exact fold_max_real _ _ (fun j => hx (ix2 i j)) Finset.univ_nonempty

/-- For a nonempty row of reals with (real) maximum m, every exp(x - m) is a positive real, so their sum S is a
    positive real and log S is the real logarithm of S. -/
theorem logSumExp_real {n e : Nat} (x : Mat n e) (hx : IsReal x) (he : 0 < e) (i : Fin n) :
    ∃ L : ℝ, logSumExp x i = (L : EReal) := by
  obtain ⟨m, hm⟩ := rowMax_real x hx he i
  choose a ha using fun j => hx (ix2 i j)
  have hS : ∑ j : Fin e, Ideal.exp (x (ix2 i j) - rowMax x i)
      = ((∑ j : Fin e, Real.exp (a j - m) : ℝ) : EReal) := by
    rw [← coe_finset_sum]
    refine Finset.sum_congr rfl (fun j _ => ?_)
    rw [ha j, hm, ← EReal.coe_sub, Ideal.exp_coe]
  haveI : Nonempty (Fin e) := ⟨⟨0, he⟩⟩
  have hpos : 0 < ∑ j : Fin e, Real.exp (a j - m) :=
    Finset.sum_pos (fun j _ => Real.exp_pos _) Finset.univ_nonempty
  refine ⟨Real.log (∑ j : Fin e, Real.exp (a j - m)), ?_⟩
  unfold logSumExp
  rw [hS, Ideal.log_coe, if_neg (not_le.mpr hpos)]

/-- THE LAW. On a real matrix with nonempty rows, x - (L + m) = (x - m) - L entry by entry, where m is the row's
    maximum and L = log(sum exp(x - m)): all three of x, m and L are reals, and the identity is one of real numbers. -/
theorem logSoftmaxA_eq_logSoftmaxB {n e : Nat} (x : Mat n e) (he : 0 < e) (hx : IsReal x) :
    logSoftmaxA x = logSoftmaxB x := by
  funext y
  show x (ix2 (y 0) (y 1)) - (logSumExp x (y 0) + rowMax x (y 0))
    = (x (ix2 (y 0) (y 1)) - rowMax x (y 0)) - logSumExp x (y 0)
  obtain ⟨m, hm⟩ := rowMax_real x hx he (y 0)
  obtain ⟨L, hL⟩ := logSumExp_real x hx he (y 0)
  obtain ⟨a, ha⟩ := hx (ix2 (y 0) (y 1))
  rw [hm, hL, ha, ← EReal.coe_add, ← EReal.coe_sub, ← EReal.coe_sub, ← EReal.coe_sub]
  congr 1
  ring

end Cert.GcnAlgebra

end
-- ==== Proof.LibFiniteAll.lean ====
/-
  Reading back one conjunct of the precondition. Each conjunct is a reduction by `and`, over a whole array, of an
  entrywise comparison: `|x| < +inf` (every entry of x is finite) or `v ≥ 0`. A reduction by `and` from 1 that
  comes out 1 met only 1s, so the comparison holds at every index. On the extended reals `|x| = max x (-x)`, and
  `max x (-x) < ⊤` excludes both infinities, so x is a real number.
-/
import Idealize.ShloMosaic.PureOps.Ideal
import Idealize.ShloMosaic.PureOps.Ideal.Laws
import Idealize.ShloMosaic.Lib.ValueIdx
import Idealize.ShloMosaic.Lib.ReduceAll
import Idealize.ShloMosaic.PureOps

noncomputable section

namespace Cert.LibFiniteAll

open Idealize.ShloMosaic

/-- The rank-0 shape has one index. -/
theorem subsingleton_idx0 : Subsingleton (⟨0, ![]⟩ : Shape).Idx := ⟨fun a b => funext fun d => d.elim0⟩

/-- The f32 word of +infinity denotes the top extended real. -/
theorem ofBits_inf : Ideal.ofBits .f32 0x7F800000#32 = (⊤ : EReal) := by simp [Ideal.ofBits, Ideal.ieee]

/-- An extended real whose absolute value max x (-x) is below +infinity is a real number. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- A comparison word that is 1 says the comparison holds. -/
theorem ofBool_eq_one (b : Bool) : BitVec.ofBool b = 1#1 ↔ b = true := by cases b <;> decide

/-- Entry read-back of |x| < +inf. -/
theorem real_of_cmp (x : EReal)
    (h : Ideal.cmp .olt (max x (-x)) (Ideal.ofBits .f32 0x7F800000#32) = 1#1) : ∃ r : ℝ, x = (r : EReal) := by
  rw [ofBits_inf] at h
  unfold Ideal.cmp at h
  rw [ofBool_eq_one] at h
  exact real_of_abs_lt_top x (of_decide_eq_true h)

/-- Entry read-back of v ≥ 0. -/
theorem nonneg_of_cmp (v : EReal)
    (h : Ideal.cmp .oge v (Ideal.ofBits .f32 0x00000000#32) = 1#1) : 0 ≤ v := by
  rw [Ideal.ofBits_zero_f32] at h
  unfold Ideal.cmp at h
  rw [ofBool_eq_one] at h
  exact of_decide_eq_true h

variable {s : Shape} {axes : List (Fin s.rank)}

/-- all(|x| < +inf) = 1 over an array of any shape: every entry is a real number. -/
theorem real_of_all (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi
          (cmpf .olt (Host.absf x) (broadcastInDim s ![] hb (constant (F := Ideal) (⟨0, ![]⟩ : Shape) .f32 0x7F800000#32)))
          (constantI (⟨0, ![]⟩ : Shape) 1 1#1) hr hu ValueIdx.ix0 = 1#1)
    (i : s.Idx) : ∃ r : ℝ, x i = (r : EReal) := by
  haveI := subsingleton_idx0
  have h := Host.reduce_andi_all _ _ hr hu _ e i
  exact real_of_cmp (x i) h

/-- all(v ≥ 0) = 1: every entry is nonnegative. -/
theorem nonneg_of_all (v : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi
          (cmpf .oge v (broadcastInDim s ![] hb (constant (F := Ideal) (⟨0, ![]⟩ : Shape) .f32 0x00000000#32)))
          (constantI (⟨0, ![]⟩ : Shape) 1 1#1) hr hu ValueIdx.ix0 = 1#1)
    (i : s.Idx) : (0 : EReal) ≤ v i := by
  haveI := subsingleton_idx0
  have h := Host.reduce_andi_all _ _ hr hu _ e i
  exact nonneg_of_cmp (v i) h

end Cert.LibFiniteAll

end
-- ==== Proof.PreReal.lean ====
/-
  The precondition read back. The certificate's precondition is a conjunction, over the twelve argument arrays, of
  "all(|x| < +infinity)": an entrywise comparison reduced by "and" over the whole array, the twelve resulting bits
  joined by "and". A conjunction that is 1 has every conjunct 1; a reduction by "and" that is 1 met only 1s; and an
  extended real whose absolute value is below +infinity is a real number. So under the precondition every entry of
  every argument array is a real number.
-/
import proofs.«133978_g44306882625591_cont_8to1_c_1075_2_alg».proof.Defs
import proofs.«133978_g44306882625591_cont_8to1_c_1075_2_alg».proof.Proof.Algebra
import proofs.«133978_g44306882625591_cont_8to1_c_1075_2_alg».proof.Proof.LibFiniteAll

noncomputable section

namespace Cert.PreReal

open Idealize.ShloMosaic Idealize.SL.Sem Cert.Pre_finite_inputs Cert.GcnAlgebra Cert.LibFiniteAll

/-- A conjunction of two one-bit scalars that is 1 has both bits 1. -/
theorem andi_ix0 (a b : IVec S_ 1) (h : andi a b ValueIdx.ix0 = 1#1) :
    a ValueIdx.ix0 = 1#1 ∧ b ValueIdx.ix0 = 1#1 :=
  IntOp.andi_eq_one.1 h

/-- The precondition as a function of twelve arrays: it is the conjunction, over the twelve arrays, of
    "every entry has absolute value below +infinity". If it holds, every entry of every array is a real number. -/
theorem fn_real [Cert.Pre_finite_inputs.Facts] (x0 : FVec Ideal S10000x128 .f32) (x1 : FVec Ideal S10000x10000 .f32) (x2 : FVec Ideal S128x64 .f32) (x3 : FVec Ideal S64 .f32) (x4 : FVec Ideal S64x64 .f32) (x5 : FVec Ideal S64 .f32) (x6 : FVec Ideal S64x64 .f32) (x7 : FVec Ideal S64 .f32) (x8 : FVec Ideal S64x64 .f32) (x9 : FVec Ideal S64 .f32) (x10 : FVec Ideal S64x40 .f32) (x11 : FVec Ideal S40 .f32)
    (h : Cert.Pre_finite_inputs.fn (F := Ideal) x0 x1 x2 x3 x4 x5 x6 x7 x8 x9 x10 x11 = fun _ => 1#1) :
    IsReal (x0 : S10000x128.Idx → EReal) ∧
    IsReal (x1 : S10000x10000.Idx → EReal) ∧
    IsReal (x2 : S128x64.Idx → EReal) ∧
    IsReal (x3 : S64.Idx → EReal) ∧
    IsReal (x4 : S64x64.Idx → EReal) ∧
    IsReal (x5 : S64.Idx → EReal) ∧
    IsReal (x6 : S64x64.Idx → EReal) ∧
    IsReal (x7 : S64.Idx → EReal) ∧
    IsReal (x8 : S64x64.Idx → EReal) ∧
    IsReal (x9 : S64.Idx → EReal) ∧
    IsReal (x10 : S64x40.Idx → EReal) ∧
    IsReal (x11 : S40.Idx → EReal) := by
  have h0 := congrFun h ValueIdx.ix0
  unfold Cert.Pre_finite_inputs.fn Cert.Pre_finite_inputs.fn_part1 Cert.Pre_finite_inputs.fn_part2
    Cert.Pre_finite_inputs.fn_part3 at h0
  dsimp only at h0
  obtain ⟨h0, e11⟩ := andi_ix0 _ _ h0
  obtain ⟨h0, e10⟩ := andi_ix0 _ _ h0
  obtain ⟨h0, e9⟩ := andi_ix0 _ _ h0
  obtain ⟨h0, e8⟩ := andi_ix0 _ _ h0
  obtain ⟨h0, e7⟩ := andi_ix0 _ _ h0
  obtain ⟨h0, e6⟩ := andi_ix0 _ _ h0
  obtain ⟨h0, e5⟩ := andi_ix0 _ _ h0
  obtain ⟨h0, e4⟩ := andi_ix0 _ _ h0
  obtain ⟨h0, e3⟩ := andi_ix0 _ _ h0
  obtain ⟨h0, e2⟩ := andi_ix0 _ _ h0
  obtain ⟨e0, e1⟩ := andi_ix0 _ _ h0
  exact ⟨real_of_all x0 Facts.bcast_S_S10000x128 Facts.reducesTo_S10000x128_S_d0_1 Facts.h_S_ e0,
    real_of_all x1 Facts.bcast_S_S10000x10000 Facts.reducesTo_S10000x10000_S_d0_1 Facts.h_S_ e1,
    real_of_all x2 Facts.bcast_S_S128x64 Facts.reducesTo_S128x64_S_d0_1 Facts.h_S_ e2,
    real_of_all x3 Facts.bcast_S_S64 Facts.reducesTo_S64_S_d0 Facts.h_S_ e3,
    real_of_all x4 Facts.bcast_S_S64x64 Facts.reducesTo_S64x64_S_d0_1 Facts.h_S_ e4,
    real_of_all x5 Facts.bcast_S_S64 Facts.reducesTo_S64_S_d0 Facts.h_S_ e5,
    real_of_all x6 Facts.bcast_S_S64x64 Facts.reducesTo_S64x64_S_d0_1 Facts.h_S_ e6,
    real_of_all x7 Facts.bcast_S_S64 Facts.reducesTo_S64_S_d0 Facts.h_S_ e7,
    real_of_all x8 Facts.bcast_S_S64x64 Facts.reducesTo_S64x64_S_d0_1 Facts.h_S_ e8,
    real_of_all x9 Facts.bcast_S_S64 Facts.reducesTo_S64_S_d0 Facts.h_S_ e9,
    real_of_all x10 Facts.bcast_S_S64x40 Facts.reducesTo_S64x40_S_d0_1 Facts.h_S_ e10,
    real_of_all x11 Facts.bcast_S_S40 Facts.reducesTo_S40_S_d0 Facts.h_S_ e11⟩

/-- The certificate's precondition makes every entry of each of the twelve argument arrays a real number, on every
    device. -/
theorem pre_real [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    IsReal ((m ((c.tc : Thread Cert.KernelIdeal.nD Cert.KernelIdeal.τ).loc Cert.KernelIdeal.main_arg0)) : S10000x128.Idx → EReal) ∧
    IsReal ((m ((c.tc : Thread Cert.KernelIdeal.nD Cert.KernelIdeal.τ).loc Cert.KernelIdeal.main_arg1)) : S10000x10000.Idx → EReal) ∧
    IsReal ((m ((c.tc : Thread Cert.KernelIdeal.nD Cert.KernelIdeal.τ).loc Cert.KernelIdeal.main_arg2)) : S128x64.Idx → EReal) ∧
    IsReal ((m ((c.tc : Thread Cert.KernelIdeal.nD Cert.KernelIdeal.τ).loc Cert.KernelIdeal.main_arg3)) : S64.Idx → EReal) ∧
    IsReal ((m ((c.tc : Thread Cert.KernelIdeal.nD Cert.KernelIdeal.τ).loc Cert.KernelIdeal.main_arg4)) : S64x64.Idx → EReal) ∧
    IsReal ((m ((c.tc : Thread Cert.KernelIdeal.nD Cert.KernelIdeal.τ).loc Cert.KernelIdeal.main_arg5)) : S64.Idx → EReal) ∧
    IsReal ((m ((c.tc : Thread Cert.KernelIdeal.nD Cert.KernelIdeal.τ).loc Cert.KernelIdeal.main_arg6)) : S64x64.Idx → EReal) ∧
    IsReal ((m ((c.tc : Thread Cert.KernelIdeal.nD Cert.KernelIdeal.τ).loc Cert.KernelIdeal.main_arg7)) : S64.Idx → EReal) ∧
    IsReal ((m ((c.tc : Thread Cert.KernelIdeal.nD Cert.KernelIdeal.τ).loc Cert.KernelIdeal.main_arg8)) : S64x64.Idx → EReal) ∧
    IsReal ((m ((c.tc : Thread Cert.KernelIdeal.nD Cert.KernelIdeal.τ).loc Cert.KernelIdeal.main_arg9)) : S64.Idx → EReal) ∧
    IsReal ((m ((c.tc : Thread Cert.KernelIdeal.nD Cert.KernelIdeal.τ).loc Cert.KernelIdeal.main_arg10)) : S64x40.Idx → EReal) ∧
    IsReal ((m ((c.tc : Thread Cert.KernelIdeal.nD Cert.KernelIdeal.τ).loc Cert.KernelIdeal.main_arg11)) : S40.Idx → EReal) :=
  fn_real _ _ _ _ _ _ _ _ _ _ _ _ (h c)

end Cert.PreReal

end
-- ==== Proof.lean ====
/-
  The certificate's claim for the five-layer graph convolution.

  The three frames: each program runs to the end, faults nowhere and leaves its twelve argument arrays as launched. For
  the kernel (word level and idealized) this is the run of its host stretch and five regions, every argument read
  back off the last boundary's contents; for the reference it is its run with the results dropped.
  Nothing was rewritten between the kernel and its idealization, so that conjunct is trivial.
  The value claim: at the ideal instance both programs compute, layer by layer, adj * (relu(h) * W) + b, with the same
  association of the two products, so the five embeddings agree entry by entry with no law needed beyond reading both
  sides at an index. The sixth result is the row-normalised last layer, which the kernel spells
  x - (log(sum exp(x - m)) + m) and the reference (x - m) - log(sum exp(x - m)), m the row's maximum. These agree when
  every entry of the last layer is a real number, and that holds because the precondition makes every argument entry
  real and sums, products and maxima of reals are real.
-/
import proofs.«133978_g44306882625591_cont_8to1_c_1075_2_alg».proof.Defs
import proofs.«133978_g44306882625591_cont_8to1_c_1075_2_alg».proof.Proof.Gen.Kernel
import proofs.«133978_g44306882625591_cont_8to1_c_1075_2_alg».proof.Proof.Gen.KernelIdeal
import proofs.«133978_g44306882625591_cont_8to1_c_1075_2_alg».proof.Proof.Gen.ReferenceIdeal
import proofs.«133978_g44306882625591_cont_8to1_c_1075_2_alg».proof.Proof.Gen.Pre_finite_inputs
import proofs.«133978_g44306882625591_cont_8to1_c_1075_2_alg».proof.Proof.KnFrame
import proofs.«133978_g44306882625591_cont_8to1_c_1075_2_alg».proof.Proof.KiFrame
import proofs.«133978_g44306882625591_cont_8to1_c_1075_2_alg».proof.Proof.KiValue
import proofs.«133978_g44306882625591_cont_8to1_c_1075_2_alg».proof.Proof.RefIsSpec
import proofs.«133978_g44306882625591_cont_8to1_c_1075_2_alg».proof.Proof.Algebra
import proofs.«133978_g44306882625591_cont_8to1_c_1075_2_alg».proof.Proof.PreReal
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Hand.frame (F := Bits) m ρ
/-- The idealized kernel runs and leaves its arguments unchanged. -/
theorem frame_ki : Cert.frame_KernelIdeal := fun m ρ _ => Cert.KernelIdeal.Hand.frame (F := Ideal) m ρ
/-- The reference runs and leaves its arguments unchanged: its run with the six results dropped. -/
theorem frame_ri : Cert.frame_ReferenceIdeal := fun m ρ _ =>
  (θ_run Cert.ReferenceIdeal.defs _ _).mono (fun _ h c => (h c).2.2.2.2.2.2) (Cert.ReferenceIdeal.Value.run (F := Ideal) m ρ)
/-- Nothing was rewritten between the kernel and its idealization. -/
theorem preserves : Cert.preserves_Kernel_KernelIdeal := trivial

open Cert.GcnSpec Cert.GcnAlgebra in
/-- Both idealized programs end with the six results equal: the five layers entry by entry, and the row-normalised last
    layer by the law joining its two spellings on real entries. -/
theorem algebraic : Cert.algebraic_KernelIdeal_ReferenceIdeal := by
  intro m ρ m' ρ' hpre hagree
  refine ⟨(fun c => Cert.KernelIdeal.Hand.W6 m ρ c (Proc.devRef .tc Cert.KernelIdeal.main_v9_1)),
    (fun c => Cert.KernelIdeal.Hand.W6 m ρ c (Proc.devRef .tc Cert.KernelIdeal.main_v5)),
    (fun c => Cert.KernelIdeal.Hand.W6 m ρ c (Proc.devRef .tc Cert.KernelIdeal.main_v6)),
    (fun c => Cert.KernelIdeal.Hand.W6 m ρ c (Proc.devRef .tc Cert.KernelIdeal.main_v7)),
    (fun c => Cert.KernelIdeal.Hand.W6 m ρ c (Proc.devRef .tc Cert.KernelIdeal.main_v8)),
    (fun c => Cert.KernelIdeal.Hand.W6 m ρ c (Proc.devRef .tc Cert.KernelIdeal.main_v9_0)), ?_, ?_⟩
  · refine (θ_run Cert.KernelIdeal.defs _ _).mono (fun r h c => ?_) (Cert.KernelIdeal.Hand.run_all (F := Ideal) m ρ)
    exact ⟨h c _ (Cert.KernelIdeal.Hand.mem_uc Cert.KernelIdeal.main_v9_1 (by decide)),
      h c _ (Cert.KernelIdeal.Hand.mem_uc Cert.KernelIdeal.main_v5 (by decide)),
      h c _ (Cert.KernelIdeal.Hand.mem_uc Cert.KernelIdeal.main_v6 (by decide)),
      h c _ (Cert.KernelIdeal.Hand.mem_uc Cert.KernelIdeal.main_v7 (by decide)),
      h c _ (Cert.KernelIdeal.Hand.mem_uc Cert.KernelIdeal.main_v8 (by decide)),
      h c _ (Cert.KernelIdeal.Hand.mem_uc Cert.KernelIdeal.main_v9_0 (by decide)),
      (h c _ (Cert.KernelIdeal.Hand.mem_uc Cert.KernelIdeal.main_arg0 (by decide))).trans (Cert.KernelIdeal.Hand.W6_main_arg0 m ρ c),
      (h c _ (Cert.KernelIdeal.Hand.mem_uc Cert.KernelIdeal.main_arg1 (by decide))).trans (Cert.KernelIdeal.Hand.W6_main_arg1 m ρ c),
      (h c _ (Cert.KernelIdeal.Hand.mem_uc Cert.KernelIdeal.main_arg2 (by decide))).trans (Cert.KernelIdeal.Hand.W6_main_arg2 m ρ c),
      (h c _ (Cert.KernelIdeal.Hand.mem_uc Cert.KernelIdeal.main_arg3 (by decide))).trans (Cert.KernelIdeal.Hand.W6_main_arg3 m ρ c),
      (h c _ (Cert.KernelIdeal.Hand.mem_uc Cert.KernelIdeal.main_arg4 (by decide))).trans (Cert.KernelIdeal.Hand.W6_main_arg4 m ρ c),
      (h c _ (Cert.KernelIdeal.Hand.mem_uc Cert.KernelIdeal.main_arg5 (by decide))).trans (Cert.KernelIdeal.Hand.W6_main_arg5 m ρ c),
      (h c _ (Cert.KernelIdeal.Hand.mem_uc Cert.KernelIdeal.main_arg6 (by decide))).trans (Cert.KernelIdeal.Hand.W6_main_arg6 m ρ c),
      (h c _ (Cert.KernelIdeal.Hand.mem_uc Cert.KernelIdeal.main_arg7 (by decide))).trans (Cert.KernelIdeal.Hand.W6_main_arg7 m ρ c),
      (h c _ (Cert.KernelIdeal.Hand.mem_uc Cert.KernelIdeal.main_arg8 (by decide))).trans (Cert.KernelIdeal.Hand.W6_main_arg8 m ρ c),
      (h c _ (Cert.KernelIdeal.Hand.mem_uc Cert.KernelIdeal.main_arg9 (by decide))).trans (Cert.KernelIdeal.Hand.W6_main_arg9 m ρ c),
      (h c _ (Cert.KernelIdeal.Hand.mem_uc Cert.KernelIdeal.main_arg10 (by decide))).trans (Cert.KernelIdeal.Hand.W6_main_arg10 m ρ c),
      (h c _ (Cert.KernelIdeal.Hand.mem_uc Cert.KernelIdeal.main_arg11 (by decide))).trans (Cert.KernelIdeal.Hand.W6_main_arg11 m ρ c)⟩
  · refine (θ_run Cert.ReferenceIdeal.defs _ _).mono (fun r h c => ?_) (Cert.ReferenceIdeal.Value.run (F := Ideal) m' ρ')
    obtain ⟨kv0, kv1, kv2, kv3, kv4, kv5⟩ := Cert.KernelIdeal.Hand.kernel_values m ρ c
    obtain ⟨a0, a1, a2, a3, a4, a5, a6, a7, a8, a9, a10, a11⟩ := hagree c
    obtain ⟨r0, r1, r2, r3, r4, r5, r6, r7, r8, r9, r10, r11⟩ := Cert.PreReal.pre_real m hpre c
    -- the network on the reference's arguments is the network on the kernel's
    have hN : net
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8))
        (m' ((c.tc : Thread Cert.ReferenceIdeal.nD Cert.ReferenceIdeal.τ).loc Cert.ReferenceIdeal.main_arg9))
        (m' ((c.tc : Thread Cert.ReferenceIdeal.nD Cert.ReferenceIdeal.τ).loc Cert.ReferenceIdeal.main_arg10))
        (m' ((c.tc : Thread Cert.ReferenceIdeal.nD Cert.ReferenceIdeal.τ).loc Cert.ReferenceIdeal.main_arg11))
        = Cert.KernelIdeal.Hand.NN m c := by
      unfold Cert.KernelIdeal.Hand.NN
      rw [a0, a1, a2, a3, a4, a5, a6, a7, a8, a9, a10, a11]
    -- every entry of the last layer is a real number
    have hreal : IsReal (Cert.KernelIdeal.Hand.NN m c).e5 :=
      (net_real r0 r1 r2 r3 r4 r5 r6 r7 r8 r9 r10 r11 : IsReal (Cert.KernelIdeal.Hand.NN m c).e1 ∧ IsReal (Cert.KernelIdeal.Hand.NN m c).e2
        ∧ IsReal (Cert.KernelIdeal.Hand.NN m c).e3 ∧ IsReal (Cert.KernelIdeal.Hand.NN m c).e4 ∧ IsReal (Cert.KernelIdeal.Hand.NN m c).e5).2.2.2.2
    refine ⟨?_, ?_, ?_, ?_, ?_, ?_, (h c).2.2.2.2.2.2⟩
    · refine (h c).1.trans ((Cert.ReferenceIdeal.Read.val_main_v29_eq m' c).trans ?_)
      refine (Cert.RefSpec.ref_out
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8))
        (m' ((c.tc : Thread Cert.ReferenceIdeal.nD Cert.ReferenceIdeal.τ).loc Cert.ReferenceIdeal.main_arg9))
        (m' ((c.tc : Thread Cert.ReferenceIdeal.nD Cert.ReferenceIdeal.τ).loc Cert.ReferenceIdeal.main_arg10))
        (m' ((c.tc : Thread Cert.ReferenceIdeal.nD Cert.ReferenceIdeal.τ).loc Cert.ReferenceIdeal.main_arg11))).trans ?_
      rw [hN, ← logSoftmaxA_eq_logSoftmaxB _ (by norm_num) hreal]
      exact kv0.symm
    · refine (h c).2.1.trans ((Cert.RefSpec.ref_e1
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8))
        (m' ((c.tc : Thread Cert.ReferenceIdeal.nD Cert.ReferenceIdeal.τ).loc Cert.ReferenceIdeal.main_arg9))
        (m' ((c.tc : Thread Cert.ReferenceIdeal.nD Cert.ReferenceIdeal.τ).loc Cert.ReferenceIdeal.main_arg10))
        (m' ((c.tc : Thread Cert.ReferenceIdeal.nD Cert.ReferenceIdeal.τ).loc Cert.ReferenceIdeal.main_arg11))).trans ?_)
      rw [hN]; exact kv1.symm
    · refine (h c).2.2.1.trans ((Cert.RefSpec.ref_e2
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8))
        (m' ((c.tc : Thread Cert.ReferenceIdeal.nD Cert.ReferenceIdeal.τ).loc Cert.ReferenceIdeal.main_arg9))
        (m' ((c.tc : Thread Cert.ReferenceIdeal.nD Cert.ReferenceIdeal.τ).loc Cert.ReferenceIdeal.main_arg10))
        (m' ((c.tc : Thread Cert.ReferenceIdeal.nD Cert.ReferenceIdeal.τ).loc Cert.ReferenceIdeal.main_arg11))).trans ?_)
      rw [hN]; exact kv2.symm
    · refine (h c).2.2.2.1.trans ((Cert.RefSpec.ref_e3
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8))
        (m' ((c.tc : Thread Cert.ReferenceIdeal.nD Cert.ReferenceIdeal.τ).loc Cert.ReferenceIdeal.main_arg9))
        (m' ((c.tc : Thread Cert.ReferenceIdeal.nD Cert.ReferenceIdeal.τ).loc Cert.ReferenceIdeal.main_arg10))
        (m' ((c.tc : Thread Cert.ReferenceIdeal.nD Cert.ReferenceIdeal.τ).loc Cert.ReferenceIdeal.main_arg11))).trans ?_)
      rw [hN]; exact kv3.symm
    · refine (h c).2.2.2.2.1.trans ((Cert.RefSpec.ref_e4
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8))
        (m' ((c.tc : Thread Cert.ReferenceIdeal.nD Cert.ReferenceIdeal.τ).loc Cert.ReferenceIdeal.main_arg9))
        (m' ((c.tc : Thread Cert.ReferenceIdeal.nD Cert.ReferenceIdeal.τ).loc Cert.ReferenceIdeal.main_arg10))
        (m' ((c.tc : Thread Cert.ReferenceIdeal.nD Cert.ReferenceIdeal.τ).loc Cert.ReferenceIdeal.main_arg11))).trans ?_)
      rw [hN]; exact kv4.symm
    · refine (h c).2.2.2.2.2.1.trans ((Cert.RefSpec.ref_e5
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8))
        (m' ((c.tc : Thread Cert.ReferenceIdeal.nD Cert.ReferenceIdeal.τ).loc Cert.ReferenceIdeal.main_arg9))
        (m' ((c.tc : Thread Cert.ReferenceIdeal.nD Cert.ReferenceIdeal.τ).loc Cert.ReferenceIdeal.main_arg10))
        (m' ((c.tc : Thread Cert.ReferenceIdeal.nD Cert.ReferenceIdeal.τ).loc Cert.ReferenceIdeal.main_arg11))).trans ?_)
      rw [hN]; exact kv5.symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
